-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v197) = v0 c
          ∧ r.2.mem ((c.tc : Thread Cert.ReferenceIdeal.nD Cert.ReferenceIdeal.τ).loc Cert.ReferenceIdeal.main_v180) = v1 c
          ∧ r.2.mem ((c.tc : Thread Cert.ReferenceIdeal.nD Cert.ReferenceIdeal.τ).loc Cert.ReferenceIdeal.main_v191) = v2 c
          ∧ r.2.mem ((c.tc : Thread Cert.ReferenceIdeal.nD Cert.ReferenceIdeal.τ).loc Cert.ReferenceIdeal.main_v66) = v3 c
          ∧ r.2.mem ((c.tc : Thread Cert.ReferenceIdeal.nD Cert.ReferenceIdeal.τ).loc Cert.ReferenceIdeal.main_v133) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg11 : FVec F S128 .f32) (main_v33 : IVec S_ 1) : IVec S_ 1 :=
  let main_v34 : FVec F S128 .f32 := Host.absf main_arg11
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg8 : FVec F S128x128 .f32) (main_arg9 : FVec F S128 .f32) (main_arg10 : FVec F S128 .f32) (main_arg11 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg8
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg9
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg10
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg11 main_v33

def fn {F : FTy → Type} [FloatOps F] (main_arg0 : FVec F S50000x128 .f32) (main_arg1 : FVec F S50000x128 .f32) (main_arg2 : IVec S800000 32) (main_arg3 : IVec S800000 32) (main_arg4 : IVec S800000 32) (main_arg5 : IVec S800000 32) (main_arg6 : FVec F S128x128 .f32) (main_arg7 : FVec F S128 .f32) (main_arg8 : FVec F S128x128 .f32) (main_arg9 : FVec F S128 .f32) (main_arg10 : FVec F S128 .f32) (main_arg11 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg6
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg7
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg8 main_arg9 main_arg10 main_arg11 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S128x1 : Shape := ⟨2, ![128, 1]⟩
abbrev S5000x128 : Shape := ⟨2, ![5000, 128]⟩
abbrev S5000x1 : Shape := ⟨2, ![5000, 1]⟩
abbrev S10000x128 : Shape := ⟨2, ![10000, 128]⟩

abbrev nBuf : Space → Nat
  | .hbm => 229
  | .vmem => 41
  | .smem => 0
  | _ => 0

abbrev hbmTy0_0 (i : Nat) : BufTy := match i % 128 with
  | 0 => ⟨S50000x128, .f32⟩
  | 1 => ⟨S50000x128, .f32⟩
  | 2 => ⟨S800000, .i32⟩
  | 3 => ⟨S800000, .i32⟩
  | 4 => ⟨S800000, .i32⟩
  | 5 => ⟨S800000, .i32⟩
  | 6 => ⟨S128x128, .f32⟩
  | 7 => ⟨S128, .f32⟩
  | 8 => ⟨S128x128, .f32⟩
  | 9 => ⟨S128, .f32⟩
  | 10 => ⟨S128, .f32⟩
  | 11 => ⟨S128, .f32⟩
  | 12 => ⟨S_, .f32⟩
  | 13 => ⟨S800000, .f32⟩
  | 14 => ⟨S_, .f32⟩
  | 15 => ⟨S50000, .f32⟩
  | 16 => ⟨S800000x1, .i32⟩
  | 17 => ⟨S50000, .f32⟩
  | 18 => ⟨S_, .f32⟩
  | 19 => ⟨S50000, .f32⟩
  | 20 => ⟨S800000x1, .i32⟩
  | 21 => ⟨S50000, .f32⟩
  | 22 => ⟨S_, .f32⟩
  | 23 => ⟨S50000, .f32⟩
  | 24 => ⟨S50000, .f32⟩
  | 25 => ⟨S50000, .f32⟩
  | 26 => ⟨S_, .f32⟩
  | 27 => ⟨S50000, .f32⟩
  | 28 => ⟨S50000, .f32⟩
  | 29 => ⟨S50000, .f32⟩
  | 30 => ⟨S_, .f32⟩
  | 31 => ⟨S800000, .f32⟩
  | 32 => ⟨S_, .f32⟩
  | 33 => ⟨S50000, .f32⟩
  | 34 => ⟨S800000x1, .i32⟩
  | 35 => ⟨S50000, .f32⟩
  | 36 => ⟨S_, .f32⟩
  | 37 => ⟨S50000, .f32⟩
  | 38 => ⟨S800000x1, .i32⟩
  | 39 => ⟨S50000, .f32⟩
  | 40 => ⟨S_, .f32⟩
  | 41 => ⟨S50000, .f32⟩
  | 42 => ⟨S50000, .f32⟩
  | 43 => ⟨S50000, .f32⟩
  | 44 => ⟨S_, .f32⟩
  | 45 => ⟨S50000, .f32⟩
  | 46 => ⟨S50000, .f32⟩
  | 47 => ⟨S50000, .f32⟩
  | 48 => ⟨S50000x1, .f32⟩
  | 49 => ⟨S50000x128, .f32⟩
  | 50 => ⟨S50000x128, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x128, .f32⟩
  | 60 => ⟨S_, .f32⟩
  | 61 => ⟨S50000x128, .f32⟩
  | 62 => ⟨S800000x1, .i32⟩
  | 63 => ⟨S50000x128, .f32⟩
  | 64 => ⟨S1x128, .f32⟩
  | 65 => ⟨S50000x1, .f32⟩
  | 66 => ⟨S50000x128, .f32⟩
  | 67 => ⟨S50000x1, .f32⟩
  | 68 => ⟨S50000x128, .f32⟩
  | 69 => ⟨S50000x128, .f32⟩
  | 70 => ⟨S_, .i32⟩
  | 71 => ⟨S800000, .i32⟩
  | 72 => ⟨S800000, .i1⟩
  | 73 => ⟨S_, .i32⟩
  | 74 => ⟨S800000, .i32⟩
  | 75 => ⟨S800000, .i32⟩
  | 76 => ⟨S800000, .i32⟩
  | 77 => ⟨S800000x1, .i32⟩
  | 78 => ⟨S800000x128, .f32⟩
  | 79 => ⟨S_, .f32⟩
  | 80 => ⟨S50000x128, .f32⟩
  | 81 => ⟨S800000x1, .i32⟩
  | 82 => ⟨S50000x128, .f32⟩
  | 83 => ⟨S1x128, .f32⟩
  | 84 => ⟨S50000x1, .f32⟩
  | 85 => ⟨S50000x128, .f32⟩
  | 86 => ⟨S50000x1, .f32⟩
  | 87 => ⟨S50000x128, .f32⟩
  | 88 => ⟨S50000x128, .f32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S800000x128, .f32⟩
  | 98 => ⟨S_, .f32⟩
  | 99 => ⟨S50000x128, .f32⟩
  | 100 => ⟨S800000x1, .i32⟩
  | 101 => ⟨S50000x128, .f32⟩
  | 102 => ⟨S1x128, .f32⟩
  | 103 => ⟨S50000x1, .f32⟩
  | 104 => ⟨S50000x128, .f32⟩
  | 105 => ⟨S50000x1, .f32⟩
  | 106 => ⟨S50000x128, .f32⟩
  | 107 => ⟨S50000x128, .f32⟩
  | 108 => ⟨S_, .i32⟩
  | 109 => ⟨S800000, .i32⟩
  | 110 => ⟨S800000, .i1⟩
  | 111 => ⟨S_, .i32⟩
  | 112 => ⟨S800000, .i32⟩
  | 113 => ⟨S800000, .i32⟩
  | 114 => ⟨S800000, .i32⟩
  | 115 => ⟨S800000x1, .i32⟩
  | 116 => ⟨S800000x128, .f32⟩
  | 117 => ⟨S_, .f32⟩
  | 118 => ⟨S50000x128, .f32⟩
  | 119 => ⟨S800000x1, .i32⟩
  | 120 => ⟨S50000x128, .f32⟩
  | 121 => ⟨S1x128, .f32⟩
  | 122 => ⟨S50000x1, .f32⟩
  | 123 => ⟨S50000x128, .f32⟩
  | 124 => ⟨S128x128, .f32⟩
  | 125 => ⟨S1x128, .f32⟩
  | 126 => ⟨S1x128, .f32⟩
  | 127 => ⟨S1x128, .f32⟩
  | _ => ⟨S50000x128, .f32⟩

abbrev hbmTy0_1 (i : Nat) : BufTy := match i % 128 with
  | 0 => ⟨S1x128, .f32⟩
  | 1 => ⟨S_, .f32⟩
  | 2 => ⟨S1x128, .f32⟩
  | 3 => ⟨S1x128, .f32⟩
  | 4 => ⟨S_, .f32⟩
  | 5 => ⟨S1x128, .f32⟩
  | 6 => ⟨S1x128, .f32⟩
  | 7 => ⟨S_, .f32⟩
  | 8 => ⟨S1x128, .f32⟩
  | 9 => ⟨S1x128, .f32⟩
  | 10 => ⟨S1x128, .f32⟩
  | 11 => ⟨S1x128, .f32⟩
  | 12 => ⟨S_, .f32⟩
  | 13 => ⟨S1x128, .f32⟩
  | 14 => ⟨S1x128, .f32⟩
  | 15 => ⟨S_, .f32⟩
  | 16 => ⟨S1x128, .f32⟩
  | 17 => ⟨S1x128, .f32⟩
  | 18 => ⟨S_, .f32⟩
  | 19 => ⟨S1x128, .f32⟩
  | 20 => ⟨S1x128, .f32⟩
  | 21 => ⟨S1x128, .f32⟩
  | 22 => ⟨S1x128, .f32⟩
  | 23 => ⟨S_, .f32⟩
  | 24 => ⟨S1x128, .f32⟩
  | 25 => ⟨S1x128, .f32⟩
  | 26 => ⟨S_, .f32⟩
  | 27 => ⟨S1x128, .f32⟩
  | 28 => ⟨S1x128, .f32⟩
  | 29 => ⟨S1x128, .f32⟩
  | 30 => ⟨S1x128, .f32⟩
  | 31 => ⟨S_, .f32⟩
  | 32 => ⟨S1x128, .f32⟩
  | 33 => ⟨S1x128, .f32⟩
  | 34 => ⟨S128x1, .f32⟩
  | 35 => ⟨S_, .f32⟩
  | 36 => ⟨S1x128, .f32⟩
  | 37 => ⟨S1x128, .f32⟩
  | 38 => ⟨S128x1, .f32⟩
  | 39 => ⟨S_, .f32⟩
  | 40 => ⟨S128x1, .f32⟩
  | 41 => ⟨S128x1, .f32⟩
  | 42 => ⟨S128x128, .f32⟩
  | 43 => ⟨S128x128, .f32⟩
  | 44 => ⟨S128x128, .f32⟩
  | 45 => ⟨S128x128, .f32⟩
  | 46 => ⟨S_, .f32⟩
  | 47 => ⟨S128x1, .f32⟩
  | 48 => ⟨S128x1, .f32⟩
  | 49 => ⟨S128x128, .f32⟩
  | 50 => ⟨S128x128, .f32⟩
  | 51 => ⟨S128x128, .f32⟩
  | 52 => ⟨S128x128, .f32⟩
  | 53 => ⟨S128x128, .f32⟩
  | 54 => ⟨S_, .f32⟩
  | 55 => ⟨S128, .f32⟩
  | 56 => ⟨S_, .f32⟩
  | 57 => ⟨S128, .f32⟩
  | 58 => ⟨S128, .f32⟩
  | 59 => ⟨S128x128, .f32⟩
  | 60 => ⟨S_, .f32⟩
  | 61 => ⟨S128, .f32⟩
  | 62 => ⟨S_, .f32⟩
  | 63 => ⟨S128, .f32⟩
  | 64 => ⟨S128, .f32⟩
  | 65 => ⟨S128, .f32⟩
  | 66 => ⟨S_, .f32⟩
  | 67 => ⟨S128, .f32⟩
  | 68 => ⟨S128, .f32⟩
  | 69 => ⟨S_, .f32⟩
  | 70 => ⟨S128, .f32⟩
  | 71 => ⟨S128, .f32⟩
  | 72 => ⟨S128, .f32⟩
  | 73 => ⟨S128, .f32⟩
  | 74 => ⟨S_, .f32⟩
  | 75 => ⟨S128, .f32⟩
  | 76 => ⟨S128, .f32⟩
  | 77 => ⟨S_, .f32⟩
  | 78 => ⟨S128, .f32⟩
  | 79 => ⟨S128, .f32⟩
  | 80 => ⟨S128, .f32⟩
  | 81 => ⟨S_, .f32⟩
  | 82 => ⟨S128, .f32⟩
  | 83 => ⟨S128, .f32⟩
  | 84 => ⟨S_, .f32⟩
  | 85 => ⟨S128, .f32⟩
  | 86 => ⟨S128, .f32⟩
  | 87 => ⟨S128, .f32⟩
  | 88 => ⟨S128, .f32⟩
  | 89 => ⟨S_, .f32⟩
  | 90 => ⟨S128, .f32⟩
  | 91 => ⟨S128, .f32⟩
  | 92 => ⟨S_, .f32⟩
  | 93 => ⟨S128, .f32⟩
  | 94 => ⟨S128, .f32⟩
  | 95 => ⟨S128x1, .f32⟩
  | 96 => ⟨S1x128, .f32⟩
  | 97 => ⟨S128x128, .f32⟩
  | 98 => ⟨S128x128, .f32⟩
  | 99 => ⟨S128x128, .f32⟩
  | 100 => ⟨S128x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x1, .f32⟩
  | .local _ .vmem, ⟨11, _⟩ => ⟨S5000x1, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x1, .f32⟩
  | .local _ .vmem, ⟨19, _⟩ => ⟨S5000x1, .f32⟩
  | .local _ .vmem, ⟨20, _⟩ => ⟨S128x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x1, .f32⟩
  | .local _ .vmem, ⟨27, _⟩ => ⟨S5000x1, .f32⟩
  | .local _ .vmem, ⟨28, _⟩ => ⟨S128x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S10000x128, .f32⟩
  | .local _ .vmem, ⟨33, _⟩ => ⟨S10000x128, .f32⟩
  | .local _ .vmem, ⟨34, _⟩ => ⟨S10000x128, .f32⟩
  | .local _ .vmem, ⟨35, _⟩ => ⟨S10000x128, .f32⟩
  | .local _ .vmem, ⟨36, _⟩ => ⟨S128x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S1x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_cst : Ref sig .tc := ⟨.hbm, 12, rfl⟩
abbrev main_call0_v0 : Ref sig .tc := ⟨.hbm, 13, rfl⟩
abbrev main_call0_cst_0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_cst_1 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_cst_2 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_cst_3 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_cst_4 : Ref sig .tc := ⟨.hbm, 30, rfl⟩
abbrev main_call0_v13 : Ref sig .tc := ⟨.hbm, 31, rfl⟩
abbrev main_call0_cst_5 : Ref sig .tc := ⟨.hbm, 32, rfl⟩
abbrev main_call0_v14 : Ref sig .tc := ⟨.hbm, 33, rfl⟩
abbrev main_call0_v15 : Ref sig .tc := ⟨.hbm, 34, rfl⟩
abbrev main_call0_v16 : Ref sig .tc := ⟨.hbm, 35, rfl⟩
abbrev main_call0_cst_6 : Ref sig .tc := ⟨.hbm, 36, rfl⟩
abbrev main_call0_v17 : Ref sig .tc := ⟨.hbm, 37, rfl⟩
abbrev main_call0_v18 : Ref sig .tc := ⟨.hbm, 38, rfl⟩
abbrev main_call0_v19 : Ref sig .tc := ⟨.hbm, 39, rfl⟩
abbrev main_call0_cst_7 : Ref sig .tc := ⟨.hbm, 40, rfl⟩
abbrev main_call0_v20 : Ref sig .tc := ⟨.hbm, 41, rfl⟩
abbrev main_call0_v21 : Ref sig .tc := ⟨.hbm, 42, rfl⟩
abbrev main_call0_v22 : Ref sig .tc := ⟨.hbm, 43, rfl⟩
abbrev main_call0_cst_8 : Ref sig .tc := ⟨.hbm, 44, rfl⟩
abbrev main_call0_v23 : Ref sig .tc := ⟨.hbm, 45, rfl⟩
abbrev main_call0_v24 : Ref sig .tc := ⟨.hbm, 46, rfl⟩
abbrev main_call0_v25 : Ref sig .tc := ⟨.hbm, 47, rfl⟩
abbrev main_call0_v26 : Ref sig .tc := ⟨.hbm, 48, rfl⟩
abbrev main_call0_v27 : Ref sig .tc := ⟨.hbm, 49, rfl⟩
abbrev main_call0_v28 : Ref sig .tc := ⟨.hbm, 50, rfl⟩
abbrev main_call0_c : Ref sig .tc := ⟨.hbm, 51, rfl⟩
abbrev main_call0_v29 : Ref sig .tc := ⟨.hbm, 52, rfl⟩
abbrev main_call0_v30 : Ref sig .tc := ⟨.hbm, 53, rfl⟩
abbrev main_call0_c_9 : Ref sig .tc := ⟨.hbm, 54, rfl⟩
abbrev main_call0_v31 : Ref sig .tc := ⟨.hbm, 55, rfl⟩
abbrev main_call0_v32 : Ref sig .tc := ⟨.hbm, 56, rfl⟩
abbrev main_call0_v33 : Ref sig .tc := ⟨.hbm, 57, rfl⟩
abbrev main_call0_v34 : Ref sig .tc := ⟨.hbm, 58, rfl⟩
abbrev main_call0_v35 : Ref sig .tc := ⟨.hbm, 59, rfl⟩
abbrev main_call0_cst_10 : Ref sig .tc := ⟨.hbm, 60, rfl⟩
abbrev main_call0_v36 : Ref sig .tc := ⟨.hbm, 61, rfl⟩
abbrev main_call0_v37 : Ref sig .tc := ⟨.hbm, 62, rfl⟩
abbrev main_call0_v38 : Ref sig .tc := ⟨.hbm, 63, rfl⟩
abbrev main_call0_v39 : Ref sig .tc := ⟨.hbm, 64, rfl⟩
abbrev main_call0_v40 : Ref sig .tc := ⟨.hbm, 65, rfl⟩
abbrev main_call0_v41 : Ref sig .tc := ⟨.hbm, 66, rfl⟩
abbrev main_call0_v42 : Ref sig .tc := ⟨.hbm, 67, rfl⟩
abbrev main_call0_v43 : Ref sig .tc := ⟨.hbm, 68, rfl⟩
abbrev main_call0_v44 : Ref sig .tc := ⟨.hbm, 69, rfl⟩
abbrev main_call0_c_11 : Ref sig .tc := ⟨.hbm, 70, rfl⟩
abbrev main_call0_v45 : Ref sig .tc := ⟨.hbm, 71, rfl⟩
abbrev main_call0_v46 : Ref sig .tc := ⟨.hbm, 72, rfl⟩
abbrev main_call0_c_12 : Ref sig .tc := ⟨.hbm, 73, rfl⟩
abbrev main_call0_v47 : Ref sig .tc := ⟨.hbm, 74, rfl⟩
abbrev main_call0_v48 : Ref sig .tc := ⟨.hbm, 75, rfl⟩
abbrev main_call0_v49 : Ref sig .tc := ⟨.hbm, 76, rfl⟩
abbrev main_call0_v50 : Ref sig .tc := ⟨.hbm, 77, rfl⟩
abbrev main_call0_v51 : Ref sig .tc := ⟨.hbm, 78, rfl⟩
abbrev main_call0_cst_13 : Ref sig .tc := ⟨.hbm, 79, rfl⟩
abbrev main_call0_v52 : Ref sig .tc := ⟨.hbm, 80, rfl⟩
abbrev main_call0_v53 : Ref sig .tc := ⟨.hbm, 81, rfl⟩
abbrev main_call0_v54 : Ref sig .tc := ⟨.hbm, 82, rfl⟩
abbrev main_call0_v55 : Ref sig .tc := ⟨.hbm, 83, rfl⟩
abbrev main_call0_v56 : Ref sig .tc := ⟨.hbm, 84, rfl⟩
abbrev main_v0_3 : Ref sig .tc := ⟨.hbm, 85, rfl⟩
abbrev main_call0_v58 : Ref sig .tc := ⟨.hbm, 86, rfl⟩
abbrev main_call0_v59 : Ref sig .tc := ⟨.hbm, 87, rfl⟩
abbrev main_call0_v60 : Ref sig .tc := ⟨.hbm, 88, rfl⟩
abbrev main_call0_c_14 : Ref sig .tc := ⟨.hbm, 89, rfl⟩
abbrev main_call0_v61 : Ref sig .tc := ⟨.hbm, 90, rfl⟩
abbrev main_call0_v62 : Ref sig .tc := ⟨.hbm, 91, rfl⟩
abbrev main_call0_c_15 : Ref sig .tc := ⟨.hbm, 92, rfl⟩
abbrev main_call0_v63 : Ref sig .tc := ⟨.hbm, 93, rfl⟩
abbrev main_call0_v64 : Ref sig .tc := ⟨.hbm, 94, rfl⟩
abbrev main_call0_v65 : Ref sig .tc := ⟨.hbm, 95, rfl⟩
abbrev main_call0_v66 : Ref sig .tc := ⟨.hbm, 96, rfl⟩
abbrev main_call0_v67 : Ref sig .tc := ⟨.hbm, 97, rfl⟩
abbrev main_call0_cst_16 : Ref sig .tc := ⟨.hbm, 98, rfl⟩
abbrev main_call0_v68 : Ref sig .tc := ⟨.hbm, 99, rfl⟩
abbrev main_call0_v69 : Ref sig .tc := ⟨.hbm, 100, rfl⟩
abbrev main_call0_v70 : Ref sig .tc := ⟨.hbm, 101, rfl⟩
abbrev main_call0_v71 : Ref sig .tc := ⟨.hbm, 102, rfl⟩
abbrev main_call0_v72 : Ref sig .tc := ⟨.hbm, 103, rfl⟩
abbrev main_call0_v73 : Ref sig .tc := ⟨.hbm, 104, rfl⟩
abbrev main_call0_v74 : Ref sig .tc := ⟨.hbm, 105, rfl⟩
abbrev main_call0_v75 : Ref sig .tc := ⟨.hbm, 106, rfl⟩
abbrev main_call0_v76 : Ref sig .tc := ⟨.hbm, 107, rfl⟩
abbrev main_call0_c_17 : Ref sig .tc := ⟨.hbm, 108, rfl⟩
abbrev main_call0_v77 : Ref sig .tc := ⟨.hbm, 109, rfl⟩
abbrev main_call0_v78 : Ref sig .tc := ⟨.hbm, 110, rfl⟩
abbrev main_call0_c_18 : Ref sig .tc := ⟨.hbm, 111, rfl⟩
abbrev main_call0_v79 : Ref sig .tc := ⟨.hbm, 112, rfl⟩
abbrev main_call0_v80 : Ref sig .tc := ⟨.hbm, 113, rfl⟩
abbrev main_call0_v81 : Ref sig .tc := ⟨.hbm, 114, rfl⟩
abbrev main_call0_v82 : Ref sig .tc := ⟨.hbm, 115, rfl⟩
abbrev main_call0_v83 : Ref sig .tc := ⟨.hbm, 116, rfl⟩
abbrev main_call0_cst_19 : Ref sig .tc := ⟨.hbm, 117, rfl⟩
abbrev main_call0_v84 : Ref sig .tc := ⟨.hbm, 118, rfl⟩
abbrev main_call0_v85 : Ref sig .tc := ⟨.hbm, 119, rfl⟩
abbrev main_call0_v86 : Ref sig .tc := ⟨.hbm, 120, rfl⟩
abbrev main_call0_v87 : Ref sig .tc := ⟨.hbm, 121, rfl⟩
abbrev main_call0_v88 : Ref sig .tc := ⟨.hbm, 122, rfl⟩
abbrev main_v0_4 : Ref sig .tc := ⟨.hbm, 123, rfl⟩
abbrev main_call0_v90_0 : Ref sig .tc := ⟨.hbm, 124, rfl⟩
abbrev main_call0_v90_1 : Ref sig .tc := ⟨.hbm, 125, rfl⟩
abbrev main_call0_v90_2 : Ref sig .tc := ⟨.hbm, 126, rfl⟩
abbrev main_call0_v90_3 : Ref sig .tc := ⟨.hbm, 127, rfl⟩
abbrev main_call0_v90_4 : Ref sig .tc := ⟨.hbm, 128, rfl⟩
abbrev main_call0_cst_20 : Ref sig .tc := ⟨.hbm, 129, rfl⟩
abbrev main_call0_v91 : Ref sig .tc := ⟨.hbm, 130, rfl⟩
abbrev main_call0_v92 : Ref sig .tc := ⟨.hbm, 131, rfl⟩
abbrev main_call0_cst_21 : Ref sig .tc := ⟨.hbm, 132, rfl⟩
abbrev main_call0_v93 : Ref sig .tc := ⟨.hbm, 133, rfl⟩
abbrev main_call0_v94 : Ref sig .tc := ⟨.hbm, 134, rfl⟩
abbrev main_call0_cst_22 : Ref sig .tc := ⟨.hbm, 135, rfl⟩
abbrev main_call0_v95 : Ref sig .tc := ⟨.hbm, 136, rfl⟩
abbrev main_call0_v96 : Ref sig .tc := ⟨.hbm, 137, rfl⟩
abbrev main_call0_v97 : Ref sig .tc := ⟨.hbm, 138, rfl⟩
abbrev main_call0_v98 : Ref sig .tc := ⟨.hbm, 139, rfl⟩
abbrev main_call0_cst_23 : Ref sig .tc := ⟨.hbm, 140, rfl⟩
abbrev main_call0_v99 : Ref sig .tc := ⟨.hbm, 141, rfl⟩
abbrev main_call0_v100 : Ref sig .tc := ⟨.hbm, 142, rfl⟩
abbrev main_call0_cst_24 : Ref sig .tc := ⟨.hbm, 143, rfl⟩
abbrev main_call0_v101 : Ref sig .tc := ⟨.hbm, 144, rfl⟩
abbrev main_call0_v102 : Ref sig .tc := ⟨.hbm, 145, rfl⟩
abbrev main_call0_cst_25 : Ref sig .tc := ⟨.hbm, 146, rfl⟩
abbrev main_call0_v103 : Ref sig .tc := ⟨.hbm, 147, rfl⟩
abbrev main_call0_v104 : Ref sig .tc := ⟨.hbm, 148, rfl⟩
abbrev main_call0_v105 : Ref sig .tc := ⟨.hbm, 149, rfl⟩
abbrev main_call0_v106 : Ref sig .tc := ⟨.hbm, 150, rfl⟩
abbrev main_call0_cst_26 : Ref sig .tc := ⟨.hbm, 151, rfl⟩
abbrev main_call0_v107 : Ref sig .tc := ⟨.hbm, 152, rfl⟩
abbrev main_call0_v108 : Ref sig .tc := ⟨.hbm, 153, rfl⟩
abbrev main_call0_cst_27 : Ref sig .tc := ⟨.hbm, 154, rfl⟩
abbrev main_call0_v109 : Ref sig .tc := ⟨.hbm, 155, rfl⟩
abbrev main_call0_v110 : Ref sig .tc := ⟨.hbm, 156, rfl⟩
abbrev main_call0_v111 : Ref sig .tc := ⟨.hbm, 157, rfl⟩
abbrev main_call0_v112 : Ref sig .tc := ⟨.hbm, 158, rfl⟩
abbrev main_call0_cst_28 : Ref sig .tc := ⟨.hbm, 159, rfl⟩
abbrev main_call0_v113 : Ref sig .tc := ⟨.hbm, 160, rfl⟩
abbrev main_call0_v114 : Ref sig .tc := ⟨.hbm, 161, rfl⟩
abbrev main_call0_v115 : Ref sig .tc := ⟨.hbm, 162, rfl⟩
abbrev main_call0_cst_29 : Ref sig .tc := ⟨.hbm, 163, rfl⟩
abbrev main_call0_v116 : Ref sig .tc := ⟨.hbm, 164, rfl⟩
abbrev main_call0_v117 : Ref sig .tc := ⟨.hbm, 165, rfl⟩
abbrev main_call0_v118 : Ref sig .tc := ⟨.hbm, 166, rfl⟩
abbrev main_call0_cst_30 : Ref sig .tc := ⟨.hbm, 167, rfl⟩
abbrev main_call0_v119 : Ref sig .tc := ⟨.hbm, 168, rfl⟩
abbrev main_call0_v120 : Ref sig .tc := ⟨.hbm, 169, rfl⟩
abbrev main_call0_v121 : Ref sig .tc := ⟨.hbm, 170, rfl⟩
abbrev main_call0_v122 : Ref sig .tc := ⟨.hbm, 171, rfl⟩
abbrev main_call0_v123 : Ref sig .tc := ⟨.hbm, 172, rfl⟩
abbrev main_call0_v124 : Ref sig .tc := ⟨.hbm, 173, rfl⟩
abbrev main_call0_cst_31 : Ref sig .tc := ⟨.hbm, 174, rfl⟩
abbrev main_call0_v125 : Ref sig .tc := ⟨.hbm, 175, rfl⟩
abbrev main_call0_v126 : Ref sig .tc := ⟨.hbm, 176, rfl⟩
abbrev main_call0_v127 : Ref sig .tc := ⟨.hbm, 177, rfl⟩
abbrev main_call0_v128 : Ref sig .tc := ⟨.hbm, 178, rfl⟩
abbrev main_call0_v129 : Ref sig .tc := ⟨.hbm, 179, rfl⟩
abbrev main_call0_v130 : Ref sig .tc := ⟨.hbm, 180, rfl⟩
abbrev main_call0_v131 : Ref sig .tc := ⟨.hbm, 181, rfl⟩
abbrev main_call0_cst_32 : Ref sig .tc := ⟨.hbm, 182, rfl⟩
abbrev main_call0_v132 : Ref sig .tc := ⟨.hbm, 183, rfl⟩
abbrev main_call0_cst_33 : Ref sig .tc := ⟨.hbm, 184, rfl⟩
abbrev main_call0_v133 : Ref sig .tc := ⟨.hbm, 185, rfl⟩
abbrev main_call0_v134 : Ref sig .tc := ⟨.hbm, 186, rfl⟩
abbrev main_call0_v135 : Ref sig .tc := ⟨.hbm, 187, rfl⟩
abbrev main_call0_cst_34 : Ref sig .tc := ⟨.hbm, 188, rfl⟩
abbrev main_call0_v136 : Ref sig .tc := ⟨.hbm, 189, rfl⟩
abbrev main_call0_cst_35 : Ref sig .tc := ⟨.hbm, 190, rfl⟩
abbrev main_call0_v137 : Ref sig .tc := ⟨.hbm, 191, rfl⟩
abbrev main_call0_v138 : Ref sig .tc := ⟨.hbm, 192, rfl⟩
abbrev main_call0_v139 : Ref sig .tc := ⟨.hbm, 193, rfl⟩
abbrev main_call0_cst_36 : Ref sig .tc := ⟨.hbm, 194, rfl⟩
abbrev main_call0_v140 : Ref sig .tc := ⟨.hbm, 195, rfl⟩
abbrev main_call0_v141 : Ref sig .tc := ⟨.hbm, 196, rfl⟩
abbrev main_call0_cst_37 : Ref sig .tc := ⟨.hbm, 197, rfl⟩
abbrev main_call0_v142 : Ref sig .tc := ⟨.hbm, 198, rfl⟩
abbrev main_call0_v143 : Ref sig .tc := ⟨.hbm, 199, rfl⟩
abbrev main_call0_v144 : Ref sig .tc := ⟨.hbm, 200, rfl⟩
abbrev main_call0_v145 : Ref sig .tc := ⟨.hbm, 201, rfl⟩
abbrev main_call0_cst_38 : Ref sig .tc := ⟨.hbm, 202, rfl⟩
abbrev main_call0_v146 : Ref sig .tc := ⟨.hbm, 203, rfl⟩
abbrev main_call0_v147 : Ref sig .tc := ⟨.hbm, 204, rfl⟩
abbrev main_call0_cst_39 : Ref sig .tc := ⟨.hbm, 205, rfl⟩
abbrev main_call0_v148 : Ref sig .tc := ⟨.hbm, 206, rfl⟩
abbrev main_v0_1 : Ref sig .tc := ⟨.hbm, 207, rfl⟩
abbrev main_call0_v150 : Ref sig .tc := ⟨.hbm, 208, rfl⟩
abbrev main_call0_cst_40 : Ref sig .tc := ⟨.hbm, 209, rfl⟩
abbrev main_call0_v151 : Ref sig .tc := ⟨.hbm, 210, rfl⟩
abbrev main_call0_v152 : Ref sig .tc := ⟨.hbm, 211, rfl⟩
abbrev main_call0_cst_41 : Ref sig .tc := ⟨.hbm, 212, rfl⟩
abbrev main_call0_v153 : Ref sig .tc := ⟨.hbm, 213, rfl⟩
abbrev main_call0_v154 : Ref sig .tc := ⟨.hbm, 214, rfl⟩
abbrev main_call0_v155 : Ref sig .tc := ⟨.hbm, 215, rfl⟩
abbrev main_call0_v156 : Ref sig .tc := ⟨.hbm, 216, rfl⟩
abbrev main_call0_cst_42 : Ref sig .tc := ⟨.hbm, 217, rfl⟩
abbrev main_call0_v157 : Ref sig .tc := ⟨.hbm, 218, rfl⟩
abbrev main_call0_v158 : Ref sig .tc := ⟨.hbm, 219, rfl⟩
abbrev main_call0_cst_43 : Ref sig .tc := ⟨.hbm, 220, rfl⟩
abbrev main_call0_v159 : Ref sig .tc := ⟨.hbm, 221, rfl⟩
abbrev main_v0_2 : Ref sig .tc := ⟨.hbm, 222, rfl⟩
abbrev main_call0_v161 : Ref sig .tc := ⟨.hbm, 223, rfl⟩
abbrev main_call0_v162 : Ref sig .tc := ⟨.hbm, 224, rfl⟩
abbrev main_call0_v163 : Ref sig .tc := ⟨.hbm, 225, rfl⟩
abbrev main_call0_v164 : Ref sig .tc := ⟨.hbm, 226, rfl⟩
abbrev main_call0_v165 : Ref sig .tc := ⟨.hbm, 227, rfl⟩
abbrev main_v0_0 : Ref sig .tc := ⟨.hbm, 228, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg5_0 : Ref sig .tc := ⟨.vmem, 39, rfl⟩
abbrev cc4_stg6_0 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc4_sem4_0 : DmaSem sig := 38
abbrev cc4_sem5_0 : DmaSem sig := 39
abbrev cc4_sem6_0 : DmaSem sig := 40

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  shapeCasts_S128_S1x128 : S128.ShapeCasts S1x128
  shapeCasts_S50000_S50000x1 : S50000.ShapeCasts S50000x1
  bcast_S_S1x128 : S_.BroadcastsInDim S1x128 (![] : Fin 0 → Fin S1x128.rank)
  shapeCasts_S1x128_S128x1 : S1x128.ShapeCasts S128x1
  bcast_S_S128x1 : S_.BroadcastsInDim S128x1 (![] : Fin 0 → Fin S128x1.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  reducesTo_S128x128_S128_d1 : S128x128.ReducesTo [1] S128
  h_S_ : 0 < S_.numel
  bcast_S_S128 : S_.BroadcastsInDim S128 (![] : Fin 0 → Fin S128.rank)
  reducesTo_S128x128_S128_d0 : S128x128.ReducesTo [0] S128
  bcast_S128_S128x1_0 : S128.BroadcastsInDim S128x1 (![0] : Fin 1 → Fin S128x1.rank)
  bcast_S128_S1x128_1 : S128.BroadcastsInDim S1x128 (![1] : Fin 1 → Fin S1x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  shapeCasts_S128x128_S128x128 : S128x128.ShapeCasts S128x128
  reduces_S10000x128_S128 : S10000x128.Reduces [0] S128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S10000x128_S10000x128_S128x128_0_0_1_1_n_n_wf : DotDims.WF S10000x128 S10000x128 S128x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S50000x128.size a
  hwx4_0 : ∀ i : grid4.Coords, EltTy.bits .f32 = 32 ∨ (Rect.block (s := S50000x128) S10000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x128.size a ≤ S50000x128.size a
  hwx4_1 : ∀ i : grid4.Coords, EltTy.bits .f32 = 32 ∨ (Rect.block (s := S50000x128) S10000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S10000x128_S10000x128_S128x128_0_0_1_1_n_n : DotDims S10000x128 S10000x128 S128x128 where
  lhsContracting := [0]
  rhsContracting := [0]
  lhsNonContracting := [1]
  rhsNonContracting := [1]
  lhsBatch := []
  rhsBatch := []
  wf := dot_S10000x128_S10000x128_S128x128_0_0_1_1_n_n_wf

abbrev win0_0 : Pipeline.Window sig grid0 :=
  Pipeline.Window.ofSpec (Memref.whole main_call0_v38) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v40) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v39) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v41) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_call0_v54) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v56) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v55) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v0_3) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_call0_v70) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v72) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_call0_v71) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_call0_v73) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_call0_v86) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v88) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_call0_v87) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v0_4) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v0_3) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v0_4) S10000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_call0_v90_0) S128x128.size cc4_transform_2 reads4_2 true true 1 stage4_2 sem4_2
    hrank4 hreads4_2 hinb4_2 nbuf4_2 (Memref.isWhole_whole _) hwx4_2 hstage4_2

abbrev win4_3 : Pipeline.Window sig grid4 :=
  Pipeline.Window.ofSpec (Memref.whole main_call0_v90_1) S1x128.size cc4_transform_3 reads4_3 true true 1 stage4_3 sem4_3
    hrank4 hreads4_3 hinb4_3 nbuf4_3 (Memref.isWhole_whole _) hwx4_3 hstage4_3

abbrev win4_4 : Pipeline.Window sig grid4 :=
  Pipeline.Window.ofSpec (Memref.whole main_call0_v90_2) S1x128.size cc4_transform_4 reads4_4 true true 1 stage4_4 sem4_4
    hrank4 hreads4_4 hinb4_4 nbuf4_4 (Memref.isWhole_whole _) hwx4_4 hstage4_4

abbrev win4_5 : Pipeline.Window sig grid4 :=
  Pipeline.Window.ofSpec (Memref.whole main_call0_v90_3) S1x128.size cc4_transform_5 reads4_5 true true 1 stage4_5 sem4_5
    hrank4 hreads4_5 hinb4_5 nbuf4_5 (Memref.isWhole_whole _) hwx4_5 hstage4_5

abbrev win4_6 : Pipeline.Window sig grid4 :=
  Pipeline.Window.ofSpec (Memref.whole main_call0_v90_4) S1x128.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S128x50000 : Shape := ⟨2, ![128, 50000]⟩
abbrev S128x1 : Shape := ⟨2, ![128, 1]⟩

abbrev nBuf : Space → Nat
  | .hbm => 311
  | .vmem => 0
  | .smem => 0
  | _ => 0

abbrev hbmTy0_0 (i : Nat) : BufTy := match i % 128 with
  | 0 => ⟨S50000x128, .f32⟩
  | 1 => ⟨S50000x128, .f32⟩
  | 2 => ⟨S800000, .i32⟩
  | 3 => ⟨S800000, .i32⟩
  | 4 => ⟨S800000, .i32⟩
  | 5 => ⟨S800000, .i32⟩
  | 6 => ⟨S128x128, .f32⟩
  | 7 => ⟨S128, .f32⟩
  | 8 => ⟨S128x128, .f32⟩
  | 9 => ⟨S128, .f32⟩
  | 10 => ⟨S128, .f32⟩
  | 11 => ⟨S128, .f32⟩
  | 12 => ⟨S_, .f32⟩
  | 13 => ⟨S800000, .f32⟩
  | 14 => ⟨S_, .f32⟩
  | 15 => ⟨S50000, .f32⟩
  | 16 => ⟨S800000x1, .i32⟩
  | 17 => ⟨S50000, .f32⟩
  | 18 => ⟨S_, .f32⟩
  | 19 => ⟨S50000, .f32⟩
  | 20 => ⟨S800000x1, .i32⟩
  | 21 => ⟨S50000, .f32⟩
  | 22 => ⟨S_, .f32⟩
  | 23 => ⟨S50000, .f32⟩
  | 24 => ⟨S50000, .f32⟩
  | 25 => ⟨S50000, .f32⟩
  | 26 => ⟨S_, .f32⟩
  | 27 => ⟨S50000, .f32⟩
  | 28 => ⟨S50000, .f32⟩
  | 29 => ⟨S50000, .f32⟩
  | 30 => ⟨S50000x1, .f32⟩
  | 31 => ⟨S50000x128, .f32⟩
  | 32 => ⟨S50000x128, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000x128, .f32⟩
  | 42 => ⟨S_, .f32⟩
  | 43 => ⟨S50000x128, .f32⟩
  | 44 => ⟨S800000x1, .i32⟩
  | 45 => ⟨S50000x128, .f32⟩
  | 46 => ⟨S50000x1, .f32⟩
  | 47 => ⟨S50000x128, .f32⟩
  | 48 => ⟨S50000x128, .f32⟩
  | 49 => ⟨S50000x128, .f32⟩
  | 50 => ⟨S1x128, .f32⟩
  | 51 => ⟨S50000x128, .f32⟩
  | 52 => ⟨S50000x128, .f32⟩
  | 53 => ⟨S_, .f32⟩
  | 54 => ⟨S50000x128, .f32⟩
  | 55 => ⟨S50000x128, .f32⟩
  | 56 => ⟨S_, .f32⟩
  | 57 => ⟨S800000, .f32⟩
  | 58 => ⟨S_, .f32⟩
  | 59 => ⟨S50000, .f32⟩
  | 60 => ⟨S800000x1, .i32⟩
  | 61 => ⟨S50000, .f32⟩
  | 62 => ⟨S_, .f32⟩
  | 63 => ⟨S50000, .f32⟩
  | 64 => ⟨S800000x1, .i32⟩
  | 65 => ⟨S50000, .f32⟩
  | 66 => ⟨S_, .f32⟩
  | 67 => ⟨S50000, .f32⟩
  | 68 => ⟨S50000, .f32⟩
  | 69 => ⟨S50000, .f32⟩
  | 70 => ⟨S_, .f32⟩
  | 71 => ⟨S50000, .f32⟩
  | 72 => ⟨S50000, .f32⟩
  | 73 => ⟨S50000, .f32⟩
  | 74 => ⟨S50000x1, .f32⟩
  | 75 => ⟨S50000x128, .f32⟩
  | 76 => ⟨S50000x128, .f32⟩
  | 77 => ⟨S_, .i32⟩
  | 78 => ⟨S800000, .i32⟩
  | 79 => ⟨S800000, .i1⟩
  | 80 => ⟨S_, .i32⟩
  | 81 => ⟨S800000, .i32⟩
  | 82 => ⟨S800000, .i32⟩
  | 83 => ⟨S800000, .i32⟩
  | 84 => ⟨S800000x1, .i32⟩
  | 85 => ⟨S800000x128, .f32⟩
  | 86 => ⟨S_, .f32⟩
  | 87 => ⟨S50000x128, .f32⟩
  | 88 => ⟨S800000x1, .i32⟩
  | 89 => ⟨S50000x128, .f32⟩
  | 90 => ⟨S50000x1, .f32⟩
  | 91 => ⟨S50000x128, .f32⟩
  | 92 => ⟨S50000x128, .f32⟩
  | 93 => ⟨S50000x128, .f32⟩
  | 94 => ⟨S1x128, .f32⟩
  | 95 => ⟨S50000x128, .f32⟩
  | 96 => ⟨S50000x128, .f32⟩
  | 97 => ⟨S_, .f32⟩
  | 98 => ⟨S800000, .f32⟩
  | 99 => ⟨S_, .f32⟩
  | 100 => ⟨S50000, .f32⟩
  | 101 => ⟨S800000x1, .i32⟩
  | 102 => ⟨S50000, .f32⟩
  | 103 => ⟨S_, .f32⟩
  | 104 => ⟨S50000, .f32⟩
  | 105 => ⟨S800000x1, .i32⟩
  | 106 => ⟨S50000, .f32⟩
  | 107 => ⟨S_, .f32⟩
  | 108 => ⟨S50000, .f32⟩
  | 109 => ⟨S50000, .f32⟩
  | 110 => ⟨S50000, .f32⟩
  | 111 => ⟨S_, .f32⟩
  | 112 => ⟨S50000, .f32⟩
  | 113 => ⟨S50000, .f32⟩
  | 114 => ⟨S50000, .f32⟩
  | 115 => ⟨S50000x1, .f32⟩
  | 116 => ⟨S50000x128, .f32⟩
  | 117 => ⟨S50000x128, .f32⟩
  | 118 => ⟨S_, .i32⟩
  | 119 => ⟨S800000, .i32⟩
  | 120 => ⟨S800000, .i1⟩
  | 121 => ⟨S_, .i32⟩
  | 122 => ⟨S800000, .i32⟩
  | 123 => ⟨S800000, .i32⟩
  | 124 => ⟨S800000, .i32⟩
  | 125 => ⟨S800000x1, .i32⟩
  | 126 => ⟨S800000x128, .f32⟩
  | 127 => ⟨S_, .f32⟩
  | _ => ⟨S50000x128, .f32⟩

abbrev hbmTy0_1 (i : Nat) : BufTy := match i % 128 with
  | 0 => ⟨S50000x128, .f32⟩
  | 1 => ⟨S800000x1, .i32⟩
  | 2 => ⟨S50000x128, .f32⟩
  | 3 => ⟨S50000x1, .f32⟩
  | 4 => ⟨S50000x128, .f32⟩
  | 5 => ⟨S50000x128, .f32⟩
  | 6 => ⟨S50000x128, .f32⟩
  | 7 => ⟨S1x128, .f32⟩
  | 8 => ⟨S50000x128, .f32⟩
  | 9 => ⟨S50000x128, .f32⟩
  | 10 => ⟨S_, .f32⟩
  | 11 => ⟨S50000x128, .f32⟩
  | 12 => ⟨S50000x128, .f32⟩
  | 13 => ⟨S_, .f32⟩
  | 14 => ⟨S800000, .f32⟩
  | 15 => ⟨S_, .f32⟩
  | 16 => ⟨S50000, .f32⟩
  | 17 => ⟨S800000x1, .i32⟩
  | 18 => ⟨S50000, .f32⟩
  | 19 => ⟨S_, .f32⟩
  | 20 => ⟨S50000, .f32⟩
  | 21 => ⟨S800000x1, .i32⟩
  | 22 => ⟨S50000, .f32⟩
  | 23 => ⟨S_, .f32⟩
  | 24 => ⟨S50000, .f32⟩
  | 25 => ⟨S50000, .f32⟩
  | 26 => ⟨S50000, .f32⟩
  | 27 => ⟨S_, .f32⟩
  | 28 => ⟨S50000, .f32⟩
  | 29 => ⟨S50000, .f32⟩
  | 30 => ⟨S50000, .f32⟩
  | 31 => ⟨S50000x1, .f32⟩
  | 32 => ⟨S50000x128, .f32⟩
  | 33 => ⟨S50000x128, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000x128, .f32⟩
  | 43 => ⟨S_, .f32⟩
  | 44 => ⟨S50000x128, .f32⟩
  | 45 => ⟨S800000x1, .i32⟩
  | 46 => ⟨S50000x128, .f32⟩
  | 47 => ⟨S50000x1, .f32⟩
  | 48 => ⟨S50000x128, .f32⟩
  | 49 => ⟨S50000x128, .f32⟩
  | 50 => ⟨S50000x128, .f32⟩
  | 51 => ⟨S1x128, .f32⟩
  | 52 => ⟨S50000x128, .f32⟩
  | 53 => ⟨S50000x128, .f32⟩
  | 54 => ⟨S_, .f32⟩
  | 55 => ⟨S128, .f32⟩
  | 56 => ⟨S_, .f32⟩
  | 57 => ⟨S128, .f32⟩
  | 58 => ⟨S128, .f32⟩
  | 59 => ⟨S1x128, .f32⟩
  | 60 => ⟨S50000x128, .f32⟩
  | 61 => ⟨S50000x128, .f32⟩
  | 62 => ⟨S_, .i32⟩
  | 63 => ⟨S_, .f32⟩
  | 64 => ⟨S128, .f32⟩
  | 65 => ⟨S1x128, .f32⟩
  | 66 => ⟨S_, .f32⟩
  | 67 => ⟨S1x128, .f32⟩
  | 68 => ⟨S1x128, .f32⟩
  | 69 => ⟨S50000x128, .f32⟩
  | 70 => ⟨S50000x128, .f32⟩
  | 71 => ⟨S50000x128, .f32⟩
  | 72 => ⟨S_, .f32⟩
  | 73 => ⟨S_, .f32⟩
  | 74 => ⟨S_, .f32⟩
  | 75 => ⟨S_, .f32⟩
  | 76 => ⟨S128, .f32⟩
  | 77 => ⟨S128, .f32⟩
  | 78 => ⟨S128, .f32⟩
  | 79 => ⟨S_, .f32⟩
  | 80 => ⟨S_, .i1⟩
  | 81 => ⟨S_, .f32⟩
  | 82 => ⟨S_, .f32⟩
  | 83 => ⟨S128, .f32⟩
  | 84 => ⟨S128, .f32⟩
  | 85 => ⟨S128, .f32⟩
  | 86 => ⟨S_, .f32⟩
  | 87 => ⟨S128, .f32⟩
  | 88 => ⟨S128, .f32⟩
  | 89 => ⟨S1x128, .f32⟩
  | 90 => ⟨S50000x128, .f32⟩
  | 91 => ⟨S50000x128, .f32⟩
  | 92 => ⟨S_, .f32⟩
  | 93 => ⟨S128, .f32⟩
  | 94 => ⟨S_, .f32⟩
  | 95 => ⟨S128, .f32⟩
  | 96 => ⟨S128, .f32⟩
  | 97 => ⟨S1x128, .f32⟩
  | 98 => ⟨S50000x128, .f32⟩
  | 99 => ⟨S50000x128, .f32⟩
  | 100 => ⟨S_, .i32⟩
  | 101 => ⟨S_, .f32⟩
  | 102 => ⟨S128, .f32⟩
  | 103 => ⟨S1x128, .f32⟩
  | 104 => ⟨S_, .f32⟩
  | 105 => ⟨S1x128, .f32⟩
  | 106 => ⟨S1x128, .f32⟩
  | 107 => ⟨S50000x128, .f32⟩
  | 108 => ⟨S50000x128, .f32⟩
  | 109 => ⟨S50000x128, .f32⟩
  | 110 => ⟨S_, .f32⟩
  | 111 => ⟨S_, .f32⟩
  | 112 => ⟨S_, .f32⟩
  | 113 => ⟨S_, .f32⟩
  | 114 => ⟨S128, .f32⟩
  | 115 => ⟨S128, .f32⟩
  | 116 => ⟨S128, .f32⟩
  | 117 => ⟨S_, .f32⟩
  | 118 => ⟨S_, .i1⟩
  | 119 => ⟨S_, .f32⟩
  | 120 => ⟨S_, .f32⟩
  | 121 => ⟨S128, .f32⟩
  | 122 => ⟨S128, .f32⟩
  | 123 => ⟨S128, .f32⟩
  | 124 => ⟨S_, .f32⟩
  | 125 => ⟨S128, .f32⟩
  | 126 => ⟨S128, .f32⟩
  | 127 => ⟨S1x128, .f32⟩
  | _ => ⟨S50000x128, .f32⟩

abbrev hbmTy0_2 (i : Nat) : BufTy := match i % 128 with
  | 0 => ⟨S50000x128, .f32⟩
  | 1 => ⟨S50000x128, .f32⟩
  | 2 => ⟨S128x50000, .f32⟩
  | 3 => ⟨S128x128, .f32⟩
  | 4 => ⟨S_, .f32⟩
  | 5 => ⟨S128x128, .f32⟩
  | 6 => ⟨S128x128, .f32⟩
  | 7 => ⟨S128x128, .f32⟩
  | 8 => ⟨S_, .f32⟩
  | 9 => ⟨S128, .f32⟩
  | 10 => ⟨S_, .f32⟩
  | 11 => ⟨S128, .f32⟩
  | 12 => ⟨S128, .f32⟩
  | 13 => ⟨S128x128, .f32⟩
  | 14 => ⟨S_, .f32⟩
  | 15 => ⟨S128, .f32⟩
  | 16 => ⟨S_, .f32⟩
  | 17 => ⟨S128, .f32⟩
  | 18 => ⟨S128, .f32⟩
  | 19 => ⟨S128, .f32⟩
  | 20 => ⟨S_, .f32⟩
  | 21 => ⟨S128, .f32⟩
  | 22 => ⟨S128, .f32⟩
  | 23 => ⟨S_, .f32⟩
  | 24 => ⟨S128, .f32⟩
  | 25 => ⟨S128, .f32⟩
  | 26 => ⟨S128, .f32⟩
  | 27 => ⟨S128, .f32⟩
  | 28 => ⟨S_, .f32⟩
  | 29 => ⟨S128, .f32⟩
  | 30 => ⟨S128, .f32⟩
  | 31 => ⟨S_, .f32⟩
  | 32 => ⟨S128, .f32⟩
  | 33 => ⟨S128, .f32⟩
  | 34 => ⟨S128, .f32⟩
  | 35 => ⟨S_, .f32⟩
  | 36 => ⟨S128, .f32⟩
  | 37 => ⟨S128, .f32⟩
  | 38 => ⟨S_, .f32⟩
  | 39 => ⟨S128, .f32⟩
  | 40 => ⟨S128, .f32⟩
  | 41 => ⟨S128, .f32⟩
  | 42 => ⟨S128, .f32⟩
  | 43 => ⟨S_, .f32⟩
  | 44 => ⟨S128, .f32⟩
  | 45 => ⟨S128, .f32⟩
  | 46 => ⟨S_, .f32⟩
  | 47 => ⟨S128, .f32⟩
  | 48 => ⟨S128, .f32⟩
  | 49 => ⟨S128x1, .f32⟩
  | 50 => ⟨S1x128, .f32⟩
  | 51 => ⟨S128x128, .f32⟩
  | 52 => ⟨S128x128, .f32⟩
  | 53 => ⟨S128x128, .f32⟩
  | 54 => ⟨S128x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_2 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_3 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_4 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_call0_cst : Ref sig .tc := ⟨.hbm, 53, rfl⟩
abbrev main_call0_v0 : Ref sig .tc := ⟨.hbm, 54, rfl⟩
abbrev main_v33 : Ref sig .tc := ⟨.hbm, 55, rfl⟩
abbrev main_cst_6 : Ref sig .tc := ⟨.hbm, 56, rfl⟩
abbrev main_v34 : Ref sig .tc := ⟨.hbm, 57, rfl⟩
abbrev main_cst_7 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_8 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_9 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_10 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_c_11 : Ref sig .tc := ⟨.hbm, 77, rfl⟩
abbrev main_v50 : Ref sig .tc := ⟨.hbm, 78, rfl⟩
abbrev main_v51 : Ref sig .tc := ⟨.hbm, 79, rfl⟩
abbrev main_c_12 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_13 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_14 : Ref sig .tc := ⟨.hbm, 97, rfl⟩
abbrev main_v67 : Ref sig .tc := ⟨.hbm, 98, rfl⟩
abbrev main_cst_15 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_16 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_17 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_18 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_c_19 : Ref sig .tc := ⟨.hbm, 118, rfl⟩
abbrev main_v83 : Ref sig .tc := ⟨.hbm, 119, rfl⟩
abbrev main_v84 : Ref sig .tc := ⟨.hbm, 120, rfl⟩
abbrev main_c_20 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_21 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_call1_cst : Ref sig .tc := ⟨.hbm, 138, rfl⟩
abbrev main_call1_v0 : Ref sig .tc := ⟨.hbm, 139, rfl⟩
abbrev main_v100 : Ref sig .tc := ⟨.hbm, 140, rfl⟩
abbrev main_cst_22 : Ref sig .tc := ⟨.hbm, 141, rfl⟩
abbrev main_v101 : Ref sig .tc := ⟨.hbm, 142, rfl⟩
abbrev main_cst_23 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_cst_24 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_cst_25 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_cst_26 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_c_27 : Ref sig .tc := ⟨.hbm, 162, rfl⟩
abbrev main_v117 : Ref sig .tc := ⟨.hbm, 163, rfl⟩
abbrev main_v118 : Ref sig .tc := ⟨.hbm, 164, rfl⟩
abbrev main_c_28 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_cst_29 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_cst_30 : Ref sig .tc := ⟨.hbm, 182, rfl⟩
abbrev main_v134 : Ref sig .tc := ⟨.hbm, 183, rfl⟩
abbrev main_cst_31 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_c_32 : Ref sig .tc := ⟨.hbm, 190, rfl⟩
abbrev main_call2_call0_cst : Ref sig .tc := ⟨.hbm, 191, rfl⟩
abbrev main_call2_call0_v0 : Ref sig .tc := ⟨.hbm, 192, rfl⟩
abbrev main_call2_call0_v1 : Ref sig .tc := ⟨.hbm, 193, rfl⟩
abbrev main_call2_call0_cst_0 : Ref sig .tc := ⟨.hbm, 194, rfl⟩
abbrev main_call2_call0_v2 : Ref sig .tc := ⟨.hbm, 195, rfl⟩
abbrev main_call2_call0_v3 : Ref sig .tc := ⟨.hbm, 196, rfl⟩
abbrev main_call2_call0_v4 : Ref sig .tc := ⟨.hbm, 197, rfl⟩
abbrev main_call2_call0_v5 : Ref sig .tc := ⟨.hbm, 198, rfl⟩
abbrev main_call2_call0_v6 : Ref sig .tc := ⟨.hbm, 199, rfl⟩
abbrev main_call2_call0_v7 : Ref sig .tc := ⟨.hbm, 200, rfl⟩
abbrev main_call2_call0_cst_1 : Ref sig .tc := ⟨.hbm, 201, rfl⟩
abbrev main_call2_call0_v8 : Ref sig .tc := ⟨.hbm, 202, rfl⟩
abbrev main_call2_call0_cst_2 : Ref sig .tc := ⟨.hbm, 203, rfl⟩
abbrev main_call2_call0_v9 : Ref sig .tc := ⟨.hbm, 204, rfl⟩
abbrev main_call2_call0_v10 : Ref sig .tc := ⟨.hbm, 205, rfl⟩
abbrev main_call2_call0_v11 : Ref sig .tc := ⟨.hbm, 206, rfl⟩
abbrev main_call2_call0_cst_3 : Ref sig .tc := ⟨.hbm, 207, rfl⟩
abbrev main_call2_call0_v12 : Ref sig .tc := ⟨.hbm, 208, rfl⟩
abbrev main_call2_call0_cst_4 : Ref sig .tc := ⟨.hbm, 209, rfl⟩
abbrev main_call2_call0_call0_v0 : Ref sig .tc := ⟨.hbm, 210, rfl⟩
abbrev main_call2_call0_call0_v1 : Ref sig .tc := ⟨.hbm, 211, rfl⟩
abbrev main_call2_v0 : Ref sig .tc := ⟨.hbm, 212, rfl⟩
abbrev main_v140 : Ref sig .tc := ⟨.hbm, 213, rfl⟩
abbrev main_cst_33 : Ref sig .tc := ⟨.hbm, 214, rfl⟩
abbrev main_v141 : Ref sig .tc := ⟨.hbm, 215, rfl⟩
abbrev main_v142 : Ref sig .tc := ⟨.hbm, 216, rfl⟩
abbrev main_v143 : Ref sig .tc := ⟨.hbm, 217, rfl⟩
abbrev main_v144 : Ref sig .tc := ⟨.hbm, 218, rfl⟩
abbrev main_v145 : Ref sig .tc := ⟨.hbm, 219, rfl⟩
abbrev main_cst_34 : Ref sig .tc := ⟨.hbm, 220, rfl⟩
abbrev main_v146 : Ref sig .tc := ⟨.hbm, 221, rfl⟩
abbrev main_cst_35 : Ref sig .tc := ⟨.hbm, 222, rfl⟩
abbrev main_v147 : Ref sig .tc := ⟨.hbm, 223, rfl⟩
abbrev main_v148 : Ref sig .tc := ⟨.hbm, 224, rfl⟩
abbrev main_v149 : Ref sig .tc := ⟨.hbm, 225, rfl⟩
abbrev main_v150 : Ref sig .tc := ⟨.hbm, 226, rfl⟩
abbrev main_v151 : Ref sig .tc := ⟨.hbm, 227, rfl⟩
abbrev main_c_36 : Ref sig .tc := ⟨.hbm, 228, rfl⟩
abbrev main_call3_call0_cst : Ref sig .tc := ⟨.hbm, 229, rfl⟩
abbrev main_call3_call0_v0 : Ref sig .tc := ⟨.hbm, 230, rfl⟩
abbrev main_call3_call0_v1 : Ref sig .tc := ⟨.hbm, 231, rfl⟩
abbrev main_call3_call0_cst_0 : Ref sig .tc := ⟨.hbm, 232, rfl⟩
abbrev main_call3_call0_v2 : Ref sig .tc := ⟨.hbm, 233, rfl⟩
abbrev main_call3_call0_v3 : Ref sig .tc := ⟨.hbm, 234, rfl⟩
abbrev main_call3_call0_v4 : Ref sig .tc := ⟨.hbm, 235, rfl⟩
abbrev main_call3_call0_v5 : Ref sig .tc := ⟨.hbm, 236, rfl⟩
abbrev main_call3_call0_v6 : Ref sig .tc := ⟨.hbm, 237, rfl⟩
abbrev main_call3_call0_v7 : Ref sig .tc := ⟨.hbm, 238, rfl⟩
abbrev main_call3_call0_cst_1 : Ref sig .tc := ⟨.hbm, 239, rfl⟩
abbrev main_call3_call0_v8 : Ref sig .tc := ⟨.hbm, 240, rfl⟩
abbrev main_call3_call0_cst_2 : Ref sig .tc := ⟨.hbm, 241, rfl⟩
abbrev main_call3_call0_v9 : Ref sig .tc := ⟨.hbm, 242, rfl⟩
abbrev main_call3_call0_v10 : Ref sig .tc := ⟨.hbm, 243, rfl⟩
abbrev main_call3_call0_v11 : Ref sig .tc := ⟨.hbm, 244, rfl⟩
abbrev main_call3_call0_cst_3 : Ref sig .tc := ⟨.hbm, 245, rfl⟩
abbrev main_call3_call0_v12 : Ref sig .tc := ⟨.hbm, 246, rfl⟩
abbrev main_call3_call0_cst_4 : Ref sig .tc := ⟨.hbm, 247, rfl⟩
abbrev main_call3_call0_call0_v0 : Ref sig .tc := ⟨.hbm, 248, rfl⟩
abbrev main_call3_call0_call0_v1 : Ref sig .tc := ⟨.hbm, 249, rfl⟩
abbrev main_call3_v0 : Ref sig .tc := ⟨.hbm, 250, rfl⟩
abbrev main_v152 : Ref sig .tc := ⟨.hbm, 251, rfl⟩
abbrev main_cst_37 : Ref sig .tc := ⟨.hbm, 252, rfl⟩
abbrev main_v153 : Ref sig .tc := ⟨.hbm, 253, rfl⟩
abbrev main_v154 : Ref sig .tc := ⟨.hbm, 254, rfl⟩
abbrev main_v155 : Ref sig .tc := ⟨.hbm, 255, rfl⟩
abbrev main_v156 : Ref sig .tc := ⟨.hbm, 256, rfl⟩
abbrev main_v157 : Ref sig .tc := ⟨.hbm, 257, rfl⟩
abbrev main_v158 : Ref sig .tc := ⟨.hbm, 258, rfl⟩
abbrev main_v159 : Ref sig .tc := ⟨.hbm, 259, rfl⟩
abbrev main_cst_38 : Ref sig .tc := ⟨.hbm, 260, rfl⟩
abbrev main_v160 : Ref sig .tc := ⟨.hbm, 261, rfl⟩
abbrev main_v161 : Ref sig .tc := ⟨.hbm, 262, rfl⟩
abbrev main_v162 : Ref sig .tc := ⟨.hbm, 263, rfl⟩
abbrev main_cst_39 : Ref sig .tc := ⟨.hbm, 264, rfl⟩
abbrev main_v163 : Ref sig .tc := ⟨.hbm, 265, rfl⟩
abbrev main_cst_40 : Ref sig .tc := ⟨.hbm, 266, rfl⟩
abbrev main_v164 : Ref sig .tc := ⟨.hbm, 267, rfl⟩
abbrev main_v165 : Ref sig .tc := ⟨.hbm, 268, rfl⟩
abbrev main_v166 : Ref sig .tc := ⟨.hbm, 269, rfl⟩
abbrev main_cst_41 : Ref sig .tc := ⟨.hbm, 270, rfl⟩
abbrev main_v167 : Ref sig .tc := ⟨.hbm, 271, rfl⟩
abbrev main_cst_42 : Ref sig .tc := ⟨.hbm, 272, rfl⟩
abbrev main_v168 : Ref sig .tc := ⟨.hbm, 273, rfl⟩
abbrev main_v169 : Ref sig .tc := ⟨.hbm, 274, rfl⟩
abbrev main_v170 : Ref sig .tc := ⟨.hbm, 275, rfl⟩
abbrev main_cst_43 : Ref sig .tc := ⟨.hbm, 276, rfl⟩
abbrev main_v171 : Ref sig .tc := ⟨.hbm, 277, rfl⟩
abbrev main_v172 : Ref sig .tc := ⟨.hbm, 278, rfl⟩
abbrev main_cst_44 : Ref sig .tc := ⟨.hbm, 279, rfl⟩
abbrev main_v173 : Ref sig .tc := ⟨.hbm, 280, rfl⟩
abbrev main_v174 : Ref sig .tc := ⟨.hbm, 281, rfl⟩
abbrev main_v175 : Ref sig .tc := ⟨.hbm, 282, rfl⟩
abbrev main_v176 : Ref sig .tc := ⟨.hbm, 283, rfl⟩
abbrev main_cst_45 : Ref sig .tc := ⟨.hbm, 284, rfl⟩
abbrev main_v177 : Ref sig .tc := ⟨.hbm, 285, rfl⟩
abbrev main_v178 : Ref sig .tc := ⟨.hbm, 286, rfl⟩
abbrev main_cst_46 : Ref sig .tc := ⟨.hbm, 287, rfl⟩
abbrev main_v179 : Ref sig .tc := ⟨.hbm, 288, rfl⟩
abbrev main_v180 : Ref sig .tc := ⟨.hbm, 289, rfl⟩
abbrev main_v181 : Ref sig .tc := ⟨.hbm, 290, rfl⟩
abbrev main_cst_47 : Ref sig .tc := ⟨.hbm, 291, rfl⟩
abbrev main_v182 : Ref sig .tc := ⟨.hbm, 292, rfl⟩
abbrev main_v183 : Ref sig .tc := ⟨.hbm, 293, rfl⟩
abbrev main_cst_48 : Ref sig .tc := ⟨.hbm, 294, rfl⟩
abbrev main_v184 : Ref sig .tc := ⟨.hbm, 295, rfl⟩
abbrev main_v185 : Ref sig .tc := ⟨.hbm, 296, rfl⟩
abbrev main_v186 : Ref sig .tc := ⟨.hbm, 297, rfl⟩
abbrev main_v187 : Ref sig .tc := ⟨.hbm, 298, rfl⟩
abbrev main_cst_49 : Ref sig .tc := ⟨.hbm, 299, rfl⟩
abbrev main_v188 : Ref sig .tc := ⟨.hbm, 300, rfl⟩
abbrev main_v189 : Ref sig .tc := ⟨.hbm, 301, rfl⟩
abbrev main_cst_50 : Ref sig .tc := ⟨.hbm, 302, rfl⟩
abbrev main_v190 : Ref sig .tc := ⟨.hbm, 303, rfl⟩
abbrev main_v191 : Ref sig .tc := ⟨.hbm, 304, rfl⟩
abbrev main_v192 : Ref sig .tc := ⟨.hbm, 305, rfl⟩
abbrev main_v193 : Ref sig .tc := ⟨.hbm, 306, rfl⟩
abbrev main_v194 : Ref sig .tc := ⟨.hbm, 307, rfl⟩
abbrev main_v195 : Ref sig .tc := ⟨.hbm, 308, rfl⟩
abbrev main_v196 : Ref sig .tc := ⟨.hbm, 309, rfl⟩
abbrev main_v197 : Ref sig .tc := ⟨.hbm, 310, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  transposes_S50000x128_S128x50000_1_0 : S50000x128.Transposes [1, 0] S128x50000
  bcast_S_S128x128 : S_.BroadcastsInDim S128x128 (![] : Fin 0 → Fin S128x128.rank)
  reducesTo_S128x128_S128_d1 : S128x128.ReducesTo [1] S128
  reducesTo_S128x128_S128_d0 : S128x128.ReducesTo [0] S128
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S128x50000_S50000x128_S128x128_1_0_0_1_n_n_wf : DotDims.WF S128x50000 S50000x128 S128x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S128x50000_S50000x128_S128x128_1_0_0_1_n_n : DotDims S128x50000 S50000x128 S128x128 where
  lhsContracting := [1]
  rhsContracting := [0]
  lhsNonContracting := [0]
  rhsNonContracting := [1]
  lhsBatch := []
  rhsBatch := []
  wf := dot_S128x50000_S50000x128_S128x128_1_0_0_1_n_n_wf

class Facts : Prop extends Facts₀ where

variable [Facts]
-- ==== Proof.KRun.lean ====
/-
  The idealized kernel program's run with its five results NAMED: every weakly fair execution of @main terminates
  without a fault, each result array ends at the contents the last stretch of host operations leaves in its buffer
  (the fold of the program's ten segments over the launch memory), and the twelve argument arrays end as launched.
  The argument is the frame's: the launch over the segments, the last thread state read against the final state;
  only the post reads five more buffers.
-/
import proofs.«107726_j19937238188633_2_alg».proof.Proof.Gen.KernelIdeal.Frame

set_option maxRecDepth 16384

noncomputable section

namespace Cert.KernelIdeal.ResultRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_results : θ_run defs (onTc (τ := τ) (main (F := F))) ⟨m, fun _ => 0, ρ⟩ (fun r => ∀ c : Dev nD,
      r.2.mem ((c.tc : Thread nD τ).loc main_v0_0) = W10 m ρ c (Proc.devRef .tc main_v0_0)
      ∧ r.2.mem ((c.tc : Thread nD τ).loc main_v0_1) = W10 m ρ c (Proc.devRef .tc main_v0_1)
      ∧ r.2.mem ((c.tc : Thread nD τ).loc main_v0_2) = W10 m ρ c (Proc.devRef .tc main_v0_2)
      ∧ r.2.mem ((c.tc : Thread nD τ).loc main_v0_3) = W10 m ρ c (Proc.devRef .tc main_v0_3)
      ∧ r.2.mem ((c.tc : Thread nD τ).loc main_v0_4) = W10 m ρ c (Proc.devRef .tc main_v0_4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v0_0 (by decide)),
       h c _ (mem_uc main_v0_1 (by decide)),
       h c _ (mem_uc main_v0_2 (by decide)),
       h c _ (mem_uc main_v0_3 (by decide)),
       h c _ (mem_uc main_v0_4 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c)⟩)

end Cert.KernelIdeal.ResultRun

end
-- ==== Proof.KChain.lean ====
/-
  The idealized kernel program's host operations grouped into the functions they compute, spelt with that
  program's own shapes, dimension records and constants (the same functions the reference applies):
  `degNorm`, `colBcast`, `wrapIdx`, `aggregate` — the degree normalisation and the gather / scatter-add aggregation;
  `rowScore`, `colScore`, `gate`, `rowMask`, `colMask`, `maskedC` — the gates of the cross-correlation;
  `corrEpilogue` — the cross-correlation from its sufficient statistics, as the program's last stretch spells it.
-/
import proofs.«107726_j19937238188633_2_alg».proof.KernelIdeal
import proofs.«107726_j19937238188633_2_alg».proof.Proof.Gen.KernelIdeal

noncomputable section

namespace Cert.KernelIdeal.Chain

open Idealize.ShloMosaic Cert.KernelIdeal Cert.KernelIdeal.Facts₀

variable {F : FTy → Type} [FloatOps F]

/-- The contents of a float array of the given shape. -/
abbrev FArr (s : Shape) := (⟨s, .f32⟩ : BufTy).Contents (Elt F)
/-- The contents of a 32-bit integer array of the given shape. -/
abbrev IArr (s : Shape) := (⟨s, .i32⟩ : BufTy).Contents (Elt F)

def degNorm (idx : IArr (F := F) S800000) : FArr (F := F) S50000 :=
  Host.rsqrt (maximumf
    (Host.scatterAdd scatter_S50000_S800000x1_S800000_n_0_0_1
      (broadcastInDim S50000 ![] bcast_S_S50000 (constant S_ .f32 0x00000000#32))
      (broadcastInDim S800000x1 ![0] bcast_S800000_S800000x1_0 idx)
      (broadcastInDim S800000 ![] bcast_S_S800000 (constant S_ .f32 0x3F800000#32)))
    (broadcastInDim S50000 ![] bcast_S_S50000 (constant S_ .f32 0x3F800000#32)))

/-- A node vector as a column repeated along the 128 features. -/
def colBcast (v : FArr (F := F) S50000) : FArr (F := F) S50000x128 :=
  broadcastInDim S50000x128 ![0, 1] bcast_S50000x1_S50000x128_0_1 (broadcastInDim S50000x1 ![0] bcast_S50000_S50000x1_0 v)

/-- Negative edge endpoints wrapped by the node count. -/
def wrapIdx (src : IArr (F := F) S800000) : IArr (F := F) S800000 :=
  select (cmpi .slt src (broadcastInDim S800000 ![] bcast_S_S800000 (constantI S_ 32 0#32)))
    (addi src (broadcastInDim S800000 ![] bcast_S_S800000 (constantI S_ 32 50000#32))) src

def aggregate (src dst : IArr (F := F) S800000) (ns : FArr (F := F) S50000) (feat : FArr (F := F) S50000x128) :
    FArr (F := F) S50000x128 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (Host.gather gather_S50000x128_S800000x1_S800000x128_1_0_n_n_0_1_1128 (mulf feat (colBcast ns))
      (broadcastInDim S800000x1 ![0] bcast_S800000_S800000x1_0 (wrapIdx src)))

def rowScore (C : FArr (F := F) S128x128) : FArr (F := F) S128 :=
  Host.divf (Host.reduceAdd (Host.absf C) (constant S_ .f32 0x00000000#32) reducesTo_S128x128_S128_d1 h_S_)
    (broadcastInDim S128 ![] bcast_S_S128 (constant S_ .f32 0x43000000#32))

def colScore (C : FArr (F := F) S128x128) : FArr (F := F) S128 :=
  Host.divf (Host.reduceAdd (Host.absf C) (constant S_ .f32 0x00000000#32) reducesTo_S128x128_S128_d0 h_S_)
    (broadcastInDim S128 ![] bcast_S_S128 (constant S_ .f32 0x43000000#32))

/-- The logistic gate of a score plus an offset. -/
def gate (s off : FArr (F := F) S128) : FArr (F := F) S128 :=
  Host.divf (broadcastInDim S128 ![] bcast_S_S128 (constant S_ .f32 0x3F800000#32))
    (addf (broadcastInDim S128 ![] bcast_S_S128 (constant S_ .f32 0x3F800000#32))
      (Host.exp (Host.negf (mulf (broadcastInDim S128 ![] bcast_S_S128 (constant S_ .f32 0x42480000#32))
        (subf (addf s off) (broadcastInDim S128 ![] bcast_S_S128 (constant S_ .f32 0x3D4CCCCD#32)))))))

def rowMask (C : FArr (F := F) S128x128) (ro : FArr (F := F) S128) : FArr (F := F) S128 := gate (rowScore C) ro
def colMask (C : FArr (F := F) S128x128) (co : FArr (F := F) S128) : FArr (F := F) S128 := gate (colScore C) co

def maskedC (C : FArr (F := F) S128x128) (rm cm : FArr (F := F) S128) : FArr (F := F) S128x128 :=
  mulf C (mulf
    (broadcastInDim S128x128 ![0, 1] bcast_S128x1_S128x128_0_1 (broadcastInDim S128x1 ![0] bcast_S128_S128x1_0 rm))
    (broadcastInDim S128x128 ![0, 1] bcast_S1x128_S128x128_0_1 (broadcastInDim S1x128 ![1] bcast_S128_S1x128_1 cm)))

/-- A node vector as a one-column array (the dense stage's second operand). -/
def colOfVec (v : FArr (F := F) S50000) : FArr (F := F) S50000x1 := shapeCast S50000x1 v shapeCasts_S50000_S50000x1

/-- A feature vector as a one-row array (the dense stage's fourth operand). -/
def rowOfVec (b : FArr (F := F) S128) : FArr (F := F) S1x128 := shapeCast S1x128 b shapeCasts_S128_S1x128

/-- The column means `s / N` from the column sums, as a row. -/
def meanRow (s : FArr (F := F) S1x128) : FArr (F := F) S1x128 :=
  Host.divf s (broadcastInDim S1x128 ![] bcast_S_S1x128 (constant S_ .f32 0x47435000#32))

/-- The column spreads `√(max((q − N·m·m)/(N−1), 0)) + ε` from the sums and sums of squares, as a row. -/
def spreadRow (s q : FArr (F := F) S1x128) : FArr (F := F) S1x128 :=
  addf
    (Host.sqrt (maximumf
      (Host.divf
        (subf q (mulf (mulf (broadcastInDim S1x128 ![] bcast_S_S1x128 (constant S_ .f32 0x47435000#32)) (meanRow s)) (meanRow s)))
        (broadcastInDim S1x128 ![] bcast_S_S1x128 (constant S_ .f32 0x47434F00#32)))
      (broadcastInDim S1x128 ![] bcast_S_S1x128 (constant S_ .f32 0x00000000#32))))
    (broadcastInDim S1x128 ![] bcast_S_S1x128 (constant S_ .f32 0x358637BD#32))

/-- A row as a column scaled by `N`, repeated along the second axis. -/
def scaledColBcast (v : FArr (F := F) S1x128) : FArr (F := F) S128x128 :=
  broadcastInDim S128x128 ![0, 1] bcast_S128x1_S128x128_0_1
    (mulf (broadcastInDim S128x1 ![] bcast_S_S128x1 (constant S_ .f32 0x47435000#32))
      (shapeCast S128x1 v shapeCasts_S1x128_S128x1))

/-- The cross-correlation `(G − N·m₁·m₂) / (N·d₁·d₂)` from the sufficient statistics. -/
def corrEpilogue (G : FArr (F := F) S128x128) (s1 s2 q1 q2 : FArr (F := F) S1x128) : FArr (F := F) S128x128 :=
  Host.divf
    (subf G (mulf (scaledColBcast (meanRow s1)) (broadcastInDim S128x128 ![0, 1] bcast_S1x128_S128x128_0_1 (meanRow s2))))
    (mulf (scaledColBcast (spreadRow s1 q1)) (broadcastInDim S128x128 ![0, 1] bcast_S1x128_S128x128_0_1 (spreadRow s2 q2)))

end Cert.KernelIdeal.Chain

end
-- ==== Proof.TRefCast.lean ====
/-
  A typed reference transports an array between "contents at the value's type" and "contents of the buffer" along
  the equation of the two types; the two transports are inverse, and a transported array is the array.
-/
import Idealize.ShloMosaic.Lib.StableHlo

namespace Cert.GcnCorr.TRefCast

open Idealize.ShloMosaic Idealize.ShloMosaic.StableHlo

variable {sig : RefSig} {T : BufTy} {Val : EltTy → Type}

/-- Transporting to the buffer's type and back is the identity. -/
theorem ofBuf_toBuf (x : TRef sig T) (v : T.Contents Val) : x.ofBuf (x.toBuf v) = v := by
  unfold TRef.ofBuf TRef.toBuf
  simp

/-- Transporting back and forth the other way is the identity. -/
theorem toBuf_ofBuf (x : TRef sig T) (v : x.ref.ty.Contents Val) : x.toBuf (x.ofBuf v) = v := by
  unfold TRef.ofBuf TRef.toBuf
  simp

/-- A transported array equals any array it is heterogeneously equal to before the transport. -/
theorem toBuf_eq (x : TRef sig T) {A : T.Contents Val} {B : x.ref.ty.Contents Val} (h : HEq A B) : x.toBuf A = B := by
  unfold TRef.toBuf
  exact eq_of_heq ((cast_heq _ _).trans h)

/-- The same for the transport back. -/
theorem ofBuf_eq (x : TRef sig T) {A : x.ref.ty.Contents Val} {B : T.Contents Val} (h : HEq A B) : x.ofBuf A = B := by
  unfold TRef.ofBuf
  exact eq_of_heq ((cast_heq _ _).trans h)

end Cert.GcnCorr.TRefCast
-- ==== Proof.KHost0.lean ====
/-
  The program's first host stretch, read for arbitrary contents `X` before it, at the buffers the first dense region
  and the later stretches take from it: the four degree normalisations (one per edge-endpoint list), the aggregate of
  the first graph's features (the rows scaled by the source normalisation, gathered along the edges and summed into
  the destination rows), and the dense stage's two small operands — the first layer's bias as a row and the first
  graph's destination normalisation as a column. A buffer the stretch does not write keeps its contents.
-/
import proofs.«107726_j19937238188633_2_alg».proof.Proof.Gen.KernelIdeal.Launch
import proofs.«107726_j19937238188633_2_alg».proof.Proof.KChain
import proofs.«107726_j19937238188633_2_alg».proof.Proof.TRefCast
import Idealize.ShloMosaic.Lib.StableHlo.Run
import Idealize.ShloMosaic.PureOps.Ideal

noncomputable section

namespace Cert.KernelIdeal.HostRead

open Idealize.ShloMosaic Idealize.ShloMosaic.StableHlo Cert.KernelIdeal Cert.KernelIdeal.Gen Cert.KernelIdeal.Chain

variable (X : Valuation τ sig (Elt Ideal))

/-- The buffer each of these operations writes, in order. -/
abbrev hostOps0_W : List (Ref sig .tc) :=
  [main_call0_cst, main_call0_v0, main_call0_cst_0, main_call0_v1, main_call0_v2, main_call0_v3,
   main_call0_cst_1, main_call0_v4, main_call0_v5, main_call0_v6, main_call0_cst_2, main_call0_v7,
   main_call0_v8, main_call0_v9, main_call0_cst_3, main_call0_v10, main_call0_v11, main_call0_v12,
   main_call0_cst_4, main_call0_v13, main_call0_cst_5, main_call0_v14, main_call0_v15, main_call0_v16,
   main_call0_cst_6, main_call0_v17, main_call0_v18, main_call0_v19, main_call0_cst_7, main_call0_v20,
   main_call0_v21, main_call0_v22, main_call0_cst_8, main_call0_v23, main_call0_v24, main_call0_v25,
   main_call0_v26, main_call0_v27, main_call0_v28, main_call0_c, main_call0_v29, main_call0_v30,
   main_call0_c_9, main_call0_v31, main_call0_v32, main_call0_v33, main_call0_v34, main_call0_v35,
   main_call0_cst_10, main_call0_v36, main_call0_v37, main_call0_v38, main_call0_v39, main_call0_v40]

set_option maxHeartbeats 400000 in
theorem hostOps0_writes : (hostOps0 (F := Ideal)).Forall fun op =>
    op.writes ⊆ (hostOps0_W.map (Proc.devRef (τ := τ) .tc)).toFinset := by
  simp only [List.Forall]
  repeat' apply And.intro
  all_goals
    simp only [nullary_writes, unary_writes, binary_writes, ternary_writes, reshape_writes, Finset.singleton_subset_iff,
      List.mem_toFinset]
    exact List.mem_map_of_mem (by decide)

/-- A buffer these operations do not write keeps its contents through them. -/
theorem h0_keep (r : Ref sig .tc) (h : r ∉ hostOps0_W) :
    after (hostOps0 (F := Ideal)) X (Proc.devRef .tc r) = X (Proc.devRef .tc r) :=
  after_of_writes_sub _ X hostOps0_writes h

set_option maxHeartbeats 100000 in
/-- The first graph's source-degree normalisation. -/
theorem h0_v9 :
    after (hostOps0 (F := Ideal)) X (Proc.devRef .tc main_call0_v9)
      = degNorm (F := Ideal) (X (Proc.devRef .tc main_arg2)) := by
  dsimp only [hostOps0]
  after_results_simp
  simp only [Cert.GcnCorr.TRefCast.ofBuf_toBuf]
  exact Cert.GcnCorr.TRefCast.toBuf_eq _ HEq.rfl

set_option maxHeartbeats 100000 in
/-- The first graph's destination-degree normalisation. -/
theorem h0_v12 :
    after (hostOps0 (F := Ideal)) X (Proc.devRef .tc main_call0_v12)
      = degNorm (F := Ideal) (X (Proc.devRef .tc main_arg3)) := by
  dsimp only [hostOps0]
  after_results_simp
  simp only [Cert.GcnCorr.TRefCast.ofBuf_toBuf]
  exact Cert.GcnCorr.TRefCast.toBuf_eq _ HEq.rfl

set_option maxHeartbeats 100000 in
/-- The second graph's source-degree normalisation. -/
theorem h0_v22 :
    after (hostOps0 (F := Ideal)) X (Proc.devRef .tc main_call0_v22)
      = degNorm (F := Ideal) (X (Proc.devRef .tc main_arg4)) := by
  dsimp only [hostOps0]
  after_results_simp
  simp only [Cert.GcnCorr.TRefCast.ofBuf_toBuf]
  exact Cert.GcnCorr.TRefCast.toBuf_eq _ HEq.rfl

set_option maxHeartbeats 100000 in
/-- The second graph's destination-degree normalisation. -/
theorem h0_v25 :
    after (hostOps0 (F := Ideal)) X (Proc.devRef .tc main_call0_v25)
      = degNorm (F := Ideal) (X (Proc.devRef .tc main_arg5)) := by
  dsimp only [hostOps0]
  after_results_simp
  simp only [Cert.GcnCorr.TRefCast.ofBuf_toBuf]
  exact Cert.GcnCorr.TRefCast.toBuf_eq _ HEq.rfl

set_option maxHeartbeats 100000 in
/-- The aggregation of the first graph over its features. -/
theorem h0_v38 :
    after (hostOps0 (F := Ideal)) X (Proc.devRef .tc main_call0_v38)
      = aggregate (F := Ideal) (X (Proc.devRef .tc main_arg2)) (X (Proc.devRef .tc main_arg3))
          (degNorm (F := Ideal) (X (Proc.devRef .tc main_arg2))) (X (Proc.devRef .tc main_arg0)) := by
  dsimp only [hostOps0]
  after_results_simp
  simp only [Cert.GcnCorr.TRefCast.ofBuf_toBuf]
  exact Cert.GcnCorr.TRefCast.toBuf_eq _ HEq.rfl

set_option maxHeartbeats 100000 in
/-- The first layer's bias as a one-row array. -/
theorem h0_v39 :
    after (hostOps0 (F := Ideal)) X (Proc.devRef .tc main_call0_v39)
      = rowOfVec (F := Ideal) (X (Proc.devRef .tc main_arg7)) := by
  dsimp only [hostOps0]
  after_results_simp
  rfl

set_option maxHeartbeats 100000 in
/-- The first graph's destination-degree normalisation as a one-column array: the reshape of a vector the stretch
    itself computes, so the read goes through that vector's buffer. -/
theorem h0_v40 :
    after (hostOps0 (F := Ideal)) X (Proc.devRef .tc main_call0_v40)
      = colOfVec (F := Ideal) (degNorm (F := Ideal) (X (Proc.devRef .tc main_arg3))) := by
  dsimp only [hostOps0]
  after_results_simp
  have hof : ∀ (h1 : main_arg3.ty = (⟨S800000, .i32⟩ : BufTy)) (h2 : main_arg3.space ≠ .host) (h3 : main_arg3.isScoped = false)
      (v : main_arg3.ty.Contents (Elt Ideal)),
      (TRef.of (T := ⟨S800000, .i32⟩) main_arg3 h1 h2 h3).ofBuf v = v :=
    fun _ _ _ _ => Cert.GcnCorr.TRefCast.ofBuf_eq _ HEq.rfl
  have hto : ∀ (h1 : main_call0_v12.ty = (⟨S50000, .f32⟩ : BufTy)) (h2 : main_call0_v12.space ≠ .host)
      (h3 : main_call0_v12.isScoped = false) (v : (⟨S50000, .f32⟩ : BufTy).Contents (Elt Ideal)),
      (TRef.of (T := ⟨S50000, .f32⟩) main_call0_v12 h1 h2 h3).toBuf v = v :=
    fun _ _ _ _ => Cert.GcnCorr.TRefCast.toBuf_eq _ HEq.rfl
  simp only [hof, hto, Cert.GcnCorr.TRefCast.ofBuf_toBuf]
  rfl

end Cert.KernelIdeal.HostRead

end
-- ==== Proof.KHost1.lean ====
/-
  The kernel program's host operations before its second dense stage, read for arbitrary contents `X` before them:
  the neighbour aggregation of the first graph over the first layer's output (the source-degree normalisation scaling the rows
  gathered along the edges, scatter-added into the destination rows), and the dense stage's two small operands — the
  destination-degree normalisation as a column and the bias as a row. A buffer these operations do not write keeps
  its contents.
-/
import proofs.«107726_j19937238188633_2_alg».proof.Proof.Gen.KernelIdeal.Launch
import proofs.«107726_j19937238188633_2_alg».proof.Proof.KChain
import proofs.«107726_j19937238188633_2_alg».proof.Proof.TRefCast
import Idealize.ShloMosaic.Lib.StableHlo.Run
import Idealize.ShloMosaic.PureOps.Ideal

noncomputable section

namespace Cert.KernelIdeal.HostRead

open Idealize.ShloMosaic Idealize.ShloMosaic.StableHlo Cert.KernelIdeal Cert.KernelIdeal.Gen Cert.KernelIdeal.Chain

/-- The buffer each of these operations writes, in order. -/
abbrev hostOps1_W : List (Ref sig .tc) :=
  [main_call0_v42, main_call0_v43, main_call0_v44, main_call0_c_11, main_call0_v45, main_call0_v46, main_call0_c_12, main_call0_v47, main_call0_v48, main_call0_v49, main_call0_v50, main_call0_v51, main_call0_cst_13, main_call0_v52, main_call0_v53, main_call0_v54, main_call0_v55, main_call0_v56]

set_option maxHeartbeats 400000 in
theorem hostOps1_writes : (hostOps1 (F := Ideal)).Forall fun op =>
    op.writes ⊆ (hostOps1_W.map (Proc.devRef (τ := τ) .tc)).toFinset := by
  simp only [List.Forall]
  repeat' apply And.intro
  all_goals
    simp only [nullary_writes, unary_writes, binary_writes, ternary_writes, reshape_writes, Finset.singleton_subset_iff,
      List.mem_toFinset]
    exact List.mem_map_of_mem (by decide)

/-- A buffer these operations do not write keeps its contents through them. -/
theorem h1_keep (X : Valuation τ sig (Elt Ideal)) (r : Ref sig .tc) (h : r ∉ hostOps1_W) :
    after (hostOps1 (F := Ideal)) X (Proc.devRef .tc r) = X (Proc.devRef .tc r) :=
  after_of_writes_sub _ X hostOps1_writes h

set_option maxHeartbeats 100000 in
/-- The aggregation of the first graph over the first layer's output. -/
theorem h1_v54 (X : Valuation τ sig (Elt Ideal)) :
    after (hostOps1 (F := Ideal)) X (Proc.devRef .tc main_call0_v54)
      = aggregate (F := Ideal) (X (Proc.devRef .tc main_arg2)) (X (Proc.devRef .tc main_arg3))
          (X (Proc.devRef .tc main_call0_v9)) (X (Proc.devRef .tc main_call0_v41)) := by
  dsimp only [hostOps1]
  after_results_simp
  simp only [Cert.GcnCorr.TRefCast.ofBuf_toBuf]
  exact Cert.GcnCorr.TRefCast.toBuf_eq _ HEq.rfl

set_option maxHeartbeats 100000 in
/-- The destination-degree normalisation as a one-column array. -/
theorem h1_v56 (X : Valuation τ sig (Elt Ideal)) :
    after (hostOps1 (F := Ideal)) X (Proc.devRef .tc main_call0_v56)
      = colOfVec (F := Ideal) (X (Proc.devRef .tc main_call0_v12)) := by
  dsimp only [hostOps1]
  after_results_simp
  rfl

set_option maxHeartbeats 100000 in
/-- The bias as a one-row array. -/
theorem h1_v55 (X : Valuation τ sig (Elt Ideal)) :
    after (hostOps1 (F := Ideal)) X (Proc.devRef .tc main_call0_v55)
      = rowOfVec (F := Ideal) (X (Proc.devRef .tc main_arg9)) := by
  dsimp only [hostOps1]
  after_results_simp
  rfl

end Cert.KernelIdeal.HostRead

end
-- ==== Proof.KHost2.lean ====
/-
  The kernel program's host operations before its third dense stage, read for arbitrary contents `X` before them:
  the neighbour aggregation of the second graph over the second graph's features (the source-degree normalisation scaling the rows
  gathered along the edges, scatter-added into the destination rows), and the dense stage's two small operands — the
  destination-degree normalisation as a column and the bias as a row. A buffer these operations do not write keeps
  its contents.
-/
import proofs.«107726_j19937238188633_2_alg».proof.Proof.Gen.KernelIdeal.Launch
import proofs.«107726_j19937238188633_2_alg».proof.Proof.KChain
import proofs.«107726_j19937238188633_2_alg».proof.Proof.TRefCast
import Idealize.ShloMosaic.Lib.StableHlo.Run
import Idealize.ShloMosaic.PureOps.Ideal

noncomputable section

namespace Cert.KernelIdeal.HostRead

open Idealize.ShloMosaic Idealize.ShloMosaic.StableHlo Cert.KernelIdeal Cert.KernelIdeal.Gen Cert.KernelIdeal.Chain

/-- The buffer each of these operations writes, in order. -/
abbrev hostOps2_W : List (Ref sig .tc) :=
  [main_call0_v58, main_call0_v59, main_call0_v60, main_call0_c_14, main_call0_v61, main_call0_v62, main_call0_c_15, main_call0_v63, main_call0_v64, main_call0_v65, main_call0_v66, main_call0_v67, main_call0_cst_16, main_call0_v68, main_call0_v69, main_call0_v70, main_call0_v71, main_call0_v72]

set_option maxHeartbeats 400000 in
theorem hostOps2_writes : (hostOps2 (F := Ideal)).Forall fun op =>
    op.writes ⊆ (hostOps2_W.map (Proc.devRef (τ := τ) .tc)).toFinset := by
  simp only [List.Forall]
  repeat' apply And.intro
  all_goals
    simp only [nullary_writes, unary_writes, binary_writes, ternary_writes, reshape_writes, Finset.singleton_subset_iff,
      List.mem_toFinset]
    exact List.mem_map_of_mem (by decide)

/-- A buffer these operations do not write keeps its contents through them. -/
theorem h2_keep (X : Valuation τ sig (Elt Ideal)) (r : Ref sig .tc) (h : r ∉ hostOps2_W) :
    after (hostOps2 (F := Ideal)) X (Proc.devRef .tc r) = X (Proc.devRef .tc r) :=
  after_of_writes_sub _ X hostOps2_writes h

set_option maxHeartbeats 100000 in
/-- The aggregation of the second graph over the second graph's features. -/
theorem h2_v70 (X : Valuation τ sig (Elt Ideal)) :
    after (hostOps2 (F := Ideal)) X (Proc.devRef .tc main_call0_v70)
      = aggregate (F := Ideal) (X (Proc.devRef .tc main_arg4)) (X (Proc.devRef .tc main_arg5))
          (X (Proc.devRef .tc main_call0_v22)) (X (Proc.devRef .tc main_arg1)) := by
  dsimp only [hostOps2]
  after_results_simp
  simp only [Cert.GcnCorr.TRefCast.ofBuf_toBuf]
  exact Cert.GcnCorr.TRefCast.toBuf_eq _ HEq.rfl

set_option maxHeartbeats 100000 in
/-- The destination-degree normalisation as a one-column array. -/
theorem h2_v72 (X : Valuation τ sig (Elt Ideal)) :
    after (hostOps2 (F := Ideal)) X (Proc.devRef .tc main_call0_v72)
      = colOfVec (F := Ideal) (X (Proc.devRef .tc main_call0_v25)) := by
  dsimp only [hostOps2]
  after_results_simp
  rfl

set_option maxHeartbeats 100000 in
/-- The bias as a one-row array. -/
theorem h2_v71 (X : Valuation τ sig (Elt Ideal)) :
    after (hostOps2 (F := Ideal)) X (Proc.devRef .tc main_call0_v71)
      = rowOfVec (F := Ideal) (X (Proc.devRef .tc main_arg7)) := by
  dsimp only [hostOps2]
  after_results_simp
  rfl

end Cert.KernelIdeal.HostRead

end
-- ==== Proof.KHost3.lean ====
/-
  The kernel program's host operations before its fourth dense stage, read for arbitrary contents `X` before them:
  the neighbour aggregation of the second graph over the first layer's output (the source-degree normalisation scaling the rows
  gathered along the edges, scatter-added into the destination rows), and the dense stage's two small operands — the
  destination-degree normalisation as a column and the bias as a row. A buffer these operations do not write keeps
  its contents.
-/
import proofs.«107726_j19937238188633_2_alg».proof.Proof.Gen.KernelIdeal.Launch
import proofs.«107726_j19937238188633_2_alg».proof.Proof.KChain
import proofs.«107726_j19937238188633_2_alg».proof.Proof.TRefCast
import Idealize.ShloMosaic.Lib.StableHlo.Run
import Idealize.ShloMosaic.PureOps.Ideal

noncomputable section

namespace Cert.KernelIdeal.HostRead

open Idealize.ShloMosaic Idealize.ShloMosaic.StableHlo Cert.KernelIdeal Cert.KernelIdeal.Gen Cert.KernelIdeal.Chain

/-- The buffer each of these operations writes, in order. -/
abbrev hostOps3_W : List (Ref sig .tc) :=
  [main_call0_v74, main_call0_v75, main_call0_v76, main_call0_c_17, main_call0_v77, main_call0_v78, main_call0_c_18, main_call0_v79, main_call0_v80, main_call0_v81, main_call0_v82, main_call0_v83, main_call0_cst_19, main_call0_v84, main_call0_v85, main_call0_v86, main_call0_v87, main_call0_v88]

set_option maxHeartbeats 400000 in
theorem hostOps3_writes : (hostOps3 (F := Ideal)).Forall fun op =>
    op.writes ⊆ (hostOps3_W.map (Proc.devRef (τ := τ) .tc)).toFinset := by
  simp only [List.Forall]
  repeat' apply And.intro
  all_goals
    simp only [nullary_writes, unary_writes, binary_writes, ternary_writes, reshape_writes, Finset.singleton_subset_iff,
      List.mem_toFinset]
    exact List.mem_map_of_mem (by decide)

/-- A buffer these operations do not write keeps its contents through them. -/
theorem h3_keep (X : Valuation τ sig (Elt Ideal)) (r : Ref sig .tc) (h : r ∉ hostOps3_W) :
    after (hostOps3 (F := Ideal)) X (Proc.devRef .tc r) = X (Proc.devRef .tc r) :=
  after_of_writes_sub _ X hostOps3_writes h

set_option maxHeartbeats 100000 in
/-- The aggregation of the second graph over the first layer's output. -/
theorem h3_v86 (X : Valuation τ sig (Elt Ideal)) :
    after (hostOps3 (F := Ideal)) X (Proc.devRef .tc main_call0_v86)
      = aggregate (F := Ideal) (X (Proc.devRef .tc main_arg4)) (X (Proc.devRef .tc main_arg5))
          (X (Proc.devRef .tc main_call0_v22)) (X (Proc.devRef .tc main_call0_v73)) := by
  dsimp only [hostOps3]
  after_results_simp
  simp only [Cert.GcnCorr.TRefCast.ofBuf_toBuf]
  exact Cert.GcnCorr.TRefCast.toBuf_eq _ HEq.rfl

set_option maxHeartbeats 100000 in
/-- The destination-degree normalisation as a one-column array. -/
theorem h3_v88 (X : Valuation τ sig (Elt Ideal)) :
    after (hostOps3 (F := Ideal)) X (Proc.devRef .tc main_call0_v88)
      = colOfVec (F := Ideal) (X (Proc.devRef .tc main_call0_v25)) := by
  dsimp only [hostOps3]
  after_results_simp
  rfl

set_option maxHeartbeats 100000 in
/-- The bias as a one-row array. -/
theorem h3_v87 (X : Valuation τ sig (Elt Ideal)) :
    after (hostOps3 (F := Ideal)) X (Proc.devRef .tc main_call0_v87)
      = rowOfVec (F := Ideal) (X (Proc.devRef .tc main_arg9)) := by
  dsimp only [hostOps3]
  after_results_simp
  rfl

end Cert.KernelIdeal.HostRead

end
-- ==== Proof.Spec.lean ====
/-
  The mathematics both programs compute, written once over plain arrays of extended reals, coordinate by
  coordinate. Nothing here mentions either program.

  * `denseWin a nd W b r j = (∑ k, (a[r,k] · nd[r,0]) · W[k,j]) + b[0,j]`: one graph-convolution layer's dense
    stage on a row-normalised aggregate; `denseReluWin` is its positive part.
  * `gram z w i j = ∑ k, z[k,i] · w[k,j]`, `colsum z j = ∑ k, z[k,j]`, `colsumsq z j = ∑ k, z[k,j]²`: the
    cross-correlation's sufficient statistics over the 50000 rows.
  * `corrStat`: the cross-correlation from the sufficient statistics,
    `(G[i,j] − N·m₁[i]·m₂[j]) / (N·d₁[i]·d₂[j])` with `m = s/N`, `d = √(max((q − N·m·m)/(N−1), 0)) + ε`.
  * `corrDirect`: the cross-correlation from the rows themselves,
    `(∑ k, ((z[k,i] − m₁[i])/d₁[i]) · ((w[k,j] − m₂[j])/d₂[j])) / N` with `d = √(∑ k (z[k,·] − m)² / (N−1)) + ε`.
  Over the reals the two agree because `∑ (z − m)² = ∑ z² − N m²` and `∑ (z − m₁)(w − m₂) = ∑ z w − N m₁ m₂`
  when `m = (∑ z)/N`.
-/
import Idealize.ShloMosaic.PureOps.Ideal
import Idealize.ShloMosaic.Lib.ValueIdx

noncomputable section

namespace Cert.GcnCorr

open Idealize.ShloMosaic Idealize.ShloMosaic.ValueIdx

/-- Arrays of extended reals over the literal shapes of the two programs. -/
abbrev ArrND := (⟨2, ![50000, 128]⟩ : Shape).Idx → EReal
abbrev ArrN1 := (⟨2, ![50000, 1]⟩ : Shape).Idx → EReal
abbrev ArrDD := (⟨2, ![128, 128]⟩ : Shape).Idx → EReal
abbrev Arr1D := (⟨2, ![1, 128]⟩ : Shape).Idx → EReal

/-- The dense stage of one layer at row `r`, column `j`. -/
def denseWin (a : ArrND) (nd : ArrN1) (W : ArrDD) (b : Arr1D) (r : Fin 50000) (j : Fin 128) : EReal :=
  (∑ k : Fin 128, (a (ix2 r k) * nd (ix2 r (0 : Fin 1))) * W (ix2 k j)) + b (ix2 (0 : Fin 1) j)

/-- The dense stage followed by the positive part. -/
def denseReluWin (a : ArrND) (nd : ArrN1) (W : ArrDD) (b : Arr1D) (r : Fin 50000) (j : Fin 128) : EReal :=
  max (denseWin a nd W b r j) 0

/-- The Gram matrix of the columns of `z` against the columns of `w`, over all rows. -/
def gram (z w : ArrND) (i j : Fin 128) : EReal := ∑ k : Fin 50000, z (ix2 k i) * w (ix2 k j)

/-- Column sums over all rows. -/
def colsum (z : ArrND) (j : Fin 128) : EReal := ∑ k : Fin 50000, z (ix2 k j)

/-- Column sums of squares over all rows. -/
def colsumsq (z : ArrND) (j : Fin 128) : EReal := ∑ k : Fin 50000, z (ix2 k j) * z (ix2 k j)

/-- The three float constants of the cross-correlation: the row count, its predecessor and the additive `ε`. -/
abbrev cN : EReal := Ideal.ofBits .f32 0x47435000#32
abbrev cN1 : EReal := Ideal.ofBits .f32 0x47434F00#32
abbrev cEps : EReal := Ideal.ofBits .f32 0x358637BD#32

/-- The spread `√(max((q − N·m·m)/(N−1), 0)) + ε` of a column from its sum `s` and sum of squares `q`. -/
def spreadStat (s q : EReal) : EReal :=
  Ideal.sqrt (max (Ideal.div (q - (cN * Ideal.div s cN) * Ideal.div s cN) cN1) 0) + cEps

/-- The cross-correlation from the sufficient statistics. -/
def corrStat (G : Fin 128 → Fin 128 → EReal) (s1 s2 q1 q2 : Fin 128 → EReal) (i j : Fin 128) : EReal :=
  Ideal.div (G i j - (cN * Ideal.div (s1 i) cN) * Ideal.div (s2 j) cN)
    ((cN * spreadStat (s1 i) (q1 i)) * spreadStat (s2 j) (q2 j))

/-- A column's mean `(0 + ∑ z)/N`, as the host sum spells it. -/
def meanDirect (z : ArrND) (j : Fin 128) : EReal := Ideal.div (0 + colsum z j) cN

/-- A column's spread `√((0 + ∑ (z − m)²)/(N − 1)) + ε`, the divisor spelt `N − 1` with `1` an exact integer. -/
def spreadDirect (z : ArrND) (j : Fin 128) : EReal :=
  Ideal.sqrt (Ideal.div (0 + ∑ k : Fin 50000, (z (ix2 k j) - meanDirect z j) * (z (ix2 k j) - meanDirect z j))
    (cN - ((1 : ℝ) : EReal))) + cEps

/-- The cross-correlation from the rows themselves. -/
def corrDirect (z w : ArrND) (i j : Fin 128) : EReal :=
  Ideal.div (∑ k : Fin 50000, Ideal.div (z (ix2 k i) - meanDirect z i) (spreadDirect z i)
      * Ideal.div (w (ix2 k j) - meanDirect w j) (spreadDirect w j)) cN

/-- An array is finite when none of its entries is an infinity. -/
def FiniteArr {S : Shape} (z : S.Idx → EReal) : Prop := ∀ i, z i ≠ ⊤ ∧ z i ≠ ⊥

end Cert.GcnCorr

end
-- ==== Proof.DenseLemmas.lean ====
/-
  The dense stage of one graph-convolution layer on ONE block of 5000 rows, read entry by entry.

  A block's payload is `(x0 ⊙ col(x1)) · x2 + row(x3)`, followed in two of the four layers by the positive part:
  `x0` a 5000×128 block of the aggregate, `x1` the 5000×1 block of row scalings broadcast along the lanes, `x2` the
  128×128 weights, `x3` the 1×128 bias broadcast down the rows. At the extended reals the change of format in front
  of the product is the identity and the product is the exact contraction into a zero accumulator, so entry
  `(r, j)` is `(∑ k, (x0[r,k] · x1[r,0]) · x2[k,j]) + x3[0,j]`.
-/
import proofs.«107726_j19937238188633_2_alg».proof.Proof.Gen.KernelIdeal.Skeleton
import proofs.«107726_j19937238188633_2_alg».proof.Proof.Spec
import Idealize.ShloMosaic.Lib.ValueLayout
import Idealize.ShloMosaic.PureOps.Ideal.Laws

noncomputable section

namespace Cert.KernelIdeal.RegionValue

open Idealize.ShloMosaic Idealize.ShloMosaic.ValueIdx Cert.KernelIdeal Cert.KernelIdeal.Gen Cert.GcnCorr

/-- The zero offsets of a whole-block access. -/
theorem hz : (![0, 0] : Fin 2 → Nat) = fun _ => 0 := funext fun a => by fin_cases a <;> rfl

/-- An `[a, 1]` column broadcast along the lanes to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The dense stage on one block, entry by entry. -/
def denseBlk (x0 : Vec Ideal S5000x128 .f32) (x1 : Vec Ideal S5000x1 .f32) (x2 : Vec Ideal S128x128 .f32)
    (x3 : Vec Ideal S1x128 .f32) (r : Fin 5000) (j : Fin 128) : EReal :=
  (∑ k : Fin 128, (x0 (ix2 r k) * x1 (ix2 r (0 : Fin 1))) * x2 (ix2 k j)) + x3 (ix2 (0 : Fin 1) j)

/-- The operand indices of the block product, axis by axis, at any output entry `i` and contraction index `q`: the
    left operand's row is the output's row and its column the contracted position; the right operand's row is the
    contracted position and its column the output's column. -/
theorem dense_lhs0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem dense_lhs1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem dense_rhs0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem dense_rhs1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The block product into the zero accumulator, at entry `(r, j)`: the sum over the 128 contracted positions. -/
theorem dense_matmul_apply (L : FVec Ideal S5000x128 .bf16) (R : FVec Ideal S128x128 .bf16) (r : Fin 5000) (j : Fin 128) :
    matmul dot_S5000x128_S128x128_S5000x128_1_0_0_1_n_n none L R (constant (F := Ideal) S5000x128 .f32 0x00000000#32) (ix2 r j)
      = ∑ k : Fin 128, L (ix2 r k) * R (ix2 k j) := by
  show FloatOps.matmul _ none L R _ (ix2 r j) = _
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r j)
      ((contrEquiv1 dot_S5000x128_S128x128_S5000x128_1_0_0_1_n_n 128 rfl rfl).symm k) = ix2 r k :=
    funext fun a => Fin.ext (by
      match a with
      | ⟨0, _⟩ => exact dense_lhs0 _ _
      | ⟨1, _⟩ => exact (dense_lhs1 _ _).trans hk)
  have er : dot_S5000x128_S128x128_S5000x128_1_0_0_1_n_n.rhsIdx (ix2 r j)
      ((contrEquiv1 dot_S5000x128_S128x128_S5000x128_1_0_0_1_n_n 128 rfl rfl).symm k) = ix2 k j :=
    funext fun a => Fin.ext (by
      match a with
      | ⟨0, _⟩ => exact (dense_rhs0 _ _).trans hk
      | ⟨1, _⟩ => exact dense_rhs1 _ _)
  rw [el, er]

/-- The payload of the layers without the positive part, entry by entry. -/
theorem k1_pay1_apply (x0 : Vec Ideal S5000x128 .f32) (x1 : Vec Ideal S5000x1 .f32) (x2 : Vec Ideal S128x128 .f32)
    (x3 : Vec Ideal S1x128 .f32) (r : Fin 5000) (j : Fin 128) :
    k1_pay1 x0 x1 x2 x3 (ix2 r j) = denseBlk x0 x1 x2 x3 r j := by
  unfold k1_pay1 denseBlk
  simp only [shapeCast_self]
  refine (addf_apply _ _ _).trans ?_
  refine congrArg₂ (· + ·) ?_ ?_
  · refine (dense_matmul_apply _ _ r j).trans (Finset.sum_congr rfl fun k _ => ?_)
    refine congrArg₂ (· * ·) ?_ rfl
    show x0 (ix2 r k) * broadcastTo S5000x128 x1 _ (ix2 r k) = _
    rw [broadcastTo_a1_ab_apply]
  · exact broadcastTo_1b_ab_apply _ _ r j

/-- The four layers share one payload; two of them take its positive part. -/
theorem k3_pay1_eq (x0 : Vec Ideal S5000x128 .f32) (x1 : Vec Ideal S5000x1 .f32) (x2 : Vec Ideal S128x128 .f32)
    (x3 : Vec Ideal S1x128 .f32) : k3_pay1 x0 x1 x2 x3 = k1_pay1 x0 x1 x2 x3 := rfl

theorem k0_pay1_eq (x0 : Vec Ideal S5000x128 .f32) (x1 : Vec Ideal S5000x1 .f32) (x2 : Vec Ideal S128x128 .f32)
    (x3 : Vec Ideal S1x128 .f32) :
    k0_pay1 x0 x1 x2 x3 = maximumf (k1_pay1 x0 x1 x2 x3) (broadcast S5000x128 (Scalar.ofBits (F := Ideal) .f32 0x00000000#32)) := rfl

theorem k2_pay1_eq (x0 : Vec Ideal S5000x128 .f32) (x1 : Vec Ideal S5000x1 .f32) (x2 : Vec Ideal S128x128 .f32)
    (x3 : Vec Ideal S1x128 .f32) : k2_pay1 x0 x1 x2 x3 = k0_pay1 x0 x1 x2 x3 := rfl

theorem k3_pay1_apply (x0 : Vec Ideal S5000x128 .f32) (x1 : Vec Ideal S5000x1 .f32) (x2 : Vec Ideal S128x128 .f32)
    (x3 : Vec Ideal S1x128 .f32) (r : Fin 5000) (j : Fin 128) :
    k3_pay1 x0 x1 x2 x3 (ix2 r j) = denseBlk x0 x1 x2 x3 r j :=
  (congrFun (k3_pay1_eq x0 x1 x2 x3) _).trans (k1_pay1_apply x0 x1 x2 x3 r j)

/-- The payload of the layers with the positive part, entry by entry. -/
theorem k0_pay1_apply (x0 : Vec Ideal S5000x128 .f32) (x1 : Vec Ideal S5000x1 .f32) (x2 : Vec Ideal S128x128 .f32)
    (x3 : Vec Ideal S1x128 .f32) (r : Fin 5000) (j : Fin 128) :
    k0_pay1 x0 x1 x2 x3 (ix2 r j) = max (denseBlk x0 x1 x2 x3 r j) 0 := by
  refine (congrFun (k0_pay1_eq x0 x1 x2 x3) _).trans ?_
  refine (maximumf_apply _ _ _).trans ?_
  refine congrArg₂ max (k1_pay1_apply x0 x1 x2 x3 r j) ?_
  show Ideal.ofBits .f32 0x00000000#32 = 0
  exact Ideal.ofBits_zero_f32

theorem k2_pay1_apply (x0 : Vec Ideal S5000x128 .f32) (x1 : Vec Ideal S5000x1 .f32) (x2 : Vec Ideal S128x128 .f32)
    (x3 : Vec Ideal S1x128 .f32) (r : Fin 5000) (j : Fin 128) :
    k2_pay1 x0 x1 x2 x3 (ix2 r j) = max (denseBlk x0 x1 x2 x3 r j) 0 :=
  (congrFun (k2_pay1_eq x0 x1 x2 x3) _).trans (k0_pay1_apply x0 x1 x2 x3 r j)

end Cert.KernelIdeal.RegionValue

end
-- ==== Proof.Dense0.lean ====
/-
  Layer 0's dense stage, read off the pipeline's frame: what its ten grid points leave in the output array.

  Point `t` stages rows `5000·t … 5000·t + 4999` of the aggregate and of the row scalings, the whole weight matrix and
  the whole bias row, and writes back the dense stage of those rows into the same rows of the output. Entry `(r, j)`
  of that block depends only on row `5000·t + r` of the aggregate and of the scalings, column `j` of the weights
  and entry `j` of the bias, so the block is the restriction of ONE function of the whole arrays; the ten row
  blocks tile the 50000 rows (row `R` is in block `R / 5000`), so the output array ends holding that function.
-/
import proofs.«107726_j19937238188633_2_alg».proof.Proof.Gen.KernelIdeal.Frame
import proofs.«107726_j19937238188633_2_alg».proof.Proof.DenseLemmas
import Idealize.ShloMosaic.Lib.Pipeline.Value

noncomputable section

namespace Cert.KernelIdeal.RegionValue

open Idealize.ShloMosaic Idealize.ShloMosaic.TcCoe Idealize.SL.Sem Cert.KernelIdeal Cert.KernelIdeal.Gen Cert.GcnCorr
open Idealize.ShloMosaic.ValueIdx
open Idealize.ShloMosaic.Pipeline (Dat)

variable (V : (c : Dev nD) → (b : Ref sig .tc) → Buf (Elt Ideal) ((c : Thread nD τ).loc b))

/-- The index maps over the ten grid points: the aggregate's, the scalings' and the output's row block is the
    point's number; the weights and the bias are staged whole. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The aggregate's block at point `t`: its row `r` is row `5000·t + r` of the array. -/
theorem iblk0_0_apply (c : Dev nD) (t : Fin cfg0.N) (r : Fin 5000) (k : Fin 128) (R : Fin 50000)
    (hR : R.val = t.val * 5000 + r.val) :
    (iblk0 V c 0 t : Vec Ideal S5000x128 .f32) (ix2 r k) = (V c main_call0_v38 : ArrND) (ix2 R k) := by
  obtain ⟨e0, e1, -⟩ := idx_facts0 t
  unfold iblk0
  rw [View.read_apply]
  show V c main_call0_v38 (((cfg0.win 0).blk t).view.emb (ix2 r k)) = V c main_call0_v38 (ix2 R k)
  refine congrArg _ (funext fun a => Fin.ext ?_)
  match a with
  | ⟨0, _⟩ => show win0_0.index t (0 : Fin 2) * 5000 + 1 * r.val = R.val; omega
  | ⟨1, _⟩ => show win0_0.index t (1 : Fin 2) * 128 + 1 * k.val = k.val; omega

/-- The scalings' block at point `t`: its row `r` is row `5000·t + r` of the column. -/
theorem iblk0_1_apply (c : Dev nD) (t : Fin cfg0.N) (r : Fin 5000) (R : Fin 50000)
    (hR : R.val = t.val * 5000 + r.val) :
    (iblk0 V c 1 t : Vec Ideal S5000x1 .f32) (ix2 r (0 : Fin 1)) = (V c main_call0_v40 : ArrN1) (ix2 R (0 : Fin 1)) := by
  obtain ⟨-, -, e2, e3, -⟩ := idx_facts0 t
  unfold iblk0
  rw [View.read_apply]
  show V c main_call0_v40 (((cfg0.win 1).blk t).view.emb (ix2 r (0 : Fin 1))) = V c main_call0_v40 (ix2 R (0 : Fin 1))
  refine congrArg _ (funext fun a => Fin.ext ?_)
  match a with
  | ⟨0, _⟩ => show win0_1.index t (0 : Fin 2) * 5000 + 1 * r.val = R.val; omega
  | ⟨1, _⟩ => show win0_1.index t (1 : Fin 2) * 1 + 1 * 0 = 0; omega

/-- The weights' block at every point is the whole matrix. -/
theorem iblk0_2_apply (c : Dev nD) (t : Fin cfg0.N) (k : Fin 128) (j : Fin 128) :
    (iblk0 V c 2 t : Vec Ideal S128x128 .f32) (ix2 k j) = (V c main_arg6 : ArrDD) (ix2 k j) := by
  obtain ⟨-, -, -, -, e4, e5, -⟩ := idx_facts0 t
  unfold iblk0
  rw [View.read_apply]
  show V c main_arg6 (((cfg0.win 2).blk t).view.emb (ix2 k j)) = V c main_arg6 (ix2 k j)
  refine congrArg _ (funext fun a => Fin.ext ?_)
  match a with
  | ⟨0, _⟩ => show win0_2.index t (0 : Fin 2) * 128 + 1 * k.val = k.val; omega
  | ⟨1, _⟩ => show win0_2.index t (1 : Fin 2) * 128 + 1 * j.val = j.val; omega

/-- The bias's block at every point is the whole row. -/
theorem iblk0_3_apply (c : Dev nD) (t : Fin cfg0.N) (j : Fin 128) :
    (iblk0 V c 3 t : Vec Ideal S1x128 .f32) (ix2 (0 : Fin 1) j) = (V c main_call0_v39 : Arr1D) (ix2 (0 : Fin 1) j) := by
  obtain ⟨-, -, -, -, -, -, e6, e7, -⟩ := idx_facts0 t
  unfold iblk0
  rw [View.read_apply]
  show V c main_call0_v39 (((cfg0.win 3).blk t).view.emb (ix2 (0 : Fin 1) j)) = V c main_call0_v39 (ix2 (0 : Fin 1) j)
  refine congrArg _ (funext fun a => Fin.ext ?_)
  match a with
  | ⟨0, _⟩ => show win0_3.index t (0 : Fin 2) * 1 + 1 * 0 = 0; omega
  | ⟨1, _⟩ => show win0_3.index t (1 : Fin 2) * 128 + 1 * j.val = j.val; omega

/-- Entry `(r, j)` of the output's block at point `t` is entry `(5000·t + r, j)` of the output array. -/
theorem emb0_4 (t : Fin cfg0.N) (r : Fin 5000) (j : Fin 128) (R : Fin 50000) (hR : R.val = t.val * 5000 + r.val) :
    ((cfg0.win 4).blk t).view.emb (ix2 r j) = (ix2 R j : S50000x128.Idx) := by
  obtain ⟨-, -, -, -, -, -, -, -, e8, e9⟩ := idx_facts0 t
  refine funext fun a => Fin.ext ?_
  match a with
  | ⟨0, _⟩ => show win0_4.index t (0 : Fin 2) * 5000 + 1 * r.val = R.val; omega
  | ⟨1, _⟩ => show win0_4.index t (1 : Fin 2) * 128 + 1 * j.val = j.val; omega

/-- WHAT POINT `t` WRITES BACK is block `t` of the dense stage of the whole arrays. -/
theorem flushed0_eq (c : Dev nD) (t : Fin cfg0.N) :
    (dat0 (F := Ideal) V c).flushed 4 t = ((cfg0.win 4).blk t).view.read (Elt Ideal)
      (fun i => denseReluWin (V c main_call0_v38) (V c main_call0_v40) (V c main_arg6) (V c main_call0_v39) (i 0) (i 1)) := by
  show (cfg0.win 4).cut (grid0.coords t) ((dat0 V c).after 4 t) = _
  rw [after0_4]
  unfold out0_4
  rw [View.canon_unit_zero hz]
  simp only [View.ld_unit_zero (S := S5000x128) hz, View.ld_unit_zero (S := S5000x1) hz,
    View.ld_unit_zero (S := S128x128) hz, View.ld_unit_zero (S := S1x128) hz]
  refine funext fun (y : S5000x128.Idx) => ?_
  obtain ⟨r, j, rfl⟩ : ∃ (r : Fin 5000) (j : Fin 128), y = ix2 r j := ⟨y 0, y 1, eq_ix2 y⟩
  have hN : cfg0.N = 10 := N_0
  have ht : t.val < 10 := hN ▸ t.isLt
  have hr : r.val < 5000 := r.isLt
  let R : Fin 50000 := ⟨t.val * 5000 + r.val, by omega⟩
  have hR : R.val = t.val * 5000 + r.val := rfl
  rw [View.read_apply, emb0_4 t r j R hR]
  show k0_pay1 (iblk0 V c 0 t) (iblk0 V c 1 t) (iblk0 V c 2 t) (iblk0 V c 3 t) (ix2 r j)
    = denseReluWin (V c main_call0_v38) (V c main_call0_v40) (V c main_arg6) (V c main_call0_v39) R j
  refine (k0_pay1_apply _ _ _ _ r j).trans ?_
  unfold denseReluWin
  refine congrArg (max · 0) ?_
  unfold denseBlk denseWin
  refine congrArg₂ (· + ·) (Finset.sum_congr rfl fun k _ => ?_) (iblk0_3_apply V c t j)
  rw [iblk0_0_apply V c t r k R hR, iblk0_1_apply V c t r R hR, iblk0_2_apply V c t k j]

/-- An index of the output array is in point `t`'s block iff each coordinate is in the block's range on its axis. -/
theorem mem_blk0 (t : Fin cfg0.N) (i : S50000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_call0_v41).slice (win0_4.rect t)).set ↔ _
  rw [View.set_slice_whole, Rect.mem_set_unit]
  exact Iff.rfl

/-- The ten row blocks tile the array: row `R` is in the block of point `R / 5000`. -/
theorem cover0 (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  have hlt : (i 0).val / 5000 < grid0.N := by rw [N_0]; omega
  obtain ⟨-, -, -, -, -, -, -, -, e8, e9⟩ := idx_facts0 ⟨(i 0).val / 5000, hlt⟩
  have e8' : win0_4.index ⟨(i 0).val / 5000, hlt⟩ (0 : Fin 2) = (i 0).val / 5000 := e8
  refine ⟨⟨(i 0).val / 5000, hlt⟩, flush0_4 _, ?_⟩
  rw [mem_blk0]
  intro a
  match a with
  | ⟨0, _⟩ =>
    show win0_4.index ⟨(i 0).val / 5000, _⟩ (0 : Fin 2) * 5000 ≤ (i 0).val
      ∧ (i 0).val < win0_4.index ⟨(i 0).val / 5000, _⟩ (0 : Fin 2) * 5000 + 5000
    omega
  | ⟨1, _⟩ =>
    show win0_4.index ⟨(i 0).val / 5000, _⟩ (1 : Fin 2) * 128 ≤ (i 1).val
      ∧ (i 1).val < win0_4.index ⟨(i 0).val / 5000, _⟩ (1 : Fin 2) * 128 + 128
    omega

/-- THE OUTPUT ARRAY after the region: the dense stage of the arrays the region found, entry by entry. -/
theorem final0 (c : Dev nD) :
    (dat0 (F := Ideal) V c).arrAt 4 cfg0.N
      = fun i => denseReluWin (V c main_call0_v38) (V c main_call0_v40) (V c main_arg6) (V c main_call0_v39) (i 0) (i 1) :=
  (dat0 (F := Ideal) V c).arrAt_eq_of_cover 4 _ (fun t _ => flushed0_eq V c t) cover0

end Cert.KernelIdeal.RegionValue

end
-- ==== Proof.Dense1.lean ====
/-
  Layer 1's dense stage, read off the pipeline's frame: what its ten grid points leave in the output array.

  Point `t` stages rows `5000·t … 5000·t + 4999` of the aggregate and of the row scalings, the whole weight matrix and
  the whole bias row, and writes back the dense stage of those rows into the same rows of the output. Entry `(r, j)`
  of that block depends only on row `5000·t + r` of the aggregate and of the scalings, column `j` of the weights
  and entry `j` of the bias, so the block is the restriction of ONE function of the whole arrays; the ten row
  blocks tile the 50000 rows (row `R` is in block `R / 5000`), so the output array ends holding that function.
-/
import proofs.«107726_j19937238188633_2_alg».proof.Proof.Gen.KernelIdeal.Frame
import proofs.«107726_j19937238188633_2_alg».proof.Proof.DenseLemmas
import Idealize.ShloMosaic.Lib.Pipeline.Value

noncomputable section

namespace Cert.KernelIdeal.RegionValue

open Idealize.ShloMosaic Idealize.ShloMosaic.TcCoe Idealize.SL.Sem Cert.KernelIdeal Cert.KernelIdeal.Gen Cert.GcnCorr
open Idealize.ShloMosaic.ValueIdx
open Idealize.ShloMosaic.Pipeline (Dat)

variable (V : (c : Dev nD) → (b : Ref sig .tc) → Buf (Elt Ideal) ((c : Thread nD τ).loc b))

/-- The index maps over the ten grid points: the aggregate's, the scalings' and the output's row block is the
    point's number; the weights and the bias are staged whole. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The aggregate's block at point `t`: its row `r` is row `5000·t + r` of the array. -/
theorem iblk1_0_apply (c : Dev nD) (t : Fin cfg1.N) (r : Fin 5000) (k : Fin 128) (R : Fin 50000)
    (hR : R.val = t.val * 5000 + r.val) :
    (iblk1 V c 0 t : Vec Ideal S5000x128 .f32) (ix2 r k) = (V c main_call0_v54 : ArrND) (ix2 R k) := by
  obtain ⟨e0, e1, -⟩ := idx_facts1 t
  unfold iblk1
  rw [View.read_apply]
  show V c main_call0_v54 (((cfg1.win 0).blk t).view.emb (ix2 r k)) = V c main_call0_v54 (ix2 R k)
  refine congrArg _ (funext fun a => Fin.ext ?_)
  match a with
  | ⟨0, _⟩ => show win1_0.index t (0 : Fin 2) * 5000 + 1 * r.val = R.val; omega
  | ⟨1, _⟩ => show win1_0.index t (1 : Fin 2) * 128 + 1 * k.val = k.val; omega

/-- The scalings' block at point `t`: its row `r` is row `5000·t + r` of the column. -/
theorem iblk1_1_apply (c : Dev nD) (t : Fin cfg1.N) (r : Fin 5000) (R : Fin 50000)
    (hR : R.val = t.val * 5000 + r.val) :
    (iblk1 V c 1 t : Vec Ideal S5000x1 .f32) (ix2 r (0 : Fin 1)) = (V c main_call0_v56 : ArrN1) (ix2 R (0 : Fin 1)) := by
  obtain ⟨-, -, e2, e3, -⟩ := idx_facts1 t
  unfold iblk1
  rw [View.read_apply]
  show V c main_call0_v56 (((cfg1.win 1).blk t).view.emb (ix2 r (0 : Fin 1))) = V c main_call0_v56 (ix2 R (0 : Fin 1))
  refine congrArg _ (funext fun a => Fin.ext ?_)
  match a with
  | ⟨0, _⟩ => show win1_1.index t (0 : Fin 2) * 5000 + 1 * r.val = R.val; omega
  | ⟨1, _⟩ => show win1_1.index t (1 : Fin 2) * 1 + 1 * 0 = 0; omega

/-- The weights' block at every point is the whole matrix. -/
theorem iblk1_2_apply (c : Dev nD) (t : Fin cfg1.N) (k : Fin 128) (j : Fin 128) :
    (iblk1 V c 2 t : Vec Ideal S128x128 .f32) (ix2 k j) = (V c main_arg8 : ArrDD) (ix2 k j) := by
  obtain ⟨-, -, -, -, e4, e5, -⟩ := idx_facts1 t
  unfold iblk1
  rw [View.read_apply]
  show V c main_arg8 (((cfg1.win 2).blk t).view.emb (ix2 k j)) = V c main_arg8 (ix2 k j)
  refine congrArg _ (funext fun a => Fin.ext ?_)
  match a with
  | ⟨0, _⟩ => show win1_2.index t (0 : Fin 2) * 128 + 1 * k.val = k.val; omega
  | ⟨1, _⟩ => show win1_2.index t (1 : Fin 2) * 128 + 1 * j.val = j.val; omega

/-- The bias's block at every point is the whole row. -/
theorem iblk1_3_apply (c : Dev nD) (t : Fin cfg1.N) (j : Fin 128) :
    (iblk1 V c 3 t : Vec Ideal S1x128 .f32) (ix2 (0 : Fin 1) j) = (V c main_call0_v55 : Arr1D) (ix2 (0 : Fin 1) j) := by
  obtain ⟨-, -, -, -, -, -, e6, e7, -⟩ := idx_facts1 t
  unfold iblk1
  rw [View.read_apply]
  show V c main_call0_v55 (((cfg1.win 3).blk t).view.emb (ix2 (0 : Fin 1) j)) = V c main_call0_v55 (ix2 (0 : Fin 1) j)
  refine congrArg _ (funext fun a => Fin.ext ?_)
  match a with
  | ⟨0, _⟩ => show win1_3.index t (0 : Fin 2) * 1 + 1 * 0 = 0; omega
  | ⟨1, _⟩ => show win1_3.index t (1 : Fin 2) * 128 + 1 * j.val = j.val; omega

/-- Entry `(r, j)` of the output's block at point `t` is entry `(5000·t + r, j)` of the output array. -/
theorem emb1_4 (t : Fin cfg1.N) (r : Fin 5000) (j : Fin 128) (R : Fin 50000) (hR : R.val = t.val * 5000 + r.val) :
    ((cfg1.win 4).blk t).view.emb (ix2 r j) = (ix2 R j : S50000x128.Idx) := by
  obtain ⟨-, -, -, -, -, -, -, -, e8, e9⟩ := idx_facts1 t
  refine funext fun a => Fin.ext ?_
  match a with
  | ⟨0, _⟩ => show win1_4.index t (0 : Fin 2) * 5000 + 1 * r.val = R.val; omega
  | ⟨1, _⟩ => show win1_4.index t (1 : Fin 2) * 128 + 1 * j.val = j.val; omega

/-- WHAT POINT `t` WRITES BACK is block `t` of the dense stage of the whole arrays. -/
theorem flushed1_eq (c : Dev nD) (t : Fin cfg1.N) :
    (dat1 (F := Ideal) V c).flushed 4 t = ((cfg1.win 4).blk t).view.read (Elt Ideal)
      (fun i => denseWin (V c main_call0_v54) (V c main_call0_v56) (V c main_arg8) (V c main_call0_v55) (i 0) (i 1)) := by
  show (cfg1.win 4).cut (grid1.coords t) ((dat1 V c).after 4 t) = _
  rw [after1_4]
  unfold out1_4
  rw [View.canon_unit_zero hz]
  simp only [View.ld_unit_zero (S := S5000x128) hz, View.ld_unit_zero (S := S5000x1) hz,
    View.ld_unit_zero (S := S128x128) hz, View.ld_unit_zero (S := S1x128) hz]
  refine funext fun (y : S5000x128.Idx) => ?_
  obtain ⟨r, j, rfl⟩ : ∃ (r : Fin 5000) (j : Fin 128), y = ix2 r j := ⟨y 0, y 1, eq_ix2 y⟩
  have hN : cfg1.N = 10 := N_1
  have ht : t.val < 10 := hN ▸ t.isLt
  have hr : r.val < 5000 := r.isLt
  let R : Fin 50000 := ⟨t.val * 5000 + r.val, by omega⟩
  have hR : R.val = t.val * 5000 + r.val := rfl
  rw [View.read_apply, emb1_4 t r j R hR]
  show k1_pay1 (iblk1 V c 0 t) (iblk1 V c 1 t) (iblk1 V c 2 t) (iblk1 V c 3 t) (ix2 r j)
    = denseWin (V c main_call0_v54) (V c main_call0_v56) (V c main_arg8) (V c main_call0_v55) R j
  refine (k1_pay1_apply _ _ _ _ r j).trans ?_

  unfold denseBlk denseWin
  refine congrArg₂ (· + ·) (Finset.sum_congr rfl fun k _ => ?_) (iblk1_3_apply V c t j)
  rw [iblk1_0_apply V c t r k R hR, iblk1_1_apply V c t r R hR, iblk1_2_apply V c t k j]

/-- An index of the output array is in point `t`'s block iff each coordinate is in the block's range on its axis. -/
theorem mem_blk1 (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v0_3).slice (win1_4.rect t)).set ↔ _
  rw [View.set_slice_whole, Rect.mem_set_unit]
  exact Iff.rfl

/-- The ten row blocks tile the array: row `R` is in the block of point `R / 5000`. -/
theorem cover1 (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hlt : (i 0).val / 5000 < grid1.N := by rw [N_1]; omega
  obtain ⟨-, -, -, -, -, -, -, -, e8, e9⟩ := idx_facts1 ⟨(i 0).val / 5000, hlt⟩
  have e8' : win1_4.index ⟨(i 0).val / 5000, hlt⟩ (0 : Fin 2) = (i 0).val / 5000 := e8
  refine ⟨⟨(i 0).val / 5000, hlt⟩, flush1_4 _, ?_⟩
  rw [mem_blk1]
  intro a
  match a with
  | ⟨0, _⟩ =>
    show win1_4.index ⟨(i 0).val / 5000, _⟩ (0 : Fin 2) * 5000 ≤ (i 0).val
      ∧ (i 0).val < win1_4.index ⟨(i 0).val / 5000, _⟩ (0 : Fin 2) * 5000 + 5000
    omega
  | ⟨1, _⟩ =>
    show win1_4.index ⟨(i 0).val / 5000, _⟩ (1 : Fin 2) * 128 ≤ (i 1).val
      ∧ (i 1).val < win1_4.index ⟨(i 0).val / 5000, _⟩ (1 : Fin 2) * 128 + 128
    omega

/-- THE OUTPUT ARRAY after the region: the dense stage of the arrays the region found, entry by entry. -/
theorem final1 (c : Dev nD) :
    (dat1 (F := Ideal) V c).arrAt 4 cfg1.N
      = fun i => denseWin (V c main_call0_v54) (V c main_call0_v56) (V c main_arg8) (V c main_call0_v55) (i 0) (i 1) :=
  (dat1 (F := Ideal) V c).arrAt_eq_of_cover 4 _ (fun t _ => flushed1_eq V c t) cover1

end Cert.KernelIdeal.RegionValue

end
-- ==== Proof.KZ.lean ====
/-
  What the idealized kernel program leaves in each of its two embedding arrays, as one function of the graph's edge
  lists, the node features, and the two layers' weights and biases: the second layer's dense stage applied to the
  aggregate of the positive part of the first layer's dense stage applied to the aggregate of the features.
-/
import proofs.«107726_j19937238188633_2_alg».proof.Proof.KChain
import proofs.«107726_j19937238188633_2_alg».proof.Proof.Spec

noncomputable section

namespace Cert.KernelIdeal.Chain

open Idealize.ShloMosaic Cert.KernelIdeal Cert.GcnCorr

/-- The first layer's output: the positive part of the dense stage on the aggregated features. -/
def hK (src dst : IArr (F := Ideal) S800000) (x : FArr (F := Ideal) S50000x128) (W1 : FArr (F := Ideal) S128x128)
    (b1 : FArr (F := Ideal) S128) : FArr (F := Ideal) S50000x128 :=
  fun i => denseReluWin (aggregate src dst (degNorm src) x) (colOfVec (degNorm dst)) W1 (rowOfVec b1) (i 0) (i 1)

/-- The second layer's output: the dense stage on the aggregated first-layer output. -/
def zK (src dst : IArr (F := Ideal) S800000) (x : FArr (F := Ideal) S50000x128) (W1 : FArr (F := Ideal) S128x128)
    (b1 : FArr (F := Ideal) S128) (W2 : FArr (F := Ideal) S128x128) (b2 : FArr (F := Ideal) S128) :
    FArr (F := Ideal) S50000x128 :=
  fun i => denseWin (aggregate src dst (degNorm src) (hK src dst x W1 b1)) (colOfVec (degNorm dst)) W2 (rowOfVec b2) (i 0) (i 1)

/-- The cross-correlation the program's last stretch computes from two embedding arrays' sufficient statistics. -/
def cK (Z1 Z2 : FArr (F := Ideal) S50000x128) : FArr (F := Ideal) S128x128 :=
  corrEpilogue (fun i => gram Z1 Z2 (i 0) (i 1)) (fun i => colsum Z1 (i 1)) (fun i => colsum Z2 (i 1))
    (fun i => colsumsq Z1 (i 1)) (fun i => colsumsq Z2 (i 1))

end Cert.KernelIdeal.Chain

end
-- ==== Proof.KVal1.lean ====
/-
  The first graph's embedding array as the statistics region finds it, read off the program's run.

  The run's buffer contents at each boundary are a fold from the launch memory: a host stretch applies its
  operations; a dense region replaces its output array by what its write-backs leave and keeps every other buffer.
  Walking that fold one boundary at a time from the launch: the first stretch computes the degree normalisations and
  the aggregate of the features; the first dense region leaves the positive part of the dense stage of that
  aggregate; the second stretch aggregates it again; the second dense region leaves the dense stage of that second
  aggregate — the first graph's embeddings —, which the later stretches and regions do not write.
-/
import proofs.«107726_j19937238188633_2_alg».proof.Proof.Gen.KernelIdeal.Frame
import proofs.«107726_j19937238188633_2_alg».proof.Proof.KHost0
import proofs.«107726_j19937238188633_2_alg».proof.Proof.KHost1
import proofs.«107726_j19937238188633_2_alg».proof.Proof.KHost2
import proofs.«107726_j19937238188633_2_alg».proof.Proof.KHost3
import proofs.«107726_j19937238188633_2_alg».proof.Proof.Dense0
import proofs.«107726_j19937238188633_2_alg».proof.Proof.Dense1
import proofs.«107726_j19937238188633_2_alg».proof.Proof.KZ

noncomputable section

namespace Cert.KernelIdeal.KValue

open Idealize.ShloMosaic Idealize.ShloMosaic.TcCoe Idealize.ShloMosaic.StableHlo Idealize.SL.Sem
open Cert.KernelIdeal Cert.KernelIdeal.Gen Cert.KernelIdeal.Chain Cert.KernelIdeal.HostRead Cert.KernelIdeal.RegionValue
open Cert.GcnCorr

variable (m : (ℓ : Loc nD τ sig) → Buf (Elt Ideal) ℓ) (ρ : Dev nD → PrngReg) (c : Dev nD)

/-! ## After the first host stretch -/

/-- A buffer the first stretch does not write holds its launch contents. -/
theorem w1_keep (r : Ref sig .tc) (h : r ∉ hostOps0_W) :
    W1 (F := Ideal) m ρ c (Proc.devRef .tc r) = m ((c : Thread nD τ).loc r) :=
  h0_keep (W0 m ρ c) r h

theorem w1_v9 : W1 (F := Ideal) m ρ c (Proc.devRef .tc main_call0_v9)
    = degNorm (F := Ideal) (m ((c : Thread nD τ).loc main_arg2)) :=
  h0_v9 (W0 m ρ c)

theorem w1_v12 : W1 (F := Ideal) m ρ c (Proc.devRef .tc main_call0_v12)
    = degNorm (F := Ideal) (m ((c : Thread nD τ).loc main_arg3)) :=
  h0_v12 (W0 m ρ c)

theorem w1_v38 : W1 (F := Ideal) m ρ c (Proc.devRef .tc main_call0_v38)
    = aggregate (F := Ideal) (m ((c : Thread nD τ).loc main_arg2)) (m ((c : Thread nD τ).loc main_arg3))
        (degNorm (F := Ideal) (m ((c : Thread nD τ).loc main_arg2))) (m ((c : Thread nD τ).loc main_arg0)) :=
  h0_v38 (W0 m ρ c)

theorem w1_v39 : W1 (F := Ideal) m ρ c (Proc.devRef .tc main_call0_v39)
    = rowOfVec (F := Ideal) (m ((c : Thread nD τ).loc main_arg7)) :=
  h0_v39 (W0 m ρ c)

theorem w1_v40 : W1 (F := Ideal) m ρ c (Proc.devRef .tc main_call0_v40)
    = colOfVec (F := Ideal) (degNorm (F := Ideal) (m ((c : Thread nD τ).loc main_arg3))) :=
  h0_v40 (W0 m ρ c)

/-! ## After the first dense region -/

/-- A buffer that is neither one of the first region's arrays nor written by the first stretch holds its launch
    contents. -/
theorem w2_keep (r : Ref sig .tc) (h0 : ∀ w, Pipeline.arrRef spec0 w ≠ r) (h : r ∉ hostOps0_W) :
    W2 (F := Ideal) m ρ c (Proc.devRef .tc r) = m ((c : Thread nD τ).loc r) :=
  (W2_of_ne m ρ c r h0).trans (w1_keep m ρ c r h)

theorem w2_v9 : W2 (F := Ideal) m ρ c (Proc.devRef .tc main_call0_v9)
    = degNorm (F := Ideal) (m ((c : Thread nD τ).loc main_arg2)) :=
  (W2_of_ne m ρ c main_call0_v9 (by decide)).trans (w1_v9 m ρ c)

theorem w2_v12 : W2 (F := Ideal) m ρ c (Proc.devRef .tc main_call0_v12)
    = degNorm (F := Ideal) (m ((c : Thread nD τ).loc main_arg3)) :=
  (W2_of_ne m ρ c main_call0_v12 (by decide)).trans (w1_v12 m ρ c)

/-- The first region's output array: the first layer's output on the first graph. -/
theorem w2_v41 : W2 (F := Ideal) m ρ c (Proc.devRef .tc main_call0_v41)
    = hK (m ((c : Thread nD τ).loc main_arg2)) (m ((c : Thread nD τ).loc main_arg3)) (m ((c : Thread nD τ).loc main_arg0))
        (m ((c : Thread nD τ).loc main_arg6)) (m ((c : Thread nD τ).loc main_arg7)) := by
  refine (W2_arr m ρ c 4).trans ((final0 (V1 m ρ) c).trans ?_)
  have e38 : V1 (F := Ideal) m ρ c main_call0_v38 = _ := w1_v38 m ρ c
  have e40 : V1 (F := Ideal) m ρ c main_call0_v40 = _ := w1_v40 m ρ c
  have e6 : V1 (F := Ideal) m ρ c main_arg6 = _ := w1_keep m ρ c main_arg6 (by decide)
  have e39 : V1 (F := Ideal) m ρ c main_call0_v39 = _ := w1_v39 m ρ c
  rw [e38, e40, e6, e39]
  rfl

/-! ## After the second host stretch -/

theorem w3_v54 : W3 (F := Ideal) m ρ c (Proc.devRef .tc main_call0_v54)
    = aggregate (F := Ideal) (m ((c : Thread nD τ).loc main_arg2)) (m ((c : Thread nD τ).loc main_arg3))
        (degNorm (F := Ideal) (m ((c : Thread nD τ).loc main_arg2)))
        (hK (m ((c : Thread nD τ).loc main_arg2)) (m ((c : Thread nD τ).loc main_arg3)) (m ((c : Thread nD τ).loc main_arg0))
          (m ((c : Thread nD τ).loc main_arg6)) (m ((c : Thread nD τ).loc main_arg7))) := by
  refine (h1_v54 (W2 m ρ c)).trans ?_
  rw [w2_keep m ρ c main_arg2 (by decide) (by decide), w2_keep m ρ c main_arg3 (by decide) (by decide),
    w2_v9 m ρ c, w2_v41 m ρ c]

theorem w3_v56 : W3 (F := Ideal) m ρ c (Proc.devRef .tc main_call0_v56)
    = colOfVec (F := Ideal) (degNorm (F := Ideal) (m ((c : Thread nD τ).loc main_arg3))) := by
  refine (h1_v56 (W2 m ρ c)).trans ?_
  rw [w2_v12 m ρ c]

theorem w3_v55 : W3 (F := Ideal) m ρ c (Proc.devRef .tc main_call0_v55)
    = rowOfVec (F := Ideal) (m ((c : Thread nD τ).loc main_arg9)) := by
  refine (h1_v55 (W2 m ρ c)).trans ?_
  rw [w2_keep m ρ c main_arg9 (by decide) (by decide)]

theorem w3_arg8 : W3 (F := Ideal) m ρ c (Proc.devRef .tc main_arg8) = m ((c : Thread nD τ).loc main_arg8) :=
  (h1_keep (W2 m ρ c) main_arg8 (by decide)).trans (w2_keep m ρ c main_arg8 (by decide) (by decide))

/-! ## After the second dense region, and on to the statistics region's entry -/

/-- The second region's output array: the first graph's embeddings. -/
theorem w4_z : W4 (F := Ideal) m ρ c (Proc.devRef .tc main_v0_3)
    = zK (m ((c : Thread nD τ).loc main_arg2)) (m ((c : Thread nD τ).loc main_arg3)) (m ((c : Thread nD τ).loc main_arg0))
        (m ((c : Thread nD τ).loc main_arg6)) (m ((c : Thread nD τ).loc main_arg7))
        (m ((c : Thread nD τ).loc main_arg8)) (m ((c : Thread nD τ).loc main_arg9)) := by
  refine (W4_arr m ρ c 4).trans ((final1 (V3 m ρ) c).trans ?_)
  have e54 : V3 (F := Ideal) m ρ c main_call0_v54 = _ := w3_v54 m ρ c
  have e56 : V3 (F := Ideal) m ρ c main_call0_v56 = _ := w3_v56 m ρ c
  have e8 : V3 (F := Ideal) m ρ c main_arg8 = _ := w3_arg8 m ρ c
  have e55 : V3 (F := Ideal) m ρ c main_call0_v55 = _ := w3_v55 m ρ c
  rw [e54, e56, e8, e55]
  rfl

/-- The first graph's embeddings reach the statistics region unchanged: the third and the fourth stretch and
    dense region neither write that array nor have it among their arrays. -/
theorem kz1' : V8 (F := Ideal) m ρ c main_v0_3
    = zK (m ((c : Thread nD τ).loc main_arg2)) (m ((c : Thread nD τ).loc main_arg3)) (m ((c : Thread nD τ).loc main_arg0))
        (m ((c : Thread nD τ).loc main_arg6)) (m ((c : Thread nD τ).loc main_arg7))
        (m ((c : Thread nD τ).loc main_arg8)) (m ((c : Thread nD τ).loc main_arg9)) :=
  calc V8 (F := Ideal) m ρ c main_v0_3
    _ = W7 (F := Ideal) m ρ c (Proc.devRef .tc main_v0_3) := W8_of_ne m ρ c main_v0_3 (by decide)
    _ = W6 (F := Ideal) m ρ c (Proc.devRef .tc main_v0_3) := h3_keep (W6 m ρ c) main_v0_3 (by decide)
    _ = W5 (F := Ideal) m ρ c (Proc.devRef .tc main_v0_3) := W6_of_ne m ρ c main_v0_3 (by decide)
    _ = W4 (F := Ideal) m ρ c (Proc.devRef .tc main_v0_3) := h2_keep (W4 m ρ c) main_v0_3 (by decide)
    _ = _ := w4_z m ρ c

end Cert.KernelIdeal.KValue

end
-- ==== Proof.Dense2.lean ====
/-
  Layer 2's dense stage, read off the pipeline's frame: what its ten grid points leave in the output array.

  Point `t` stages rows `5000·t … 5000·t + 4999` of the aggregate and of the row scalings, the whole weight matrix and
  the whole bias row, and writes back the dense stage of those rows into the same rows of the output. Entry `(r, j)`
  of that block depends only on row `5000·t + r` of the aggregate and of the scalings, column `j` of the weights
  and entry `j` of the bias, so the block is the restriction of ONE function of the whole arrays; the ten row
  blocks tile the 50000 rows (row `R` is in block `R / 5000`), so the output array ends holding that function.
-/
import proofs.«107726_j19937238188633_2_alg».proof.Proof.Gen.KernelIdeal.Frame
import proofs.«107726_j19937238188633_2_alg».proof.Proof.DenseLemmas
import Idealize.ShloMosaic.Lib.Pipeline.Value

noncomputable section

namespace Cert.KernelIdeal.RegionValue

open Idealize.ShloMosaic Idealize.ShloMosaic.TcCoe Idealize.SL.Sem Cert.KernelIdeal Cert.KernelIdeal.Gen Cert.GcnCorr
open Idealize.ShloMosaic.ValueIdx
open Idealize.ShloMosaic.Pipeline (Dat)

variable (V : (c : Dev nD) → (b : Ref sig .tc) → Buf (Elt Ideal) ((c : Thread nD τ).loc b))

/-- The index maps over the ten grid points: the aggregate's, the scalings' and the output's row block is the
    point's number; the weights and the bias are staged whole. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The aggregate's block at point `t`: its row `r` is row `5000·t + r` of the array. -/
theorem iblk2_0_apply (c : Dev nD) (t : Fin cfg2.N) (r : Fin 5000) (k : Fin 128) (R : Fin 50000)
    (hR : R.val = t.val * 5000 + r.val) :
    (iblk2 V c 0 t : Vec Ideal S5000x128 .f32) (ix2 r k) = (V c main_call0_v70 : ArrND) (ix2 R k) := by
  obtain ⟨e0, e1, -⟩ := idx_facts2 t
  unfold iblk2
  rw [View.read_apply]
  show V c main_call0_v70 (((cfg2.win 0).blk t).view.emb (ix2 r k)) = V c main_call0_v70 (ix2 R k)
  refine congrArg _ (funext fun a => Fin.ext ?_)
  match a with
  | ⟨0, _⟩ => show win2_0.index t (0 : Fin 2) * 5000 + 1 * r.val = R.val; omega
  | ⟨1, _⟩ => show win2_0.index t (1 : Fin 2) * 128 + 1 * k.val = k.val; omega

/-- The scalings' block at point `t`: its row `r` is row `5000·t + r` of the column. -/
theorem iblk2_1_apply (c : Dev nD) (t : Fin cfg2.N) (r : Fin 5000) (R : Fin 50000)
    (hR : R.val = t.val * 5000 + r.val) :
    (iblk2 V c 1 t : Vec Ideal S5000x1 .f32) (ix2 r (0 : Fin 1)) = (V c main_call0_v72 : ArrN1) (ix2 R (0 : Fin 1)) := by
  obtain ⟨-, -, e2, e3, -⟩ := idx_facts2 t
  unfold iblk2
  rw [View.read_apply]
  show V c main_call0_v72 (((cfg2.win 1).blk t).view.emb (ix2 r (0 : Fin 1))) = V c main_call0_v72 (ix2 R (0 : Fin 1))
  refine congrArg _ (funext fun a => Fin.ext ?_)
  match a with
  | ⟨0, _⟩ => show win2_1.index t (0 : Fin 2) * 5000 + 1 * r.val = R.val; omega
  | ⟨1, _⟩ => show win2_1.index t (1 : Fin 2) * 1 + 1 * 0 = 0; omega

/-- The weights' block at every point is the whole matrix. -/
theorem iblk2_2_apply (c : Dev nD) (t : Fin cfg2.N) (k : Fin 128) (j : Fin 128) :
    (iblk2 V c 2 t : Vec Ideal S128x128 .f32) (ix2 k j) = (V c main_arg6 : ArrDD) (ix2 k j) := by
  obtain ⟨-, -, -, -, e4, e5, -⟩ := idx_facts2 t
  unfold iblk2
  rw [View.read_apply]
  show V c main_arg6 (((cfg2.win 2).blk t).view.emb (ix2 k j)) = V c main_arg6 (ix2 k j)
  refine congrArg _ (funext fun a => Fin.ext ?_)
  match a with
  | ⟨0, _⟩ => show win2_2.index t (0 : Fin 2) * 128 + 1 * k.val = k.val; omega
  | ⟨1, _⟩ => show win2_2.index t (1 : Fin 2) * 128 + 1 * j.val = j.val; omega

/-- The bias's block at every point is the whole row. -/
theorem iblk2_3_apply (c : Dev nD) (t : Fin cfg2.N) (j : Fin 128) :
    (iblk2 V c 3 t : Vec Ideal S1x128 .f32) (ix2 (0 : Fin 1) j) = (V c main_call0_v71 : Arr1D) (ix2 (0 : Fin 1) j) := by
  obtain ⟨-, -, -, -, -, -, e6, e7, -⟩ := idx_facts2 t
  unfold iblk2
  rw [View.read_apply]
  show V c main_call0_v71 (((cfg2.win 3).blk t).view.emb (ix2 (0 : Fin 1) j)) = V c main_call0_v71 (ix2 (0 : Fin 1) j)
  refine congrArg _ (funext fun a => Fin.ext ?_)
  match a with
  | ⟨0, _⟩ => show win2_3.index t (0 : Fin 2) * 1 + 1 * 0 = 0; omega
  | ⟨1, _⟩ => show win2_3.index t (1 : Fin 2) * 128 + 1 * j.val = j.val; omega

/-- Entry `(r, j)` of the output's block at point `t` is entry `(5000·t + r, j)` of the output array. -/
theorem emb2_4 (t : Fin cfg2.N) (r : Fin 5000) (j : Fin 128) (R : Fin 50000) (hR : R.val = t.val * 5000 + r.val) :
    ((cfg2.win 4).blk t).view.emb (ix2 r j) = (ix2 R j : S50000x128.Idx) := by
  obtain ⟨-, -, -, -, -, -, -, -, e8, e9⟩ := idx_facts2 t
  refine funext fun a => Fin.ext ?_
  match a with
  | ⟨0, _⟩ => show win2_4.index t (0 : Fin 2) * 5000 + 1 * r.val = R.val; omega
  | ⟨1, _⟩ => show win2_4.index t (1 : Fin 2) * 128 + 1 * j.val = j.val; omega

/-- WHAT POINT `t` WRITES BACK is block `t` of the dense stage of the whole arrays. -/
theorem flushed2_eq (c : Dev nD) (t : Fin cfg2.N) :
    (dat2 (F := Ideal) V c).flushed 4 t = ((cfg2.win 4).blk t).view.read (Elt Ideal)
      (fun i => denseReluWin (V c main_call0_v70) (V c main_call0_v72) (V c main_arg6) (V c main_call0_v71) (i 0) (i 1)) := by
  show (cfg2.win 4).cut (grid2.coords t) ((dat2 V c).after 4 t) = _
  rw [after2_4]
  unfold out2_4
  rw [View.canon_unit_zero hz]
  simp only [View.ld_unit_zero (S := S5000x128) hz, View.ld_unit_zero (S := S5000x1) hz,
    View.ld_unit_zero (S := S128x128) hz, View.ld_unit_zero (S := S1x128) hz]
  refine funext fun (y : S5000x128.Idx) => ?_
  obtain ⟨r, j, rfl⟩ : ∃ (r : Fin 5000) (j : Fin 128), y = ix2 r j := ⟨y 0, y 1, eq_ix2 y⟩
  have hN : cfg2.N = 10 := N_2
  have ht : t.val < 10 := hN ▸ t.isLt
  have hr : r.val < 5000 := r.isLt
  let R : Fin 50000 := ⟨t.val * 5000 + r.val, by omega⟩
  have hR : R.val = t.val * 5000 + r.val := rfl
  rw [View.read_apply, emb2_4 t r j R hR]
  show k2_pay1 (iblk2 V c 0 t) (iblk2 V c 1 t) (iblk2 V c 2 t) (iblk2 V c 3 t) (ix2 r j)
    = denseReluWin (V c main_call0_v70) (V c main_call0_v72) (V c main_arg6) (V c main_call0_v71) R j
  refine (k2_pay1_apply _ _ _ _ r j).trans ?_
  unfold denseReluWin
  refine congrArg (max · 0) ?_
  unfold denseBlk denseWin
  refine congrArg₂ (· + ·) (Finset.sum_congr rfl fun k _ => ?_) (iblk2_3_apply V c t j)
  rw [iblk2_0_apply V c t r k R hR, iblk2_1_apply V c t r R hR, iblk2_2_apply V c t k j]

/-- An index of the output array is in point `t`'s block iff each coordinate is in the block's range on its axis. -/
theorem mem_blk2 (t : Fin cfg2.N) (i : S50000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_call0_v73).slice (win2_4.rect t)).set ↔ _
  rw [View.set_slice_whole, Rect.mem_set_unit]
  exact Iff.rfl

/-- The ten row blocks tile the array: row `R` is in the block of point `R / 5000`. -/
theorem cover2 (i : S50000x128.Idx) :
    ∃ t : Fin cfg2.N, (cfg2.win 4).flush t = true ∧ i ∈ ((cfg2.win 4).blk t).view.set := by
  have hi0 : (i 0).val < 50000 := (i 0).isLt
  have hi1 : (i 1).val < 128 := (i 1).isLt
  have hlt : (i 0).val / 5000 < grid2.N := by rw [N_2]; omega
  obtain ⟨-, -, -, -, -, -, -, -, e8, e9⟩ := idx_facts2 ⟨(i 0).val / 5000, hlt⟩
  have e8' : win2_4.index ⟨(i 0).val / 5000, hlt⟩ (0 : Fin 2) = (i 0).val / 5000 := e8
  refine ⟨⟨(i 0).val / 5000, hlt⟩, flush2_4 _, ?_⟩
  rw [mem_blk2]
  intro a
  match a with
  | ⟨0, _⟩ =>
    show win2_4.index ⟨(i 0).val / 5000, _⟩ (0 : Fin 2) * 5000 ≤ (i 0).val
      ∧ (i 0).val < win2_4.index ⟨(i 0).val / 5000, _⟩ (0 : Fin 2) * 5000 + 5000
    omega
  | ⟨1, _⟩ =>
    show win2_4.index ⟨(i 0).val / 5000, _⟩ (1 : Fin 2) * 128 ≤ (i 1).val
      ∧ (i 1).val < win2_4.index ⟨(i 0).val / 5000, _⟩ (1 : Fin 2) * 128 + 128
    omega

/-- THE OUTPUT ARRAY after the region: the dense stage of the arrays the region found, entry by entry. -/
theorem final2 (c : Dev nD) :
    (dat2 (F := Ideal) V c).arrAt 4 cfg2.N
      = fun i => denseReluWin (V c main_call0_v70) (V c main_call0_v72) (V c main_arg6) (V c main_call0_v71) (i 0) (i 1) :=
  (dat2 (F := Ideal) V c).arrAt_eq_of_cover 4 _ (fun t _ => flushed2_eq V c t) cover2

end Cert.KernelIdeal.RegionValue

end
-- ==== Proof.Dense3.lean ====
/-
  Layer 3's dense stage, read off the pipeline's frame: what its ten grid points leave in the output array.

  Point `t` stages rows `5000·t … 5000·t + 4999` of the aggregate and of the row scalings, the whole weight matrix and
  the whole bias row, and writes back the dense stage of those rows into the same rows of the output. Entry `(r, j)`
  of that block depends only on row `5000·t + r` of the aggregate and of the scalings, column `j` of the weights
  and entry `j` of the bias, so the block is the restriction of ONE function of the whole arrays; the ten row
  blocks tile the 50000 rows (row `R` is in block `R / 5000`), so the output array ends holding that function.
-/
import proofs.«107726_j19937238188633_2_alg».proof.Proof.Gen.KernelIdeal.Frame
import proofs.«107726_j19937238188633_2_alg».proof.Proof.DenseLemmas
import Idealize.ShloMosaic.Lib.Pipeline.Value

noncomputable section

namespace Cert.KernelIdeal.RegionValue

open Idealize.ShloMosaic Idealize.ShloMosaic.TcCoe Idealize.SL.Sem Cert.KernelIdeal Cert.KernelIdeal.Gen Cert.GcnCorr
open Idealize.ShloMosaic.ValueIdx
open Idealize.ShloMosaic.Pipeline (Dat)

variable (V : (c : Dev nD) → (b : Ref sig .tc) → Buf (Elt Ideal) ((c : Thread nD τ).loc b))

/-- The index maps over the ten grid points: the aggregate's, the scalings' and the output's row block is the
    point's number; the weights and the bias are staged whole. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The aggregate's block at point `t`: its row `r` is row `5000·t + r` of the array. -/
theorem iblk3_0_apply (c : Dev nD) (t : Fin cfg3.N) (r : Fin 5000) (k : Fin 128) (R : Fin 50000)
    (hR : R.val = t.val * 5000 + r.val) :
    (iblk3 V c 0 t : Vec Ideal S5000x128 .f32) (ix2 r k) = (V c main_call0_v86 : ArrND) (ix2 R k) := by
  obtain ⟨e0, e1, -⟩ := idx_facts3 t
  unfold iblk3
  rw [View.read_apply]
  show V c main_call0_v86 (((cfg3.win 0).blk t).view.emb (ix2 r k)) = V c main_call0_v86 (ix2 R k)
  refine congrArg _ (funext fun a => Fin.ext ?_)
  match a with
  | ⟨0, _⟩ => show win3_0.index t (0 : Fin 2) * 5000 + 1 * r.val = R.val; omega
  | ⟨1, _⟩ => show win3_0.index t (1 : Fin 2) * 128 + 1 * k.val = k.val; omega

/-- The scalings' block at point `t`: its row `r` is row `5000·t + r` of the column. -/
theorem iblk3_1_apply (c : Dev nD) (t : Fin cfg3.N) (r : Fin 5000) (R : Fin 50000)
    (hR : R.val = t.val * 5000 + r.val) :
    (iblk3 V c 1 t : Vec Ideal S5000x1 .f32) (ix2 r (0 : Fin 1)) = (V c main_call0_v88 : ArrN1) (ix2 R (0 : Fin 1)) := by
  obtain ⟨-, -, e2, e3, -⟩ := idx_facts3 t
  unfold iblk3
  rw [View.read_apply]
  show V c main_call0_v88 (((cfg3.win 1).blk t).view.emb (ix2 r (0 : Fin 1))) = V c main_call0_v88 (ix2 R (0 : Fin 1))
  refine congrArg _ (funext fun a => Fin.ext ?_)
  match a with
  | ⟨0, _⟩ => show win3_1.index t (0 : Fin 2) * 5000 + 1 * r.val = R.val; omega
  | ⟨1, _⟩ => show win3_1.index t (1 : Fin 2) * 1 + 1 * 0 = 0; omega

/-- The weights' block at every point is the whole matrix. -/
theorem iblk3_2_apply (c : Dev nD) (t : Fin cfg3.N) (k : Fin 128) (j : Fin 128) :
    (iblk3 V c 2 t : Vec Ideal S128x128 .f32) (ix2 k j) = (V c main_arg8 : ArrDD) (ix2 k j) := by
  obtain ⟨-, -, -, -, e4, e5, -⟩ := idx_facts3 t
  unfold iblk3
  rw [View.read_apply]
  show V c main_arg8 (((cfg3.win 2).blk t).view.emb (ix2 k j)) = V c main_arg8 (ix2 k j)
  refine congrArg _ (funext fun a => Fin.ext ?_)
  match a with
  | ⟨0, _⟩ => show win3_2.index t (0 : Fin 2) * 128 + 1 * k.val = k.val; omega
  | ⟨1, _⟩ => show win3_2.index t (1 : Fin 2) * 128 + 1 * j.val = j.val; omega

/-- The bias's block at every point is the whole row. -/
theorem iblk3_3_apply (c : Dev nD) (t : Fin cfg3.N) (j : Fin 128) :
    (iblk3 V c 3 t : Vec Ideal S1x128 .f32) (ix2 (0 : Fin 1) j) = (V c main_call0_v87 : Arr1D) (ix2 (0 : Fin 1) j) := by
  obtain ⟨-, -, -, -, -, -, e6, e7, -⟩ := idx_facts3 t
  unfold iblk3
  rw [View.read_apply]
  show V c main_call0_v87 (((cfg3.win 3).blk t).view.emb (ix2 (0 : Fin 1) j)) = V c main_call0_v87 (ix2 (0 : Fin 1) j)
  refine congrArg _ (funext fun a => Fin.ext ?_)
  match a with
  | ⟨0, _⟩ => show win3_3.index t (0 : Fin 2) * 1 + 1 * 0 = 0; omega
  | ⟨1, _⟩ => show win3_3.index t (1 : Fin 2) * 128 + 1 * j.val = j.val; omega

/-- Entry `(r, j)` of the output's block at point `t` is entry `(5000·t + r, j)` of the output array. -/
theorem emb3_4 (t : Fin cfg3.N) (r : Fin 5000) (j : Fin 128) (R : Fin 50000) (hR : R.val = t.val * 5000 + r.val) :
    ((cfg3.win 4).blk t).view.emb (ix2 r j) = (ix2 R j : S50000x128.Idx) := by
  obtain ⟨-, -, -, -, -, -, -, -, e8, e9⟩ := idx_facts3 t
  refine funext fun a => Fin.ext ?_
  match a with
  | ⟨0, _⟩ => show win3_4.index t (0 : Fin 2) * 5000 + 1 * r.val = R.val; omega
  | ⟨1, _⟩ => show win3_4.index t (1 : Fin 2) * 128 + 1 * j.val = j.val; omega

/-- WHAT POINT `t` WRITES BACK is block `t` of the dense stage of the whole arrays. -/
theorem flushed3_eq (c : Dev nD) (t : Fin cfg3.N) :
    (dat3 (F := Ideal) V c).flushed 4 t = ((cfg3.win 4).blk t).view.read (Elt Ideal)
      (fun i => denseWin (V c main_call0_v86) (V c main_call0_v88) (V c main_arg8) (V c main_call0_v87) (i 0) (i 1)) := by
  show (cfg3.win 4).cut (grid3.coords t) ((dat3 V c).after 4 t) = _
  rw [after3_4]
  unfold out3_4
  rw [View.canon_unit_zero hz]
  simp only [View.ld_unit_zero (S := S5000x128) hz, View.ld_unit_zero (S := S5000x1) hz,
    View.ld_unit_zero (S := S128x128) hz, View.ld_unit_zero (S := S1x128) hz]
  refine funext fun (y : S5000x128.Idx) => ?_
  obtain ⟨r, j, rfl⟩ : ∃ (r : Fin 5000) (j : Fin 128), y = ix2 r j := ⟨y 0, y 1, eq_ix2 y⟩
  have hN : cfg3.N = 10 := N_3
  have ht : t.val < 10 := hN ▸ t.isLt
  have hr : r.val < 5000 := r.isLt
  let R : Fin 50000 := ⟨t.val * 5000 + r.val, by omega⟩
  have hR : R.val = t.val * 5000 + r.val := rfl
  rw [View.read_apply, emb3_4 t r j R hR]
  show k3_pay1 (iblk3 V c 0 t) (iblk3 V c 1 t) (iblk3 V c 2 t) (iblk3 V c 3 t) (ix2 r j)
    = denseWin (V c main_call0_v86) (V c main_call0_v88) (V c main_arg8) (V c main_call0_v87) R j
  refine (k3_pay1_apply _ _ _ _ r j).trans ?_

  unfold denseBlk denseWin
  refine congrArg₂ (· + ·) (Finset.sum_congr rfl fun k _ => ?_) (iblk3_3_apply V c t j)
  rw [iblk3_0_apply V c t r k R hR, iblk3_1_apply V c t r R hR, iblk3_2_apply V c t k j]

/-- An index of the output array is in point `t`'s block iff each coordinate is in the block's range on its axis. -/
theorem mem_blk3 (t : Fin cfg3.N) (i : S50000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v0_4).slice (win3_4.rect t)).set ↔ _
  rw [View.set_slice_whole, Rect.mem_set_unit]
  exact Iff.rfl

/-- The ten row blocks tile the array: row `R` is in the block of point `R / 5000`. -/
theorem cover3 (i : S50000x128.Idx) :
    ∃ t : Fin cfg3.N, (cfg3.win 4).flush t = true ∧ i ∈ ((cfg3.win 4).blk t).view.set := by
  have hi0 : (i 0).val < 50000 := (i 0).isLt
  have hi1 : (i 1).val < 128 := (i 1).isLt
  have hlt : (i 0).val / 5000 < grid3.N := by rw [N_3]; omega
  obtain ⟨-, -, -, -, -, -, -, -, e8, e9⟩ := idx_facts3 ⟨(i 0).val / 5000, hlt⟩
  have e8' : win3_4.index ⟨(i 0).val / 5000, hlt⟩ (0 : Fin 2) = (i 0).val / 5000 := e8
  refine ⟨⟨(i 0).val / 5000, hlt⟩, flush3_4 _, ?_⟩
  rw [mem_blk3]
  intro a
  match a with
  | ⟨0, _⟩ =>
    show win3_4.index ⟨(i 0).val / 5000, _⟩ (0 : Fin 2) * 5000 ≤ (i 0).val
      ∧ (i 0).val < win3_4.index ⟨(i 0).val / 5000, _⟩ (0 : Fin 2) * 5000 + 5000
    omega
  | ⟨1, _⟩ =>
    show win3_4.index ⟨(i 0).val / 5000, _⟩ (1 : Fin 2) * 128 ≤ (i 1).val
      ∧ (i 1).val < win3_4.index ⟨(i 0).val / 5000, _⟩ (1 : Fin 2) * 128 + 128
    omega

/-- THE OUTPUT ARRAY after the region: the dense stage of the arrays the region found, entry by entry. -/
theorem final3 (c : Dev nD) :
    (dat3 (F := Ideal) V c).arrAt 4 cfg3.N
      = fun i => denseWin (V c main_call0_v86) (V c main_call0_v88) (V c main_arg8) (V c main_call0_v87) (i 0) (i 1) :=
  (dat3 (F := Ideal) V c).arrAt_eq_of_cover 4 _ (fun t _ => flushed3_eq V c t) cover3

end Cert.KernelIdeal.RegionValue

end
-- ==== Proof.KVal2.lean ====
/-
  The second graph's embedding array at the end of the kernel program's fourth dense stage, walked back to the launch
  memory: the stage's output is the dense stage of the arrays it finds; those are the aggregation, over the second
  graph's edges, of the third stage's output, the destination-degree normalisation as a column, the second weight
  matrix and the second bias as a row; the third stage's output is likewise the positive-part dense stage of the
  aggregation of the second graph's features; and no operation or stage in between writes the edge lists, the features,
  the weights, the biases or the two degree normalisations. Hence the array is the two-layer function of the launch
  contents of the second graph's arguments.
-/
import proofs.«107726_j19937238188633_2_alg».proof.Proof.Gen.KernelIdeal.Frame
import proofs.«107726_j19937238188633_2_alg».proof.Proof.KZ
import proofs.«107726_j19937238188633_2_alg».proof.Proof.KHost1
import proofs.«107726_j19937238188633_2_alg».proof.Proof.KHost2
import proofs.«107726_j19937238188633_2_alg».proof.Proof.KHost3
import proofs.«107726_j19937238188633_2_alg».proof.Proof.Dense2
import proofs.«107726_j19937238188633_2_alg».proof.Proof.Dense3

noncomputable section

namespace Cert.KernelIdeal.KValue

open Idealize.ShloMosaic Idealize.ShloMosaic.TcCoe Idealize.ShloMosaic.StableHlo Idealize.SL.Sem Cert.KernelIdeal Cert.KernelIdeal.Gen
  Cert.KernelIdeal.Chain Cert.KernelIdeal.HostRead Cert.KernelIdeal.RegionValue

/-! ## The first host operations: the two degree normalisations of the second graph, and what they leave alone -/

/-- The buffer each of the first host operations writes, in order. -/
abbrev hostOps0_Wg : List (Ref sig .tc) :=
  [main_call0_cst, main_call0_v0, main_call0_cst_0, main_call0_v1, main_call0_v2, main_call0_v3, main_call0_cst_1, main_call0_v4, main_call0_v5, main_call0_v6, main_call0_cst_2, main_call0_v7, main_call0_v8, main_call0_v9, main_call0_cst_3, main_call0_v10, main_call0_v11, main_call0_v12, main_call0_cst_4, main_call0_v13, main_call0_cst_5, main_call0_v14, main_call0_v15, main_call0_v16, main_call0_cst_6, main_call0_v17, main_call0_v18, main_call0_v19, main_call0_cst_7, main_call0_v20, main_call0_v21, main_call0_v22, main_call0_cst_8, main_call0_v23, main_call0_v24, main_call0_v25, main_call0_v26, main_call0_v27, main_call0_v28, main_call0_c, main_call0_v29, main_call0_v30, main_call0_c_9, main_call0_v31, main_call0_v32, main_call0_v33, main_call0_v34, main_call0_v35, main_call0_cst_10, main_call0_v36, main_call0_v37, main_call0_v38, main_call0_v39, main_call0_v40]

set_option maxRecDepth 8192 in
set_option maxHeartbeats 1000000 in
theorem hostOps0_writes_g : (hostOps0 (F := Ideal)).Forall fun op =>
    op.writes ⊆ (hostOps0_Wg.map (Proc.devRef (τ := τ) .tc)).toFinset := by
  simp only [List.Forall]
  repeat' apply And.intro
  all_goals
    simp only [nullary_writes, unary_writes, binary_writes, ternary_writes, reshape_writes, Finset.singleton_subset_iff,
      List.mem_toFinset]
    exact List.mem_map_of_mem (by decide)

/-- A buffer the first host operations do not write keeps its contents through them. -/
theorem h0g_keep (X : Valuation τ sig (Elt Ideal)) (r : Ref sig .tc) (h : r ∉ hostOps0_Wg) :
    after (hostOps0 (F := Ideal)) X (Proc.devRef .tc r) = X (Proc.devRef .tc r) :=
  after_of_writes_sub _ X hostOps0_writes_g h

set_option maxRecDepth 8192 in
set_option maxHeartbeats 400000 in
/-- The second graph's source-degree normalisation. -/
theorem h0g_v22 (X : Valuation τ sig (Elt Ideal)) :
    after (hostOps0 (F := Ideal)) X (Proc.devRef .tc main_call0_v22) = degNorm (F := Ideal) (X (Proc.devRef .tc main_arg4)) := by
  dsimp only [hostOps0]
  after_results_simp
  simp only [Cert.GcnCorr.TRefCast.ofBuf_toBuf]
  exact Cert.GcnCorr.TRefCast.toBuf_eq _ HEq.rfl

set_option maxRecDepth 8192 in
set_option maxHeartbeats 400000 in
/-- The second graph's destination-degree normalisation. -/
theorem h0g_v25 (X : Valuation τ sig (Elt Ideal)) :
    after (hostOps0 (F := Ideal)) X (Proc.devRef .tc main_call0_v25) = degNorm (F := Ideal) (X (Proc.devRef .tc main_arg5)) := by
  dsimp only [hostOps0]
  after_results_simp
  simp only [Cert.GcnCorr.TRefCast.ofBuf_toBuf]
  exact Cert.GcnCorr.TRefCast.toBuf_eq _ HEq.rfl

/-! ## The walk -/

variable (m : (ℓ : Loc nD τ sig) → Buf (Elt Ideal) ℓ) (ρ : Dev nD → PrngReg) (c : Dev nD)

/-- A buffer the first host operations do not write holds its launch contents after them. -/
theorem at1 (r : Ref sig .tc) (k0 : r ∉ hostOps0_Wg) :
    W1 (F := Ideal) m ρ c (Proc.devRef .tc r) = W0 (F := Ideal) m ρ c (Proc.devRef .tc r) := h0g_keep _ r k0

/-- Through the first dense stage, for a buffer that is none of its arrays; then through the next host operations; and so
    on, one boundary at a time, down to the contents after the first host operations. -/
theorem g2 (r : Ref sig .tc) (n0 : ∀ w, Pipeline.arrRef spec0 w ≠ r) :
    W2 (F := Ideal) m ρ c (Proc.devRef .tc r) = W1 (F := Ideal) m ρ c (Proc.devRef .tc r) := W2_of_ne m ρ c r n0
theorem g3 (r : Ref sig .tc) (n0 : ∀ w, Pipeline.arrRef spec0 w ≠ r) (k1 : r ∉ hostOps1_W) :
    W3 (F := Ideal) m ρ c (Proc.devRef .tc r) = W1 (F := Ideal) m ρ c (Proc.devRef .tc r) := (h1_keep (W2 (F := Ideal) m ρ c) r k1).trans (g2 m ρ c r n0)
theorem g4 (r : Ref sig .tc) (n0 : ∀ w, Pipeline.arrRef spec0 w ≠ r) (k1 : r ∉ hostOps1_W)
    (n1 : ∀ w, Pipeline.arrRef spec1 w ≠ r) :
    W4 (F := Ideal) m ρ c (Proc.devRef .tc r) = W1 (F := Ideal) m ρ c (Proc.devRef .tc r) := (W4_of_ne m ρ c r n1).trans (g3 m ρ c r n0 k1)
theorem g5 (r : Ref sig .tc) (n0 : ∀ w, Pipeline.arrRef spec0 w ≠ r) (k1 : r ∉ hostOps1_W)
    (n1 : ∀ w, Pipeline.arrRef spec1 w ≠ r) (k2 : r ∉ hostOps2_W) :
    W5 (F := Ideal) m ρ c (Proc.devRef .tc r) = W1 (F := Ideal) m ρ c (Proc.devRef .tc r) := (h2_keep (W4 (F := Ideal) m ρ c) r k2).trans (g4 m ρ c r n0 k1 n1)
theorem g6 (r : Ref sig .tc) (n0 : ∀ w, Pipeline.arrRef spec0 w ≠ r) (k1 : r ∉ hostOps1_W)
    (n1 : ∀ w, Pipeline.arrRef spec1 w ≠ r) (k2 : r ∉ hostOps2_W) (n2 : ∀ w, Pipeline.arrRef spec2 w ≠ r) :
    W6 (F := Ideal) m ρ c (Proc.devRef .tc r) = W1 (F := Ideal) m ρ c (Proc.devRef .tc r) := (W6_of_ne m ρ c r n2).trans (g5 m ρ c r n0 k1 n1 k2)

/-! The second graph's arguments and the two biases, before the third and before the fourth dense stage's host operations. -/
theorem at4_arg1 : W4 (F := Ideal) m ρ c (Proc.devRef .tc main_arg1) = (m ((c : Thread nD τ).loc main_arg1)) :=
  (g4 m ρ c main_arg1 (by decide) (by decide) (by decide)).trans (at1 m ρ c main_arg1 (by decide))
theorem at4_arg4 : W4 (F := Ideal) m ρ c (Proc.devRef .tc main_arg4) = (m ((c : Thread nD τ).loc main_arg4)) :=
  (g4 m ρ c main_arg4 (by decide) (by decide) (by decide)).trans (at1 m ρ c main_arg4 (by decide))
theorem at4_arg5 : W4 (F := Ideal) m ρ c (Proc.devRef .tc main_arg5) = (m ((c : Thread nD τ).loc main_arg5)) :=
  (g4 m ρ c main_arg5 (by decide) (by decide) (by decide)).trans (at1 m ρ c main_arg5 (by decide))
theorem at4_arg7 : W4 (F := Ideal) m ρ c (Proc.devRef .tc main_arg7) = (m ((c : Thread nD τ).loc main_arg7)) :=
  (g4 m ρ c main_arg7 (by decide) (by decide) (by decide)).trans (at1 m ρ c main_arg7 (by decide))
theorem at6_arg4 : W6 (F := Ideal) m ρ c (Proc.devRef .tc main_arg4) = (m ((c : Thread nD τ).loc main_arg4)) :=
  (g6 m ρ c main_arg4 (by decide) (by decide) (by decide) (by decide) (by decide)).trans (at1 m ρ c main_arg4 (by decide))
theorem at6_arg5 : W6 (F := Ideal) m ρ c (Proc.devRef .tc main_arg5) = (m ((c : Thread nD τ).loc main_arg5)) :=
  (g6 m ρ c main_arg5 (by decide) (by decide) (by decide) (by decide) (by decide)).trans (at1 m ρ c main_arg5 (by decide))
theorem at6_arg9 : W6 (F := Ideal) m ρ c (Proc.devRef .tc main_arg9) = (m ((c : Thread nD τ).loc main_arg9)) :=
  (g6 m ρ c main_arg9 (by decide) (by decide) (by decide) (by decide) (by decide)).trans (at1 m ρ c main_arg9 (by decide))

/-! The two degree normalisations, likewise. -/
theorem at4_v22 : W4 (F := Ideal) m ρ c (Proc.devRef .tc main_call0_v22) = degNorm (F := Ideal) (m ((c : Thread nD τ).loc main_arg4)) :=
  (g4 m ρ c main_call0_v22 (by decide) (by decide) (by decide)).trans (h0g_v22 (W0 (F := Ideal) m ρ c))
theorem at4_v25 : W4 (F := Ideal) m ρ c (Proc.devRef .tc main_call0_v25) = degNorm (F := Ideal) (m ((c : Thread nD τ).loc main_arg5)) :=
  (g4 m ρ c main_call0_v25 (by decide) (by decide) (by decide)).trans (h0g_v25 (W0 (F := Ideal) m ρ c))
theorem at6_v22 : W6 (F := Ideal) m ρ c (Proc.devRef .tc main_call0_v22) = degNorm (F := Ideal) (m ((c : Thread nD τ).loc main_arg4)) :=
  (g6 m ρ c main_call0_v22 (by decide) (by decide) (by decide) (by decide) (by decide)).trans (h0g_v22 (W0 (F := Ideal) m ρ c))
theorem at6_v25 : W6 (F := Ideal) m ρ c (Proc.devRef .tc main_call0_v25) = degNorm (F := Ideal) (m ((c : Thread nD τ).loc main_arg5)) :=
  (g6 m ρ c main_call0_v25 (by decide) (by decide) (by decide) (by decide) (by decide)).trans (h0g_v25 (W0 (F := Ideal) m ρ c))

/-- The first weight matrix before the third stage's host operations: the first stage reads it through its third
    window and leaves it as it found it. -/
theorem at4_arg6 : W4 (F := Ideal) m ρ c (Proc.devRef .tc main_arg6) = (m ((c : Thread nD τ).loc main_arg6)) :=
  calc W4 (F := Ideal) m ρ c (Proc.devRef .tc main_arg6)
    _ = W3 (F := Ideal) m ρ c (Proc.devRef .tc main_arg6) := W4_of_ne m ρ c main_arg6 (by decide)
    _ = W2 (F := Ideal) m ρ c (Proc.devRef .tc main_arg6) := h1_keep (W2 (F := Ideal) m ρ c) main_arg6 (by decide)
    _ = W1 (F := Ideal) m ρ c (Proc.devRef .tc main_arg6) :=
        (W2_arr m ρ c 2).trans (((dat0 (V1 (F := Ideal) m ρ) c).arrAt_in 2 rfl _).trans (A_eq0 (V1 (F := Ideal) m ρ) c 2))
    _ = (m ((c : Thread nD τ).loc main_arg6)) := at1 m ρ c main_arg6 (by decide)

/-- The second weight matrix before the fourth stage's host operations: the second stage reads it through its third
    window and leaves it as it found it. -/
theorem at6_arg8 : W6 (F := Ideal) m ρ c (Proc.devRef .tc main_arg8) = (m ((c : Thread nD τ).loc main_arg8)) :=
  calc W6 (F := Ideal) m ρ c (Proc.devRef .tc main_arg8)
    _ = W5 (F := Ideal) m ρ c (Proc.devRef .tc main_arg8) := W6_of_ne m ρ c main_arg8 (by decide)
    _ = W4 (F := Ideal) m ρ c (Proc.devRef .tc main_arg8) := h2_keep (W4 (F := Ideal) m ρ c) main_arg8 (by decide)
    _ = W3 (F := Ideal) m ρ c (Proc.devRef .tc main_arg8) :=
        (W4_arr m ρ c 2).trans (((dat1 (V3 (F := Ideal) m ρ) c).arrAt_in 2 rfl _).trans (A_eq1 (V3 (F := Ideal) m ρ) c 2))
    _ = W2 (F := Ideal) m ρ c (Proc.devRef .tc main_arg8) := h1_keep (W2 (F := Ideal) m ρ c) main_arg8 (by decide)
    _ = W1 (F := Ideal) m ρ c (Proc.devRef .tc main_arg8) := W2_of_ne m ρ c main_arg8 (by decide)
    _ = (m ((c : Thread nD τ).loc main_arg8)) := at1 m ρ c main_arg8 (by decide)

/-! ### The third dense stage's operands and its output -/

theorem v70_at5 : V5 (F := Ideal) m ρ c main_call0_v70
    = aggregate (F := Ideal) (m ((c : Thread nD τ).loc main_arg4)) (m ((c : Thread nD τ).loc main_arg5)) (degNorm (F := Ideal) (m ((c : Thread nD τ).loc main_arg4))) (m ((c : Thread nD τ).loc main_arg1)) := by
  have h := h2_v70 (W4 (F := Ideal) m ρ c)
  rw [at4_arg4 m ρ c, at4_arg5 m ρ c, at4_v22 m ρ c, at4_arg1 m ρ c] at h
  exact h

theorem v72_at5 : V5 (F := Ideal) m ρ c main_call0_v72 = colOfVec (F := Ideal) (degNorm (F := Ideal) (m ((c : Thread nD τ).loc main_arg5))) := by
  have h := h2_v72 (W4 (F := Ideal) m ρ c)
  rw [at4_v25 m ρ c] at h
  exact h

theorem v71_at5 : V5 (F := Ideal) m ρ c main_call0_v71 = rowOfVec (F := Ideal) (m ((c : Thread nD τ).loc main_arg7)) := by
  have h := h2_v71 (W4 (F := Ideal) m ρ c)
  rw [at4_arg7 m ρ c] at h
  exact h

theorem a6_at5 : V5 (F := Ideal) m ρ c main_arg6 = (m ((c : Thread nD τ).loc main_arg6)) :=
  (h2_keep (W4 (F := Ideal) m ρ c) main_arg6 (by decide)).trans (at4_arg6 m ρ c)

/-- The third stage's output: the first layer on the second graph. -/
theorem v73_at6 : W6 (F := Ideal) m ρ c (Proc.devRef .tc main_call0_v73) = (hK (m ((c : Thread nD τ).loc main_arg4)) (m ((c : Thread nD τ).loc main_arg5)) (m ((c : Thread nD τ).loc main_arg1)) (m ((c : Thread nD τ).loc main_arg6)) (m ((c : Thread nD τ).loc main_arg7))) := by
  refine (W6_arr (F := Ideal) m ρ c 4).trans ?_
  rw [final2 (V5 (F := Ideal) m ρ) c, v70_at5 m ρ c, v72_at5 m ρ c, a6_at5 m ρ c, v71_at5 m ρ c]
  rfl

/-! ### The fourth dense stage's operands and its output -/

theorem v86_at7 : V7 (F := Ideal) m ρ c main_call0_v86
    = aggregate (F := Ideal) (m ((c : Thread nD τ).loc main_arg4)) (m ((c : Thread nD τ).loc main_arg5)) (degNorm (F := Ideal) (m ((c : Thread nD τ).loc main_arg4))) (hK (m ((c : Thread nD τ).loc main_arg4)) (m ((c : Thread nD τ).loc main_arg5)) (m ((c : Thread nD τ).loc main_arg1)) (m ((c : Thread nD τ).loc main_arg6)) (m ((c : Thread nD τ).loc main_arg7))) := by
  have h := h3_v86 (W6 (F := Ideal) m ρ c)
  rw [at6_arg4 m ρ c, at6_arg5 m ρ c, at6_v22 m ρ c, v73_at6 m ρ c] at h
  exact h

theorem v88_at7 : V7 (F := Ideal) m ρ c main_call0_v88 = colOfVec (F := Ideal) (degNorm (F := Ideal) (m ((c : Thread nD τ).loc main_arg5))) := by
  have h := h3_v88 (W6 (F := Ideal) m ρ c)
  rw [at6_v25 m ρ c] at h
  exact h

theorem v87_at7 : V7 (F := Ideal) m ρ c main_call0_v87 = rowOfVec (F := Ideal) (m ((c : Thread nD τ).loc main_arg9)) := by
  have h := h3_v87 (W6 (F := Ideal) m ρ c)
  rw [at6_arg9 m ρ c] at h
  exact h

theorem a8_at7 : V7 (F := Ideal) m ρ c main_arg8 = (m ((c : Thread nD τ).loc main_arg8)) :=
  (h3_keep (W6 (F := Ideal) m ρ c) main_arg8 (by decide)).trans (at6_arg8 m ρ c)

/-- The second embedding array after the fourth dense stage is the two-layer function of the second graph's edge lists
    and features at launch. -/
theorem kz2' : V8 (F := Ideal) m ρ c main_v0_4
    = zK (m ((c : Thread nD τ).loc main_arg4)) (m ((c : Thread nD τ).loc main_arg5)) (m ((c : Thread nD τ).loc main_arg1)) (m ((c : Thread nD τ).loc main_arg6)) (m ((c : Thread nD τ).loc main_arg7)) (m ((c : Thread nD τ).loc main_arg8)) (m ((c : Thread nD τ).loc main_arg9)) := by
  refine (W8_arr (F := Ideal) m ρ c 4).trans ?_
  rw [final3 (V7 (F := Ideal) m ρ) c, v86_at7 m ρ c, v88_at7 m ρ c, a8_at7 m ρ c, v87_at7 m ρ c]
  rfl

end Cert.KernelIdeal.KValue

end
-- ==== Proof.KHost5.lean ====
/-
  The program's last stretch of host operations, read at the buffers it leaves.

  The stretch takes the five statistics the cross-correlation kernel wrote (the Gram matrix, the two rows of
  column sums, the two rows of column sums of squares) and the two offset vectors, and computes, in this order:
  the cross-correlation matrix `C` from the statistics; the mean absolute value of each row and of each column of
  `C`; the logistic gate of each score plus its offset (the row mask and the column mask); and `C` with entry
  `(i, j)` scaled by the row mask at `i` and the column mask at `j`. It writes neither of the two 50000 × 128
  arrays the statistics were taken of, so those end as they were.
-/
import proofs.«107726_j19937238188633_2_alg».proof.Proof.Gen.KernelIdeal.Launch
import proofs.«107726_j19937238188633_2_alg».proof.Proof.KChain
import proofs.«107726_j19937238188633_2_alg».proof.Proof.TRefCast
import Idealize.ShloMosaic.Lib.StableHlo.Run
import Idealize.ShloMosaic.PureOps.Ideal

noncomputable section

namespace Cert.KernelIdeal.HostRead

open Idealize.ShloMosaic Idealize.ShloMosaic.StableHlo Cert.KernelIdeal Cert.KernelIdeal.Gen Cert.KernelIdeal.Chain

variable (X : Valuation τ sig (Elt Ideal))

set_option maxHeartbeats 400000 in
/-- The intermediate matrix the masks are computed from is the cross-correlation. -/
theorem h5_corr : after (hostOps5 (F := Ideal)) X (Proc.devRef .tc main_call0_v130) = (corrEpilogue (F := Ideal) (X (Proc.devRef .tc main_call0_v90_0)) (X (Proc.devRef .tc main_call0_v90_1)) (X (Proc.devRef .tc main_call0_v90_2)) (X (Proc.devRef .tc main_call0_v90_3)) (X (Proc.devRef .tc main_call0_v90_4))) := by
  dsimp only [hostOps5]
  after_results_simp
  simp only [Cert.GcnCorr.TRefCast.ofBuf_toBuf]
  exact Cert.GcnCorr.TRefCast.toBuf_eq _ HEq.rfl

set_option maxHeartbeats 400000 in
/-- The second result: the row mask of the cross-correlation. -/
theorem h5_out1 : after (hostOps5 (F := Ideal)) X (Proc.devRef .tc main_v0_1)
    = rowMask (F := Ideal) (corrEpilogue (F := Ideal) (X (Proc.devRef .tc main_call0_v90_0)) (X (Proc.devRef .tc main_call0_v90_1)) (X (Proc.devRef .tc main_call0_v90_2)) (X (Proc.devRef .tc main_call0_v90_3)) (X (Proc.devRef .tc main_call0_v90_4))) (X (Proc.devRef .tc main_arg10)) := by
  dsimp only [hostOps5]
  after_results_simp
  simp only [Cert.GcnCorr.TRefCast.ofBuf_toBuf]
  exact Cert.GcnCorr.TRefCast.toBuf_eq _ HEq.rfl

set_option maxHeartbeats 400000 in
/-- The third result: the column mask of the cross-correlation. -/
theorem h5_out2 : after (hostOps5 (F := Ideal)) X (Proc.devRef .tc main_v0_2)
    = colMask (F := Ideal) (corrEpilogue (F := Ideal) (X (Proc.devRef .tc main_call0_v90_0)) (X (Proc.devRef .tc main_call0_v90_1)) (X (Proc.devRef .tc main_call0_v90_2)) (X (Proc.devRef .tc main_call0_v90_3)) (X (Proc.devRef .tc main_call0_v90_4))) (X (Proc.devRef .tc main_arg11)) := by
  dsimp only [hostOps5]
  after_results_simp
  simp only [Cert.GcnCorr.TRefCast.ofBuf_toBuf]
  exact Cert.GcnCorr.TRefCast.toBuf_eq _ HEq.rfl

set_option maxHeartbeats 400000 in
/-- The first result: the cross-correlation scaled by the two masks. -/
theorem h5_out0 : after (hostOps5 (F := Ideal)) X (Proc.devRef .tc main_v0_0)
    = maskedC (F := Ideal) (corrEpilogue (F := Ideal) (X (Proc.devRef .tc main_call0_v90_0)) (X (Proc.devRef .tc main_call0_v90_1)) (X (Proc.devRef .tc main_call0_v90_2)) (X (Proc.devRef .tc main_call0_v90_3)) (X (Proc.devRef .tc main_call0_v90_4))) (rowMask (F := Ideal) (corrEpilogue (F := Ideal) (X (Proc.devRef .tc main_call0_v90_0)) (X (Proc.devRef .tc main_call0_v90_1)) (X (Proc.devRef .tc main_call0_v90_2)) (X (Proc.devRef .tc main_call0_v90_3)) (X (Proc.devRef .tc main_call0_v90_4))) (X (Proc.devRef .tc main_arg10)))
        (colMask (F := Ideal) (corrEpilogue (F := Ideal) (X (Proc.devRef .tc main_call0_v90_0)) (X (Proc.devRef .tc main_call0_v90_1)) (X (Proc.devRef .tc main_call0_v90_2)) (X (Proc.devRef .tc main_call0_v90_3)) (X (Proc.devRef .tc main_call0_v90_4))) (X (Proc.devRef .tc main_arg11))) := by
  dsimp only [hostOps5]
  after_results_simp
  simp only [Cert.GcnCorr.TRefCast.ofBuf_toBuf]
  exact Cert.GcnCorr.TRefCast.toBuf_eq _ HEq.rfl

/-- The stretch does not write the first 50000 × 128 array. -/
theorem h5_keep3 : after (hostOps5 (F := Ideal)) X (Proc.devRef .tc main_v0_3) = X (Proc.devRef .tc main_v0_3) :=
  StableHlo.after_of_forall_not_mem (b := Proc.devRef .tc main_v0_3) _ _ (List.forall_iff_forall_mem.mp (by
    simp only [hostOps5, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- The stretch does not write the second 50000 × 128 array. -/
theorem h5_keep4 : after (hostOps5 (F := Ideal)) X (Proc.devRef .tc main_v0_4) = X (Proc.devRef .tc main_v0_4) :=
  StableHlo.after_of_forall_not_mem (b := Proc.devRef .tc main_v0_4) _ _ (List.forall_iff_forall_mem.mp (by
    simp only [hostOps5, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

end Cert.KernelIdeal.HostRead

end
-- ==== Proof.Corr4Pieces.lean ====
/-
  The cross-correlation statistics kernel, one grid point at a time, as pure functions of what the point finds.

  The kernel visits five blocks of 10000 rows of the two 50000×128 arrays z and w. At a block it holds five
  accumulators: the 128×128 matrix G, and four 1×128 rows (the column sums of z and of w, the column sums of
  squares of z and of w). At the first block it first overwrites the five accumulators with zeros; then, at every
  block, it adds to each accumulator the block's contribution: to G the product (z-block)ᵀ·(w-block), to the
  rows the block's column sums (of the entries, of their squares).

  This module says exactly that, for any float instance: what a point of the first kind leaves in each accumulator
  is the update applied to the zero accumulator, and what a point of the other kind leaves is the update applied
  to what the accumulator held. The updates are the payload terms `k4_pay10`, `k4_pay11`, `k4_pay12`,
  `k4_pay1 ∘ (k4_pay13, k4_pay14)`, `k4_pay2 ∘ k4_pay9`; the zeros are `k4_pay3` … `k4_pay7`. Each accumulator is
  written through its whole 128×128 or 1×128 rectangle at zero offsets, so the last store alone decides its
  contents, and a load of a buffer zeroed just before reads the zeros.
-/
import proofs.«107726_j19937238188633_2_alg».proof.Proof.Gen.KernelIdeal.Frame
import Idealize.ShloMosaic.Lib.Pipeline.Value
import Idealize.ShloMosaic.Lib.Tactic

noncomputable section

namespace Cert.KernelIdeal.RegionValue.Corr4

open Idealize.ShloMosaic Idealize.ShloMosaic.TcCoe Idealize.SL.Sem Cert.KernelIdeal Cert.KernelIdeal.Gen

variable {F : FTy → Type} [FloatOps F]

/-- The offsets `(0, 0)` every access of the kernel is made at. -/
theorem zero_offsets : (![0, 0] : Fin 2 → Nat) = fun _ => 0 := funext fun a => by fin_cases a <;> rfl

/-! ## A point after the first: each accumulator receives its update of what it held -/

/-- The matrix accumulator: what it held plus (z-block)ᵀ·(w-block). -/
theorem stepOut_2 (c : Dev nD) (i : grid4.Coords) (a1 : Memref sig .tc .vmem S10000x128 .f32) (h1 : a1.IsWhole)
    (a2 : Memref sig .tc .vmem S10000x128 .f32) (h2 : a2.IsWhole) (a3 : Memref sig .tc .vmem S128x128 .f32) (h3 : a3.IsWhole)
    (a4 : Memref sig .tc .vmem S1x128 .f32) (h4 : a4.IsWhole) (a5 : Memref sig .tc .vmem S1x128 .f32) (h5 : a5.IsWhole)
    (a6 : Memref sig .tc .vmem S1x128 .f32) (h6 : a6.IsWhole) (a7 : Memref sig .tc .vmem S1x128 .f32) (h7 : a7.IsWhole)
    (hc : ¬cond4_0 i) (x0 x1 : Vec F S10000x128 .f32) (xo2 : Vec F S128x128 .f32) (xo3 xo4 xo5 xo6 : Vec F S1x128 .f32) :
    out4_B_2 c i a1 h1 a2 h2 a3 h3 a4 h4 a5 h5 a6 h6 a7 h7 hc x0 x1 xo2 xo3 xo4 xo5 xo6 = k4_pay10 x0 x1 xo2 := by
  unfold out4_B_2
  rw [View.read_writes_eq_canon _ _ _ (cover4_B_2 c i a1 h1 a2 h2 a3 h3 a4 h4 a5 h5 a6 h6 a7 h7 hc x0 x1 xo2 xo3 xo4 xo5 xo6)]
  unfold kernelRun4_B
  dsimp only
  sl_unfold_words
  rw [View.canon_unit_zero (S := S128x128) zero_offsets]
  simp only [View.readAt_eq_ld, h1.read_unread, h2.read_unread, h3.read_unread, h4.read_unread, h5.read_unread,
    h6.read_unread, h7.read_unread, View.ld_unit_zero (S := S10000x128) zero_offsets,
    View.ld_unit_zero (S := S128x128) zero_offsets, View.ld_unit_zero (S := S1x128) zero_offsets]

/-- The column sums of z: what the row held plus the z-block's column sums. -/
theorem stepOut_3 (c : Dev nD) (i : grid4.Coords) (a1 : Memref sig .tc .vmem S10000x128 .f32) (h1 : a1.IsWhole)
    (a2 : Memref sig .tc .vmem S10000x128 .f32) (h2 : a2.IsWhole) (a3 : Memref sig .tc .vmem S128x128 .f32) (h3 : a3.IsWhole)
    (a4 : Memref sig .tc .vmem S1x128 .f32) (h4 : a4.IsWhole) (a5 : Memref sig .tc .vmem S1x128 .f32) (h5 : a5.IsWhole)
    (a6 : Memref sig .tc .vmem S1x128 .f32) (h6 : a6.IsWhole) (a7 : Memref sig .tc .vmem S1x128 .f32) (h7 : a7.IsWhole)
    (hc : ¬cond4_0 i) (x0 x1 : Vec F S10000x128 .f32) (xo2 : Vec F S128x128 .f32) (xo3 xo4 xo5 xo6 : Vec F S1x128 .f32) :
    out4_B_3 c i a1 h1 a2 h2 a3 h3 a4 h4 a5 h5 a6 h6 a7 h7 hc x0 x1 xo2 xo3 xo4 xo5 xo6 = k4_pay11 x0 xo3 := by
  unfold out4_B_3
  rw [View.read_writes_eq_canon _ _ _ (cover4_B_3 c i a1 h1 a2 h2 a3 h3 a4 h4 a5 h5 a6 h6 a7 h7 hc x0 x1 xo2 xo3 xo4 xo5 xo6)]
  unfold kernelRun4_B
  dsimp only
  sl_unfold_words
  rw [View.canon_unit_zero (S := S1x128) zero_offsets]
  simp only [View.readAt_eq_ld, h1.read_unread, h2.read_unread, h3.read_unread, h4.read_unread, h5.read_unread,
    h6.read_unread, h7.read_unread, View.ld_unit_zero (S := S10000x128) zero_offsets,
    View.ld_unit_zero (S := S128x128) zero_offsets, View.ld_unit_zero (S := S1x128) zero_offsets]

/-- The column sums of w: what the row held plus the w-block's column sums. -/
theorem stepOut_4 (c : Dev nD) (i : grid4.Coords) (a1 : Memref sig .tc .vmem S10000x128 .f32) (h1 : a1.IsWhole)
    (a2 : Memref sig .tc .vmem S10000x128 .f32) (h2 : a2.IsWhole) (a3 : Memref sig .tc .vmem S128x128 .f32) (h3 : a3.IsWhole)
    (a4 : Memref sig .tc .vmem S1x128 .f32) (h4 : a4.IsWhole) (a5 : Memref sig .tc .vmem S1x128 .f32) (h5 : a5.IsWhole)
    (a6 : Memref sig .tc .vmem S1x128 .f32) (h6 : a6.IsWhole) (a7 : Memref sig .tc .vmem S1x128 .f32) (h7 : a7.IsWhole)
    (hc : ¬cond4_0 i) (x0 x1 : Vec F S10000x128 .f32) (xo2 : Vec F S128x128 .f32) (xo3 xo4 xo5 xo6 : Vec F S1x128 .f32) :
    out4_B_4 c i a1 h1 a2 h2 a3 h3 a4 h4 a5 h5 a6 h6 a7 h7 hc x0 x1 xo2 xo3 xo4 xo5 xo6 = k4_pay12 x1 xo4 := by
  unfold out4_B_4
  rw [View.read_writes_eq_canon _ _ _ (cover4_B_4 c i a1 h1 a2 h2 a3 h3 a4 h4 a5 h5 a6 h6 a7 h7 hc x0 x1 xo2 xo3 xo4 xo5 xo6)]
  unfold kernelRun4_B
  dsimp only
  sl_unfold_words
  rw [View.canon_unit_zero (S := S1x128) zero_offsets]
  simp only [View.readAt_eq_ld, h1.read_unread, h2.read_unread, h3.read_unread, h4.read_unread, h5.read_unread,
    h6.read_unread, h7.read_unread, View.ld_unit_zero (S := S10000x128) zero_offsets,
    View.ld_unit_zero (S := S128x128) zero_offsets, View.ld_unit_zero (S := S1x128) zero_offsets]

/-- The column sums of squares of z: what the row held plus the column sums of the z-block's squared entries. -/
theorem stepOut_5 (c : Dev nD) (i : grid4.Coords) (a1 : Memref sig .tc .vmem S10000x128 .f32) (h1 : a1.IsWhole)
    (a2 : Memref sig .tc .vmem S10000x128 .f32) (h2 : a2.IsWhole) (a3 : Memref sig .tc .vmem S128x128 .f32) (h3 : a3.IsWhole)
    (a4 : Memref sig .tc .vmem S1x128 .f32) (h4 : a4.IsWhole) (a5 : Memref sig .tc .vmem S1x128 .f32) (h5 : a5.IsWhole)
    (a6 : Memref sig .tc .vmem S1x128 .f32) (h6 : a6.IsWhole) (a7 : Memref sig .tc .vmem S1x128 .f32) (h7 : a7.IsWhole)
    (hc : ¬cond4_0 i) (x0 x1 : Vec F S10000x128 .f32) (xo2 : Vec F S128x128 .f32) (xo3 xo4 xo5 xo6 : Vec F S1x128 .f32) :
    out4_B_5 c i a1 h1 a2 h2 a3 h3 a4 h4 a5 h5 a6 h6 a7 h7 hc x0 x1 xo2 xo3 xo4 xo5 xo6 = k4_pay1 (k4_pay13 xo5) (k4_pay14 x0) := by
  unfold out4_B_5
  rw [View.read_writes_eq_canon _ _ _ (cover4_B_5 c i a1 h1 a2 h2 a3 h3 a4 h4 a5 h5 a6 h6 a7 h7 hc x0 x1 xo2 xo3 xo4 xo5 xo6)]
  unfold kernelRun4_B
  dsimp only
  sl_unfold_words
  rw [View.canon_unit_zero (S := S1x128) zero_offsets]
  simp only [View.readAt_eq_ld, h1.read_unread, h2.read_unread, h3.read_unread, h4.read_unread, h5.read_unread,
    h6.read_unread, h7.read_unread, View.ld_unit_zero (S := S10000x128) zero_offsets,
    View.ld_unit_zero (S := S128x128) zero_offsets, View.ld_unit_zero (S := S1x128) zero_offsets]

/-- The column sums of squares of w: what the row held plus the column sums of the w-block's squared entries. -/
theorem stepOut_6 (c : Dev nD) (i : grid4.Coords) (a1 : Memref sig .tc .vmem S10000x128 .f32) (h1 : a1.IsWhole)
    (a2 : Memref sig .tc .vmem S10000x128 .f32) (h2 : a2.IsWhole) (a3 : Memref sig .tc .vmem S128x128 .f32) (h3 : a3.IsWhole)
    (a4 : Memref sig .tc .vmem S1x128 .f32) (h4 : a4.IsWhole) (a5 : Memref sig .tc .vmem S1x128 .f32) (h5 : a5.IsWhole)
    (a6 : Memref sig .tc .vmem S1x128 .f32) (h6 : a6.IsWhole) (a7 : Memref sig .tc .vmem S1x128 .f32) (h7 : a7.IsWhole)
    (hc : ¬cond4_0 i) (x0 x1 : Vec F S10000x128 .f32) (xo2 : Vec F S128x128 .f32) (xo3 xo4 xo5 xo6 : Vec F S1x128 .f32) :
    out4_B_6 c i a1 h1 a2 h2 a3 h3 a4 h4 a5 h5 a6 h6 a7 h7 hc x0 x1 xo2 xo3 xo4 xo5 xo6 = k4_pay2 (k4_pay9 x1) xo6 := by
  unfold out4_B_6
  rw [View.read_writes_eq_canon _ _ _ (cover4_B_6 c i a1 h1 a2 h2 a3 h3 a4 h4 a5 h5 a6 h6 a7 h7 hc x0 x1 xo2 xo3 xo4 xo5 xo6)]
  unfold kernelRun4_B
  dsimp only
  sl_unfold_words
  rw [View.canon_unit_zero (S := S1x128) zero_offsets]
  simp only [View.readAt_eq_ld, h1.read_unread, h2.read_unread, h3.read_unread, h4.read_unread, h5.read_unread,
    h6.read_unread, h7.read_unread, View.ld_unit_zero (S := S10000x128) zero_offsets,
    View.ld_unit_zero (S := S128x128) zero_offsets, View.ld_unit_zero (S := S1x128) zero_offsets]

/-! ## The first point: each accumulator receives its update of the zeros just stored -/

/-- The matrix accumulator: zeros plus (z-block)ᵀ·(w-block). -/
theorem firstOut_2 (c : Dev nD) (i : grid4.Coords) (a1 : Memref sig .tc .vmem S10000x128 .f32) (h1 : a1.IsWhole)
    (a2 : Memref sig .tc .vmem S10000x128 .f32) (h2 : a2.IsWhole) (a3 : Memref sig .tc .vmem S128x128 .f32) (h3 : a3.IsWhole)
    (a4 : Memref sig .tc .vmem S1x128 .f32) (h4 : a4.IsWhole) (a5 : Memref sig .tc .vmem S1x128 .f32) (h5 : a5.IsWhole)
    (a6 : Memref sig .tc .vmem S1x128 .f32) (h6 : a6.IsWhole) (a7 : Memref sig .tc .vmem S1x128 .f32) (h7 : a7.IsWhole)
    (hc : cond4_0 i) (x0 x1 : Vec F S10000x128 .f32) :
    out4_A_2 c i a1 h1 a2 h2 a3 h3 a4 h4 a5 h5 a6 h6 a7 h7 hc x0 x1 = k4_pay10 x0 x1 (k4_pay3 (F := F)) := by
  unfold out4_A_2
  rw [View.read_writes_eq_canon _ _ _ (cover4_A_2 c i a1 h1 a2 h2 a3 h3 a4 h4 a5 h5 a6 h6 a7 h7 hc x0 x1)]
  unfold kernelRun4_A
  dsimp only
  sl_unfold_words
  rw [View.canon_cons_unit_zero (S := S128x128) zero_offsets, View.readCov_unit_zero (S := S128x128) _ zero_offsets]
  simp only [View.readAt_eq_ld, h1.read_unread, h2.read_unread, h3.read_unread, h4.read_unread, h5.read_unread,
    h6.read_unread, h7.read_unread, View.ld_unit_zero (S := S10000x128) zero_offsets,
    View.ld_unit_zero (S := S128x128) zero_offsets, View.ld_unit_zero (S := S1x128) zero_offsets]

/-- The column sums of z: zeros plus the z-block's column sums. -/
theorem firstOut_3 (c : Dev nD) (i : grid4.Coords) (a1 : Memref sig .tc .vmem S10000x128 .f32) (h1 : a1.IsWhole)
    (a2 : Memref sig .tc .vmem S10000x128 .f32) (h2 : a2.IsWhole) (a3 : Memref sig .tc .vmem S128x128 .f32) (h3 : a3.IsWhole)
    (a4 : Memref sig .tc .vmem S1x128 .f32) (h4 : a4.IsWhole) (a5 : Memref sig .tc .vmem S1x128 .f32) (h5 : a5.IsWhole)
    (a6 : Memref sig .tc .vmem S1x128 .f32) (h6 : a6.IsWhole) (a7 : Memref sig .tc .vmem S1x128 .f32) (h7 : a7.IsWhole)
    (hc : cond4_0 i) (x0 x1 : Vec F S10000x128 .f32) :
    out4_A_3 c i a1 h1 a2 h2 a3 h3 a4 h4 a5 h5 a6 h6 a7 h7 hc x0 x1 = k4_pay11 x0 (k4_pay4 (F := F)) := by
  unfold out4_A_3
  rw [View.read_writes_eq_canon _ _ _ (cover4_A_3 c i a1 h1 a2 h2 a3 h3 a4 h4 a5 h5 a6 h6 a7 h7 hc x0 x1)]
  unfold kernelRun4_A
  dsimp only
  sl_unfold_words
  rw [View.canon_cons_unit_zero (S := S1x128) zero_offsets, View.readCov_unit_zero (S := S1x128) _ zero_offsets]
  simp only [View.readAt_eq_ld, h1.read_unread, h2.read_unread, h3.read_unread, h4.read_unread, h5.read_unread,
    h6.read_unread, h7.read_unread, View.ld_unit_zero (S := S10000x128) zero_offsets,
    View.ld_unit_zero (S := S128x128) zero_offsets, View.ld_unit_zero (S := S1x128) zero_offsets]

/-- The column sums of w: zeros plus the w-block's column sums. -/
theorem firstOut_4 (c : Dev nD) (i : grid4.Coords) (a1 : Memref sig .tc .vmem S10000x128 .f32) (h1 : a1.IsWhole)
    (a2 : Memref sig .tc .vmem S10000x128 .f32) (h2 : a2.IsWhole) (a3 : Memref sig .tc .vmem S128x128 .f32) (h3 : a3.IsWhole)
    (a4 : Memref sig .tc .vmem S1x128 .f32) (h4 : a4.IsWhole) (a5 : Memref sig .tc .vmem S1x128 .f32) (h5 : a5.IsWhole)
    (a6 : Memref sig .tc .vmem S1x128 .f32) (h6 : a6.IsWhole) (a7 : Memref sig .tc .vmem S1x128 .f32) (h7 : a7.IsWhole)
    (hc : cond4_0 i) (x0 x1 : Vec F S10000x128 .f32) :
    out4_A_4 c i a1 h1 a2 h2 a3 h3 a4 h4 a5 h5 a6 h6 a7 h7 hc x0 x1 = k4_pay12 x1 (k4_pay5 (F := F)) := by
  unfold out4_A_4
  rw [View.read_writes_eq_canon _ _ _ (cover4_A_4 c i a1 h1 a2 h2 a3 h3 a4 h4 a5 h5 a6 h6 a7 h7 hc x0 x1)]
  unfold kernelRun4_A
  dsimp only
  sl_unfold_words
  rw [View.canon_cons_unit_zero (S := S1x128) zero_offsets, View.readCov_unit_zero (S := S1x128) _ zero_offsets]
  simp only [View.readAt_eq_ld, h1.read_unread, h2.read_unread, h3.read_unread, h4.read_unread, h5.read_unread,
    h6.read_unread, h7.read_unread, View.ld_unit_zero (S := S10000x128) zero_offsets,
    View.ld_unit_zero (S := S128x128) zero_offsets, View.ld_unit_zero (S := S1x128) zero_offsets]

/-- The column sums of squares of z: zeros plus the column sums of the z-block's squared entries. -/
theorem firstOut_5 (c : Dev nD) (i : grid4.Coords) (a1 : Memref sig .tc .vmem S10000x128 .f32) (h1 : a1.IsWhole)
    (a2 : Memref sig .tc .vmem S10000x128 .f32) (h2 : a2.IsWhole) (a3 : Memref sig .tc .vmem S128x128 .f32) (h3 : a3.IsWhole)
    (a4 : Memref sig .tc .vmem S1x128 .f32) (h4 : a4.IsWhole) (a5 : Memref sig .tc .vmem S1x128 .f32) (h5 : a5.IsWhole)
    (a6 : Memref sig .tc .vmem S1x128 .f32) (h6 : a6.IsWhole) (a7 : Memref sig .tc .vmem S1x128 .f32) (h7 : a7.IsWhole)
    (hc : cond4_0 i) (x0 x1 : Vec F S10000x128 .f32) :
    out4_A_5 c i a1 h1 a2 h2 a3 h3 a4 h4 a5 h5 a6 h6 a7 h7 hc x0 x1 = k4_pay1 (k4_pay13 (k4_pay6 (F := F))) (k4_pay14 x0) := by
  unfold out4_A_5
  rw [View.read_writes_eq_canon _ _ _ (cover4_A_5 c i a1 h1 a2 h2 a3 h3 a4 h4 a5 h5 a6 h6 a7 h7 hc x0 x1)]
  unfold kernelRun4_A
  dsimp only
  sl_unfold_words
  rw [View.canon_cons_unit_zero (S := S1x128) zero_offsets, View.readCov_unit_zero (S := S1x128) _ zero_offsets]
  simp only [View.readAt_eq_ld, h1.read_unread, h2.read_unread, h3.read_unread, h4.read_unread, h5.read_unread,
    h6.read_unread, h7.read_unread, View.ld_unit_zero (S := S10000x128) zero_offsets,
    View.ld_unit_zero (S := S128x128) zero_offsets, View.ld_unit_zero (S := S1x128) zero_offsets]

/-- The column sums of squares of w: zeros plus the column sums of the w-block's squared entries. -/
theorem firstOut_6 (c : Dev nD) (i : grid4.Coords) (a1 : Memref sig .tc .vmem S10000x128 .f32) (h1 : a1.IsWhole)
    (a2 : Memref sig .tc .vmem S10000x128 .f32) (h2 : a2.IsWhole) (a3 : Memref sig .tc .vmem S128x128 .f32) (h3 : a3.IsWhole)
    (a4 : Memref sig .tc .vmem S1x128 .f32) (h4 : a4.IsWhole) (a5 : Memref sig .tc .vmem S1x128 .f32) (h5 : a5.IsWhole)
    (a6 : Memref sig .tc .vmem S1x128 .f32) (h6 : a6.IsWhole) (a7 : Memref sig .tc .vmem S1x128 .f32) (h7 : a7.IsWhole)
    (hc : cond4_0 i) (x0 x1 : Vec F S10000x128 .f32) :
    out4_A_6 c i a1 h1 a2 h2 a3 h3 a4 h4 a5 h5 a6 h6 a7 h7 hc x0 x1 = k4_pay2 (k4_pay9 x1) (k4_pay7 (F := F)) := by
  unfold out4_A_6
  rw [View.read_writes_eq_canon _ _ _ (cover4_A_6 c i a1 h1 a2 h2 a3 h3 a4 h4 a5 h5 a6 h6 a7 h7 hc x0 x1)]
  unfold kernelRun4_A
  dsimp only
  sl_unfold_words
  rw [View.canon_cons_unit_zero (S := S1x128) zero_offsets, View.readCov_unit_zero (S := S1x128) _ zero_offsets]
  simp only [View.readAt_eq_ld, h1.read_unread, h2.read_unread, h3.read_unread, h4.read_unread, h5.read_unread,
    h6.read_unread, h7.read_unread, View.ld_unit_zero (S := S10000x128) zero_offsets,
    View.ld_unit_zero (S := S128x128) zero_offsets, View.ld_unit_zero (S := S1x128) zero_offsets]

end Cert.KernelIdeal.RegionValue.Corr4

end
-- ==== Proof.Corr4Step.lean ====
/-
  The five accumulators of the cross-correlation statistics kernel after each block, as a recursion over the
  blocks in terms of the updates alone.

  After the first block (and any block whose number is a multiple of 5 — on the five-block grid only the first)
  every accumulator holds its update of the zeros; after any other block it holds its update of what it held
  after the block before. The updates read the block of rows the point's two input windows hold.
-/
import proofs.«107726_j19937238188633_2_alg».proof.Proof.Corr4Pieces

noncomputable section

namespace Cert.KernelIdeal.RegionValue.Corr4

open Idealize.ShloMosaic Idealize.ShloMosaic.TcCoe Idealize.SL.Sem Cert.KernelIdeal Cert.KernelIdeal.Gen

variable {F : FTy → Type} [FloatOps F]
variable (V : (c : Dev nD) → (b : Ref sig .tc) → Buf (Elt F) ((c : Thread nD τ).loc b))

/-- The accumulators after the block before block `t` (after block 0 itself when `t` is the first). -/
abbrev prevOuts (c : Dev nD) (t : Fin cfg4.N) :
    Vec F S128x128 .f32 × Vec F S1x128 .f32 × Vec F S1x128 .f32 × Vec F S1x128 .f32 × Vec F S1x128 .f32 :=
  outsAt4 V c (t.val - 1) (Nat.lt_of_le_of_lt (Nat.sub_le _ _) t.isLt)

/-- After a block that starts a run: every accumulator is its update of the zeros. -/
theorem outsAt_first (c : Dev nD) (t : Fin cfg4.N) (h0 : t.val % 5 = 0) :
    outsAt4 V c t.val t.isLt =
      (k4_pay10 (iblk4 V c 0 t) (iblk4 V c 1 t) (k4_pay3 (F := F)),
       k4_pay11 (iblk4 V c 0 t) (k4_pay4 (F := F)),
       k4_pay12 (iblk4 V c 1 t) (k4_pay5 (F := F)),
       k4_pay1 (k4_pay13 (k4_pay6 (F := F))) (k4_pay14 (iblk4 V c 0 t)),
       k4_pay2 (k4_pay9 (iblk4 V c 1 t)) (k4_pay7 (F := F))) :=
  (outsAt4_A V c t h0).trans
    (congrArg₂ Prod.mk (firstOut_2 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) ((hcond4_0 t).mpr h0) (iblk4 V c 0 t) (iblk4 V c 1 t))
      (congrArg₂ Prod.mk (firstOut_3 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) ((hcond4_0 t).mpr h0) (iblk4 V c 0 t) (iblk4 V c 1 t))
        (congrArg₂ Prod.mk (firstOut_4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) ((hcond4_0 t).mpr h0) (iblk4 V c 0 t) (iblk4 V c 1 t))
          (congrArg₂ Prod.mk (firstOut_5 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) ((hcond4_0 t).mpr h0) (iblk4 V c 0 t) (iblk4 V c 1 t))
            (firstOut_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) ((hcond4_0 t).mpr h0) (iblk4 V c 0 t) (iblk4 V c 1 t))))))

/-- After any other block: every accumulator is its update of what it held after the block before. -/
theorem outsAt_step (c : Dev nD) (t : Fin cfg4.N) (h0 : ¬t.val % 5 = 0) :
    outsAt4 V c t.val t.isLt =
      (k4_pay10 (iblk4 V c 0 t) (iblk4 V c 1 t) (prevOuts V c t).1,
       k4_pay11 (iblk4 V c 0 t) (prevOuts V c t).2.1,
       k4_pay12 (iblk4 V c 1 t) (prevOuts V c t).2.2.1,
       k4_pay1 (k4_pay13 (prevOuts V c t).2.2.2.1) (k4_pay14 (iblk4 V c 0 t)),
       k4_pay2 (k4_pay9 (iblk4 V c 1 t)) (prevOuts V c t).2.2.2.2) :=
  (outsAt4_B V c t h0).trans
    (congrArg₂ Prod.mk (stepOut_2 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (fun h => h0 ((hcond4_0 t).mp h)) (iblk4 V c 0 t) (iblk4 V c 1 t) (prevOuts V c t).1 (prevOuts V c t).2.1 (prevOuts V c t).2.2.1 (prevOuts V c t).2.2.2.1 (prevOuts V c t).2.2.2.2)
      (congrArg₂ Prod.mk (stepOut_3 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (fun h => h0 ((hcond4_0 t).mp h)) (iblk4 V c 0 t) (iblk4 V c 1 t) (prevOuts V c t).1 (prevOuts V c t).2.1 (prevOuts V c t).2.2.1 (prevOuts V c t).2.2.2.1 (prevOuts V c t).2.2.2.2)
        (congrArg₂ Prod.mk (stepOut_4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (fun h => h0 ((hcond4_0 t).mp h)) (iblk4 V c 0 t) (iblk4 V c 1 t) (prevOuts V c t).1 (prevOuts V c t).2.1 (prevOuts V c t).2.2.1 (prevOuts V c t).2.2.2.1 (prevOuts V c t).2.2.2.2)
          (congrArg₂ Prod.mk (stepOut_5 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (fun h => h0 ((hcond4_0 t).mp h)) (iblk4 V c 0 t) (iblk4 V c 1 t) (prevOuts V c t).1 (prevOuts V c t).2.1 (prevOuts V c t).2.2.1 (prevOuts V c t).2.2.2.1 (prevOuts V c t).2.2.2.2)
            (stepOut_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (fun h => h0 ((hcond4_0 t).mp h)) (iblk4 V c 0 t) (iblk4 V c 1 t) (prevOuts V c t).1 (prevOuts V c t).2.1 (prevOuts V c t).2.2.1 (prevOuts V c t).2.2.2.1 (prevOuts V c t).2.2.2.2)))))

end Cert.KernelIdeal.RegionValue.Corr4

end
-- ==== Proof.Corr4Payload.lean ====
/-
  The updates of the cross-correlation statistics kernel, read entry by entry over the extended reals.

  For a block of 10000 rows `z`, `w` (each 10000×128) and an accumulator's previous contents:
    * the matrix update at `(i, j)` is the previous entry plus `∑ k, z[k,i] · w[k,j]` — the matrix unit contracts the
      row axis of both operands, the narrowing of the operands to the 16-bit format is the identity on extended
      reals, and the product is accumulated into a zero matrix before being added;
    * the column-sum updates at `(0, j)` are the previous entry plus `∑ k, z[k,j]` (a reduction over the row axis
      into a 128-vector, then laid out as one row);
    * the sum-of-squares updates at `(0, j)` are the previous entry plus `∑ k, z[k,j] · z[k,j]`;
    * the stored zeros are the extended real `0` at every entry.
-/
import proofs.«107726_j19937238188633_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.RegionValue.Corr4

open Idealize.ShloMosaic Idealize.ShloMosaic.ValueIdx Cert.KernelIdeal Cert.KernelIdeal.Gen

/-! ## The layout no-ops -/

variable {F : FTy → Type} [FloatOps F]

/-- A block cast to its own shape is the block. -/
theorem pay8_eq (v : Vec F S10000x128 .f32) : k4_pay8 v = v := by
  unfold k4_pay8; exact shapeCast_self v _

/-- A block cast to its own shape is the block. -/
theorem pay9_eq (v : Vec F S10000x128 .f32) : k4_pay9 v = v := by
  unfold k4_pay9; exact shapeCast_self v _

/-- A row cast to its own shape is the row. -/
theorem pay13_eq (v : Vec F S1x128 .f32) : k4_pay13 v = v := by
  unfold k4_pay13; exact shapeCast_self v _

/-! ## The matrix unit's contraction over the row axis -/

/-- The dimension numbers of `(z-block)ᵀ · (w-block)`: both operands contracted on axis 0. -/
abbrev gramDims : DotDims S10000x128 S10000x128 S128x128 := dot_S10000x128_S10000x128_S128x128_0_0_1_1_n_n

theorem gram_lhs_0 (i : S128x128.Idx) (q : gramDims.contr.Idx) :
    (gramDims.lhsIdx i q 0).val = (q ⟨0, by decide⟩).val := gramDims.lhsIdx_val_of_single rfl i q

theorem gram_lhs_1 (i : S128x128.Idx) (q : gramDims.contr.Idx) : (gramDims.lhsIdx i q 1).val = (i 0).val := by
  unfold DotDims.lhsIdx
  rw [dif_neg (show ¬(1 : Fin S10000x128.rank) ∈ gramDims.lhsBatch by decide),
    dif_pos (show (1 : Fin S10000x128.rank) ∈ gramDims.lhsNonContracting by decide)]
  rfl

theorem gram_rhs_0 (i : S128x128.Idx) (q : gramDims.contr.Idx) :
    (gramDims.rhsIdx i q 0).val = (q ⟨0, by decide⟩).val := gramDims.rhsIdx_val_of_single rfl i q

theorem gram_rhs_1 (i : S128x128.Idx) (q : gramDims.contr.Idx) : (gramDims.rhsIdx i q 1).val = (i 1).val := by
  unfold DotDims.rhsIdx
  rw [dif_neg (show ¬(1 : Fin S10000x128.rank) ∈ gramDims.rhsBatch by decide),
    dif_pos (show (1 : Fin S10000x128.rank) ∈ gramDims.rhsNonContracting by decide)]
  rfl

/-- The product of two blocks accumulated into zeros, at `(i, j)`: `∑ k, z[k,i] · w[k,j]`. -/
theorem blockGram_apply (z w : FVec Ideal S10000x128 .bf16) (i j : Fin 128) :
    FloatOps.matmul gramDims none z w (constant S128x128 .f32 0x00000000#32) (ix2 i j)
      = ∑ k : Fin 10000, z (ix2 k i) * w (ix2 k j) := by
  rw [Ideal.matmul_constant_zero_apply, ← Equiv.sum_comp (contrEquiv1 gramDims 10000 rfl rfl).symm]
  refine Finset.sum_congr rfl fun k _ => ?_
  have hk := contrEquiv1_symm_val gramDims 10000 rfl rfl k
  have el : gramDims.lhsIdx (ix2 i j) ((contrEquiv1 gramDims 10000 rfl rfl).symm k) = ix2 k i := funext fun a => Fin.ext (by
    match a with
    | ⟨0, _⟩ => exact (gram_lhs_0 _ _).trans hk
    | ⟨1, _⟩ => exact gram_lhs_1 _ _)
  have er : gramDims.rhsIdx (ix2 i j) ((contrEquiv1 gramDims 10000 rfl rfl).symm k) = ix2 k j := funext fun a => Fin.ext (by
    match a with
    | ⟨0, _⟩ => exact (gram_rhs_0 _ _).trans hk
    | ⟨1, _⟩ => exact gram_rhs_1 _ _)
  rw [el, er]

/-- The matrix update at `(i, j)`: the previous entry plus the block's `∑ k, z[k,i] · w[k,j]`. -/
theorem gramStep_apply (z w : FVec Ideal S10000x128 .f32) (g : FVec Ideal S128x128 .f32) (i j : Fin 128) :
    k4_pay10 (F := Ideal) z w g (ix2 i j) = g (ix2 i j) + ∑ k : Fin 10000, z (ix2 k i) * w (ix2 k j) := by
  unfold k4_pay10
  refine (addf_apply _ _ _).trans ?_
  refine congrArg₂ (· + ·) (congrFun (shapeCast_self g _) _) ?_
  refine (blockGram_apply _ _ i j).trans ?_
  refine Finset.sum_congr rfl fun k _ => ?_
  refine congrArg₂ (· * ·) ?_ ?_
  · exact (truncf_apply (ψ := .bf16) (k4_pay8 (F := Ideal) z) bitsLt_bf16_f32 (ix2 k i)).trans (congrFun (pay8_eq (F := Ideal) z) (ix2 k i))
  · exact (truncf_apply (ψ := .bf16) (k4_pay9 (F := Ideal) w) bitsLt_bf16_f32 (ix2 k j)).trans (congrFun (pay9_eq (F := Ideal) w) (ix2 k j))

/-! ## The reductions over the row axis -/

/-- A sum over the row axis of a block, at column `j`: `∑ k, x[k,j]`. -/
theorem blockColsum_apply (x : FVec Ideal S10000x128 .f32) (hφ : FKind.Formats .f32)
    (hacc : (0x00000000#32 : BitVec 32) = 0x00000000#32) (j : Fin 128) :
    multiReduction .add [0] S128 x 0x00000000#32 reduces_S10000x128_S128 hφ hacc (ix1 j) = ∑ k : Fin 10000, x (ix2 k j) := by
  refine (Ideal.multiReduction_add_single x 0x00000000#32 reduces_S10000x128_S128 hφ hacc (ix1 j)).trans ?_
  refine Finset.sum_congr rfl fun k _ => congrArg x ?_
  funext a
  match a with
  | ⟨0, _⟩ => rfl
  | ⟨1, _⟩ => rfl

/-- The column-sum update of the first array's row at `(u, j)`: the previous entry plus `∑ k, z[k,j]`. -/
theorem sumStepZ_apply (z : FVec Ideal S10000x128 .f32) (s : FVec Ideal S1x128 .f32) (u : Fin 1) (j : Fin 128) :
    k4_pay11 (F := Ideal) z s (ix2 u j) = s (ix2 u j) + ∑ k : Fin 10000, z (ix2 k j) := by
  unfold k4_pay11
  dsimp only
  refine (addf_apply _ _ _).trans ?_
  refine congrArg₂ (· + ·) (congrFun (shapeCast_self s _) _) ?_
  refine (shapeCast_a_1a_apply _ _ u j).trans ?_
  refine (blockColsum_apply _ _ _ j).trans ?_
  exact Finset.sum_congr rfl fun k _ => congrFun (pay8_eq (F := Ideal) z) _

/-- The column-sum update of the second array's row at `(u, j)`: the previous entry plus `∑ k, w[k,j]`. -/
theorem sumStepW_apply (w : FVec Ideal S10000x128 .f32) (s : FVec Ideal S1x128 .f32) (u : Fin 1) (j : Fin 128) :
    k4_pay12 (F := Ideal) w s (ix2 u j) = s (ix2 u j) + ∑ k : Fin 10000, w (ix2 k j) := by
  unfold k4_pay12
  dsimp only
  refine (addf_apply _ _ _).trans ?_
  refine congrArg₂ (· + ·) (congrFun (shapeCast_self s _) _) ?_
  refine (shapeCast_a_1a_apply _ _ u j).trans ?_
  refine (blockColsum_apply _ _ _ j).trans ?_
  exact Finset.sum_congr rfl fun k _ => congrFun (pay9_eq (F := Ideal) w) _

/-- The sum-of-squares update of the first array's row at `(u, j)`: the previous entry plus `∑ k, z[k,j]²`. -/
theorem sqStepZ_apply (z : FVec Ideal S10000x128 .f32) (q : FVec Ideal S1x128 .f32) (u : Fin 1) (j : Fin 128) :
    k4_pay1 (F := Ideal) (k4_pay13 q) (k4_pay14 z) (ix2 u j) = q (ix2 u j) + ∑ k : Fin 10000, z (ix2 k j) * z (ix2 k j) := by
  unfold k4_pay1 k4_pay14
  dsimp only
  refine (addf_apply _ _ _).trans ?_
  refine congrArg₂ (· + ·) (congrFun (pay13_eq (F := Ideal) q) _) ?_
  refine (shapeCast_a_1a_apply _ _ u j).trans ?_
  refine (blockColsum_apply _ _ _ j).trans ?_
  refine Finset.sum_congr rfl fun k _ => ?_
  refine (mulf_apply _ _ _).trans ?_
  exact congrArg₂ (· * ·) (congrFun (pay8_eq (F := Ideal) z) _) (congrFun (pay8_eq (F := Ideal) z) _)

/-- The sum-of-squares update of the second array's row at `(u, j)`: the previous entry plus `∑ k, w[k,j]²`. -/
theorem sqStepW_apply (w : FVec Ideal S10000x128 .f32) (q : FVec Ideal S1x128 .f32) (u : Fin 1) (j : Fin 128) :
    k4_pay2 (F := Ideal) (k4_pay9 w) q (ix2 u j) = q (ix2 u j) + ∑ k : Fin 10000, w (ix2 k j) * w (ix2 k j) := by
  unfold k4_pay2
  dsimp only
  refine (addf_apply _ _ _).trans ?_
  refine congrArg₂ (· + ·) (congrFun (shapeCast_self q _) _) ?_
  refine (shapeCast_a_1a_apply _ _ u j).trans ?_
  refine (blockColsum_apply _ _ _ j).trans ?_
  refine Finset.sum_congr rfl fun k _ => ?_
  refine (mulf_apply _ _ _).trans ?_
  exact congrArg₂ (· * ·) (congrFun (pay9_eq (F := Ideal) w) _) (congrFun (pay9_eq (F := Ideal) w) _)

/-! ## The zeros -/

/-- The stored zero matrix is `0` at every entry. -/
theorem zeroG_apply (y : S128x128.Idx) : k4_pay3 (F := Ideal) y = 0 := Ideal.ofBits_zero_f32
/-- The stored zero rows are `0` at every entry. -/
theorem zeroS1_apply (y : S1x128.Idx) : k4_pay4 (F := Ideal) y = 0 := Ideal.ofBits_zero_f32
theorem zeroS2_apply (y : S1x128.Idx) : k4_pay5 (F := Ideal) y = 0 := Ideal.ofBits_zero_f32
theorem zeroQ1_apply (y : S1x128.Idx) : k4_pay6 (F := Ideal) y = 0 := Ideal.ofBits_zero_f32
theorem zeroQ2_apply (y : S1x128.Idx) : k4_pay7 (F := Ideal) y = 0 := Ideal.ofBits_zero_f32

end Cert.KernelIdeal.RegionValue.Corr4

end
-- ==== Proof.Corr4Sums.lean ====
/-
  Sums over the 50000 rows, taken a block of rows at a time.

  The three statistics `gram`, `colsum`, `colsumsq` are sums over all 50000 rows. Here the same sums are taken over
  the first `n` rows only, for any natural `n` (a row past the end contributes `0`), so that
    * the sum over no rows is `0`;
    * the sum over the first `n + 10000` rows is the sum over the first `n` rows plus the sum over the next 10000;
    * the sum over the first 50000 rows is the full statistic.
  Only commutativity and associativity of addition of extended reals are used (through `Finset.sum`): nothing is
  assumed finite.
-/
import proofs.«107726_j19937238188633_2_alg».proof.Proof.Spec

noncomputable section

namespace Cert.KernelIdeal.RegionValue.Corr4

open Idealize.ShloMosaic Idealize.ShloMosaic.ValueIdx Cert.GcnCorr

/-- Entry `(n, j)` of a 50000×128 array, for any natural `n`: `0` past the last row. -/
def rowAt (z : ArrND) (n : ℕ) (j : Fin 128) : EReal := if h : n < 50000 then z (ix2 ⟨n, h⟩ j) else 0

/-- Inside the array `rowAt` is the entry. -/
theorem rowAt_of_lt (z : ArrND) {n : ℕ} (h : n < 50000) (j : Fin 128) : rowAt z n j = z (ix2 ⟨n, h⟩ j) := dif_pos h

/-- `∑ r < n, z[r,i] · w[r,j]`. -/
def gramUpTo (z w : ArrND) (n : ℕ) (i j : Fin 128) : EReal := ∑ r ∈ Finset.range n, rowAt z r i * rowAt w r j

/-- `∑ r < n, z[r,j]`. -/
def colsumUpTo (z : ArrND) (n : ℕ) (j : Fin 128) : EReal := ∑ r ∈ Finset.range n, rowAt z r j

/-- `∑ r < n, z[r,j]²`. -/
def colsumsqUpTo (z : ArrND) (n : ℕ) (j : Fin 128) : EReal := ∑ r ∈ Finset.range n, rowAt z r j * rowAt z r j

/-- A sum over the first `n + 10000` naturals splits after `n`, the tail indexed by `Fin 10000`. -/
theorem sum_range_add_block (f : ℕ → EReal) (n : ℕ) :
    ∑ r ∈ Finset.range (n + 10000), f r = ∑ r ∈ Finset.range n, f r + ∑ k : Fin 10000, f (n + k.val) := by
  rw [Finset.sum_range_add, Fin.sum_univ_eq_sum_range (fun r => f (n + r)) 10000]

/-- A sum over `Fin 50000` is the sum over the first 50000 naturals of the entries. -/
theorem sum_rows_eq (f : Fin 50000 → EReal) (g : ℕ → EReal) (hg : ∀ (r : ℕ) (h : r < 50000), g r = f ⟨r, h⟩) :
    ∑ r ∈ Finset.range 50000, g r = ∑ k : Fin 50000, f k := by
  rw [Finset.sum_fin_eq_sum_range]
  refine Finset.sum_congr rfl fun r hr => ?_
  have h := Finset.mem_range.mp hr
  rw [dif_pos h, hg r h]

theorem gramUpTo_zero (z w : ArrND) (i j : Fin 128) : gramUpTo z w 0 i j = 0 := Finset.sum_range_zero _
theorem colsumUpTo_zero (z : ArrND) (j : Fin 128) : colsumUpTo z 0 j = 0 := Finset.sum_range_zero _
theorem colsumsqUpTo_zero (z : ArrND) (j : Fin 128) : colsumsqUpTo z 0 j = 0 := Finset.sum_range_zero _

theorem gramUpTo_block (z w : ArrND) (n : ℕ) (i j : Fin 128) :
    gramUpTo z w (n + 10000) i j = gramUpTo z w n i j + ∑ k : Fin 10000, rowAt z (n + k.val) i * rowAt w (n + k.val) j :=
  sum_range_add_block (fun r => rowAt z r i * rowAt w r j) n

theorem colsumUpTo_block (z : ArrND) (n : ℕ) (j : Fin 128) :
    colsumUpTo z (n + 10000) j = colsumUpTo z n j + ∑ k : Fin 10000, rowAt z (n + k.val) j :=
  sum_range_add_block (fun r => rowAt z r j) n

theorem colsumsqUpTo_block (z : ArrND) (n : ℕ) (j : Fin 128) :
    colsumsqUpTo z (n + 10000) j = colsumsqUpTo z n j + ∑ k : Fin 10000, rowAt z (n + k.val) j * rowAt z (n + k.val) j :=
  sum_range_add_block (fun r => rowAt z r j * rowAt z r j) n

theorem gramUpTo_all (z w : ArrND) (i j : Fin 128) : gramUpTo z w 50000 i j = gram z w i j :=
  sum_rows_eq (fun k => z (ix2 k i) * w (ix2 k j)) _ fun r h => by rw [rowAt_of_lt z h, rowAt_of_lt w h]

theorem colsumUpTo_all (z : ArrND) (j : Fin 128) : colsumUpTo z 50000 j = colsum z j :=
  sum_rows_eq (fun k => z (ix2 k j)) _ fun r h => rowAt_of_lt z h j

theorem colsumsqUpTo_all (z : ArrND) (j : Fin 128) : colsumsqUpTo z 50000 j = colsumsq z j :=
  sum_rows_eq (fun k => z (ix2 k j) * z (ix2 k j)) _ fun r h => by rw [rowAt_of_lt z h]

end Cert.KernelIdeal.RegionValue.Corr4

end
-- ==== Proof.Corr4Invariant.lean ====
/-
  What the five accumulators of the cross-correlation statistics kernel hold after each block of rows.

  Block `t` (`t = 0, …, 4`) of the two input windows is rows `10000·t … 10000·t + 9999` of the two 50000×128 arrays
  `z`, `w`. After block `t` the accumulators hold the statistics of the first `10000·(t + 1)` rows:
  `G[i,j] = ∑ r < 10000(t+1), z[r,i]·w[r,j]`, the column sums and the column sums of squares likewise. The first
  block starts from stored zeros (`0 + x = x`), every later block adds its rows' contribution to what the block
  before left; the induction is over the block number.
-/
import proofs.«107726_j19937238188633_2_alg».proof.Proof.Corr4Step
import proofs.«107726_j19937238188633_2_alg».proof.Proof.Corr4Payload
import proofs.«107726_j19937238188633_2_alg».proof.Proof.Corr4Sums

noncomputable section

namespace Cert.KernelIdeal.RegionValue.Corr4

open Idealize.ShloMosaic Idealize.ShloMosaic.TcCoe Idealize.ShloMosaic.ValueIdx Idealize.SL.Sem
open Cert.KernelIdeal Cert.KernelIdeal.Gen Cert.GcnCorr

variable (V : (c : Dev nD) → (b : Ref sig .tc) → Buf (Elt Ideal) ((c : Thread nD τ).loc b))

/-! ## The input blocks are runs of 10000 rows -/

/-- Entry `(k, j)` of the first array's block `t` is entry `(10000·t + k, j)` of the array. -/
theorem zblock_apply (c : Dev nD) (t : Fin cfg4.N) (k : Fin 10000) (j : Fin 128) :
    (iblk4 (F := Ideal) V c 0 t : FVec Ideal S10000x128 .f32) (ix2 k j) = rowAt (V c main_v0_3) (10000 * t.val + k.val) j := by
  have hi : win4_0.index t 0 = t.val ∧ win4_0.index t 1 = 0 := by
    rcases fin_N4 t with rfl | rfl | rfl | rfl | rfl <;> decide
  have ht : t.val < 5 := lt_of_lt_of_eq t.isLt N_4
  have hk : k.val < 10000 := k.isLt
  have hlt : 10000 * t.val + k.val < 50000 := by omega
  rw [rowAt_of_lt _ hlt]
  unfold iblk4
  rw [View.read_apply]
  show V c main_v0_3 _ = V c main_v0_3 _
  refine congrArg (V c main_v0_3) ?_
  funext a
  apply Fin.ext
  match a with
  | ⟨0, _⟩ => show win4_0.index t 0 * 10000 + 1 * k.val = 10000 * t.val + k.val; rw [hi.1]; omega
  | ⟨1, _⟩ => show win4_0.index t 1 * 128 + 1 * j.val = j.val; rw [hi.2]; omega

/-- Entry `(k, j)` of the second array's block `t` is entry `(10000·t + k, j)` of the array. -/
theorem wblock_apply (c : Dev nD) (t : Fin cfg4.N) (k : Fin 10000) (j : Fin 128) :
    (iblk4 (F := Ideal) V c 1 t : FVec Ideal S10000x128 .f32) (ix2 k j) = rowAt (V c main_v0_4) (10000 * t.val + k.val) j := by
  have hi : win4_1.index t 0 = t.val ∧ win4_1.index t 1 = 0 := by
    rcases fin_N4 t with rfl | rfl | rfl | rfl | rfl <;> decide
  have ht : t.val < 5 := lt_of_lt_of_eq t.isLt N_4
  have hk : k.val < 10000 := k.isLt
  have hlt : 10000 * t.val + k.val < 50000 := by omega
  rw [rowAt_of_lt _ hlt]
  unfold iblk4
  rw [View.read_apply]
  show V c main_v0_4 _ = V c main_v0_4 _
  refine congrArg (V c main_v0_4) ?_
  funext a
  apply Fin.ext
  match a with
  | ⟨0, _⟩ => show win4_1.index t 0 * 10000 + 1 * k.val = 10000 * t.val + k.val; rw [hi.1]; omega
  | ⟨1, _⟩ => show win4_1.index t 1 * 128 + 1 * j.val = j.val; rw [hi.2]; omega

/-! ## One block's update of an accumulator that holds the statistic of the rows before the block -/

/-- The matrix accumulator. -/
theorem gram_update (c : Dev nD) (t : Fin cfg4.N) (g : FVec Ideal S128x128 .f32) (i j : Fin 128)
    (hg : g (ix2 i j) = gramUpTo (V c main_v0_3) (V c main_v0_4) (10000 * t.val) i j) :
    k4_pay10 (F := Ideal) (iblk4 V c 0 t) (iblk4 V c 1 t) g (ix2 i j)
      = gramUpTo (V c main_v0_3) (V c main_v0_4) (10000 * t.val + 10000) i j := by
  refine (gramStep_apply (iblk4 V c 0 t) (iblk4 V c 1 t) g i j).trans ?_
  rw [hg, gramUpTo_block]
  exact congrArg (gramUpTo (V c main_v0_3) (V c main_v0_4) (10000 * t.val) i j + ·)
    (Finset.sum_congr rfl fun k _ => congrArg₂ (· * ·) (zblock_apply V c t k i) (wblock_apply V c t k j))

/-- The column sums of the first array. -/
theorem sumZ_update (c : Dev nD) (t : Fin cfg4.N) (s : FVec Ideal S1x128 .f32) (u : Fin 1) (j : Fin 128)
    (hs : s (ix2 u j) = colsumUpTo (V c main_v0_3) (10000 * t.val) j) :
    k4_pay11 (F := Ideal) (iblk4 V c 0 t) s (ix2 u j) = colsumUpTo (V c main_v0_3) (10000 * t.val + 10000) j := by
  refine (sumStepZ_apply (iblk4 V c 0 t) s u j).trans ?_
  rw [hs, colsumUpTo_block]
  exact congrArg (colsumUpTo (V c main_v0_3) (10000 * t.val) j + ·)
    (Finset.sum_congr rfl fun k _ => zblock_apply V c t k j)

/-- The column sums of the second array. -/
theorem sumW_update (c : Dev nD) (t : Fin cfg4.N) (s : FVec Ideal S1x128 .f32) (u : Fin 1) (j : Fin 128)
    (hs : s (ix2 u j) = colsumUpTo (V c main_v0_4) (10000 * t.val) j) :
    k4_pay12 (F := Ideal) (iblk4 V c 1 t) s (ix2 u j) = colsumUpTo (V c main_v0_4) (10000 * t.val + 10000) j := by
  refine (sumStepW_apply (iblk4 V c 1 t) s u j).trans ?_
  rw [hs, colsumUpTo_block]
  exact congrArg (colsumUpTo (V c main_v0_4) (10000 * t.val) j + ·)
    (Finset.sum_congr rfl fun k _ => wblock_apply V c t k j)

/-- The column sums of squares of the first array. -/
theorem sqZ_update (c : Dev nD) (t : Fin cfg4.N) (q : FVec Ideal S1x128 .f32) (u : Fin 1) (j : Fin 128)
    (hq : q (ix2 u j) = colsumsqUpTo (V c main_v0_3) (10000 * t.val) j) :
    k4_pay1 (F := Ideal) (k4_pay13 q) (k4_pay14 (iblk4 V c 0 t)) (ix2 u j)
      = colsumsqUpTo (V c main_v0_3) (10000 * t.val + 10000) j := by
  refine (sqStepZ_apply (iblk4 V c 0 t) q u j).trans ?_
  rw [hq, colsumsqUpTo_block]
  exact congrArg (colsumsqUpTo (V c main_v0_3) (10000 * t.val) j + ·)
    (Finset.sum_congr rfl fun k _ => congrArg₂ (· * ·) (zblock_apply V c t k j) (zblock_apply V c t k j))

/-- The column sums of squares of the second array. -/
theorem sqW_update (c : Dev nD) (t : Fin cfg4.N) (q : FVec Ideal S1x128 .f32) (u : Fin 1) (j : Fin 128)
    (hq : q (ix2 u j) = colsumsqUpTo (V c main_v0_4) (10000 * t.val) j) :
    k4_pay2 (F := Ideal) (k4_pay9 (iblk4 V c 1 t)) q (ix2 u j)
      = colsumsqUpTo (V c main_v0_4) (10000 * t.val + 10000) j := by
  refine (sqStepW_apply (iblk4 V c 1 t) q u j).trans ?_
  rw [hq, colsumsqUpTo_block]
  exact congrArg (colsumsqUpTo (V c main_v0_4) (10000 * t.val) j + ·)
    (Finset.sum_congr rfl fun k _ => congrArg₂ (· * ·) (wblock_apply V c t k j) (wblock_apply V c t k j))

/-! ## The invariant -/

/-- After block `n` the accumulators hold the statistics of the first `10000·n + 10000` rows. -/
def StatsUpTo (c : Dev nD) (n : ℕ) (h : n < cfg4.N) : Prop :=
  (∀ i j : Fin 128, (outsAt4 V c n h).1 (ix2 i j) = gramUpTo (V c main_v0_3) (V c main_v0_4) (10000 * n + 10000) i j) ∧
  (∀ (u : Fin 1) (j : Fin 128), (outsAt4 V c n h).2.1 (ix2 u j) = colsumUpTo (V c main_v0_3) (10000 * n + 10000) j) ∧
  (∀ (u : Fin 1) (j : Fin 128), (outsAt4 V c n h).2.2.1 (ix2 u j) = colsumUpTo (V c main_v0_4) (10000 * n + 10000) j) ∧
  (∀ (u : Fin 1) (j : Fin 128), (outsAt4 V c n h).2.2.2.1 (ix2 u j) = colsumsqUpTo (V c main_v0_3) (10000 * n + 10000) j) ∧
  (∀ (u : Fin 1) (j : Fin 128), (outsAt4 V c n h).2.2.2.2 (ix2 u j) = colsumsqUpTo (V c main_v0_4) (10000 * n + 10000) j)

/-- The invariant holds after every block: by induction on the block number. -/
theorem statsUpTo (c : Dev nD) : ∀ (n : ℕ) (h : n < cfg4.N), StatsUpTo V c n h
  | 0, h => by
    have e := outsAt_first V c ⟨0, h⟩ rfl
    refine ⟨fun i j => ?_, fun u j => ?_, fun u j => ?_, fun u j => ?_, fun u j => ?_⟩
    · exact (congrFun (congrArg (fun p => p.1) e) (ix2 i j)).trans
        (gram_update V c ⟨0, h⟩ k4_pay3 i j ((zeroG_apply _).trans (gramUpTo_zero _ _ i j).symm))
    · exact (congrFun (congrArg (fun p => p.2.1) e) (ix2 u j)).trans
        (sumZ_update V c ⟨0, h⟩ k4_pay4 u j ((zeroS1_apply _).trans (colsumUpTo_zero _ j).symm))
    · exact (congrFun (congrArg (fun p => p.2.2.1) e) (ix2 u j)).trans
        (sumW_update V c ⟨0, h⟩ k4_pay5 u j ((zeroS2_apply _).trans (colsumUpTo_zero _ j).symm))
    · exact (congrFun (congrArg (fun p => p.2.2.2.1) e) (ix2 u j)).trans
        (sqZ_update V c ⟨0, h⟩ k4_pay6 u j ((zeroQ1_apply _).trans (colsumsqUpTo_zero _ j).symm))
    · exact (congrFun (congrArg (fun p => p.2.2.2.2) e) (ix2 u j)).trans
        (sqW_update V c ⟨0, h⟩ k4_pay7 u j ((zeroQ2_apply _).trans (colsumsqUpTo_zero _ j).symm))
  | n + 1, h => by
    have h5 : n + 1 < 5 := lt_of_lt_of_eq h N_4
    have hB : ¬(⟨n + 1, h⟩ : Fin cfg4.N).val % 5 = 0 := by dsimp only; omega
    have e := outsAt_step V c ⟨n + 1, h⟩ hB
    have ih := statsUpTo c n (Nat.lt_of_succ_lt h)
    have hm : 10000 * n + 10000 = 10000 * (n + 1) := by omega
    refine ⟨fun i j => ?_, fun u j => ?_, fun u j => ?_, fun u j => ?_, fun u j => ?_⟩
    · exact (congrFun (congrArg (fun p => p.1) e) (ix2 i j)).trans
        (gram_update V c ⟨n + 1, h⟩ (prevOuts V c ⟨n + 1, h⟩).1 i j
          ((ih.1 i j).trans (congrArg (fun m => gramUpTo (V c main_v0_3) (V c main_v0_4) m i j) hm)))
    · exact (congrFun (congrArg (fun p => p.2.1) e) (ix2 u j)).trans
        (sumZ_update V c ⟨n + 1, h⟩ (prevOuts V c ⟨n + 1, h⟩).2.1 u j
          ((ih.2.1 u j).trans (congrArg (fun m => colsumUpTo (V c main_v0_3) m j) hm)))
    · exact (congrFun (congrArg (fun p => p.2.2.1) e) (ix2 u j)).trans
        (sumW_update V c ⟨n + 1, h⟩ (prevOuts V c ⟨n + 1, h⟩).2.2.1 u j
          ((ih.2.2.1 u j).trans (congrArg (fun m => colsumUpTo (V c main_v0_4) m j) hm)))
    · exact (congrFun (congrArg (fun p => p.2.2.2.1) e) (ix2 u j)).trans
        (sqZ_update V c ⟨n + 1, h⟩ (prevOuts V c ⟨n + 1, h⟩).2.2.2.1 u j
          ((ih.2.2.2.1 u j).trans (congrArg (fun m => colsumsqUpTo (V c main_v0_3) m j) hm)))
    · exact (congrFun (congrArg (fun p => p.2.2.2.2) e) (ix2 u j)).trans
        (sqW_update V c ⟨n + 1, h⟩ (prevOuts V c ⟨n + 1, h⟩).2.2.2.2 u j
          ((ih.2.2.2.2 u j).trans (congrArg (fun m => colsumsqUpTo (V c main_v0_4) m j) hm)))

end Cert.KernelIdeal.RegionValue.Corr4

end
-- ==== Proof.Corr4Final.lean ====
/-
  The result arrays of the cross-correlation statistics kernel.

  Each of the five outputs is one block — the whole 128×128 or 1×128 array — kept in its buffer across the five
  grid points and written back once, after the last. What is written back is what the accumulators hold after block
  4, the statistics of the first `10000·4 + 10000 = 50000` rows, that is of all rows: the Gram matrix `∑ₖ z[k,i]·w[k,j]`
  of the two arrays' columns, their column sums `∑ₖ z[k,j]`, `∑ₖ w[k,j]` and their column sums of squares.
-/
import proofs.«107726_j19937238188633_2_alg».proof.Proof.Corr4Invariant

noncomputable section

namespace Cert.KernelIdeal.RegionValue.Corr4

open Idealize.ShloMosaic Idealize.ShloMosaic.TcCoe Idealize.ShloMosaic.ValueIdx Idealize.SL.Sem
open Cert.KernelIdeal Cert.KernelIdeal.Gen Cert.GcnCorr
open Idealize.ShloMosaic.Pipeline (Dat)

variable (V : (c : Dev nD) → (b : Ref sig .tc) → Buf (Elt Ideal) ((c : Thread nD τ).loc b))

/-! ### Output 2 -/

/-- The Gram matrix of the two arrays' columns, as contents of output 2's array. -/
abbrev gramArr (c : Dev nD) : Buf (Elt Ideal) ((c : Thread nD τ).loc main_call0_v90_0) := fun i => gram (V c main_v0_3) (V c main_v0_4) (i 0) (i 1)

/-- The one write-back of output 2, after the last block, writes it: the window's one block is the whole array. -/
theorem flushed2_eq (c : Dev nD) (t : Fin cfg4.N) (hf : (cfg4.win 2).flush t = true) :
    (dat4 (F := Ideal) V c).flushed 2 t = ((cfg4.win 2).blk t).view.read (Elt Ideal) (gramArr V c) := by
  have h4 : t.val = 4 := by
    have h1 := (flush4_2 t).mp hf
    have h2 : t.val < 5 := lt_of_lt_of_eq t.isLt N_4
    omega
  obtain rfl : t = t4_4 := Fin.ext h4
  show (cfg4.win 2).cut (grid4.coords t4_4) ((dat4 V c).after 2 t4_4) = _
  rw [after4_2]
  have hz' : (fun a => win4_2.index t4_4 a * main_call0_v90_0.ty.shape.size a) = fun _ => 0 :=
    funext fun a => by fin_cases a <;> decide
  refine Eq.trans ?_ (Memref.read_access_unit_zero (Elt Ideal) main_call0_v90_0 hz' (fun a => by rw [congrFun hz' a]; simp) (gramArr V c)).symm
  show (outsAt4 V c t4_4.val t4_4.isLt).1 = gramArr V c
  funext i
  obtain ⟨a, b, rfl⟩ : ∃ (a : Fin 128) (b : Fin 128), i = ix2 a b := ⟨i 0, i 1, eq_ix2 i⟩
  exact (((statsUpTo V c t4_4.val t4_4.isLt).1 a b).trans
    (congrArg (fun m => gramUpTo (V c main_v0_3) (V c main_v0_4) m a b) (show 10000 * t4_4.val + 10000 = 50000 from rfl))).trans (gramUpTo_all (V c main_v0_3) (V c main_v0_4) a b)

/-- Every entry of output 2's array lies in that block. -/
theorem cover2 (i : S128x128.Idx) :
    ∃ t : Fin cfg4.N, (cfg4.win 2).flush t = true ∧ i ∈ ((cfg4.win 2).blk t).view.set := by
  have h0 : (i 0 : Nat) < 128 := (i 0).isLt
  have h1 : (i 1 : Nat) < 128 := (i 1).isLt
  refine ⟨t4_4, (flush4_2 t4_4).mpr rfl, ?_⟩
  show i ∈ ((View.whole main_call0_v90_0).slice (win4_2.rect t4_4)).set
  rw [View.set_slice_whole, Rect.mem_set_unit]
  intro a
  match a with
  | ⟨0, _⟩ =>
    show win4_2.index t4_4 0 * win4_2.size 0 ≤ (i 0 : Nat)
      ∧ (i 0 : Nat) < win4_2.index t4_4 0 * win4_2.size 0 + win4_2.xsize (grid4.coords t4_4) 0
    rw [show win4_2.index t4_4 0 * win4_2.size 0 = 0 from by decide +kernel,
      show win4_2.xsize (grid4.coords t4_4) 0 = 128 from by decide +kernel]
    omega
  | ⟨1, _⟩ =>
    show win4_2.index t4_4 1 * win4_2.size 1 ≤ (i 1 : Nat)
      ∧ (i 1 : Nat) < win4_2.index t4_4 1 * win4_2.size 1 + win4_2.xsize (grid4.coords t4_4) 1
    rw [show win4_2.index t4_4 1 * win4_2.size 1 = 0 from by decide +kernel,
      show win4_2.xsize (grid4.coords t4_4) 1 = 128 from by decide +kernel]
    omega

/-- So output 2's array ends holding the statistic of all 50000 rows. -/
theorem arr2_eq (c : Dev nD) : (dat4 (F := Ideal) V c).arrAt 2 cfg4.N = gramArr V c :=
  (dat4 V c).arrAt_eq_of_cover 2 (gramArr V c) (flushed2_eq V c) cover2

/-! ### Output 3 -/

/-- The first array's column sums, as contents of output 3's array. -/
abbrev sumZArr (c : Dev nD) : Buf (Elt Ideal) ((c : Thread nD τ).loc main_call0_v90_1) := fun i => colsum (V c main_v0_3) (i 1)

/-- The one write-back of output 3, after the last block, writes it: the window's one block is the whole array. -/
theorem flushed3_eq (c : Dev nD) (t : Fin cfg4.N) (hf : (cfg4.win 3).flush t = true) :
    (dat4 (F := Ideal) V c).flushed 3 t = ((cfg4.win 3).blk t).view.read (Elt Ideal) (sumZArr V c) := by
  have h4 : t.val = 4 := by
    have h1 := (flush4_3 t).mp hf
    have h2 : t.val < 5 := lt_of_lt_of_eq t.isLt N_4
    omega
  obtain rfl : t = t4_4 := Fin.ext h4
  show (cfg4.win 3).cut (grid4.coords t4_4) ((dat4 V c).after 3 t4_4) = _
  rw [after4_3]
  have hz' : (fun a => win4_3.index t4_4 a * main_call0_v90_1.ty.shape.size a) = fun _ => 0 :=
    funext fun a => by fin_cases a <;> decide
  refine Eq.trans ?_ (Memref.read_access_unit_zero (Elt Ideal) main_call0_v90_1 hz' (fun a => by rw [congrFun hz' a]; simp) (sumZArr V c)).symm
  show (outsAt4 V c t4_4.val t4_4.isLt).2.1 = sumZArr V c
  funext i
  obtain ⟨a, b, rfl⟩ : ∃ (a : Fin 1) (b : Fin 128), i = ix2 a b := ⟨i 0, i 1, eq_ix2 i⟩
  exact (((statsUpTo V c t4_4.val t4_4.isLt).2.1 a b).trans
    (congrArg (fun m => colsumUpTo (V c main_v0_3) m b) (show 10000 * t4_4.val + 10000 = 50000 from rfl))).trans (colsumUpTo_all (V c main_v0_3) b)

/-- Every entry of output 3's array lies in that block. -/
theorem cover3 (i : S1x128.Idx) :
    ∃ t : Fin cfg4.N, (cfg4.win 3).flush t = true ∧ i ∈ ((cfg4.win 3).blk t).view.set := by
  have h0 : (i 0 : Nat) < 1 := (i 0).isLt
  have h1 : (i 1 : Nat) < 128 := (i 1).isLt
  refine ⟨t4_4, (flush4_3 t4_4).mpr rfl, ?_⟩
  show i ∈ ((View.whole main_call0_v90_1).slice (win4_3.rect t4_4)).set
  rw [View.set_slice_whole, Rect.mem_set_unit]
  intro a
  match a with
  | ⟨0, _⟩ =>
    show win4_3.index t4_4 0 * win4_3.size 0 ≤ (i 0 : Nat)
      ∧ (i 0 : Nat) < win4_3.index t4_4 0 * win4_3.size 0 + win4_3.xsize (grid4.coords t4_4) 0
    rw [show win4_3.index t4_4 0 * win4_3.size 0 = 0 from by decide +kernel,
      show win4_3.xsize (grid4.coords t4_4) 0 = 1 from by decide +kernel]
    omega
  | ⟨1, _⟩ =>
    show win4_3.index t4_4 1 * win4_3.size 1 ≤ (i 1 : Nat)
      ∧ (i 1 : Nat) < win4_3.index t4_4 1 * win4_3.size 1 + win4_3.xsize (grid4.coords t4_4) 1
    rw [show win4_3.index t4_4 1 * win4_3.size 1 = 0 from by decide +kernel,
      show win4_3.xsize (grid4.coords t4_4) 1 = 128 from by decide +kernel]
    omega

/-- So output 3's array ends holding the statistic of all 50000 rows. -/
theorem arr3_eq (c : Dev nD) : (dat4 (F := Ideal) V c).arrAt 3 cfg4.N = sumZArr V c :=
  (dat4 V c).arrAt_eq_of_cover 3 (sumZArr V c) (flushed3_eq V c) cover3

/-! ### Output 4 -/

/-- The second array's column sums, as contents of output 4's array. -/
abbrev sumWArr (c : Dev nD) : Buf (Elt Ideal) ((c : Thread nD τ).loc main_call0_v90_2) := fun i => colsum (V c main_v0_4) (i 1)

/-- The one write-back of output 4, after the last block, writes it: the window's one block is the whole array. -/
theorem flushed4_eq (c : Dev nD) (t : Fin cfg4.N) (hf : (cfg4.win 4).flush t = true) :
    (dat4 (F := Ideal) V c).flushed 4 t = ((cfg4.win 4).blk t).view.read (Elt Ideal) (sumWArr V c) := by
  have h4 : t.val = 4 := by
    have h1 := (flush4_4 t).mp hf
    have h2 : t.val < 5 := lt_of_lt_of_eq t.isLt N_4
    omega
  obtain rfl : t = t4_4 := Fin.ext h4
  show (cfg4.win 4).cut (grid4.coords t4_4) ((dat4 V c).after 4 t4_4) = _
  rw [after4_4]
  have hz' : (fun a => win4_4.index t4_4 a * main_call0_v90_2.ty.shape.size a) = fun _ => 0 :=
    funext fun a => by fin_cases a <;> decide
  refine Eq.trans ?_ (Memref.read_access_unit_zero (Elt Ideal) main_call0_v90_2 hz' (fun a => by rw [congrFun hz' a]; simp) (sumWArr V c)).symm
  show (outsAt4 V c t4_4.val t4_4.isLt).2.2.1 = sumWArr V c
  funext i
  obtain ⟨a, b, rfl⟩ : ∃ (a : Fin 1) (b : Fin 128), i = ix2 a b := ⟨i 0, i 1, eq_ix2 i⟩
  exact (((statsUpTo V c t4_4.val t4_4.isLt).2.2.1 a b).trans
    (congrArg (fun m => colsumUpTo (V c main_v0_4) m b) (show 10000 * t4_4.val + 10000 = 50000 from rfl))).trans (colsumUpTo_all (V c main_v0_4) b)

/-- Every entry of output 4's array lies in that block. -/
theorem cover4 (i : S1x128.Idx) :
    ∃ t : Fin cfg4.N, (cfg4.win 4).flush t = true ∧ i ∈ ((cfg4.win 4).blk t).view.set := by
  have h0 : (i 0 : Nat) < 1 := (i 0).isLt
  have h1 : (i 1 : Nat) < 128 := (i 1).isLt
  refine ⟨t4_4, (flush4_4 t4_4).mpr rfl, ?_⟩
  show i ∈ ((View.whole main_call0_v90_2).slice (win4_4.rect t4_4)).set
  rw [View.set_slice_whole, Rect.mem_set_unit]
  intro a
  match a with
  | ⟨0, _⟩ =>
    show win4_4.index t4_4 0 * win4_4.size 0 ≤ (i 0 : Nat)
      ∧ (i 0 : Nat) < win4_4.index t4_4 0 * win4_4.size 0 + win4_4.xsize (grid4.coords t4_4) 0
    rw [show win4_4.index t4_4 0 * win4_4.size 0 = 0 from by decide +kernel,
      show win4_4.xsize (grid4.coords t4_4) 0 = 1 from by decide +kernel]
    omega
  | ⟨1, _⟩ =>
    show win4_4.index t4_4 1 * win4_4.size 1 ≤ (i 1 : Nat)
      ∧ (i 1 : Nat) < win4_4.index t4_4 1 * win4_4.size 1 + win4_4.xsize (grid4.coords t4_4) 1
    rw [show win4_4.index t4_4 1 * win4_4.size 1 = 0 from by decide +kernel,
      show win4_4.xsize (grid4.coords t4_4) 1 = 128 from by decide +kernel]
    omega

/-- So output 4's array ends holding the statistic of all 50000 rows. -/
theorem arr4_eq (c : Dev nD) : (dat4 (F := Ideal) V c).arrAt 4 cfg4.N = sumWArr V c :=
  (dat4 V c).arrAt_eq_of_cover 4 (sumWArr V c) (flushed4_eq V c) cover4

/-! ### Output 5 -/

/-- The first array's column sums of squares, as contents of output 5's array. -/
abbrev sqZArr (c : Dev nD) : Buf (Elt Ideal) ((c : Thread nD τ).loc main_call0_v90_3) := fun i => colsumsq (V c main_v0_3) (i 1)

/-- The one write-back of output 5, after the last block, writes it: the window's one block is the whole array. -/
theorem flushed5_eq (c : Dev nD) (t : Fin cfg4.N) (hf : (cfg4.win 5).flush t = true) :
    (dat4 (F := Ideal) V c).flushed 5 t = ((cfg4.win 5).blk t).view.read (Elt Ideal) (sqZArr V c) := by
  have h4 : t.val = 4 := by
    have h1 := (flush4_5 t).mp hf
    have h2 : t.val < 5 := lt_of_lt_of_eq t.isLt N_4
    omega
  obtain rfl : t = t4_4 := Fin.ext h4
  show (cfg4.win 5).cut (grid4.coords t4_4) ((dat4 V c).after 5 t4_4) = _
  rw [after4_5]
  have hz' : (fun a => win4_5.index t4_4 a * main_call0_v90_3.ty.shape.size a) = fun _ => 0 :=
    funext fun a => by fin_cases a <;> decide
  refine Eq.trans ?_ (Memref.read_access_unit_zero (Elt Ideal) main_call0_v90_3 hz' (fun a => by rw [congrFun hz' a]; simp) (sqZArr V c)).symm
  show (outsAt4 V c t4_4.val t4_4.isLt).2.2.2.1 = sqZArr V c
  funext i
  obtain ⟨a, b, rfl⟩ : ∃ (a : Fin 1) (b : Fin 128), i = ix2 a b := ⟨i 0, i 1, eq_ix2 i⟩
  exact (((statsUpTo V c t4_4.val t4_4.isLt).2.2.2.1 a b).trans
    (congrArg (fun m => colsumsqUpTo (V c main_v0_3) m b) (show 10000 * t4_4.val + 10000 = 50000 from rfl))).trans (colsumsqUpTo_all (V c main_v0_3) b)

/-- Every entry of output 5's array lies in that block. -/
theorem cover5 (i : S1x128.Idx) :
    ∃ t : Fin cfg4.N, (cfg4.win 5).flush t = true ∧ i ∈ ((cfg4.win 5).blk t).view.set := by
  have h0 : (i 0 : Nat) < 1 := (i 0).isLt
  have h1 : (i 1 : Nat) < 128 := (i 1).isLt
  refine ⟨t4_4, (flush4_5 t4_4).mpr rfl, ?_⟩
  show i ∈ ((View.whole main_call0_v90_3).slice (win4_5.rect t4_4)).set
  rw [View.set_slice_whole, Rect.mem_set_unit]
  intro a
  match a with
  | ⟨0, _⟩ =>
    show win4_5.index t4_4 0 * win4_5.size 0 ≤ (i 0 : Nat)
      ∧ (i 0 : Nat) < win4_5.index t4_4 0 * win4_5.size 0 + win4_5.xsize (grid4.coords t4_4) 0
    rw [show win4_5.index t4_4 0 * win4_5.size 0 = 0 from by decide +kernel,
      show win4_5.xsize (grid4.coords t4_4) 0 = 1 from by decide +kernel]
    omega
  | ⟨1, _⟩ =>
    show win4_5.index t4_4 1 * win4_5.size 1 ≤ (i 1 : Nat)
      ∧ (i 1 : Nat) < win4_5.index t4_4 1 * win4_5.size 1 + win4_5.xsize (grid4.coords t4_4) 1
    rw [show win4_5.index t4_4 1 * win4_5.size 1 = 0 from by decide +kernel,
      show win4_5.xsize (grid4.coords t4_4) 1 = 128 from by decide +kernel]
    omega

/-- So output 5's array ends holding the statistic of all 50000 rows. -/
theorem arr5_eq (c : Dev nD) : (dat4 (F := Ideal) V c).arrAt 5 cfg4.N = sqZArr V c :=
  (dat4 V c).arrAt_eq_of_cover 5 (sqZArr V c) (flushed5_eq V c) cover5

/-! ### Output 6 -/

/-- The second array's column sums of squares, as contents of output 6's array. -/
abbrev sqWArr (c : Dev nD) : Buf (Elt Ideal) ((c : Thread nD τ).loc main_call0_v90_4) := fun i => colsumsq (V c main_v0_4) (i 1)

/-- The one write-back of output 6, after the last block, writes it: the window's one block is the whole array. -/
theorem flushed6_eq (c : Dev nD) (t : Fin cfg4.N) (hf : (cfg4.win 6).flush t = true) :
    (dat4 (F := Ideal) V c).flushed 6 t = ((cfg4.win 6).blk t).view.read (Elt Ideal) (sqWArr V c) := by
  have h4 : t.val = 4 := by
    have h1 := (flush4_6 t).mp hf
    have h2 : t.val < 5 := lt_of_lt_of_eq t.isLt N_4
    omega
  obtain rfl : t = t4_4 := Fin.ext h4
  show (cfg4.win 6).cut (grid4.coords t4_4) ((dat4 V c).after 6 t4_4) = _
  rw [after4_6]
  have hz' : (fun a => win4_6.index t4_4 a * main_call0_v90_4.ty.shape.size a) = fun _ => 0 :=
    funext fun a => by fin_cases a <;> decide
  refine Eq.trans ?_ (Memref.read_access_unit_zero (Elt Ideal) main_call0_v90_4 hz' (fun a => by rw [congrFun hz' a]; simp) (sqWArr V c)).symm
  show (outsAt4 V c t4_4.val t4_4.isLt).2.2.2.2 = sqWArr V c
  funext i
  obtain ⟨a, b, rfl⟩ : ∃ (a : Fin 1) (b : Fin 128), i = ix2 a b := ⟨i 0, i 1, eq_ix2 i⟩
  exact (((statsUpTo V c t4_4.val t4_4.isLt).2.2.2.2 a b).trans
    (congrArg (fun m => colsumsqUpTo (V c main_v0_4) m b) (show 10000 * t4_4.val + 10000 = 50000 from rfl))).trans (colsumsqUpTo_all (V c main_v0_4) b)

/-- Every entry of output 6's array lies in that block. -/
theorem cover6 (i : S1x128.Idx) :
    ∃ t : Fin cfg4.N, (cfg4.win 6).flush t = true ∧ i ∈ ((cfg4.win 6).blk t).view.set := by
  have h0 : (i 0 : Nat) < 1 := (i 0).isLt
  have h1 : (i 1 : Nat) < 128 := (i 1).isLt
  refine ⟨t4_4, (flush4_6 t4_4).mpr rfl, ?_⟩
  show i ∈ ((View.whole main_call0_v90_4).slice (win4_6.rect t4_4)).set
  rw [View.set_slice_whole, Rect.mem_set_unit]
  intro a
  match a with
  | ⟨0, _⟩ =>
    show win4_6.index t4_4 0 * win4_6.size 0 ≤ (i 0 : Nat)
      ∧ (i 0 : Nat) < win4_6.index t4_4 0 * win4_6.size 0 + win4_6.xsize (grid4.coords t4_4) 0
    rw [show win4_6.index t4_4 0 * win4_6.size 0 = 0 from by decide +kernel,
      show win4_6.xsize (grid4.coords t4_4) 0 = 1 from by decide +kernel]
    omega
  | ⟨1, _⟩ =>
    show win4_6.index t4_4 1 * win4_6.size 1 ≤ (i 1 : Nat)
      ∧ (i 1 : Nat) < win4_6.index t4_4 1 * win4_6.size 1 + win4_6.xsize (grid4.coords t4_4) 1
    rw [show win4_6.index t4_4 1 * win4_6.size 1 = 0 from by decide +kernel,
      show win4_6.xsize (grid4.coords t4_4) 1 = 128 from by decide +kernel]
    omega

/-- So output 6's array ends holding the statistic of all 50000 rows. -/
theorem arr6_eq (c : Dev nD) : (dat4 (F := Ideal) V c).arrAt 6 cfg4.N = sqWArr V c :=
  (dat4 V c).arrAt_eq_of_cover 6 (sqWArr V c) (flushed6_eq V c) cover6

end Cert.KernelIdeal.RegionValue.Corr4

/-! ## The five results -/

namespace Cert.KernelIdeal.RegionValue

open Idealize.ShloMosaic Idealize.ShloMosaic.TcCoe Idealize.SL.Sem Cert.KernelIdeal Cert.KernelIdeal.Gen Cert.GcnCorr

variable (V : (c : Dev nD) → (b : Ref sig .tc) → Buf (Elt Ideal) ((c : Thread nD τ).loc b))

/-- Output 2 ends at the Gram matrix of the columns of the two arrays over all rows. -/
theorem final4_2 (c : Dev nD) :
    (dat4 (F := Ideal) V c).arrAt 2 cfg4.N = fun i => gram (V c main_v0_3) (V c main_v0_4) (i 0) (i 1) :=
  Corr4.arr2_eq V c

/-- Output 3 ends at the first array's column sums. -/
theorem final4_3 (c : Dev nD) :
    (dat4 (F := Ideal) V c).arrAt 3 cfg4.N = fun i => colsum (V c main_v0_3) (i 1) :=
  Corr4.arr3_eq V c

/-- Output 4 ends at the second array's column sums. -/
theorem final4_4 (c : Dev nD) :
    (dat4 (F := Ideal) V c).arrAt 4 cfg4.N = fun i => colsum (V c main_v0_4) (i 1) :=
  Corr4.arr4_eq V c

/-- Output 5 ends at the first array's column sums of squares. -/
theorem final4_5 (c : Dev nD) :
    (dat4 (F := Ideal) V c).arrAt 5 cfg4.N = fun i => colsumsq (V c main_v0_3) (i 1) :=
  Corr4.arr5_eq V c

/-- Output 6 ends at the second array's column sums of squares. -/
theorem final4_6 (c : Dev nD) :
    (dat4 (F := Ideal) V c).arrAt 6 cfg4.N = fun i => colsumsq (V c main_v0_4) (i 1) :=
  Corr4.arr6_eq V c

end Cert.KernelIdeal.RegionValue

end
-- ==== Proof.KVal4.lean ====
/-
  The program's results, walked back from its end to the entry of the cross-correlation kernel.

  The last stretch of host operations leaves the two 50000 × 128 embedding arrays as the cross-correlation kernel
  found them (the kernel only reads them, the stretch does not write them). The kernel's five outputs hold the Gram
  matrix, the column sums and the column sums of squares of those two arrays; the stretch turns them into the
  cross-correlation matrix, and from it and the two launched offset vectors (which nothing writes) into the row mask,
  the column mask and the masked cross-correlation. So the three results are functions of the two embedding arrays at
  the kernel's entry and of the two offset vectors as launched.
-/
import proofs.«107726_j19937238188633_2_alg».proof.Proof.Gen.KernelIdeal.Frame
import proofs.«107726_j19937238188633_2_alg».proof.Proof.KHost5
import proofs.«107726_j19937238188633_2_alg».proof.Proof.Corr4Final
import proofs.«107726_j19937238188633_2_alg».proof.Proof.KZ

noncomputable section

namespace Cert.KernelIdeal.KValue

open Idealize.ShloMosaic Idealize.ShloMosaic.TcCoe Idealize.ShloMosaic.StableHlo Idealize.SL.Sem
open Cert.KernelIdeal Cert.KernelIdeal.Gen Cert.KernelIdeal.Chain Cert.KernelIdeal.HostRead Cert.KernelIdeal.RegionValue
open Cert.GcnCorr

variable (m : (ℓ : Loc nD τ sig) → Buf (Elt Ideal) ℓ) (ρ : Dev nD → PrngReg)

/-! ## The two embedding arrays end as the cross-correlation kernel found them -/

/-- The first embedding array. -/
theorem kv3 (c : Dev nD) : W10 (F := Ideal) m ρ c (Proc.devRef .tc main_v0_3) = V8 (F := Ideal) m ρ c main_v0_3 :=
  (h5_keep3 (W9 m ρ c)).trans
    ((W9_arr m ρ c 0).trans (((dat4 (V8 m ρ) c).arrAt_in 0 rfl _).trans (A_eq4 (V8 m ρ) c 0)))

/-- The second embedding array. -/
theorem kv4 (c : Dev nD) : W10 (F := Ideal) m ρ c (Proc.devRef .tc main_v0_4) = V8 (F := Ideal) m ρ c main_v0_4 :=
  (h5_keep4 (W9 m ρ c)).trans
    ((W9_arr m ρ c 1).trans (((dat4 (V8 m ρ) c).arrAt_in 1 rfl _).trans (A_eq4 (V8 m ρ) c 1)))

/-! ## What the last stretch finds: the kernel's five statistics and the launched offsets -/

theorem exit_gram (c : Dev nD) : W9 (F := Ideal) m ρ c (Proc.devRef .tc main_call0_v90_0)
    = fun i => gram (V8 (F := Ideal) m ρ c main_v0_3) (V8 (F := Ideal) m ρ c main_v0_4) (i 0) (i 1) :=
  (W9_arr m ρ c 2).trans (final4_2 (V8 m ρ) c)

theorem exit_sum1 (c : Dev nD) : W9 (F := Ideal) m ρ c (Proc.devRef .tc main_call0_v90_1)
    = fun i => colsum (V8 (F := Ideal) m ρ c main_v0_3) (i 1) :=
  (W9_arr m ρ c 3).trans (final4_3 (V8 m ρ) c)

theorem exit_sum2 (c : Dev nD) : W9 (F := Ideal) m ρ c (Proc.devRef .tc main_call0_v90_2)
    = fun i => colsum (V8 (F := Ideal) m ρ c main_v0_4) (i 1) :=
  (W9_arr m ρ c 4).trans (final4_4 (V8 m ρ) c)

theorem exit_sq1 (c : Dev nD) : W9 (F := Ideal) m ρ c (Proc.devRef .tc main_call0_v90_3)
    = fun i => colsumsq (V8 (F := Ideal) m ρ c main_v0_3) (i 1) :=
  (W9_arr m ρ c 5).trans (final4_5 (V8 m ρ) c)

theorem exit_sq2 (c : Dev nD) : W9 (F := Ideal) m ρ c (Proc.devRef .tc main_call0_v90_4)
    = fun i => colsumsq (V8 (F := Ideal) m ρ c main_v0_4) (i 1) :=
  (W9_arr m ρ c 6).trans (final4_6 (V8 m ρ) c)

/-- The last stretch does not write the row offsets. -/
theorem keep_rowOffsets (X : Valuation τ sig (Elt Ideal)) :
    after (hostOps5 (F := Ideal)) X (Proc.devRef .tc main_arg10) = X (Proc.devRef .tc main_arg10) :=
  StableHlo.after_of_forall_not_mem (b := Proc.devRef .tc main_arg10) _ _ (List.forall_iff_forall_mem.mp (by
    simp only [hostOps5, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- The last stretch does not write the column offsets. -/
theorem keep_colOffsets (X : Valuation τ sig (Elt Ideal)) :
    after (hostOps5 (F := Ideal)) X (Proc.devRef .tc main_arg11) = X (Proc.devRef .tc main_arg11) :=
  StableHlo.after_of_forall_not_mem (b := Proc.devRef .tc main_arg11) _ _ (List.forall_iff_forall_mem.mp (by
    simp only [hostOps5, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- The row offsets are, at the kernel's exit, as launched. -/
theorem exit_rowOffsets (c : Dev nD) :
    W9 (F := Ideal) m ρ c (Proc.devRef .tc main_arg10) = m ((c : Thread nD τ).loc main_arg10) :=
  (keep_rowOffsets (W9 m ρ c)).symm.trans (W10_main_arg10 m ρ c)

/-- The column offsets are, at the kernel's exit, as launched. -/
theorem exit_colOffsets (c : Dev nD) :
    W9 (F := Ideal) m ρ c (Proc.devRef .tc main_arg11) = m ((c : Thread nD τ).loc main_arg11) :=
  (keep_colOffsets (W9 m ρ c)).symm.trans (W10_main_arg11 m ρ c)

/-! ## The three results -/

/-- The row mask. -/
theorem ks1 (c : Dev nD) : W10 (F := Ideal) m ρ c (Proc.devRef .tc main_v0_1)
    = rowMask (cK (V8 (F := Ideal) m ρ c main_v0_3) (V8 (F := Ideal) m ρ c main_v0_4)) (m ((c : Thread nD τ).loc main_arg10)) := by
  have e := h5_out1 (W9 m ρ c)
  rw [exit_gram m ρ c, exit_sum1 m ρ c, exit_sum2 m ρ c, exit_sq1 m ρ c, exit_sq2 m ρ c, exit_rowOffsets m ρ c] at e
  unfold cK
  exact e

/-- The column mask. -/
theorem ks2 (c : Dev nD) : W10 (F := Ideal) m ρ c (Proc.devRef .tc main_v0_2)
    = colMask (cK (V8 (F := Ideal) m ρ c main_v0_3) (V8 (F := Ideal) m ρ c main_v0_4)) (m ((c : Thread nD τ).loc main_arg11)) := by
  have e := h5_out2 (W9 m ρ c)
  rw [exit_gram m ρ c, exit_sum1 m ρ c, exit_sum2 m ρ c, exit_sq1 m ρ c, exit_sq2 m ρ c, exit_colOffsets m ρ c] at e
  unfold cK
  exact e

/-- The masked cross-correlation. -/
theorem ks0 (c : Dev nD) : W10 (F := Ideal) m ρ c (Proc.devRef .tc main_v0_0)
    = maskedC (cK (V8 (F := Ideal) m ρ c main_v0_3) (V8 (F := Ideal) m ρ c main_v0_4))
        (rowMask (cK (V8 (F := Ideal) m ρ c main_v0_3) (V8 (F := Ideal) m ρ c main_v0_4)) (m ((c : Thread nD τ).loc main_arg10)))
        (colMask (cK (V8 (F := Ideal) m ρ c main_v0_3) (V8 (F := Ideal) m ρ c main_v0_4)) (m ((c : Thread nD τ).loc main_arg11))) := by
  have e := h5_out0 (W9 m ρ c)
  rw [exit_gram m ρ c, exit_sum1 m ρ c, exit_sum2 m ρ c, exit_sq1 m ρ c, exit_sq2 m ρ c, exit_rowOffsets m ρ c,
    exit_colOffsets m ρ c] at e
  unfold cK
  exact e

end Cert.KernelIdeal.KValue

end
-- ==== Proof.KValue.lean ====
/-
  What the idealized kernel program's five result arrays hold when it returns, as functions of the launched argument
  arrays: the two embedding arrays are the two-layer function `zK` of each graph's edge lists and features, and the
  three correlation results are the gates and the gated cross-correlation of `cK` of the two embeddings. Joined from
  the walk of each result buffer back through the program's segments to the launch memory.
-/
import proofs.«107726_j19937238188633_2_alg».proof.Proof.KVal1
import proofs.«107726_j19937238188633_2_alg».proof.Proof.KVal2
import proofs.«107726_j19937238188633_2_alg».proof.Proof.KVal4

noncomputable section

namespace Cert.KernelIdeal.KValue

open Idealize.ShloMosaic Idealize.ShloMosaic.TcCoe Idealize.SL.Sem Cert.KernelIdeal Cert.KernelIdeal.Gen Cert.KernelIdeal.Chain

variable (m : (ℓ : Loc nD τ sig) → Buf (Elt Ideal) ℓ) (ρ : Dev nD → PrngReg) (c : Dev nD)

/-- The first embedding array ends at the two-layer function of graph 1's edge lists and features. -/
theorem kz1 : W10 (F := Ideal) m ρ c (Proc.devRef .tc main_v0_3) = zK (m ((c : Thread nD τ).loc main_arg2)) (m ((c : Thread nD τ).loc main_arg3)) (m ((c : Thread nD τ).loc main_arg0)) (m ((c : Thread nD τ).loc main_arg6)) (m ((c : Thread nD τ).loc main_arg7)) (m ((c : Thread nD τ).loc main_arg8)) (m ((c : Thread nD τ).loc main_arg9)) :=
  (kv3 m ρ c).trans (kz1' m ρ c)

/-- The second embedding array ends at the two-layer function of graph 2's edge lists and features. -/
theorem kz2 : W10 (F := Ideal) m ρ c (Proc.devRef .tc main_v0_4) = zK (m ((c : Thread nD τ).loc main_arg4)) (m ((c : Thread nD τ).loc main_arg5)) (m ((c : Thread nD τ).loc main_arg1)) (m ((c : Thread nD τ).loc main_arg6)) (m ((c : Thread nD τ).loc main_arg7)) (m ((c : Thread nD τ).loc main_arg8)) (m ((c : Thread nD τ).loc main_arg9)) :=
  (kv4 m ρ c).trans (kz2' m ρ c)

/-- The row gate ends at the gate of the cross-correlation of the two embeddings. -/
theorem kout1 : W10 (F := Ideal) m ρ c (Proc.devRef .tc main_v0_1) = rowMask (cK (zK (m ((c : Thread nD τ).loc main_arg2)) (m ((c : Thread nD τ).loc main_arg3)) (m ((c : Thread nD τ).loc main_arg0)) (m ((c : Thread nD τ).loc main_arg6)) (m ((c : Thread nD τ).loc main_arg7)) (m ((c : Thread nD τ).loc main_arg8)) (m ((c : Thread nD τ).loc main_arg9))) (zK (m ((c : Thread nD τ).loc main_arg4)) (m ((c : Thread nD τ).loc main_arg5)) (m ((c : Thread nD τ).loc main_arg1)) (m ((c : Thread nD τ).loc main_arg6)) (m ((c : Thread nD τ).loc main_arg7)) (m ((c : Thread nD τ).loc main_arg8)) (m ((c : Thread nD τ).loc main_arg9)))) (m ((c : Thread nD τ).loc main_arg10)) := by
  rw [ks1 m ρ c, kz1' m ρ c, kz2' m ρ c]

/-- The column gate likewise. -/
theorem kout2 : W10 (F := Ideal) m ρ c (Proc.devRef .tc main_v0_2) = colMask (cK (zK (m ((c : Thread nD τ).loc main_arg2)) (m ((c : Thread nD τ).loc main_arg3)) (m ((c : Thread nD τ).loc main_arg0)) (m ((c : Thread nD τ).loc main_arg6)) (m ((c : Thread nD τ).loc main_arg7)) (m ((c : Thread nD τ).loc main_arg8)) (m ((c : Thread nD τ).loc main_arg9))) (zK (m ((c : Thread nD τ).loc main_arg4)) (m ((c : Thread nD τ).loc main_arg5)) (m ((c : Thread nD τ).loc main_arg1)) (m ((c : Thread nD τ).loc main_arg6)) (m ((c : Thread nD τ).loc main_arg7)) (m ((c : Thread nD τ).loc main_arg8)) (m ((c : Thread nD τ).loc main_arg9)))) (m ((c : Thread nD τ).loc main_arg11)) := by
  rw [ks2 m ρ c, kz1' m ρ c, kz2' m ρ c]

/-- The gated cross-correlation. -/
theorem kout0 : W10 (F := Ideal) m ρ c (Proc.devRef .tc main_v0_0) = maskedC (cK (zK (m ((c : Thread nD τ).loc main_arg2)) (m ((c : Thread nD τ).loc main_arg3)) (m ((c : Thread nD τ).loc main_arg0)) (m ((c : Thread nD τ).loc main_arg6)) (m ((c : Thread nD τ).loc main_arg7)) (m ((c : Thread nD τ).loc main_arg8)) (m ((c : Thread nD τ).loc main_arg9))) (zK (m ((c : Thread nD τ).loc main_arg4)) (m ((c : Thread nD τ).loc main_arg5)) (m ((c : Thread nD τ).loc main_arg1)) (m ((c : Thread nD τ).loc main_arg6)) (m ((c : Thread nD τ).loc main_arg7)) (m ((c : Thread nD τ).loc main_arg8)) (m ((c : Thread nD τ).loc main_arg9)))) (rowMask (cK (zK (m ((c : Thread nD τ).loc main_arg2)) (m ((c : Thread nD τ).loc main_arg3)) (m ((c : Thread nD τ).loc main_arg0)) (m ((c : Thread nD τ).loc main_arg6)) (m ((c : Thread nD τ).loc main_arg7)) (m ((c : Thread nD τ).loc main_arg8)) (m ((c : Thread nD τ).loc main_arg9))) (zK (m ((c : Thread nD τ).loc main_arg4)) (m ((c : Thread nD τ).loc main_arg5)) (m ((c : Thread nD τ).loc main_arg1)) (m ((c : Thread nD τ).loc main_arg6)) (m ((c : Thread nD τ).loc main_arg7)) (m ((c : Thread nD τ).loc main_arg8)) (m ((c : Thread nD τ).loc main_arg9)))) (m ((c : Thread nD τ).loc main_arg10))) (colMask (cK (zK (m ((c : Thread nD τ).loc main_arg2)) (m ((c : Thread nD τ).loc main_arg3)) (m ((c : Thread nD τ).loc main_arg0)) (m ((c : Thread nD τ).loc main_arg6)) (m ((c : Thread nD τ).loc main_arg7)) (m ((c : Thread nD τ).loc main_arg8)) (m ((c : Thread nD τ).loc main_arg9))) (zK (m ((c : Thread nD τ).loc main_arg4)) (m ((c : Thread nD τ).loc main_arg5)) (m ((c : Thread nD τ).loc main_arg1)) (m ((c : Thread nD τ).loc main_arg6)) (m ((c : Thread nD τ).loc main_arg7)) (m ((c : Thread nD τ).loc main_arg8)) (m ((c : Thread nD τ).loc main_arg9)))) (m ((c : Thread nD τ).loc main_arg11))) := by
  rw [ks0 m ρ c, kz1' m ρ c, kz2' m ρ c]

end Cert.KernelIdeal.KValue

end
-- ==== Proof.RefRun.Ops0.lean ====
/-
  The operations of the reference program's statements main_part0, in order, as a list; the operations of a function the
  program calls stand at the call, over the buffers that call names. Beside it the buffer each operation writes, and
  that every operation reads and writes TensorCore buffers only.
-/
import proofs.«107726_j19937238188633_2_alg».proof.ReferenceIdeal
import proofs.«107726_j19937238188633_2_alg».proof.Proof.Gen.ReferenceIdeal
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- The 62 operations of main_part0. -/
abbrev ops0 : List (HloOp τ sig (Elt F)) :=
  [ nullary main_cst (constant S_ .f32 0x3F800000#32),
    unary main_cst main_v0 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v1 (broadcastInDim S50000 ![] bcast_S_S50000 : (⟨S_, .f32⟩ : BufTy).Contents (Elt F) → (⟨S50000, .f32⟩ : BufTy).Contents (Elt F)),
    unary main_arg2 main_v2 (broadcastInDim S800000x1 ![0] bcast_S800000_S800000x1_0 : (⟨S800000, .i32⟩ : BufTy).Contents (Elt F) → (⟨S800000x1, .i32⟩ : BufTy).Contents (Elt F)),
    ternary main_v1 main_v2 main_v0 main_v3 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x00000000#32),
    unary main_cst_1 main_v4 (broadcastInDim S50000 ![] bcast_S_S50000 : (⟨S_, .f32⟩ : BufTy).Contents (Elt F) → (⟨S50000, .f32⟩ : BufTy).Contents (Elt F)),
    unary main_arg3 main_v5 (broadcastInDim S800000x1 ![0] bcast_S800000_S800000x1_0 : (⟨S800000, .i32⟩ : BufTy).Contents (Elt F) → (⟨S800000x1, .i32⟩ : BufTy).Contents (Elt F)),
    ternary main_v4 main_v5 main_v0 main_v6 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_2 (constant S_ .f32 0x3F800000#32),
    unary main_cst_2 main_v7 (broadcastInDim S50000 ![] bcast_S_S50000 : (⟨S_, .f32⟩ : BufTy).Contents (Elt F) → (⟨S50000, .f32⟩ : BufTy).Contents (Elt F)),
    binary main_v3 main_v7 main_v8 (maximumf : (⟨S50000, .f32⟩ : BufTy).Contents (Elt F) → (⟨S50000, .f32⟩ : BufTy).Contents (Elt F) → (⟨S50000, .f32⟩ : BufTy).Contents (Elt F)),
    unary main_v8 main_v9 (Host.rsqrt : (⟨S50000, .f32⟩ : BufTy).Contents (Elt F) → (⟨S50000, .f32⟩ : BufTy).Contents (Elt F)),
    nullary main_cst_3 (constant S_ .f32 0x3F800000#32),
    unary main_cst_3 main_v10 (broadcastInDim S50000 ![] bcast_S_S50000 : (⟨S_, .f32⟩ : BufTy).Contents (Elt F) → (⟨S50000, .f32⟩ : BufTy).Contents (Elt F)),
    binary main_v6 main_v10 main_v11 (maximumf : (⟨S50000, .f32⟩ : BufTy).Contents (Elt F) → (⟨S50000, .f32⟩ : BufTy).Contents (Elt F) → (⟨S50000, .f32⟩ : BufTy).Contents (Elt F)),
    unary main_v11 main_v12 (Host.rsqrt : (⟨S50000, .f32⟩ : BufTy).Contents (Elt F) → (⟨S50000, .f32⟩ : BufTy).Contents (Elt F)),
    unary main_v9 main_v13 (broadcastInDim S50000x1 ![0] bcast_S50000_S50000x1_0 : (⟨S50000, .f32⟩ : BufTy).Contents (Elt F) → (⟨S50000x1, .f32⟩ : BufTy).Contents (Elt F)),
    unary main_v13 main_v14 (broadcastInDim S50000x128 ![0, 1] bcast_S50000x1_S50000x128_0_1 : (⟨S50000x1, .f32⟩ : BufTy).Contents (Elt F) → (⟨S50000x128, .f32⟩ : BufTy).Contents (Elt F)),
    binary main_arg0 main_v14 main_v15 (mulf : (⟨S50000x128, .f32⟩ : BufTy).Contents (Elt F) → (⟨S50000x128, .f32⟩ : BufTy).Contents (Elt F) → (⟨S50000x128, .f32⟩ : BufTy).Contents (Elt F)),
    nullary main_c (constantI S_ 32 0#32),
    unary main_c main_v16 (broadcastInDim S800000 ![] bcast_S_S800000 : (⟨S_, .i32⟩ : BufTy).Contents (Elt F) → (⟨S800000, .i32⟩ : BufTy).Contents (Elt F)),
    binary main_arg2 main_v16 main_v17 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v18 (broadcastInDim S800000 ![] bcast_S_S800000 : (⟨S_, .i32⟩ : BufTy).Contents (Elt F) → (⟨S800000, .i32⟩ : BufTy).Contents (Elt F)),
    binary main_arg2 main_v18 main_v19 (addi : (⟨S800000, .i32⟩ : BufTy).Contents (Elt F) → (⟨S800000, .i32⟩ : BufTy).Contents (Elt F) → (⟨S800000, .i32⟩ : BufTy).Contents (Elt F)),
    ternary main_v17 main_v19 main_arg2 main_v20 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v20 main_v21 (broadcastInDim S800000x1 ![0] bcast_S800000_S800000x1_0 : (⟨S800000, .i32⟩ : BufTy).Contents (Elt F) → (⟨S800000x1, .i32⟩ : BufTy).Contents (Elt F)),
    binary main_v15 main_v21 main_v22 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_5 (constant S_ .f32 0x00000000#32),
    unary main_cst_5 main_v23 (broadcastInDim S50000x128 ![] bcast_S_S50000x128 : (⟨S_, .f32⟩ : BufTy).Contents (Elt F) → (⟨S50000x128, .f32⟩ : BufTy).Contents (Elt F)),
    unary main_arg3 main_v24 (broadcastInDim S800000x1 ![0] bcast_S800000_S800000x1_0 : (⟨S800000, .i32⟩ : BufTy).Contents (Elt F) → (⟨S800000x1, .i32⟩ : BufTy).Contents (Elt F)),
    ternary main_v23 main_v24 main_v22 main_v25 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v12 main_v26 (broadcastInDim S50000x1 ![0] bcast_S50000_S50000x1_0 : (⟨S50000, .f32⟩ : BufTy).Contents (Elt F) → (⟨S50000x1, .f32⟩ : BufTy).Contents (Elt F)),
    unary main_v26 main_v27 (broadcastInDim S50000x128 ![0, 1] bcast_S50000x1_S50000x128_0_1 : (⟨S50000x1, .f32⟩ : BufTy).Contents (Elt F) → (⟨S50000x128, .f32⟩ : BufTy).Contents (Elt F)),
    binary main_v25 main_v27 main_v28 (mulf : (⟨S50000x128, .f32⟩ : BufTy).Contents (Elt F) → (⟨S50000x128, .f32⟩ : BufTy).Contents (Elt F) → (⟨S50000x128, .f32⟩ : BufTy).Contents (Elt F)),
    binary main_v28 main_arg6 main_v29 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg7 main_v30 (broadcastInDim S1x128 ![1] bcast_S128_S1x128_1 : (⟨S128, .f32⟩ : BufTy).Contents (Elt F) → (⟨S1x128, .f32⟩ : BufTy).Contents (Elt F)),
    unary main_v30 main_v31 (broadcastInDim S50000x128 ![0, 1] bcast_S1x128_S50000x128_0_1 : (⟨S1x128, .f32⟩ : BufTy).Contents (Elt F) → (⟨S50000x128, .f32⟩ : BufTy).Contents (Elt F)),
    binary main_v29 main_v31 main_v32 (addf : (⟨S50000x128, .f32⟩ : BufTy).Contents (Elt F) → (⟨S50000x128, .f32⟩ : BufTy).Contents (Elt F) → (⟨S50000x128, .f32⟩ : BufTy).Contents (Elt F)),
    TRef.nullary main_call0.cst (constant S_ .f32 0x00000000#32),
    TRef.unary main_call0.cst main_call0.v0 (broadcastInDim S50000x128 ![] bcast_S_S50000x128),
    TRef.binary (.of main_v32 : StableHlo.TRef sig ⟨S50000x128, .f32⟩) main_call0.v0 main_call0.v1 maximumf,
    nullary main_cst_6 (constant S_ .f32 0x3F800000#32),
    unary main_cst_6 main_v34 (broadcastInDim S800000 ![] bcast_S_S800000 : (⟨S_, .f32⟩ : BufTy).Contents (Elt F) → (⟨S800000, .f32⟩ : BufTy).Contents (Elt F)),
    nullary main_cst_7 (constant S_ .f32 0x00000000#32),
    unary main_cst_7 main_v35 (broadcastInDim S50000 ![] bcast_S_S50000 : (⟨S_, .f32⟩ : BufTy).Contents (Elt F) → (⟨S50000, .f32⟩ : BufTy).Contents (Elt F)),
    unary main_arg2 main_v36 (broadcastInDim S800000x1 ![0] bcast_S800000_S800000x1_0 : (⟨S800000, .i32⟩ : BufTy).Contents (Elt F) → (⟨S800000x1, .i32⟩ : BufTy).Contents (Elt F)),
    ternary main_v35 main_v36 main_v34 main_v37 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_8 (constant S_ .f32 0x00000000#32),
    unary main_cst_8 main_v38 (broadcastInDim S50000 ![] bcast_S_S50000 : (⟨S_, .f32⟩ : BufTy).Contents (Elt F) → (⟨S50000, .f32⟩ : BufTy).Contents (Elt F)),
    unary main_arg3 main_v39 (broadcastInDim S800000x1 ![0] bcast_S800000_S800000x1_0 : (⟨S800000, .i32⟩ : BufTy).Contents (Elt F) → (⟨S800000x1, .i32⟩ : BufTy).Contents (Elt F)),
    ternary main_v38 main_v39 main_v34 main_v40 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_9 (constant S_ .f32 0x3F800000#32),
    unary main_cst_9 main_v41 (broadcastInDim S50000 ![] bcast_S_S50000 : (⟨S_, .f32⟩ : BufTy).Contents (Elt F) → (⟨S50000, .f32⟩ : BufTy).Contents (Elt F)),
    binary main_v37 main_v41 main_v42 (maximumf : (⟨S50000, .f32⟩ : BufTy).Contents (Elt F) → (⟨S50000, .f32⟩ : BufTy).Contents (Elt F) → (⟨S50000, .f32⟩ : BufTy).Contents (Elt F)),
    unary main_v42 main_v43 (Host.rsqrt : (⟨S50000, .f32⟩ : BufTy).Contents (Elt F) → (⟨S50000, .f32⟩ : BufTy).Contents (Elt F)),
    nullary main_cst_10 (constant S_ .f32 0x3F800000#32),
    unary main_cst_10 main_v44 (broadcastInDim S50000 ![] bcast_S_S50000 : (⟨S_, .f32⟩ : BufTy).Contents (Elt F) → (⟨S50000, .f32⟩ : BufTy).Contents (Elt F)),
    binary main_v40 main_v44 main_v45 (maximumf : (⟨S50000, .f32⟩ : BufTy).Contents (Elt F) → (⟨S50000, .f32⟩ : BufTy).Contents (Elt F) → (⟨S50000, .f32⟩ : BufTy).Contents (Elt F)),
    unary main_v45 main_v46 (Host.rsqrt : (⟨S50000, .f32⟩ : BufTy).Contents (Elt F) → (⟨S50000, .f32⟩ : BufTy).Contents (Elt F)) ]

/-- The buffer each of them writes. -/
abbrev ops0_W : List (Ref sig .tc) :=
  [main_cst, main_v0, main_cst_0, main_v1, main_v2, main_v3, main_cst_1, main_v4, main_v5, main_v6, main_cst_2, main_v7, main_v8, main_v9, main_cst_3, main_v10, main_v11, main_v12, main_v13, main_v14, main_v15, main_c, main_v16, main_v17, main_c_4, main_v18, main_v19, main_v20, main_v21, main_v22, main_cst_5, main_v23, main_v24, main_v25, main_v26, main_v27, main_v28, main_v29, main_v30, main_v31, main_v32, main_call0_cst, main_call0_v0, main_v33, main_cst_6, main_v34, main_cst_7, main_v35, main_v36, main_v37, main_cst_8, main_v38, main_v39, main_v40, main_cst_9, main_v41, main_v42, main_v43, main_cst_10, main_v44, main_v45, main_v46]

set_option maxRecDepth 8192 in
theorem ops0_sub : (ops0 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., unary_bufs_sub ..⟩

end Cert.ReferenceIdeal.RefRun

end
-- ==== Proof.RefChain.lean ====
/-
  The reference program's operations grouped into the functions they compute, spelt with the program's own
  shapes, dimension records and constants, so that each buffer of its run is one of these terms by unfolding:

  * `degNorm idx`        = rsqrt(max(number of edges with that endpoint, 1)), per node;
  * `aggregate src dst ns feat` = scatter-add over edges, into row dst[e], of row src[e] of (feat · ns);
  * `denseHost a nd W b` = (a · nd) W + b;  `reluHost` its positive part;
  * `gnn`                = two such layers with the positive part between them;
  * `colMean`, `centered`, `varHost`, `stdHost`, `zscore`, `corrChain`: the column-standardised rows and their
    cross-correlation (zscore z1)ᵀ (zscore z2) / N;
  * `rowScore`, `colScore`, `gate`, `rowMask`, `colMask`, `maskedC`: mean absolute correlation per row / column, the
    logistic gate 1 / (1 + exp(−50 (score + offset − 0.05))), and the correlation scaled by both gates.
-/
import proofs.«107726_j19937238188633_2_alg».proof.ReferenceIdeal
import proofs.«107726_j19937238188633_2_alg».proof.Proof.Gen.ReferenceIdeal

noncomputable section

namespace Cert.ReferenceIdeal.Chain

open Idealize.ShloMosaic Cert.ReferenceIdeal Cert.ReferenceIdeal.Facts₀

variable {F : FTy → Type} [FloatOps F]

/-- The contents of a float array of the given shape. -/
abbrev FArr (s : Shape) := (⟨s, .f32⟩ : BufTy).Contents (Elt F)
/-- The contents of a 32-bit integer array of the given shape. -/
abbrev IArr (s : Shape) := (⟨s, .i32⟩ : BufTy).Contents (Elt F)

def degNorm (idx : IArr (F := F) S800000) : FArr (F := F) S50000 :=
  Host.rsqrt (maximumf
    (Host.scatterAdd scatter_S50000_S800000x1_S800000_n_0_0_1
      (broadcastInDim S50000 ![] bcast_S_S50000 (constant S_ .f32 0x00000000#32))
      (broadcastInDim S800000x1 ![0] bcast_S800000_S800000x1_0 idx)
      (broadcastInDim S800000 ![] bcast_S_S800000 (constant S_ .f32 0x3F800000#32)))
    (broadcastInDim S50000 ![] bcast_S_S50000 (constant S_ .f32 0x3F800000#32)))

/-- A node vector as a column repeated along the 128 features. -/
def colBcast (v : FArr (F := F) S50000) : FArr (F := F) S50000x128 :=
  broadcastInDim S50000x128 ![0, 1] bcast_S50000x1_S50000x128_0_1 (broadcastInDim S50000x1 ![0] bcast_S50000_S50000x1_0 v)

/-- A feature vector as a row repeated along the 50000 nodes. -/
def rowBcast (v : FArr (F := F) S128) : FArr (F := F) S50000x128 :=
  broadcastInDim S50000x128 ![0, 1] bcast_S1x128_S50000x128_0_1 (broadcastInDim S1x128 ![1] bcast_S128_S1x128_1 v)

/-- Negative edge endpoints wrapped by the node count. -/
def wrapIdx (src : IArr (F := F) S800000) : IArr (F := F) S800000 :=
  select (cmpi .slt src (broadcastInDim S800000 ![] bcast_S_S800000 (constantI S_ 32 0#32)))
    (addi src (broadcastInDim S800000 ![] bcast_S_S800000 (constantI S_ 32 50000#32))) src

def aggregate (src dst : IArr (F := F) S800000) (ns : FArr (F := F) S50000) (feat : FArr (F := F) S50000x128) :
    FArr (F := F) S50000x128 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (Host.gather gather_S50000x128_S800000x1_S800000x128_1_0_n_n_0_1_1128 (mulf feat (colBcast ns))
      (broadcastInDim S800000x1 ![0] bcast_S800000_S800000x1_0 (wrapIdx src)))

def denseHost (a : FArr (F := F) S50000x128) (nd : FArr (F := F) S50000) (W : FArr (F := F) S128x128)
    (b : FArr (F := F) S128) : FArr (F := F) S50000x128 :=
  addf (Host.dotGeneral dot_S50000x128_S128x128_S50000x128_1_0_0_1_n_n none (mulf a (colBcast nd)) W) (rowBcast b)

def reluHost (x : FArr (F := F) S50000x128) : FArr (F := F) S50000x128 :=
  maximumf x (broadcastInDim S50000x128 ![] bcast_S_S50000x128 (constant S_ .f32 0x00000000#32))

def gnn (src dst : IArr (F := F) S800000) (x : FArr (F := F) S50000x128) (W1 : FArr (F := F) S128x128) (b1 : FArr (F := F) S128)
    (W2 : FArr (F := F) S128x128) (b2 : FArr (F := F) S128) : FArr (F := F) S50000x128 :=
  denseHost (aggregate src dst (degNorm src)
      (reluHost (denseHost (aggregate src dst (degNorm src) x) (degNorm dst) W1 b1)))
    (degNorm dst) W2 b2

/-- Column sums over the nodes. -/
def colSumHost (z : FArr (F := F) S50000x128) : FArr (F := F) S128 :=
  Host.reduceAdd z (constant S_ .f32 0x00000000#32) reducesTo_S50000x128_S128_d0 h_S_

def colMean (z : FArr (F := F) S50000x128) : FArr (F := F) S128 :=
  Host.divf (colSumHost z) (broadcastInDim S128 ![] bcast_S_S128 (constant S_ .f32 0x47435000#32))

def centered (z : FArr (F := F) S50000x128) : FArr (F := F) S50000x128 := subf z (rowBcast (colMean z))

/-- The variance with the divisor `N − ddof`, guarded by `N − ddof > 0`. -/
def varHost (z : FArr (F := F) S50000x128) (ddof : (⟨S_, .i32⟩ : BufTy).Contents (Elt F)) : FArr (F := F) S128 :=
  let mrow : FArr (F := F) S1x128 := Host.divf (broadcastInDim S1x128 ![1] bcast_S128_S1x128_1 (colSumHost z))
    (broadcastInDim S1x128 ![] bcast_S_S1x128 (constant S_ .f32 0x47435000#32))
  let d : FArr (F := F) S50000x128 := subf z (broadcastInDim S50000x128 ![0, 1] bcast_S1x128_S50000x128_0_1 mrow)
  let nm : FArr (F := F) S_ := subf (constant S_ .f32 0x47435000#32) (sitofp .f32 ddof)
  select (broadcastInDim S128 ![] bcast_S_S128 (cmpf .ogt nm (constant S_ .f32 0x00000000#32)))
    (Host.divf (colSumHost (mulf d d)) (broadcastInDim S128 ![] bcast_S_S128 nm))
    (broadcastInDim S128 ![] bcast_S_S128 (id (constant S_ .f32 0x7FC00000#32)))

def stdHost (z : FArr (F := F) S50000x128) : FArr (F := F) S128 := Host.sqrt (varHost z (constantI S_ 32 1#32))

def zscore (z : FArr (F := F) S50000x128) : FArr (F := F) S50000x128 :=
  Host.divf (centered z)
    (rowBcast (addf (stdHost z) (broadcastInDim S128 ![] bcast_S_S128 (constant S_ .f32 0x358637BD#32))))

def corrChain (z1 z2 : FArr (F := F) S50000x128) : FArr (F := F) S128x128 :=
  Host.divf
    (Host.dotGeneral dot_S128x50000_S50000x128_S128x128_1_0_0_1_n_n none
      (transpose S128x50000 [1, 0] (zscore z1) transposes_S50000x128_S128x50000_1_0) (zscore z2))
    (broadcastInDim S128x128 ![] bcast_S_S128x128 (constant S_ .f32 0x47435000#32))

def rowScore (C : FArr (F := F) S128x128) : FArr (F := F) S128 :=
  Host.divf (Host.reduceAdd (Host.absf C) (constant S_ .f32 0x00000000#32) reducesTo_S128x128_S128_d1 h_S_)
    (broadcastInDim S128 ![] bcast_S_S128 (constant S_ .f32 0x43000000#32))

def colScore (C : FArr (F := F) S128x128) : FArr (F := F) S128 :=
  Host.divf (Host.reduceAdd (Host.absf C) (constant S_ .f32 0x00000000#32) reducesTo_S128x128_S128_d0 h_S_)
    (broadcastInDim S128 ![] bcast_S_S128 (constant S_ .f32 0x43000000#32))

/-- The logistic gate of a score plus an offset. -/
def gate (s off : FArr (F := F) S128) : FArr (F := F) S128 :=
  Host.divf (broadcastInDim S128 ![] bcast_S_S128 (constant S_ .f32 0x3F800000#32))
    (addf (broadcastInDim S128 ![] bcast_S_S128 (constant S_ .f32 0x3F800000#32))
      (Host.exp (Host.negf (mulf (broadcastInDim S128 ![] bcast_S_S128 (constant S_ .f32 0x42480000#32))
        (subf (addf s off) (broadcastInDim S128 ![] bcast_S_S128 (constant S_ .f32 0x3D4CCCCD#32)))))))

def rowMask (C : FArr (F := F) S128x128) (ro : FArr (F := F) S128) : FArr (F := F) S128 := gate (rowScore C) ro
def colMask (C : FArr (F := F) S128x128) (co : FArr (F := F) S128) : FArr (F := F) S128 := gate (colScore C) co

def maskedC (C : FArr (F := F) S128x128) (rm cm : FArr (F := F) S128) : FArr (F := F) S128x128 :=
  mulf C (mulf
    (broadcastInDim S128x128 ![0, 1] bcast_S128x1_S128x128_0_1 (broadcastInDim S128x1 ![0] bcast_S128_S128x1_0 rm))
    (broadcastInDim S128x128 ![0, 1] bcast_S1x128_S128x128_0_1 (broadcastInDim S1x128 ![1] bcast_S128_S1x128_1 cm)))

end Cert.ReferenceIdeal.Chain

end
-- ==== Proof.RefRun.Win0.lean ====
/-
  The first sixty statements of the reference program: both degree normalisations of the first graph, the first
  layer (neighbour sum of the scaled features, scaled again, times the first weight matrix, plus its bias, positive
  part), and the two degree normalisations computed again for the second layer. From any contents `W` before them,
  the three buffers later statements read are the named terms of `W` at the argument buffers.
-/
import proofs.«107726_j19937238188633_2_alg».proof.Proof.RefRun.Ops0
import proofs.«107726_j19937238188633_2_alg».proof.Proof.RefChain

noncomputable section

namespace Cert.ReferenceIdeal.RefRun

open Cert.ReferenceIdeal Cert.ReferenceIdeal.Facts₀ Cert.ReferenceIdeal.Chain Idealize.ShloMosaic Idealize.ShloMosaic.TcCoe Idealize.SL.Sem Idealize.ShloMosaic.StableHlo

variable {F : FTy → Type} [FloatOps F]

set_option maxRecDepth 8192 in
set_option maxHeartbeats 4000000 in
/-- These statements are their list of operations run in order (the called functions' definitions unfold at the calls). -/
theorem main_part0_eq (c : Dev nD) : main_part0 (F := F) c = seq ops0 := rfl

set_option maxRecDepth 8192 in
set_option maxHeartbeats 4000000 in
/-- Every operation writes the buffer listed for it. -/
theorem ops0_writes : (ops0 : List (HloOp τ sig (Elt F))).Forall fun op =>
    op.writes ⊆ (ops0_W.map (Proc.devRef (τ := τ) .tc)).toFinset := by
  simp only [List.Forall]
  repeat' apply And.intro
  all_goals
    simp only [nullary_writes, unary_writes, binary_writes, ternary_writes, Finset.singleton_subset_iff, List.mem_toFinset]
    exact List.mem_map_of_mem (by decide)

/-- A buffer these statements do not write keeps its contents through them. -/
theorem keep0 (W : Valuation τ sig (Elt F)) (r : Ref sig .tc) (h : r ∉ ops0_W) :
    after ops0 W (Proc.devRef .tc r) = W (Proc.devRef .tc r) :=
  after_of_writes_sub ops0 W ops0_writes h

attribute [local irreducible] Host.scatterAdd Host.gather Host.reduceAdd in
set_option maxRecDepth 8192 in
set_option maxHeartbeats 4000000 in
/-- The first layer's output. -/
theorem w0_v33 (W : Valuation τ sig (Elt F)) :
    after ops0 W (main_v33 : DevRef τ sig)
      = reluHost (denseHost (aggregate (W (main_arg2 : DevRef τ sig)) (W (main_arg3 : DevRef τ sig)) (degNorm (W (main_arg2 : DevRef τ sig))) (W (main_arg0 : DevRef τ sig)))
          (degNorm (W (main_arg3 : DevRef τ sig))) (W (main_arg6 : DevRef τ sig)) (W (main_arg7 : DevRef τ sig))) := by
  after_results_simp
  rfl

attribute [local irreducible] Host.scatterAdd Host.gather Host.reduceAdd in
set_option maxRecDepth 8192 in
set_option maxHeartbeats 4000000 in
/-- The source-degree normalisation, as the second layer computes it again. -/
theorem w0_v43 (W : Valuation τ sig (Elt F)) :
    after ops0 W (main_v43 : DevRef τ sig) = degNorm (W (main_arg2 : DevRef τ sig)) := by
  after_results_simp
  rfl

attribute [local irreducible] Host.scatterAdd Host.gather Host.reduceAdd in
set_option maxRecDepth 8192 in
set_option maxHeartbeats 4000000 in
/-- The destination-degree normalisation, as the second layer computes it again. -/
theorem w0_v46 (W : Valuation τ sig (Elt F)) :
    after ops0 W (main_v46 : DevRef τ sig) = degNorm (W (main_arg3 : DevRef τ sig)) := by
  after_results_simp
  rfl

end Cert.ReferenceIdeal.RefRun

end
-- ==== Proof.RefRun.Ops1.lean ====
/-
  The operations of the reference program's statements main_part1, in order, as a list; the operations of a function the
  program calls stand at the call, over the buffers that call names. Beside it the buffer each operation writes, and
  that every operation reads and writes TensorCore buffers only.
-/
import proofs.«107726_j19937238188633_2_alg».proof.ReferenceIdeal
import proofs.«107726_j19937238188633_2_alg».proof.Proof.Gen.ReferenceIdeal
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- The 60 operations of main_part1. -/
abbrev ops1 : List (HloOp τ sig (Elt F)) :=
  [ unary main_v43 main_v47 (broadcastInDim S50000x1 ![0] bcast_S50000_S50000x1_0 : (⟨S50000, .f32⟩ : BufTy).Contents (Elt F) → (⟨S50000x1, .f32⟩ : BufTy).Contents (Elt F)),
    unary main_v47 main_v48 (broadcastInDim S50000x128 ![0, 1] bcast_S50000x1_S50000x128_0_1 : (⟨S50000x1, .f32⟩ : BufTy).Contents (Elt F) → (⟨S50000x128, .f32⟩ : BufTy).Contents (Elt F)),
    binary main_v33 main_v48 main_v49 (mulf : (⟨S50000x128, .f32⟩ : BufTy).Contents (Elt F) → (⟨S50000x128, .f32⟩ : BufTy).Contents (Elt F) → (⟨S50000x128, .f32⟩ : BufTy).Contents (Elt F)),
    nullary main_c_11 (constantI S_ 32 0#32),
    unary main_c_11 main_v50 (broadcastInDim S800000 ![] bcast_S_S800000 : (⟨S_, .i32⟩ : BufTy).Contents (Elt F) → (⟨S800000, .i32⟩ : BufTy).Contents (Elt F)),
    binary main_arg2 main_v50 main_v51 (cmpi .slt : (⟨S800000, .i32⟩ : BufTy).Contents (Elt F) → (⟨S800000, .i32⟩ : BufTy).Contents (Elt F) → (⟨S800000, .i1⟩ : BufTy).Contents (Elt F)),
    nullary main_c_12 (constantI S_ 32 50000#32),
    unary main_c_12 main_v52 (broadcastInDim S800000 ![] bcast_S_S800000 : (⟨S_, .i32⟩ : BufTy).Contents (Elt F) → (⟨S800000, .i32⟩ : BufTy).Contents (Elt F)),
    binary main_arg2 main_v52 main_v53 (addi : (⟨S800000, .i32⟩ : BufTy).Contents (Elt F) → (⟨S800000, .i32⟩ : BufTy).Contents (Elt F) → (⟨S800000, .i32⟩ : BufTy).Contents (Elt F)),
    ternary main_v51 main_v53 main_arg2 main_v54 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v54 main_v55 (broadcastInDim S800000x1 ![0] bcast_S800000_S800000x1_0 : (⟨S800000, .i32⟩ : BufTy).Contents (Elt F) → (⟨S800000x1, .i32⟩ : BufTy).Contents (Elt F)),
    binary main_v49 main_v55 main_v56 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_13 (constant S_ .f32 0x00000000#32),
    unary main_cst_13 main_v57 (broadcastInDim S50000x128 ![] bcast_S_S50000x128 : (⟨S_, .f32⟩ : BufTy).Contents (Elt F) → (⟨S50000x128, .f32⟩ : BufTy).Contents (Elt F)),
    unary main_arg3 main_v58 (broadcastInDim S800000x1 ![0] bcast_S800000_S800000x1_0 : (⟨S800000, .i32⟩ : BufTy).Contents (Elt F) → (⟨S800000x1, .i32⟩ : BufTy).Contents (Elt F)),
    ternary main_v57 main_v58 main_v56 main_v59 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v46 main_v60 (broadcastInDim S50000x1 ![0] bcast_S50000_S50000x1_0 : (⟨S50000, .f32⟩ : BufTy).Contents (Elt F) → (⟨S50000x1, .f32⟩ : BufTy).Contents (Elt F)),
    unary main_v60 main_v61 (broadcastInDim S50000x128 ![0, 1] bcast_S50000x1_S50000x128_0_1 : (⟨S50000x1, .f32⟩ : BufTy).Contents (Elt F) → (⟨S50000x128, .f32⟩ : BufTy).Contents (Elt F)),
    binary main_v59 main_v61 main_v62 (mulf : (⟨S50000x128, .f32⟩ : BufTy).Contents (Elt F) → (⟨S50000x128, .f32⟩ : BufTy).Contents (Elt F) → (⟨S50000x128, .f32⟩ : BufTy).Contents (Elt F)),
    binary main_v62 main_arg8 main_v63 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg9 main_v64 (broadcastInDim S1x128 ![1] bcast_S128_S1x128_1 : (⟨S128, .f32⟩ : BufTy).Contents (Elt F) → (⟨S1x128, .f32⟩ : BufTy).Contents (Elt F)),
    unary main_v64 main_v65 (broadcastInDim S50000x128 ![0, 1] bcast_S1x128_S50000x128_0_1 : (⟨S1x128, .f32⟩ : BufTy).Contents (Elt F) → (⟨S50000x128, .f32⟩ : BufTy).Contents (Elt F)),
    binary main_v63 main_v65 main_v66 (addf : (⟨S50000x128, .f32⟩ : BufTy).Contents (Elt F) → (⟨S50000x128, .f32⟩ : BufTy).Contents (Elt F) → (⟨S50000x128, .f32⟩ : BufTy).Contents (Elt F)),
    nullary main_cst_14 (constant S_ .f32 0x3F800000#32),
    unary main_cst_14 main_v67 (broadcastInDim S800000 ![] bcast_S_S800000 : (⟨S_, .f32⟩ : BufTy).Contents (Elt F) → (⟨S800000, .f32⟩ : BufTy).Contents (Elt F)),
    nullary main_cst_15 (constant S_ .f32 0x00000000#32),
    unary main_cst_15 main_v68 (broadcastInDim S50000 ![] bcast_S_S50000 : (⟨S_, .f32⟩ : BufTy).Contents (Elt F) → (⟨S50000, .f32⟩ : BufTy).Contents (Elt F)),
    unary main_arg4 main_v69 (broadcastInDim S800000x1 ![0] bcast_S800000_S800000x1_0 : (⟨S800000, .i32⟩ : BufTy).Contents (Elt F) → (⟨S800000x1, .i32⟩ : BufTy).Contents (Elt F)),
    ternary main_v68 main_v69 main_v67 main_v70 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_16 (constant S_ .f32 0x00000000#32),
    unary main_cst_16 main_v71 (broadcastInDim S50000 ![] bcast_S_S50000 : (⟨S_, .f32⟩ : BufTy).Contents (Elt F) → (⟨S50000, .f32⟩ : BufTy).Contents (Elt F)),
    unary main_arg5 main_v72 (broadcastInDim S800000x1 ![0] bcast_S800000_S800000x1_0 : (⟨S800000, .i32⟩ : BufTy).Contents (Elt F) → (⟨S800000x1, .i32⟩ : BufTy).Contents (Elt F)),
    ternary main_v71 main_v72 main_v67 main_v73 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_17 (constant S_ .f32 0x3F800000#32),
    unary main_cst_17 main_v74 (broadcastInDim S50000 ![] bcast_S_S50000 : (⟨S_, .f32⟩ : BufTy).Contents (Elt F) → (⟨S50000, .f32⟩ : BufTy).Contents (Elt F)),
    binary main_v70 main_v74 main_v75 (maximumf : (⟨S50000, .f32⟩ : BufTy).Contents (Elt F) → (⟨S50000, .f32⟩ : BufTy).Contents (Elt F) → (⟨S50000, .f32⟩ : BufTy).Contents (Elt F)),
    unary main_v75 main_v76 (Host.rsqrt : (⟨S50000, .f32⟩ : BufTy).Contents (Elt F) → (⟨S50000, .f32⟩ : BufTy).Contents (Elt F)),
    nullary main_cst_18 (constant S_ .f32 0x3F800000#32),
    unary main_cst_18 main_v77 (broadcastInDim S50000 ![] bcast_S_S50000 : (⟨S_, .f32⟩ : BufTy).Contents (Elt F) → (⟨S50000, .f32⟩ : BufTy).Contents (Elt F)),
    binary main_v73 main_v77 main_v78 (maximumf : (⟨S50000, .f32⟩ : BufTy).Contents (Elt F) → (⟨S50000, .f32⟩ : BufTy).Contents (Elt F) → (⟨S50000, .f32⟩ : BufTy).Contents (Elt F)),
    unary main_v78 main_v79 (Host.rsqrt : (⟨S50000, .f32⟩ : BufTy).Contents (Elt F) → (⟨S50000, .f32⟩ : BufTy).Contents (Elt F)),
    unary main_v76 main_v80 (broadcastInDim S50000x1 ![0] bcast_S50000_S50000x1_0 : (⟨S50000, .f32⟩ : BufTy).Contents (Elt F) → (⟨S50000x1, .f32⟩ : BufTy).Contents (Elt F)),
    unary main_v80 main_v81 (broadcastInDim S50000x128 ![0, 1] bcast_S50000x1_S50000x128_0_1 : (⟨S50000x1, .f32⟩ : BufTy).Contents (Elt F) → (⟨S50000x128, .f32⟩ : BufTy).Contents (Elt F)),
    binary main_arg1 main_v81 main_v82 (mulf : (⟨S50000x128, .f32⟩ : BufTy).Contents (Elt F) → (⟨S50000x128, .f32⟩ : BufTy).Contents (Elt F) → (⟨S50000x128, .f32⟩ : BufTy).Contents (Elt F)),
    nullary main_c_19 (constantI S_ 32 0#32),
    unary main_c_19 main_v83 (broadcastInDim S800000 ![] bcast_S_S800000 : (⟨S_, .i32⟩ : BufTy).Contents (Elt F) → (⟨S800000, .i32⟩ : BufTy).Contents (Elt F)),
    binary main_arg4 main_v83 main_v84 (cmpi .slt : (⟨S800000, .i32⟩ : BufTy).Contents (Elt F) → (⟨S800000, .i32⟩ : BufTy).Contents (Elt F) → (⟨S800000, .i1⟩ : BufTy).Contents (Elt F)),
    nullary main_c_20 (constantI S_ 32 50000#32),
    unary main_c_20 main_v85 (broadcastInDim S800000 ![] bcast_S_S800000 : (⟨S_, .i32⟩ : BufTy).Contents (Elt F) → (⟨S800000, .i32⟩ : BufTy).Contents (Elt F)),
    binary main_arg4 main_v85 main_v86 (addi : (⟨S800000, .i32⟩ : BufTy).Contents (Elt F) → (⟨S800000, .i32⟩ : BufTy).Contents (Elt F) → (⟨S800000, .i32⟩ : BufTy).Contents (Elt F)),
    ternary main_v84 main_v86 main_arg4 main_v87 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v87 main_v88 (broadcastInDim S800000x1 ![0] bcast_S800000_S800000x1_0 : (⟨S800000, .i32⟩ : BufTy).Contents (Elt F) → (⟨S800000x1, .i32⟩ : BufTy).Contents (Elt F)),
    binary main_v82 main_v88 main_v89 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_21 (constant S_ .f32 0x00000000#32),
    unary main_cst_21 main_v90 (broadcastInDim S50000x128 ![] bcast_S_S50000x128 : (⟨S_, .f32⟩ : BufTy).Contents (Elt F) → (⟨S50000x128, .f32⟩ : BufTy).Contents (Elt F)),
    unary main_arg5 main_v91 (broadcastInDim S800000x1 ![0] bcast_S800000_S800000x1_0 : (⟨S800000, .i32⟩ : BufTy).Contents (Elt F) → (⟨S800000x1, .i32⟩ : BufTy).Contents (Elt F)),
    ternary main_v90 main_v91 main_v89 main_v92 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v79 main_v93 (broadcastInDim S50000x1 ![0] bcast_S50000_S50000x1_0 : (⟨S50000, .f32⟩ : BufTy).Contents (Elt F) → (⟨S50000x1, .f32⟩ : BufTy).Contents (Elt F)),
    unary main_v93 main_v94 (broadcastInDim S50000x128 ![0, 1] bcast_S50000x1_S50000x128_0_1 : (⟨S50000x1, .f32⟩ : BufTy).Contents (Elt F) → (⟨S50000x128, .f32⟩ : BufTy).Contents (Elt F)),
    binary main_v92 main_v94 main_v95 (mulf : (⟨S50000x128, .f32⟩ : BufTy).Contents (Elt F) → (⟨S50000x128, .f32⟩ : BufTy).Contents (Elt F) → (⟨S50000x128, .f32⟩ : BufTy).Contents (Elt F)) ]

/-- The buffer each of them writes. -/
abbrev ops1_W : List (Ref sig .tc) :=
  [main_v47, main_v48, main_v49, main_c_11, main_v50, main_v51, main_c_12, main_v52, main_v53, main_v54, main_v55, main_v56, main_cst_13, main_v57, main_v58, main_v59, main_v60, main_v61, main_v62, main_v63, main_v64, main_v65, main_v66, main_cst_14, main_v67, main_cst_15, main_v68, main_v69, main_v70, main_cst_16, main_v71, main_v72, main_v73, main_cst_17, main_v74, main_v75, main_v76, main_cst_18, main_v77, main_v78, main_v79, main_v80, main_v81, main_v82, main_c_19, main_v83, main_v84, main_c_20, main_v85, main_v86, main_v87, main_v88, main_v89, main_cst_21, main_v90, main_v91, main_v92, main_v93, main_v94, main_v95]

set_option maxRecDepth 8192 in
theorem ops1_sub : (ops1 : List (HloOp τ sig (Elt F))).Forall fun op => op.bufs ⊆ tcRefs τ sig :=
  ⟨unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub ..⟩

end Cert.ReferenceIdeal.RefRun

end
-- ==== Proof.RefRun.Win1.lean ====
/-
  Statements 61 … 120 of the reference program: the second layer on the first graph (its output is the first
  result array), then on the second graph the degree normalisations and the first layer's scaled neighbour sum. From
  any contents `W` before them, the two buffers later statements read are the named terms of `W`.
-/
import proofs.«107726_j19937238188633_2_alg».proof.Proof.RefRun.Ops1
import proofs.«107726_j19937238188633_2_alg».proof.Proof.RefChain

noncomputable section

namespace Cert.ReferenceIdeal.RefRun

open Cert.ReferenceIdeal Cert.ReferenceIdeal.Facts₀ Cert.ReferenceIdeal.Chain Idealize.ShloMosaic Idealize.ShloMosaic.TcCoe Idealize.SL.Sem Idealize.ShloMosaic.StableHlo

variable {F : FTy → Type} [FloatOps F]

set_option maxRecDepth 8192 in
set_option maxHeartbeats 4000000 in
/-- These statements are their list of operations run in order (the called functions' definitions unfold at the calls). -/
theorem main_part1_eq (c : Dev nD) : main_part1 (F := F) c = seq ops1 := rfl

set_option maxRecDepth 8192 in
set_option maxHeartbeats 4000000 in
/-- Every operation writes the buffer listed for it. -/
theorem ops1_writes : (ops1 : List (HloOp τ sig (Elt F))).Forall fun op =>
    op.writes ⊆ (ops1_W.map (Proc.devRef (τ := τ) .tc)).toFinset := by
  simp only [List.Forall]
  repeat' apply And.intro
  all_goals
    simp only [nullary_writes, unary_writes, binary_writes, ternary_writes, Finset.singleton_subset_iff, List.mem_toFinset]
    exact List.mem_map_of_mem (by decide)

/-- A buffer these statements do not write keeps its contents through them. -/
theorem keep1 (W : Valuation τ sig (Elt F)) (r : Ref sig .tc) (h : r ∉ ops1_W) :
    after ops1 W (Proc.devRef .tc r) = W (Proc.devRef .tc r) :=
  after_of_writes_sub ops1 W ops1_writes h

attribute [local irreducible] Host.scatterAdd Host.gather Host.reduceAdd in
set_option maxRecDepth 8192 in
set_option maxHeartbeats 4000000 in
/-- The first graph's second layer over the first layer's output and the two normalisations. -/
theorem w1_v66 (W : Valuation τ sig (Elt F)) :
    after ops1 W (main_v66 : DevRef τ sig)
      = denseHost (aggregate (W (main_arg2 : DevRef τ sig)) (W (main_arg3 : DevRef τ sig)) (W (main_v43 : DevRef τ sig)) (W (main_v33 : DevRef τ sig)))
          (W (main_v46 : DevRef τ sig)) (W (main_arg8 : DevRef τ sig)) (W (main_arg9 : DevRef τ sig)) := by
  after_results_simp
  rfl

attribute [local irreducible] Host.scatterAdd Host.gather Host.reduceAdd in
set_option maxRecDepth 8192 in
set_option maxHeartbeats 4000000 in
/-- The second graph's first neighbour sum, scaled by the destination-degree normalisation. -/
theorem w1_v95 (W : Valuation τ sig (Elt F)) :
    after ops1 W (main_v95 : DevRef τ sig)
      = mulf (aggregate (W (main_arg4 : DevRef τ sig)) (W (main_arg5 : DevRef τ sig)) (degNorm (W (main_arg4 : DevRef τ sig))) (W (main_arg1 : DevRef τ sig)))
          (colBcast (degNorm (W (main_arg5 : DevRef τ sig)))) := by
  after_results_simp
  rfl

end Cert.ReferenceIdeal.RefRun

end
-- ==== Proof.RefRun.Ops2.lean ====
/-
  The operations of the reference program's statements main_part2, in order, as a list; the operations of a function the
  program calls stand at the call, over the buffers that call names. Beside it the buffer each operation writes, and
  that every operation reads and writes TensorCore buffers only.
-/
import proofs.«107726_j19937238188633_2_alg».proof.ReferenceIdeal
import proofs.«107726_j19937238188633_2_alg».proof.Proof.Gen.ReferenceIdeal
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- The 84 operations of main_part2. -/
abbrev ops2 : List (HloOp τ sig (Elt F)) :=
  [ binary main_v95 main_arg6 main_v96 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg7 main_v97 (broadcastInDim S1x128 ![1] bcast_S128_S1x128_1 : (⟨S128, .f32⟩ : BufTy).Contents (Elt F) → (⟨S1x128, .f32⟩ : BufTy).Contents (Elt F)),
    unary main_v97 main_v98 (broadcastInDim S50000x128 ![0, 1] bcast_S1x128_S50000x128_0_1 : (⟨S1x128, .f32⟩ : BufTy).Contents (Elt F) → (⟨S50000x128, .f32⟩ : BufTy).Contents (Elt F)),
    binary main_v96 main_v98 main_v99 (addf : (⟨S50000x128, .f32⟩ : BufTy).Contents (Elt F) → (⟨S50000x128, .f32⟩ : BufTy).Contents (Elt F) → (⟨S50000x128, .f32⟩ : BufTy).Contents (Elt F)),
    TRef.nullary main_call1.cst (constant S_ .f32 0x00000000#32),
    TRef.unary main_call1.cst main_call1.v0 (broadcastInDim S50000x128 ![] bcast_S_S50000x128),
    TRef.binary (.of main_v99 : StableHlo.TRef sig ⟨S50000x128, .f32⟩) main_call1.v0 main_call1.v1 maximumf,
    nullary main_cst_22 (constant S_ .f32 0x3F800000#32),
    unary main_cst_22 main_v101 (broadcastInDim S800000 ![] bcast_S_S800000 : (⟨S_, .f32⟩ : BufTy).Contents (Elt F) → (⟨S800000, .f32⟩ : BufTy).Contents (Elt F)),
    nullary main_cst_23 (constant S_ .f32 0x00000000#32),
    unary main_cst_23 main_v102 (broadcastInDim S50000 ![] bcast_S_S50000 : (⟨S_, .f32⟩ : BufTy).Contents (Elt F) → (⟨S50000, .f32⟩ : BufTy).Contents (Elt F)),
    unary main_arg4 main_v103 (broadcastInDim S800000x1 ![0] bcast_S800000_S800000x1_0 : (⟨S800000, .i32⟩ : BufTy).Contents (Elt F) → (⟨S800000x1, .i32⟩ : BufTy).Contents (Elt F)),
    ternary main_v102 main_v103 main_v101 main_v104 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_24 (constant S_ .f32 0x00000000#32),
    unary main_cst_24 main_v105 (broadcastInDim S50000 ![] bcast_S_S50000 : (⟨S_, .f32⟩ : BufTy).Contents (Elt F) → (⟨S50000, .f32⟩ : BufTy).Contents (Elt F)),
    unary main_arg5 main_v106 (broadcastInDim S800000x1 ![0] bcast_S800000_S800000x1_0 : (⟨S800000, .i32⟩ : BufTy).Contents (Elt F) → (⟨S800000x1, .i32⟩ : BufTy).Contents (Elt F)),
    ternary main_v105 main_v106 main_v101 main_v107 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_25 (constant S_ .f32 0x3F800000#32),
    unary main_cst_25 main_v108 (broadcastInDim S50000 ![] bcast_S_S50000 : (⟨S_, .f32⟩ : BufTy).Contents (Elt F) → (⟨S50000, .f32⟩ : BufTy).Contents (Elt F)),
    binary main_v104 main_v108 main_v109 (maximumf : (⟨S50000, .f32⟩ : BufTy).Contents (Elt F) → (⟨S50000, .f32⟩ : BufTy).Contents (Elt F) → (⟨S50000, .f32⟩ : BufTy).Contents (Elt F)),
    unary main_v109 main_v110 (Host.rsqrt : (⟨S50000, .f32⟩ : BufTy).Contents (Elt F) → (⟨S50000, .f32⟩ : BufTy).Contents (Elt F)),
    nullary main_cst_26 (constant S_ .f32 0x3F800000#32),
    unary main_cst_26 main_v111 (broadcastInDim S50000 ![] bcast_S_S50000 : (⟨S_, .f32⟩ : BufTy).Contents (Elt F) → (⟨S50000, .f32⟩ : BufTy).Contents (Elt F)),
    binary main_v107 main_v111 main_v112 (maximumf : (⟨S50000, .f32⟩ : BufTy).Contents (Elt F) → (⟨S50000, .f32⟩ : BufTy).Contents (Elt F) → (⟨S50000, .f32⟩ : BufTy).Contents (Elt F)),
    unary main_v112 main_v113 (Host.rsqrt : (⟨S50000, .f32⟩ : BufTy).Contents (Elt F) → (⟨S50000, .f32⟩ : BufTy).Contents (Elt F)),
    unary main_v110 main_v114 (broadcastInDim S50000x1 ![0] bcast_S50000_S50000x1_0 : (⟨S50000, .f32⟩ : BufTy).Contents (Elt F) → (⟨S50000x1, .f32⟩ : BufTy).Contents (Elt F)),
    unary main_v114 main_v115 (broadcastInDim S50000x128 ![0, 1] bcast_S50000x1_S50000x128_0_1 : (⟨S50000x1, .f32⟩ : BufTy).Contents (Elt F) → (⟨S50000x128, .f32⟩ : BufTy).Contents (Elt F)),
    binary main_v100 main_v115 main_v116 (mulf : (⟨S50000x128, .f32⟩ : BufTy).Contents (Elt F) → (⟨S50000x128, .f32⟩ : BufTy).Contents (Elt F) → (⟨S50000x128, .f32⟩ : BufTy).Contents (Elt F)),
    nullary main_c_27 (constantI S_ 32 0#32),
    unary main_c_27 main_v117 (broadcastInDim S800000 ![] bcast_S_S800000 : (⟨S_, .i32⟩ : BufTy).Contents (Elt F) → (⟨S800000, .i32⟩ : BufTy).Contents (Elt F)),
    binary main_arg4 main_v117 main_v118 (cmpi .slt : (⟨S800000, .i32⟩ : BufTy).Contents (Elt F) → (⟨S800000, .i32⟩ : BufTy).Contents (Elt F) → (⟨S800000, .i1⟩ : BufTy).Contents (Elt F)),
    nullary main_c_28 (constantI S_ 32 50000#32),
    unary main_c_28 main_v119 (broadcastInDim S800000 ![] bcast_S_S800000 : (⟨S_, .i32⟩ : BufTy).Contents (Elt F) → (⟨S800000, .i32⟩ : BufTy).Contents (Elt F)),
    binary main_arg4 main_v119 main_v120 (addi : (⟨S800000, .i32⟩ : BufTy).Contents (Elt F) → (⟨S800000, .i32⟩ : BufTy).Contents (Elt F) → (⟨S800000, .i32⟩ : BufTy).Contents (Elt F)),
    ternary main_v118 main_v120 main_arg4 main_v121 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v121 main_v122 (broadcastInDim S800000x1 ![0] bcast_S800000_S800000x1_0 : (⟨S800000, .i32⟩ : BufTy).Contents (Elt F) → (⟨S800000x1, .i32⟩ : BufTy).Contents (Elt F)),
    binary main_v116 main_v122 main_v123 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_29 (constant S_ .f32 0x00000000#32),
    unary main_cst_29 main_v124 (broadcastInDim S50000x128 ![] bcast_S_S50000x128 : (⟨S_, .f32⟩ : BufTy).Contents (Elt F) → (⟨S50000x128, .f32⟩ : BufTy).Contents (Elt F)),
    unary main_arg5 main_v125 (broadcastInDim S800000x1 ![0] bcast_S800000_S800000x1_0 : (⟨S800000, .i32⟩ : BufTy).Contents (Elt F) → (⟨S800000x1, .i32⟩ : BufTy).Contents (Elt F)),
    ternary main_v124 main_v125 main_v123 main_v126 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v113 main_v127 (broadcastInDim S50000x1 ![0] bcast_S50000_S50000x1_0 : (⟨S50000, .f32⟩ : BufTy).Contents (Elt F) → (⟨S50000x1, .f32⟩ : BufTy).Contents (Elt F)),
    unary main_v127 main_v128 (broadcastInDim S50000x128 ![0, 1] bcast_S50000x1_S50000x128_0_1 : (⟨S50000x1, .f32⟩ : BufTy).Contents (Elt F) → (⟨S50000x128, .f32⟩ : BufTy).Contents (Elt F)),
    binary main_v126 main_v128 main_v129 (mulf : (⟨S50000x128, .f32⟩ : BufTy).Contents (Elt F) → (⟨S50000x128, .f32⟩ : BufTy).Contents (Elt F) → (⟨S50000x128, .f32⟩ : BufTy).Contents (Elt F)),
    binary main_v129 main_arg8 main_v130 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg9 main_v131 (broadcastInDim S1x128 ![1] bcast_S128_S1x128_1 : (⟨S128, .f32⟩ : BufTy).Contents (Elt F) → (⟨S1x128, .f32⟩ : BufTy).Contents (Elt F)),
    unary main_v131 main_v132 (broadcastInDim S50000x128 ![0, 1] bcast_S1x128_S50000x128_0_1 : (⟨S1x128, .f32⟩ : BufTy).Contents (Elt F) → (⟨S50000x128, .f32⟩ : BufTy).Contents (Elt F)),
    binary main_v130 main_v132 main_v133 (addf : (⟨S50000x128, .f32⟩ : BufTy).Contents (Elt F) → (⟨S50000x128, .f32⟩ : BufTy).Contents (Elt F) → (⟨S50000x128, .f32⟩ : BufTy).Contents (Elt F)),
    nullary main_cst_30 (constant S_ .f32 0x00000000#32),
    binary main_v66 main_cst_30 main_v134 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_31 (constant S_ .f32 0x47435000#32),
    unary main_cst_31 main_v135 (broadcastInDim S128 ![] bcast_S_S128 : (⟨S_, .f32⟩ : BufTy).Contents (Elt F) → (⟨S128, .f32⟩ : BufTy).Contents (Elt F)),
    binary main_v134 main_v135 main_v136 (Host.divf : (⟨S128, .f32⟩ : BufTy).Contents (Elt F) → (⟨S128, .f32⟩ : BufTy).Contents (Elt F) → (⟨S128, .f32⟩ : BufTy).Contents (Elt F)),
    unary main_v136 main_v137 (broadcastInDim S1x128 ![1] bcast_S128_S1x128_1 : (⟨S128, .f32⟩ : BufTy).Contents (Elt F) → (⟨S1x128, .f32⟩ : BufTy).Contents (Elt F)),
    unary main_v137 main_v138 (broadcastInDim S50000x128 ![0, 1] bcast_S1x128_S50000x128_0_1 : (⟨S1x128, .f32⟩ : BufTy).Contents (Elt F) → (⟨S50000x128, .f32⟩ : BufTy).Contents (Elt F)),
    binary main_v66 main_v138 main_v139 (subf : (⟨S50000x128, .f32⟩ : BufTy).Contents (Elt F) → (⟨S50000x128, .f32⟩ : BufTy).Contents (Elt F) → (⟨S50000x128, .f32⟩ : BufTy).Contents (Elt F)),
    nullary main_c_32 (constantI S_ 32 1#32),
    TRef.nullary main_call2.call0.cst (constant S_ .f32 0x00000000#32),
    TRef.binary (.of main_v66 : StableHlo.TRef sig ⟨S50000x128, .f32⟩) main_call2.call0.cst main_call2.call0.v0 (fun x v => Host.reduceAdd x v reducesTo_S50000x128_S128_d0 h_S_),
    TRef.unary main_call2.call0.v0 main_call2.call0.v1 (broadcastInDim S1x128 ![1] bcast_S128_S1x128_1),
    TRef.nullary main_call2.call0.cst_0 (constant S_ .f32 0x47435000#32),
    TRef.unary main_call2.call0.cst_0 main_call2.call0.v2 (broadcastInDim S1x128 ![] bcast_S_S1x128),
    TRef.binary main_call2.call0.v1 main_call2.call0.v2 main_call2.call0.v3 Host.divf,
    TRef.unary main_call2.call0.v3 main_call2.call0.v4 (broadcastInDim S50000x128 ![0, 1] bcast_S1x128_S50000x128_0_1),
    TRef.binary (.of main_v66 : StableHlo.TRef sig ⟨S50000x128, .f32⟩) main_call2.call0.v4 main_call2.call0.v5 subf,
    TRef.binary main_call2.call0.v5 main_call2.call0.v5 main_call2.call0.v6 mulf,
    TRef.unary (.of main_c_32 : StableHlo.TRef sig ⟨S_, .i32⟩) main_call2.call0.v7 (sitofp .f32),
    TRef.nullary main_call2.call0.cst_1 (constant S_ .f32 0x47435000#32),
    TRef.binary main_call2.call0.cst_1 main_call2.call0.v7 main_call2.call0.v8 subf,
    TRef.nullary main_call2.call0.cst_2 (constant S_ .f32 0x00000000#32),
    TRef.binary main_call2.call0.v6 main_call2.call0.cst_2 main_call2.call0.v9 (fun x v => Host.reduceAdd x v reducesTo_S50000x128_S128_d0 h_S_),
    TRef.unary main_call2.call0.v8 main_call2.call0.v10 (broadcastInDim S128 ![] bcast_S_S128),
    TRef.binary main_call2.call0.v9 main_call2.call0.v10 main_call2.call0.v11 Host.divf,
    TRef.nullary main_call2.call0.cst_3 (constant S_ .f32 0x00000000#32),
    TRef.binary main_call2.call0.v8 main_call2.call0.cst_3 main_call2.call0.v12 (cmpf .ogt),
    TRef.nullary main_call2.call0.cst_4 (constant S_ .f32 0x7FC00000#32),
    TRef.unary main_call2.call0.cst_4 main_call2.call0.call0.v0 id,
    TRef.unary main_call2.call0.call0.v0 main_call2.call0.call0.v1 (broadcastInDim S128 ![] bcast_S_S128),
    TRef.ternary main_call2.call0.v12 main_call2.call0.v11 main_call2.call0.call0.v1 main_call2.call0.call0.v2 (fun p a b => select (broadcastInDim S128 ![] bcast_S_S128 p) a b),
    TRef.unary main_call2.call0.call0.v2 main_call2.v1 Host.sqrt,
    nullary main_cst_33 (constant S_ .f32 0x358637BD#32),
    unary main_cst_33 main_v141 (broadcastInDim S128 ![] bcast_S_S128 : (⟨S_, .f32⟩ : BufTy).Contents (Elt F) → (⟨S128, .f32⟩ : BufTy).Contents (Elt F)),
    binary main_v140 main_v141 main_v142 (addf : (⟨S128, .f32⟩ : BufTy).Contents (Elt F) → (⟨S128, .f32⟩ : BufTy).Contents (Elt F) → (⟨S128, .f32⟩ : BufTy).Contents (Elt F)),
    unary main_v142 main_v143 (broadcastInDim S1x128 ![1] bcast_S128_S1x128_1 : (⟨S128, .f32⟩ : BufTy).Contents (Elt F) → (⟨S1x128, .f32⟩ : BufTy).Contents (Elt F)) ]

/-- The buffer each of them writes. -/
abbrev ops2_W : List (Ref sig .tc) :=
  [main_v96, main_v97, main_v98, main_v99, main_call1_cst, main_call1_v0, main_v100, main_cst_22, main_v101, main_cst_23, main_v102, main_v103, main_v104, main_cst_24, main_v105, main_v106, main_v107, main_cst_25, main_v108, main_v109, main_v110, main_cst_26, main_v111, main_v112, main_v113, main_v114, main_v115, main_v116, main_c_27, main_v117, main_v118, main_c_28, main_v119, main_v120, main_v121, main_v122, main_v123, main_cst_29, main_v124, main_v125, main_v126, main_v127, main_v128, main_v129, main_v130, main_v131, main_v132, main_v133, main_cst_30, main_v134, main_cst_31, main_v135, main_v136, main_v137, main_v138, main_v139, main_c_32, main_call2_call0_cst, main_call2_call0_v0, main_call2_call0_v1, main_call2_call0_cst_0, main_call2_call0_v2, main_call2_call0_v3, main_call2_call0_v4, main_call2_call0_v5, main_call2_call0_v6, main_call2_call0_v7, main_call2_call0_cst_1, main_call2_call0_v8, main_call2_call0_cst_2, main_call2_call0_v9, main_call2_call0_v10, main_call2_call0_v11, main_call2_call0_cst_3, main_call2_call0_v12, main_call2_call0_cst_4, main_call2_call0_call0_v0, main_call2_call0_call0_v1, main_call2_v0, main_v140, main_cst_33, main_v141, main_v142, main_v143]

set_option maxRecDepth 8192 in
theorem ops2_sub : (ops2 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., nullary_bufs_sub .., unary_bufs_sub .., binary_bufs_sub .., unary_bufs_sub ..⟩

end Cert.ReferenceIdeal.RefRun

end
-- ==== Proof.RefRun.Win2.lean ====
/-
  Statements 121 … 180 of the reference program: the rest of the second graph's two layers (its output is the
  second result array), then of the first result array the column means, the centred rows and the column standard
  deviations plus the small constant, as a row. From any contents `W` before them, the three buffers later statements
  read are the named terms of `W`.
-/
import proofs.«107726_j19937238188633_2_alg».proof.Proof.RefRun.Ops2
import proofs.«107726_j19937238188633_2_alg».proof.Proof.RefChain

noncomputable section

namespace Cert.ReferenceIdeal.RefRun

open Cert.ReferenceIdeal Cert.ReferenceIdeal.Facts₀ Cert.ReferenceIdeal.Chain Idealize.ShloMosaic Idealize.ShloMosaic.TcCoe Idealize.SL.Sem Idealize.ShloMosaic.StableHlo

variable {F : FTy → Type} [FloatOps F]

set_option maxRecDepth 8192 in
set_option maxHeartbeats 4000000 in
/-- These statements are their list of operations run in order (the called functions' definitions unfold at the calls). -/
theorem main_part2_eq (c : Dev nD) : main_part2 (F := F) c = seq ops2 := rfl

set_option maxRecDepth 8192 in
set_option maxHeartbeats 4000000 in
/-- Every operation writes the buffer listed for it. -/
theorem ops2_writes : (ops2 : List (HloOp τ sig (Elt F))).Forall fun op =>
    op.writes ⊆ (ops2_W.map (Proc.devRef (τ := τ) .tc)).toFinset := by
  simp only [List.Forall]
  repeat' apply And.intro
  all_goals
    simp only [nullary_writes, unary_writes, binary_writes, ternary_writes, Finset.singleton_subset_iff, List.mem_toFinset]
    exact List.mem_map_of_mem (by decide)

/-- A buffer these statements do not write keeps its contents through them. -/
theorem keep2 (W : Valuation τ sig (Elt F)) (r : Ref sig .tc) (h : r ∉ ops2_W) :
    after ops2 W (Proc.devRef .tc r) = W (Proc.devRef .tc r) :=
  after_of_writes_sub ops2 W ops2_writes h

attribute [local irreducible] Host.scatterAdd Host.gather Host.reduceAdd in
set_option maxRecDepth 8192 in
set_option maxHeartbeats 4000000 in
/-- The second graph's output over the scaled neighbour sum computed before. -/
theorem w2_v133 (W : Valuation τ sig (Elt F)) :
    after ops2 W (main_v133 : DevRef τ sig)
      = denseHost (aggregate (W (main_arg4 : DevRef τ sig)) (W (main_arg5 : DevRef τ sig)) (degNorm (W (main_arg4 : DevRef τ sig)))
            (reluHost (addf (Host.dotGeneral dot_S50000x128_S128x128_S50000x128_1_0_0_1_n_n none (W (main_v95 : DevRef τ sig)) (W (main_arg6 : DevRef τ sig)))
              (rowBcast (W (main_arg7 : DevRef τ sig))))))
          (degNorm (W (main_arg5 : DevRef τ sig))) (W (main_arg8 : DevRef τ sig)) (W (main_arg9 : DevRef τ sig)) := by
  after_results_simp
  rfl

attribute [local irreducible] Host.scatterAdd Host.gather Host.reduceAdd in
set_option maxRecDepth 8192 in
set_option maxHeartbeats 4000000 in
/-- The first result array with its column means taken off. -/
theorem w2_v139 (W : Valuation τ sig (Elt F)) :
    after ops2 W (main_v139 : DevRef τ sig) = centered (W (main_v66 : DevRef τ sig)) := by
  after_results_simp
  rfl

attribute [local irreducible] Host.scatterAdd Host.gather Host.reduceAdd in
set_option maxRecDepth 8192 in
set_option maxHeartbeats 4000000 in
/-- Its column standard deviations plus the small constant, as a one-row table. -/
theorem w2_v143 (W : Valuation τ sig (Elt F)) :
    after ops2 W (main_v143 : DevRef τ sig)
      = broadcastInDim S1x128 ![1] bcast_S128_S1x128_1
          (addf (stdHost (W (main_v66 : DevRef τ sig))) (broadcastInDim S128 ![] bcast_S_S128 (constant S_ .f32 0x358637BD#32))) := by
  after_results_simp
  rfl

end Cert.ReferenceIdeal.RefRun

end
-- ==== Proof.RefRun.Ops3.lean ====
/-
  The operations of the reference program's statements main_part3, in order, as a list; the operations of a function the
  program calls stand at the call, over the buffers that call names. Beside it the buffer each operation writes, and
  that every operation reads and writes TensorCore buffers only.
-/
import proofs.«107726_j19937238188633_2_alg».proof.ReferenceIdeal
import proofs.«107726_j19937238188633_2_alg».proof.Proof.Gen.ReferenceIdeal
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- The 82 operations of main_part3. -/
abbrev ops3 : List (HloOp τ sig (Elt F)) :=
  [ unary main_v143 main_v144 (broadcastInDim S50000x128 ![0, 1] bcast_S1x128_S50000x128_0_1 : (⟨S1x128, .f32⟩ : BufTy).Contents (Elt F) → (⟨S50000x128, .f32⟩ : BufTy).Contents (Elt F)),
    binary main_v139 main_v144 main_v145 (Host.divf : (⟨S50000x128, .f32⟩ : BufTy).Contents (Elt F) → (⟨S50000x128, .f32⟩ : BufTy).Contents (Elt F) → (⟨S50000x128, .f32⟩ : BufTy).Contents (Elt F)),
    nullary main_cst_34 (constant S_ .f32 0x00000000#32),
    binary main_v133 main_cst_34 main_v146 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_35 (constant S_ .f32 0x47435000#32),
    unary main_cst_35 main_v147 (broadcastInDim S128 ![] bcast_S_S128 : (⟨S_, .f32⟩ : BufTy).Contents (Elt F) → (⟨S128, .f32⟩ : BufTy).Contents (Elt F)),
    binary main_v146 main_v147 main_v148 (Host.divf : (⟨S128, .f32⟩ : BufTy).Contents (Elt F) → (⟨S128, .f32⟩ : BufTy).Contents (Elt F) → (⟨S128, .f32⟩ : BufTy).Contents (Elt F)),
    unary main_v148 main_v149 (broadcastInDim S1x128 ![1] bcast_S128_S1x128_1 : (⟨S128, .f32⟩ : BufTy).Contents (Elt F) → (⟨S1x128, .f32⟩ : BufTy).Contents (Elt F)),
    unary main_v149 main_v150 (broadcastInDim S50000x128 ![0, 1] bcast_S1x128_S50000x128_0_1 : (⟨S1x128, .f32⟩ : BufTy).Contents (Elt F) → (⟨S50000x128, .f32⟩ : BufTy).Contents (Elt F)),
    binary main_v133 main_v150 main_v151 (subf : (⟨S50000x128, .f32⟩ : BufTy).Contents (Elt F) → (⟨S50000x128, .f32⟩ : BufTy).Contents (Elt F) → (⟨S50000x128, .f32⟩ : BufTy).Contents (Elt F)),
    nullary main_c_36 (constantI S_ 32 1#32),
    TRef.nullary main_call3.call0.cst (constant S_ .f32 0x00000000#32),
    TRef.binary (.of main_v133 : StableHlo.TRef sig ⟨S50000x128, .f32⟩) main_call3.call0.cst main_call3.call0.v0 (fun x v => Host.reduceAdd x v reducesTo_S50000x128_S128_d0 h_S_),
    TRef.unary main_call3.call0.v0 main_call3.call0.v1 (broadcastInDim S1x128 ![1] bcast_S128_S1x128_1),
    TRef.nullary main_call3.call0.cst_0 (constant S_ .f32 0x47435000#32),
    TRef.unary main_call3.call0.cst_0 main_call3.call0.v2 (broadcastInDim S1x128 ![] bcast_S_S1x128),
    TRef.binary main_call3.call0.v1 main_call3.call0.v2 main_call3.call0.v3 Host.divf,
    TRef.unary main_call3.call0.v3 main_call3.call0.v4 (broadcastInDim S50000x128 ![0, 1] bcast_S1x128_S50000x128_0_1),
    TRef.binary (.of main_v133 : StableHlo.TRef sig ⟨S50000x128, .f32⟩) main_call3.call0.v4 main_call3.call0.v5 subf,
    TRef.binary main_call3.call0.v5 main_call3.call0.v5 main_call3.call0.v6 mulf,
    TRef.unary (.of main_c_36 : StableHlo.TRef sig ⟨S_, .i32⟩) main_call3.call0.v7 (sitofp .f32),
    TRef.nullary main_call3.call0.cst_1 (constant S_ .f32 0x47435000#32),
    TRef.binary main_call3.call0.cst_1 main_call3.call0.v7 main_call3.call0.v8 subf,
    TRef.nullary main_call3.call0.cst_2 (constant S_ .f32 0x00000000#32),
    TRef.binary main_call3.call0.v6 main_call3.call0.cst_2 main_call3.call0.v9 (fun x v => Host.reduceAdd x v reducesTo_S50000x128_S128_d0 h_S_),
    TRef.unary main_call3.call0.v8 main_call3.call0.v10 (broadcastInDim S128 ![] bcast_S_S128),
    TRef.binary main_call3.call0.v9 main_call3.call0.v10 main_call3.call0.v11 Host.divf,
    TRef.nullary main_call3.call0.cst_3 (constant S_ .f32 0x00000000#32),
    TRef.binary main_call3.call0.v8 main_call3.call0.cst_3 main_call3.call0.v12 (cmpf .ogt),
    TRef.nullary main_call3.call0.cst_4 (constant S_ .f32 0x7FC00000#32),
    TRef.unary main_call3.call0.cst_4 main_call3.call0.call0.v0 id,
    TRef.unary main_call3.call0.call0.v0 main_call3.call0.call0.v1 (broadcastInDim S128 ![] bcast_S_S128),
    TRef.ternary main_call3.call0.v12 main_call3.call0.v11 main_call3.call0.call0.v1 main_call3.call0.call0.v2 (fun p a b => select (broadcastInDim S128 ![] bcast_S_S128 p) a b),
    TRef.unary main_call3.call0.call0.v2 main_call3.v1 Host.sqrt,
    nullary main_cst_37 (constant S_ .f32 0x358637BD#32),
    unary main_cst_37 main_v153 (broadcastInDim S128 ![] bcast_S_S128 : (⟨S_, .f32⟩ : BufTy).Contents (Elt F) → (⟨S128, .f32⟩ : BufTy).Contents (Elt F)),
    binary main_v152 main_v153 main_v154 (addf : (⟨S128, .f32⟩ : BufTy).Contents (Elt F) → (⟨S128, .f32⟩ : BufTy).Contents (Elt F) → (⟨S128, .f32⟩ : BufTy).Contents (Elt F)),
    unary main_v154 main_v155 (broadcastInDim S1x128 ![1] bcast_S128_S1x128_1 : (⟨S128, .f32⟩ : BufTy).Contents (Elt F) → (⟨S1x128, .f32⟩ : BufTy).Contents (Elt F)),
    unary main_v155 main_v156 (broadcastInDim S50000x128 ![0, 1] bcast_S1x128_S50000x128_0_1 : (⟨S1x128, .f32⟩ : BufTy).Contents (Elt F) → (⟨S50000x128, .f32⟩ : BufTy).Contents (Elt F)),
    binary main_v151 main_v156 main_v157 (Host.divf : (⟨S50000x128, .f32⟩ : BufTy).Contents (Elt F) → (⟨S50000x128, .f32⟩ : BufTy).Contents (Elt F) → (⟨S50000x128, .f32⟩ : BufTy).Contents (Elt F)),
    unary main_v145 main_v158 ((transpose S128x50000 [1, 0] · transposes_S50000x128_S128x50000_1_0) : (⟨S50000x128, .f32⟩ : BufTy).Contents (Elt F) → (⟨S128x50000, .f32⟩ : BufTy).Contents (Elt F)),
    binary main_v158 main_v157 main_v159 ((fun l r => Host.dotGeneral dot_S128x50000_S50000x128_S128x128_1_0_0_1_n_n none l r) : (⟨S128x50000, .f32⟩ : BufTy).Contents (Elt F) → (⟨S50000x128, .f32⟩ : BufTy).Contents (Elt F) → (⟨S128x128, .f32⟩ : BufTy).Contents (Elt F)),
    nullary main_cst_38 (constant S_ .f32 0x47435000#32),
    unary main_cst_38 main_v160 (broadcastInDim S128x128 ![] bcast_S_S128x128 : (⟨S_, .f32⟩ : BufTy).Contents (Elt F) → (⟨S128x128, .f32⟩ : BufTy).Contents (Elt F)),
    binary main_v159 main_v160 main_v161 (Host.divf : (⟨S128x128, .f32⟩ : BufTy).Contents (Elt F) → (⟨S128x128, .f32⟩ : BufTy).Contents (Elt F) → (⟨S128x128, .f32⟩ : BufTy).Contents (Elt F)),
    unary main_v161 main_v162 (Host.absf : (⟨S128x128, .f32⟩ : BufTy).Contents (Elt F) → (⟨S128x128, .f32⟩ : BufTy).Contents (Elt F)),
    nullary main_cst_39 (constant S_ .f32 0x00000000#32),
    binary main_v162 main_cst_39 main_v163 ((fun x v => Host.reduceAdd x v reducesTo_S128x128_S128_d1 h_S_) : (⟨S128x128, .f32⟩ : BufTy).Contents (Elt F) → (⟨S_, .f32⟩ : BufTy).Contents (Elt F) → (⟨S128, .f32⟩ : BufTy).Contents (Elt F)),
    nullary main_cst_40 (constant S_ .f32 0x43000000#32),
    unary main_cst_40 main_v164 (broadcastInDim S128 ![] bcast_S_S128 : (⟨S_, .f32⟩ : BufTy).Contents (Elt F) → (⟨S128, .f32⟩ : BufTy).Contents (Elt F)),
    binary main_v163 main_v164 main_v165 (Host.divf : (⟨S128, .f32⟩ : BufTy).Contents (Elt F) → (⟨S128, .f32⟩ : BufTy).Contents (Elt F) → (⟨S128, .f32⟩ : BufTy).Contents (Elt F)),
    unary main_v161 main_v166 (Host.absf : (⟨S128x128, .f32⟩ : BufTy).Contents (Elt F) → (⟨S128x128, .f32⟩ : BufTy).Contents (Elt F)),
    nullary main_cst_41 (constant S_ .f32 0x00000000#32),
    binary main_v166 main_cst_41 main_v167 ((fun x v => Host.reduceAdd x v reducesTo_S128x128_S128_d0 h_S_) : (⟨S128x128, .f32⟩ : BufTy).Contents (Elt F) → (⟨S_, .f32⟩ : BufTy).Contents (Elt F) → (⟨S128, .f32⟩ : BufTy).Contents (Elt F)),
    nullary main_cst_42 (constant S_ .f32 0x43000000#32),
    unary main_cst_42 main_v168 (broadcastInDim S128 ![] bcast_S_S128 : (⟨S_, .f32⟩ : BufTy).Contents (Elt F) → (⟨S128, .f32⟩ : BufTy).Contents (Elt F)),
    binary main_v167 main_v168 main_v169 (Host.divf : (⟨S128, .f32⟩ : BufTy).Contents (Elt F) → (⟨S128, .f32⟩ : BufTy).Contents (Elt F) → (⟨S128, .f32⟩ : BufTy).Contents (Elt F)),
    binary main_v165 main_arg10 main_v170 (addf : (⟨S128, .f32⟩ : BufTy).Contents (Elt F) → (⟨S128, .f32⟩ : BufTy).Contents (Elt F) → (⟨S128, .f32⟩ : BufTy).Contents (Elt F)),
    nullary main_cst_43 (constant S_ .f32 0x3D4CCCCD#32),
    unary main_cst_43 main_v171 (broadcastInDim S128 ![] bcast_S_S128 : (⟨S_, .f32⟩ : BufTy).Contents (Elt F) → (⟨S128, .f32⟩ : BufTy).Contents (Elt F)),
    binary main_v170 main_v171 main_v172 (subf : (⟨S128, .f32⟩ : BufTy).Contents (Elt F) → (⟨S128, .f32⟩ : BufTy).Contents (Elt F) → (⟨S128, .f32⟩ : BufTy).Contents (Elt F)),
    nullary main_cst_44 (constant S_ .f32 0x42480000#32),
    unary main_cst_44 main_v173 (broadcastInDim S128 ![] bcast_S_S128 : (⟨S_, .f32⟩ : BufTy).Contents (Elt F) → (⟨S128, .f32⟩ : BufTy).Contents (Elt F)),
    binary main_v173 main_v172 main_v174 (mulf : (⟨S128, .f32⟩ : BufTy).Contents (Elt F) → (⟨S128, .f32⟩ : BufTy).Contents (Elt F) → (⟨S128, .f32⟩ : BufTy).Contents (Elt F)),
    unary main_v174 main_v175 (Host.negf : (⟨S128, .f32⟩ : BufTy).Contents (Elt F) → (⟨S128, .f32⟩ : BufTy).Contents (Elt F)),
    unary main_v175 main_v176 (Host.exp : (⟨S128, .f32⟩ : BufTy).Contents (Elt F) → (⟨S128, .f32⟩ : BufTy).Contents (Elt F)),
    nullary main_cst_45 (constant S_ .f32 0x3F800000#32),
    unary main_cst_45 main_v177 (broadcastInDim S128 ![] bcast_S_S128 : (⟨S_, .f32⟩ : BufTy).Contents (Elt F) → (⟨S128, .f32⟩ : BufTy).Contents (Elt F)),
    binary main_v177 main_v176 main_v178 (addf : (⟨S128, .f32⟩ : BufTy).Contents (Elt F) → (⟨S128, .f32⟩ : BufTy).Contents (Elt F) → (⟨S128, .f32⟩ : BufTy).Contents (Elt F)),
    nullary main_cst_46 (constant S_ .f32 0x3F800000#32),
    unary main_cst_46 main_v179 (broadcastInDim S128 ![] bcast_S_S128 : (⟨S_, .f32⟩ : BufTy).Contents (Elt F) → (⟨S128, .f32⟩ : BufTy).Contents (Elt F)),
    binary main_v179 main_v178 main_v180 (Host.divf : (⟨S128, .f32⟩ : BufTy).Contents (Elt F) → (⟨S128, .f32⟩ : BufTy).Contents (Elt F) → (⟨S128, .f32⟩ : BufTy).Contents (Elt F)),
    binary main_v169 main_arg11 main_v181 (addf : (⟨S128, .f32⟩ : BufTy).Contents (Elt F) → (⟨S128, .f32⟩ : BufTy).Contents (Elt F) → (⟨S128, .f32⟩ : BufTy).Contents (Elt F)),
    nullary main_cst_47 (constant S_ .f32 0x3D4CCCCD#32),
    unary main_cst_47 main_v182 (broadcastInDim S128 ![] bcast_S_S128 : (⟨S_, .f32⟩ : BufTy).Contents (Elt F) → (⟨S128, .f32⟩ : BufTy).Contents (Elt F)),
    binary main_v181 main_v182 main_v183 (subf : (⟨S128, .f32⟩ : BufTy).Contents (Elt F) → (⟨S128, .f32⟩ : BufTy).Contents (Elt F) → (⟨S128, .f32⟩ : BufTy).Contents (Elt F)),
    nullary main_cst_48 (constant S_ .f32 0x42480000#32),
    unary main_cst_48 main_v184 (broadcastInDim S128 ![] bcast_S_S128 : (⟨S_, .f32⟩ : BufTy).Contents (Elt F) → (⟨S128, .f32⟩ : BufTy).Contents (Elt F)),
    binary main_v184 main_v183 main_v185 (mulf : (⟨S128, .f32⟩ : BufTy).Contents (Elt F) → (⟨S128, .f32⟩ : BufTy).Contents (Elt F) → (⟨S128, .f32⟩ : BufTy).Contents (Elt F)),
    unary main_v185 main_v186 (Host.negf : (⟨S128, .f32⟩ : BufTy).Contents (Elt F) → (⟨S128, .f32⟩ : BufTy).Contents (Elt F)),
    unary main_v186 main_v187 (Host.exp : (⟨S128, .f32⟩ : BufTy).Contents (Elt F) → (⟨S128, .f32⟩ : BufTy).Contents (Elt F)),
    nullary main_cst_49 (constant S_ .f32 0x3F800000#32) ]

/-- The buffer each of them writes. -/
abbrev ops3_W : List (Ref sig .tc) :=
  [main_v144, main_v145, main_cst_34, main_v146, main_cst_35, main_v147, main_v148, main_v149, main_v150, main_v151, main_c_36, main_call3_call0_cst, main_call3_call0_v0, main_call3_call0_v1, main_call3_call0_cst_0, main_call3_call0_v2, main_call3_call0_v3, main_call3_call0_v4, main_call3_call0_v5, main_call3_call0_v6, main_call3_call0_v7, main_call3_call0_cst_1, main_call3_call0_v8, main_call3_call0_cst_2, main_call3_call0_v9, main_call3_call0_v10, main_call3_call0_v11, main_call3_call0_cst_3, main_call3_call0_v12, main_call3_call0_cst_4, main_call3_call0_call0_v0, main_call3_call0_call0_v1, main_call3_v0, main_v152, main_cst_37, main_v153, main_v154, main_v155, main_v156, main_v157, main_v158, main_v159, main_cst_38, main_v160, main_v161, main_v162, main_cst_39, main_v163, main_cst_40, main_v164, main_v165, main_v166, main_cst_41, main_v167, main_cst_42, main_v168, main_v169, main_v170, main_cst_43, main_v171, main_v172, main_cst_44, main_v173, main_v174, main_v175, main_v176, main_cst_45, main_v177, main_v178, main_cst_46, main_v179, main_v180, main_v181, main_cst_47, main_v182, main_v183, main_cst_48, main_v184, main_v185, main_v186, main_v187, main_cst_49]

set_option maxRecDepth 8192 in
theorem ops3_sub : (ops3 : List (HloOp τ sig (Elt F))).Forall fun op => op.bufs ⊆ tcRefs τ sig :=
  ⟨unary_bufs_sub .., binary_bufs_sub .., nullary_bufs_sub .., binary_bufs_sub .., nullary_bufs_sub .., unary_bufs_sub .., binary_bufs_sub .., unary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., nullary_bufs_sub .., unary_bufs_sub .., binary_bufs_sub .., unary_bufs_sub .., unary_bufs_sub .., binary_bufs_sub .., unary_bufs_sub .., binary_bufs_sub .., nullary_bufs_sub .., unary_bufs_sub .., binary_bufs_sub .., unary_bufs_sub .., nullary_bufs_sub .., binary_bufs_sub .., nullary_bufs_sub .., unary_bufs_sub .., binary_bufs_sub .., unary_bufs_sub .., nullary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., unary_bufs_sub .., nullary_bufs_sub ..⟩

end Cert.ReferenceIdeal.RefRun

end
-- ==== Proof.RefRun.Win3.lean ====
/-
  Statements 181 … 240 of the reference program: the first result array standardised, the second one standardised,
  their cross-correlation over the node count, its mean absolute value by row and by column, the row gate, and the
  column gate up to its exponential. From any contents `W` before them, the buffers later statements read are the
  named terms of `W`.
-/
import proofs.«107726_j19937238188633_2_alg».proof.Proof.RefRun.Ops3
import proofs.«107726_j19937238188633_2_alg».proof.Proof.RefChain

noncomputable section

namespace Cert.ReferenceIdeal.RefRun

open Cert.ReferenceIdeal Cert.ReferenceIdeal.Facts₀ Cert.ReferenceIdeal.Chain Idealize.ShloMosaic Idealize.ShloMosaic.TcCoe Idealize.SL.Sem Idealize.ShloMosaic.StableHlo

variable {F : FTy → Type} [FloatOps F]

set_option maxRecDepth 8192 in
set_option maxHeartbeats 4000000 in
/-- These statements are their list of operations run in order (the called functions' definitions unfold at the calls). -/
theorem main_part3_eq (c : Dev nD) : main_part3 (F := F) c = seq ops3 := rfl

set_option maxRecDepth 8192 in
set_option maxHeartbeats 4000000 in
/-- Every operation writes the buffer listed for it. -/
theorem ops3_writes : (ops3 : List (HloOp τ sig (Elt F))).Forall fun op =>
    op.writes ⊆ (ops3_W.map (Proc.devRef (τ := τ) .tc)).toFinset := by
  simp only [List.Forall]
  repeat' apply And.intro
  all_goals
    simp only [nullary_writes, unary_writes, binary_writes, ternary_writes, Finset.singleton_subset_iff, List.mem_toFinset]
    exact List.mem_map_of_mem (by decide)

/-- A buffer these statements do not write keeps its contents through them. -/
theorem keep3 (W : Valuation τ sig (Elt F)) (r : Ref sig .tc) (h : r ∉ ops3_W) :
    after ops3 W (Proc.devRef .tc r) = W (Proc.devRef .tc r) :=
  after_of_writes_sub ops3 W ops3_writes h

attribute [local irreducible] Host.scatterAdd Host.gather Host.reduceAdd in
set_option maxRecDepth 8192 in
set_option maxHeartbeats 4000000 in
/-- The cross-correlation of the two standardised arrays. -/
theorem w3_v161 (W : Valuation τ sig (Elt F)) :
    after ops3 W (main_v161 : DevRef τ sig)
      = Host.divf
          (Host.dotGeneral dot_S128x50000_S50000x128_S128x128_1_0_0_1_n_n none
            (transpose S128x50000 [1, 0]
              (Host.divf (W (main_v139 : DevRef τ sig)) (broadcastInDim S50000x128 ![0, 1] bcast_S1x128_S50000x128_0_1 (W (main_v143 : DevRef τ sig))))
              transposes_S50000x128_S128x50000_1_0)
            (zscore (W (main_v133 : DevRef τ sig))))
          (broadcastInDim S128x128 ![] bcast_S_S128x128 (constant S_ .f32 0x47435000#32)) := by
  after_results_simp
  rfl

attribute [local irreducible] Host.scatterAdd Host.gather Host.reduceAdd in
set_option maxRecDepth 8192 in
set_option maxHeartbeats 4000000 in
/-- The row gate of that cross-correlation. -/
theorem w3_v180 (W : Valuation τ sig (Elt F)) :
    after ops3 W (main_v180 : DevRef τ sig) = rowMask (after ops3 W (main_v161 : DevRef τ sig)) (W (main_arg10 : DevRef τ sig)) := by
  after_results_simp
  rfl

attribute [local irreducible] Host.scatterAdd Host.gather Host.reduceAdd in
set_option maxRecDepth 8192 in
set_option maxHeartbeats 4000000 in
/-- The column gate's exponential. -/
theorem w3_v187 (W : Valuation τ sig (Elt F)) :
    after ops3 W (main_v187 : DevRef τ sig)
      = Host.exp (Host.negf (mulf (broadcastInDim S128 ![] bcast_S_S128 (constant S_ .f32 0x42480000#32))
          (subf (addf (colScore (after ops3 W (main_v161 : DevRef τ sig))) (W (main_arg11 : DevRef τ sig)))
            (broadcastInDim S128 ![] bcast_S_S128 (constant S_ .f32 0x3D4CCCCD#32))))) := by
  after_results_simp
  rfl

/-- The constant one written last. -/
theorem w3_cst_49 (W : Valuation τ sig (Elt F)) :
    after ops3 W (main_cst_49 : DevRef τ sig) = constant S_ .f32 0x3F800000#32 := by
  after_results_simp

end Cert.ReferenceIdeal.RefRun

end
-- ==== Proof.RefRun.Ops4.lean ====
/-
  The operations of the reference program's statements main_part4, in order, as a list; the operations of a function the
  program calls stand at the call, over the buffers that call names. Beside it the buffer each operation writes, and
  that every operation reads and writes TensorCore buffers only.
-/
import proofs.«107726_j19937238188633_2_alg».proof.ReferenceIdeal
import proofs.«107726_j19937238188633_2_alg».proof.Proof.Gen.ReferenceIdeal
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- The 11 operations of main_part4. -/
abbrev ops4 : List (HloOp τ sig (Elt F)) :=
  [ unary main_cst_49 main_v188 (broadcastInDim S128 ![] bcast_S_S128 : (⟨S_, .f32⟩ : BufTy).Contents (Elt F) → (⟨S128, .f32⟩ : BufTy).Contents (Elt F)),
    binary main_v188 main_v187 main_v189 (addf : (⟨S128, .f32⟩ : BufTy).Contents (Elt F) → (⟨S128, .f32⟩ : BufTy).Contents (Elt F) → (⟨S128, .f32⟩ : BufTy).Contents (Elt F)),
    nullary main_cst_50 (constant S_ .f32 0x3F800000#32),
    unary main_cst_50 main_v190 (broadcastInDim S128 ![] bcast_S_S128 : (⟨S_, .f32⟩ : BufTy).Contents (Elt F) → (⟨S128, .f32⟩ : BufTy).Contents (Elt F)),
    binary main_v190 main_v189 main_v191 (Host.divf : (⟨S128, .f32⟩ : BufTy).Contents (Elt F) → (⟨S128, .f32⟩ : BufTy).Contents (Elt F) → (⟨S128, .f32⟩ : BufTy).Contents (Elt F)),
    unary main_v180 main_v192 (broadcastInDim S128x1 ![0] bcast_S128_S128x1_0 : (⟨S128, .f32⟩ : BufTy).Contents (Elt F) → (⟨S128x1, .f32⟩ : BufTy).Contents (Elt F)),
    unary main_v191 main_v193 (broadcastInDim S1x128 ![1] bcast_S128_S1x128_1 : (⟨S128, .f32⟩ : BufTy).Contents (Elt F) → (⟨S1x128, .f32⟩ : BufTy).Contents (Elt F)),
    unary main_v192 main_v194 (broadcastInDim S128x128 ![0, 1] bcast_S128x1_S128x128_0_1 : (⟨S128x1, .f32⟩ : BufTy).Contents (Elt F) → (⟨S128x128, .f32⟩ : BufTy).Contents (Elt F)),
    unary main_v193 main_v195 (broadcastInDim S128x128 ![0, 1] bcast_S1x128_S128x128_0_1 : (⟨S1x128, .f32⟩ : BufTy).Contents (Elt F) → (⟨S128x128, .f32⟩ : BufTy).Contents (Elt F)),
    binary main_v194 main_v195 main_v196 (mulf : (⟨S128x128, .f32⟩ : BufTy).Contents (Elt F) → (⟨S128x128, .f32⟩ : BufTy).Contents (Elt F) → (⟨S128x128, .f32⟩ : BufTy).Contents (Elt F)),
    binary main_v161 main_v196 main_v197 (mulf : (⟨S128x128, .f32⟩ : BufTy).Contents (Elt F) → (⟨S128x128, .f32⟩ : BufTy).Contents (Elt F) → (⟨S128x128, .f32⟩ : BufTy).Contents (Elt F)) ]

/-- The buffer each of them writes. -/
abbrev ops4_W : List (Ref sig .tc) :=
  [main_v188, main_v189, main_cst_50, main_v190, main_v191, main_v192, main_v193, main_v194, main_v195, main_v196, main_v197]

set_option maxRecDepth 8192 in
theorem ops4_sub : (ops4 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., unary_bufs_sub .., unary_bufs_sub .., binary_bufs_sub .., binary_bufs_sub ..⟩

end Cert.ReferenceIdeal.RefRun

end
-- ==== Proof.RefRun.Win4.lean ====
/-
  The last statements of the reference program (the column gate's last steps, the two gates spread over the
  128 × 128 table, the correlation scaled by both): these statements are their list of operations run in order;
  a buffer they do not write keeps its contents; and from any contents `W` before them the column gate and the
  scaled correlation are the named terms of `W` at the buffers written earlier.
-/
import proofs.«107726_j19937238188633_2_alg».proof.Proof.RefRun.Ops4
import proofs.«107726_j19937238188633_2_alg».proof.Proof.RefChain

noncomputable section

namespace Cert.ReferenceIdeal.RefRun

open Cert.ReferenceIdeal Cert.ReferenceIdeal.Facts₀ Cert.ReferenceIdeal.Chain Idealize.ShloMosaic Idealize.ShloMosaic.TcCoe Idealize.SL.Sem Idealize.ShloMosaic.StableHlo

variable {F : FTy → Type} [FloatOps F]

theorem main_part4_eq (c : Dev nD) : main_part4 (F := F) c = seq ops4 := rfl

theorem ops4_writes : (ops4 : List (HloOp τ sig (Elt F))).Forall fun op =>
    op.writes ⊆ (ops4_W.map (Proc.devRef (τ := τ) .tc)).toFinset := by
  simp only [List.Forall]
  repeat' apply And.intro
  all_goals
    simp only [nullary_writes, unary_writes, binary_writes, ternary_writes, Finset.singleton_subset_iff, List.mem_toFinset]
    exact List.mem_map_of_mem (by decide)

/-- A buffer these statements do not write keeps its contents through them. -/
theorem keep4 (W : Valuation τ sig (Elt F)) (r : Ref sig .tc) (h : r ∉ ops4_W) :
    after ops4 W (Proc.devRef .tc r) = W (Proc.devRef .tc r) :=
  after_of_writes_sub ops4 W ops4_writes h

/-- The column gate: one over one plus the exponential computed before. -/
theorem w4_v191 (W : Valuation τ sig (Elt F)) :
    after ops4 W (main_v191 : DevRef τ sig)
      = Host.divf (broadcastInDim S128 ![] bcast_S_S128 (constant S_ .f32 0x3F800000#32))
          (addf (broadcastInDim S128 ![] bcast_S_S128 (W (main_cst_49 : DevRef τ sig))) (W (main_v187 : DevRef τ sig))) := by
  after_results_simp

/-- The correlation scaled by the row gate and the column gate. -/
theorem w4_v197 (W : Valuation τ sig (Elt F)) :
    after ops4 W (main_v197 : DevRef τ sig)
      = maskedC (W (main_v161 : DevRef τ sig)) (W (main_v180 : DevRef τ sig)) (after ops4 W (main_v191 : DevRef τ sig)) := by
  after_results_simp
  rfl

end Cert.ReferenceIdeal.RefRun

end
-- ==== Proof.RefRun.lean ====
/-
  The reference program's run. Its 299 host operations in order — the lists of its five consecutive segments one after the other,
  the operations of the functions it calls (the positive part, the column standard deviation with its variance and
  the guarded division inside it) standing at their calls — are what @main runs: every weakly fair execution on the
  TensorCore terminates with each buffer at the operations' fold over the launch contents (`run_main`).

  The fold is then read, for any contents `V` before the program: segment by segment, a buffer a segment does not write
  keeps its contents and the few buffers a later segment reads are named terms of the contents before the segment, so
  that the five results are the chain's terms of the twelve argument buffers — the two graph networks' outputs
  (`z1_eq`, `z2_eq`), the cross-correlation of their standardised columns (`c_eq`), the two gates (`out1_eq`,
  `out2_eq`) and the correlation scaled by both (`out0_eq`) — and every argument buffer is unchanged (`argK_eq`).
  No array is evaluated: the scatter-add, the gather, the contraction and the column sum stay folded throughout.
-/
import proofs.«107726_j19937238188633_2_alg».proof.Proof.RefRun.Win0
import proofs.«107726_j19937238188633_2_alg».proof.Proof.RefRun.Win1
import proofs.«107726_j19937238188633_2_alg».proof.Proof.RefRun.Win2
import proofs.«107726_j19937238188633_2_alg».proof.Proof.RefRun.Win3
import proofs.«107726_j19937238188633_2_alg».proof.Proof.RefRun.Win4

noncomputable section

namespace Cert.ReferenceIdeal.RefRun

open Cert.ReferenceIdeal Cert.ReferenceIdeal.Facts₀ Cert.ReferenceIdeal.Chain Idealize.ShloMosaic Idealize.ShloMosaic.TcCoe Idealize.SL.Sem Idealize.ShloMosaic.StableHlo

variable {F : FTy → Type} [FloatOps F]

/-- Every operation of @main in order: the five segments' lists one after the other. -/
abbrev ops : List (HloOp τ sig (Elt F)) := ops0 ++ (ops1 ++ (ops2 ++ (ops3 ++ ops4)))

/-- @main is that straight line: each segment is its list run in order, and lists run one after the other are their
    concatenation run as one. -/
theorem main_eq (c : Dev nD) : main (F := F) c = seq ops := by
  simp only [ops, seq_append, ← main_part0_eq c, ← main_part1_eq c, ← main_part2_eq c, ← main_part3_eq c, ← main_part4_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h | h | h
    exacts [List.forall_iff_forall_mem.mp ops0_sub op h, List.forall_iff_forall_mem.mp ops1_sub op h,
      List.forall_iff_forall_mem.mp ops2_sub op h, List.forall_iff_forall_mem.mp ops3_sub op h,
      List.forall_iff_forall_mem.mp ops4_sub op h]

/-- At the compiled mesh, for any float values, from any memory with zero counters: every weakly fair execution of @main on
    the TensorCores terminates, and every final state has each TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (launchContents m c) (b : DevRef τ sig) :=
  run_seq scopedRefs_eq scopedSems_eq defs main (fun _ => ops) main_eq (fun _ => ops_sub) m ρ

/-! ## The fold, read segment by segment -/

/-- The fold over two lists one after the other is the second's fold over the first's. -/
theorem after_concat : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_concat l₁ l₂]

/-- The fold over the whole list is the segments' folds one after the other. -/
theorem after_ops (V : Valuation τ sig (Elt F)) :
    after ops V = after ops4 (after ops3 (after ops2 (after ops1 (after ops0 V)))) := by
  simp only [ops, after_concat]

/-- A buffer the first two segments do not write keeps its contents through them; likewise three, four, all five. -/
theorem keep01 (V : Valuation τ sig (Elt F)) (r : Ref sig .tc) (h0 : r ∉ ops0_W) (h1 : r ∉ ops1_W) :
    after ops1 (after ops0 V) (Proc.devRef .tc r) = V (Proc.devRef .tc r) := (keep1 _ r h1).trans (keep0 _ r h0)
theorem keep02 (V : Valuation τ sig (Elt F)) (r : Ref sig .tc) (h0 : r ∉ ops0_W) (h1 : r ∉ ops1_W) (h2 : r ∉ ops2_W) :
    after ops2 (after ops1 (after ops0 V)) (Proc.devRef .tc r) = V (Proc.devRef .tc r) := (keep2 _ r h2).trans (keep01 V r h0 h1)
theorem keep03 (V : Valuation τ sig (Elt F)) (r : Ref sig .tc) (h0 : r ∉ ops0_W) (h1 : r ∉ ops1_W) (h2 : r ∉ ops2_W) (h3 : r ∉ ops3_W) :
    after ops3 (after ops2 (after ops1 (after ops0 V))) (Proc.devRef .tc r) = V (Proc.devRef .tc r) := (keep3 _ r h3).trans (keep02 V r h0 h1 h2)
theorem keep_all (V : Valuation τ sig (Elt F)) (r : Ref sig .tc) (h0 : r ∉ ops0_W) (h1 : r ∉ ops1_W) (h2 : r ∉ ops2_W)
    (h3 : r ∉ ops3_W) (h4 : r ∉ ops4_W) : after ops V (Proc.devRef .tc r) = V (Proc.devRef .tc r) := by
  rw [after_ops]
  exact (keep4 _ r h4).trans (keep03 V r h0 h1 h2 h3)

/-! Every argument buffer is unchanged. -/
theorem arg0_eq (V : Valuation τ sig (Elt F)) : after ops V (main_arg0 : DevRef τ sig) = (V (main_arg0 : DevRef τ sig)) :=
  keep_all V main_arg0 (by decide) (by decide) (by decide) (by decide) (by decide)
theorem arg1_eq (V : Valuation τ sig (Elt F)) : after ops V (main_arg1 : DevRef τ sig) = (V (main_arg1 : DevRef τ sig)) :=
  keep_all V main_arg1 (by decide) (by decide) (by decide) (by decide) (by decide)
theorem arg2_eq (V : Valuation τ sig (Elt F)) : after ops V (main_arg2 : DevRef τ sig) = (V (main_arg2 : DevRef τ sig)) :=
  keep_all V main_arg2 (by decide) (by decide) (by decide) (by decide) (by decide)
theorem arg3_eq (V : Valuation τ sig (Elt F)) : after ops V (main_arg3 : DevRef τ sig) = (V (main_arg3 : DevRef τ sig)) :=
  keep_all V main_arg3 (by decide) (by decide) (by decide) (by decide) (by decide)
theorem arg4_eq (V : Valuation τ sig (Elt F)) : after ops V (main_arg4 : DevRef τ sig) = (V (main_arg4 : DevRef τ sig)) :=
  keep_all V main_arg4 (by decide) (by decide) (by decide) (by decide) (by decide)
theorem arg5_eq (V : Valuation τ sig (Elt F)) : after ops V (main_arg5 : DevRef τ sig) = (V (main_arg5 : DevRef τ sig)) :=
  keep_all V main_arg5 (by decide) (by decide) (by decide) (by decide) (by decide)
theorem arg6_eq (V : Valuation τ sig (Elt F)) : after ops V (main_arg6 : DevRef τ sig) = (V (main_arg6 : DevRef τ sig)) :=
  keep_all V main_arg6 (by decide) (by decide) (by decide) (by decide) (by decide)
theorem arg7_eq (V : Valuation τ sig (Elt F)) : after ops V (main_arg7 : DevRef τ sig) = (V (main_arg7 : DevRef τ sig)) :=
  keep_all V main_arg7 (by decide) (by decide) (by decide) (by decide) (by decide)
theorem arg8_eq (V : Valuation τ sig (Elt F)) : after ops V (main_arg8 : DevRef τ sig) = (V (main_arg8 : DevRef τ sig)) :=
  keep_all V main_arg8 (by decide) (by decide) (by decide) (by decide) (by decide)
theorem arg9_eq (V : Valuation τ sig (Elt F)) : after ops V (main_arg9 : DevRef τ sig) = (V (main_arg9 : DevRef τ sig)) :=
  keep_all V main_arg9 (by decide) (by decide) (by decide) (by decide) (by decide)
theorem arg10_eq (V : Valuation τ sig (Elt F)) : after ops V (main_arg10 : DevRef τ sig) = (V (main_arg10 : DevRef τ sig)) :=
  keep_all V main_arg10 (by decide) (by decide) (by decide) (by decide) (by decide)
theorem arg11_eq (V : Valuation τ sig (Elt F)) : after ops V (main_arg11 : DevRef τ sig) = (V (main_arg11 : DevRef τ sig)) :=
  keep_all V main_arg11 (by decide) (by decide) (by decide) (by decide) (by decide)

/-- The first result array where it is made, in the second segment: the graph network of the first graph. -/
theorem v66_at2 (V : Valuation τ sig (Elt F)) :
    after ops1 (after ops0 V) (main_v66 : DevRef τ sig) = gnn (V (main_arg2 : DevRef τ sig)) (V (main_arg3 : DevRef τ sig)) (V (main_arg0 : DevRef τ sig)) (V (main_arg6 : DevRef τ sig)) (V (main_arg7 : DevRef τ sig)) (V (main_arg8 : DevRef τ sig)) (V (main_arg9 : DevRef τ sig)) := by
  rw [w1_v66, w0_v33, w0_v43, w0_v46, keep0 V main_arg2 (by decide), keep0 V main_arg3 (by decide),
    keep0 V main_arg8 (by decide), keep0 V main_arg9 (by decide)]
  rfl

theorem z1_eq (V : Valuation τ sig (Elt F)) :
    after ops V (main_v66 : DevRef τ sig) = gnn (V (main_arg2 : DevRef τ sig)) (V (main_arg3 : DevRef τ sig)) (V (main_arg0 : DevRef τ sig)) (V (main_arg6 : DevRef τ sig)) (V (main_arg7 : DevRef τ sig)) (V (main_arg8 : DevRef τ sig)) (V (main_arg9 : DevRef τ sig)) := by
  rw [after_ops]
  exact (keep4 _ main_v66 (by decide)).trans ((keep3 _ main_v66 (by decide)).trans ((keep2 _ main_v66 (by decide)).trans (v66_at2 V)))

/-- The second result array where it is made, in the third segment: the same network of the second graph. -/
theorem v133_at3 (V : Valuation τ sig (Elt F)) :
    after ops2 (after ops1 (after ops0 V)) (main_v133 : DevRef τ sig) = gnn (V (main_arg4 : DevRef τ sig)) (V (main_arg5 : DevRef τ sig)) (V (main_arg1 : DevRef τ sig)) (V (main_arg6 : DevRef τ sig)) (V (main_arg7 : DevRef τ sig)) (V (main_arg8 : DevRef τ sig)) (V (main_arg9 : DevRef τ sig)) := by
  rw [w2_v133, w1_v95, keep01 V main_arg4 (by decide) (by decide), keep01 V main_arg5 (by decide) (by decide),
    keep01 V main_arg6 (by decide) (by decide), keep01 V main_arg7 (by decide) (by decide),
    keep01 V main_arg8 (by decide) (by decide), keep01 V main_arg9 (by decide) (by decide),
    keep0 V main_arg4 (by decide), keep0 V main_arg5 (by decide), keep0 V main_arg1 (by decide)]
  rfl

theorem z2_eq (V : Valuation τ sig (Elt F)) :
    after ops V (main_v133 : DevRef τ sig) = gnn (V (main_arg4 : DevRef τ sig)) (V (main_arg5 : DevRef τ sig)) (V (main_arg1 : DevRef τ sig)) (V (main_arg6 : DevRef τ sig)) (V (main_arg7 : DevRef τ sig)) (V (main_arg8 : DevRef τ sig)) (V (main_arg9 : DevRef τ sig)) := by
  rw [after_ops]
  exact (keep4 _ main_v133 (by decide)).trans ((keep3 _ main_v133 (by decide)).trans (v133_at3 V))

/-- The cross-correlation, the row gate and the column gate are last written in the fourth, fourth and fifth segment. -/
theorem v161_at (V : Valuation τ sig (Elt F)) : after ops V (main_v161 : DevRef τ sig) = after ops3 (after ops2 (after ops1 (after ops0 V))) (main_v161 : DevRef τ sig) := by
  rw [after_ops]
  exact keep4 _ main_v161 (by decide)
theorem v180_at (V : Valuation τ sig (Elt F)) : after ops V (main_v180 : DevRef τ sig) = after ops3 (after ops2 (after ops1 (after ops0 V))) (main_v180 : DevRef τ sig) := by
  rw [after_ops]
  exact keep4 _ main_v180 (by decide)
theorem v191_at (V : Valuation τ sig (Elt F)) : after ops V (main_v191 : DevRef τ sig) = after ops4 (after ops3 (after ops2 (after ops1 (after ops0 V)))) (main_v191 : DevRef τ sig) := by
  rw [after_ops]

/-- The cross-correlation is the chain's term of the two result arrays. -/
theorem c_eq (V : Valuation τ sig (Elt F)) :
    after ops V (main_v161 : DevRef τ sig) = corrChain (after ops V (main_v66 : DevRef τ sig)) (after ops V (main_v133 : DevRef τ sig)) := by
  rw [z1_eq V, z2_eq V, v161_at V, w3_v161, w2_v139, w2_v143, v66_at2 V, v133_at3 V]
  rfl

/-- The row gate. -/
theorem out1_eq (V : Valuation τ sig (Elt F)) :
    after ops V (main_v180 : DevRef τ sig) = rowMask (after ops V (main_v161 : DevRef τ sig)) (V (main_arg10 : DevRef τ sig)) := by
  rw [v161_at V, v180_at V, w3_v180, keep02 V main_arg10 (by decide) (by decide) (by decide)]

/-- The column gate. -/
theorem out2_eq (V : Valuation τ sig (Elt F)) :
    after ops V (main_v191 : DevRef τ sig) = colMask (after ops V (main_v161 : DevRef τ sig)) (V (main_arg11 : DevRef τ sig)) := by
  rw [v161_at V, v191_at V, w4_v191, w3_cst_49, w3_v187, keep02 V main_arg11 (by decide) (by decide) (by decide)]
  rfl

/-- The correlation scaled by both gates. -/
theorem out0_eq (V : Valuation τ sig (Elt F)) :
    after ops V (main_v197 : DevRef τ sig)
      = maskedC (after ops V (main_v161 : DevRef τ sig)) (after ops V (main_v180 : DevRef τ sig)) (after ops V (main_v191 : DevRef τ sig)) := by
  rw [v161_at V, v180_at V, v191_at V, after_ops, w4_v197]

end Cert.ReferenceIdeal.RefRun

end
-- ==== Proof.RefReads.lean ====
/-
  The reference program's five results as terms of the twelve argument buffers alone: with `z1`, `z2` the two graph
  networks' outputs and `C` the cross-correlation of their standardised columns, the results are `C` scaled by the
  row gate and the column gate of `C`, the two gates, and `z1`, `z2` — the run's reads with the earlier results
  substituted into the later ones.
-/
import proofs.«107726_j19937238188633_2_alg».proof.Proof.RefRun

noncomputable section

namespace Cert.ReferenceIdeal.RefRun

open Cert.ReferenceIdeal Cert.ReferenceIdeal.Chain Idealize.ShloMosaic Idealize.ShloMosaic.TcCoe Idealize.SL.Sem Idealize.ShloMosaic.StableHlo

variable {F : FTy → Type} [FloatOps F]

/-- The cross-correlation of the argument buffers' contents. -/
abbrev Cof (V : Valuation τ sig (Elt F)) : (⟨S128x128, .f32⟩ : BufTy).Contents (Elt F) :=
  corrChain (gnn (V (main_arg2 : DevRef τ sig)) (V (main_arg3 : DevRef τ sig)) (V (main_arg0 : DevRef τ sig)) (V (main_arg6 : DevRef τ sig)) (V (main_arg7 : DevRef τ sig)) (V (main_arg8 : DevRef τ sig)) (V (main_arg9 : DevRef τ sig)))
    (gnn (V (main_arg4 : DevRef τ sig)) (V (main_arg5 : DevRef τ sig)) (V (main_arg1 : DevRef τ sig)) (V (main_arg6 : DevRef τ sig)) (V (main_arg7 : DevRef τ sig)) (V (main_arg8 : DevRef τ sig)) (V (main_arg9 : DevRef τ sig)))

theorem c_args (V : Valuation τ sig (Elt F)) : after ops V (main_v161 : DevRef τ sig) = Cof V := by
  rw [c_eq, z1_eq, z2_eq]

theorem out1_args (V : Valuation τ sig (Elt F)) : after ops V (main_v180 : DevRef τ sig) = rowMask (Cof V) (V (main_arg10 : DevRef τ sig)) := by
  rw [out1_eq, c_args]

theorem out2_args (V : Valuation τ sig (Elt F)) : after ops V (main_v191 : DevRef τ sig) = colMask (Cof V) (V (main_arg11 : DevRef τ sig)) := by
  rw [out2_eq, c_args]

theorem out0_args (V : Valuation τ sig (Elt F)) :
    after ops V (main_v197 : DevRef τ sig)
      = maskedC (Cof V) (rowMask (Cof V) (V (main_arg10 : DevRef τ sig))) (colMask (Cof V) (V (main_arg11 : DevRef τ sig))) := by
  rw [out0_eq, out1_args, out2_args, c_args]

end Cert.ReferenceIdeal.RefRun

end
-- ==== Proof.Consts.lean ====
/-
  The float constants the two programs spell, as the extended reals their bit patterns denote: the row count
  50000, its predecessor 49999, one, zero, and the positivity of the small additive constant under the
  square roots' sum. Stated once here so that no other module unfolds a bit pattern.
-/
import Idealize.ShloMosaic.PureOps.Ideal

noncomputable section

namespace Cert.GcnCorr.Consts

open Idealize.ShloMosaic

/-- The pattern of `0.0` denotes `0`. -/
theorem ofBits_zero : Ideal.ofBits .f32 0x00000000#32 = 0 := by
  simp [Ideal.ofBits, Ideal.ieee]

/-- The pattern of `1.0` denotes `1`. -/
theorem ofBits_one : Ideal.ofBits .f32 0x3F800000#32 = ((1 : ℝ) : EReal) := by
  simp [Ideal.ofBits, Ideal.ieee, -EReal.coe_mul]; norm_num

/-- The pattern of `50000.0` denotes the real `50000`, the number of rows. -/
theorem ofBits_50000 : Ideal.ofBits .f32 0x47435000#32 = ((50000 : ℝ) : EReal) := by
  simp [Ideal.ofBits, Ideal.ieee, -EReal.coe_mul]; norm_num

/-- The pattern of `49999.0` denotes the real `49999`. -/
theorem ofBits_49999 : Ideal.ofBits .f32 0x47434F00#32 = ((49999 : ℝ) : EReal) := by
  simp [Ideal.ofBits, Ideal.ieee, -EReal.coe_mul]; norm_num

end Cert.GcnCorr.Consts

end
-- ==== Proof.Finite.lean ====
/-
  Closure of finiteness. An extended real is finite when it is neither infinity, which is to say it is the
  image of a real number. Images of reals are closed under finite sums, products, differences, the maximum
  with `0`, and the quotient by a nonzero finite divisor; so every array the two programs build from finite
  inputs by these operations — the dense stage of a layer, its positive part, an accumulating scatter — has
  only finite entries. The reciprocal square root of `max x 1` is finite at every extended real `x`, the
  infinities included: its argument is at least `1`.
-/
import proofs.«107726_j19937238188633_2_alg».proof.Proof.Spec
import proofs.«107726_j19937238188633_2_alg».proof.Proof.Consts

noncomputable section

namespace Cert.GcnCorr

open Idealize.ShloMosaic Idealize.ShloMosaic.ValueIdx

/-! ### Single values -/

/-- Finite means: the image of a real. -/
theorem finite_iff_coe {x : EReal} : (x ≠ ⊤ ∧ x ≠ ⊥) ↔ ∃ r : ℝ, x = (r : EReal) :=
  ⟨fun h => ⟨x.toReal, (EReal.coe_toReal h.1 h.2).symm⟩,
   fun ⟨r, hr⟩ => hr ▸ ⟨EReal.coe_ne_top r, EReal.coe_ne_bot r⟩⟩

theorem finite_coe (r : ℝ) : (r : EReal) ≠ ⊤ ∧ (r : EReal) ≠ ⊥ := ⟨EReal.coe_ne_top r, EReal.coe_ne_bot r⟩

theorem finite_zero : (0 : EReal) ≠ ⊤ ∧ (0 : EReal) ≠ ⊥ := finite_coe 0

theorem finite_one : (1 : EReal) ≠ ⊤ ∧ (1 : EReal) ≠ ⊥ := finite_coe 1

theorem finite_add {x y : EReal} (hx : x ≠ ⊤ ∧ x ≠ ⊥) (hy : y ≠ ⊤ ∧ y ≠ ⊥) : x + y ≠ ⊤ ∧ x + y ≠ ⊥ := by
  obtain ⟨a, rfl⟩ := finite_iff_coe.1 hx
  obtain ⟨b, rfl⟩ := finite_iff_coe.1 hy
  rw [← EReal.coe_add]; exact finite_coe _

theorem finite_mul {x y : EReal} (hx : x ≠ ⊤ ∧ x ≠ ⊥) (hy : y ≠ ⊤ ∧ y ≠ ⊥) : x * y ≠ ⊤ ∧ x * y ≠ ⊥ := by
  obtain ⟨a, rfl⟩ := finite_iff_coe.1 hx
  obtain ⟨b, rfl⟩ := finite_iff_coe.1 hy
  rw [← EReal.coe_mul]; exact finite_coe _

theorem finite_sub {x y : EReal} (hx : x ≠ ⊤ ∧ x ≠ ⊥) (hy : y ≠ ⊤ ∧ y ≠ ⊥) : x - y ≠ ⊤ ∧ x - y ≠ ⊥ := by
  obtain ⟨a, rfl⟩ := finite_iff_coe.1 hx
  obtain ⟨b, rfl⟩ := finite_iff_coe.1 hy
  rw [← EReal.coe_sub]; exact finite_coe _

theorem finite_neg {x : EReal} (hx : x ≠ ⊤ ∧ x ≠ ⊥) : -x ≠ ⊤ ∧ -x ≠ ⊥ := by
  obtain ⟨a, rfl⟩ := finite_iff_coe.1 hx
  rw [← EReal.coe_neg]; exact finite_coe _

/-- The positive part of a finite value is finite. -/
theorem finite_max_zero {x : EReal} (hx : x ≠ ⊤ ∧ x ≠ ⊥) : max x 0 ≠ ⊤ ∧ max x 0 ≠ ⊥ := by
  rcases le_total x 0 with h | h
  · rw [max_eq_right h]; exact finite_zero
  · rw [max_eq_left h]; exact hx

/-- The larger of two finite values is finite. -/
theorem finite_max {x y : EReal} (hx : x ≠ ⊤ ∧ x ≠ ⊥) (hy : y ≠ ⊤ ∧ y ≠ ⊥) : max x y ≠ ⊤ ∧ max x y ≠ ⊥ := by
  rcases le_total x y with h | h
  · rw [max_eq_right h]; exact hy
  · rw [max_eq_left h]; exact hx

/-- A finite sum of finite terms is finite. -/
theorem finite_sum {ι : Type*} (s : Finset ι) (f : ι → EReal) (h : ∀ i ∈ s, f i ≠ ⊤ ∧ f i ≠ ⊥) :
    (∑ i ∈ s, f i) ≠ ⊤ ∧ (∑ i ∈ s, f i) ≠ ⊥ := by
  classical
  induction s using Finset.induction_on with
  | empty => rw [Finset.sum_empty]; exact finite_zero
  | insert a s ha ih =>
    rw [Finset.sum_insert ha]
    exact finite_add (h a (Finset.mem_insert_self a s)) (ih fun i hi => h i (Finset.mem_insert_of_mem hi))

/-- The quotient of a finite value by the image of a nonzero real is finite. -/
theorem finite_div_coe {x : EReal} (hx : x ≠ ⊤ ∧ x ≠ ⊥) {r : ℝ} (hr : r ≠ 0) :
    Ideal.div x (r : EReal) ≠ ⊤ ∧ Ideal.div x (r : EReal) ≠ ⊥ := by
  obtain ⟨a, rfl⟩ := finite_iff_coe.1 hx
  rw [Ideal.div_coe hr, ← EReal.coe_mul]; exact finite_coe _

/-- The quotient of a finite value by a nonzero finite value is finite. -/
theorem finite_div {x y : EReal} (hx : x ≠ ⊤ ∧ x ≠ ⊥) (hy : y ≠ ⊤ ∧ y ≠ ⊥) (hy0 : y ≠ 0) :
    Ideal.div x y ≠ ⊤ ∧ Ideal.div x y ≠ ⊥ := by
  obtain ⟨b, rfl⟩ := finite_iff_coe.1 hy
  exact finite_div_coe hx (fun h => hy0 (by rw [h, EReal.coe_zero]))

/-- The reciprocal square root of a positive real's image is finite. -/
theorem finite_rsqrt_coe_pos {r : ℝ} (h : 0 < r) :
    Ideal.rsqrt (r : EReal) ≠ ⊤ ∧ Ideal.rsqrt (r : EReal) ≠ ⊥ := by
  rw [Ideal.rsqrt_coe, if_neg (not_lt.mpr h.le), if_neg h.ne']; exact finite_coe _

/-- The reciprocal square root of `max x 1` is finite at every extended real: at `⊥` the argument is `1`, at `⊤`
    the value is `0`, and at a real `r` the argument is the real `max r 1 ≥ 1 > 0`. -/
theorem finite_rsqrt_max_one (x : EReal) :
    Ideal.rsqrt (max x 1) ≠ ⊤ ∧ Ideal.rsqrt (max x 1) ≠ ⊥ := by
  induction x using EReal.rec with
  | bot => rw [max_eq_right bot_le, ← EReal.coe_one]; exact finite_rsqrt_coe_pos one_pos
  | top => rw [max_eq_left le_top, Ideal.rsqrt_top]; exact finite_zero
  | coe r =>
    have h : max (r : EReal) 1 = ((max r 1 : ℝ) : EReal) := by
      rw [← EReal.coe_one]; exact (EReal.coe_strictMono.monotone.map_max).symm
    rw [h]; exact finite_rsqrt_coe_pos (lt_of_lt_of_le one_pos (le_max_right r 1))

/-- The same with `1` spelt as the image of the real `1`. -/
theorem finite_rsqrt_max_coe_one (x : EReal) :
    Ideal.rsqrt (max x ((1 : ℝ) : EReal)) ≠ ⊤ ∧ Ideal.rsqrt (max x ((1 : ℝ) : EReal)) ≠ ⊥ :=
  finite_rsqrt_max_one x

/-- The pattern of `0.0` is finite. -/
theorem finite_ofBits_zero :
    Ideal.ofBits .f32 0x00000000#32 ≠ ⊤ ∧ Ideal.ofBits .f32 0x00000000#32 ≠ ⊥ := by
  rw [Consts.ofBits_zero]; exact finite_zero

/-- The pattern of `1.0` is finite. -/
theorem finite_ofBits_one :
    Ideal.ofBits .f32 0x3F800000#32 ≠ ⊤ ∧ Ideal.ofBits .f32 0x3F800000#32 ≠ ⊥ := by
  rw [Consts.ofBits_one]; exact finite_coe 1

/-- The same at the pattern of `1.0`. -/
theorem finite_rsqrt_max_ofBits_one (x : EReal) :
    Ideal.rsqrt (max x (Ideal.ofBits .f32 0x3F800000#32)) ≠ ⊤
      ∧ Ideal.rsqrt (max x (Ideal.ofBits .f32 0x3F800000#32)) ≠ ⊥ := by
  rw [Consts.ofBits_one]; exact finite_rsqrt_max_coe_one x

/-! ### Arrays -/

theorem finiteArr_const {S : Shape} {c : EReal} (hc : c ≠ ⊤ ∧ c ≠ ⊥) : FiniteArr (S := S) (fun _ => c) :=
  fun _ => hc

/-- Reading a finite array through any map of indices (a gather, a reshape, a broadcast) is finite. -/
theorem finiteArr_comp {S T : Shape} {x : S.Idx → EReal} (hx : FiniteArr x) (g : T.Idx → S.Idx) :
    FiniteArr (S := T) (fun i => x (g i)) := fun i => hx (g i)

theorem finiteArr_add {S : Shape} {x y : S.Idx → EReal} (hx : FiniteArr x) (hy : FiniteArr y) :
    FiniteArr (fun i => x i + y i) := fun i => finite_add (hx i) (hy i)

theorem finiteArr_mul {S : Shape} {x y : S.Idx → EReal} (hx : FiniteArr x) (hy : FiniteArr y) :
    FiniteArr (fun i => x i * y i) := fun i => finite_mul (hx i) (hy i)

theorem finiteArr_sub {S : Shape} {x y : S.Idx → EReal} (hx : FiniteArr x) (hy : FiniteArr y) :
    FiniteArr (fun i => x i - y i) := fun i => finite_sub (hx i) (hy i)

theorem finiteArr_max_zero {S : Shape} {x : S.Idx → EReal} (hx : FiniteArr x) :
    FiniteArr (fun i => max (x i) 0) := fun i => finite_max_zero (hx i)

/-- The dense stage of a layer on finite arrays is finite. -/
theorem finiteArr_denseWin {a : ArrND} {nd : ArrN1} {W : ArrDD} {b : Arr1D} (ha : FiniteArr a) (hnd : FiniteArr nd)
    (hW : FiniteArr W) (hb : FiniteArr b) :
    FiniteArr (S := ⟨2, ![50000, 128]⟩) (fun i => denseWin a nd W b (i 0) (i 1)) := fun i =>
  finite_add (finite_sum _ _ fun k _ => finite_mul (finite_mul (ha _) (hnd _)) (hW _)) (hb _)

/-- So is its positive part. -/
theorem finiteArr_denseReluWin {a : ArrND} {nd : ArrN1} {W : ArrDD} {b : Arr1D} (ha : FiniteArr a)
    (hnd : FiniteArr nd) (hW : FiniteArr W) (hb : FiniteArr b) :
    FiniteArr (S := ⟨2, ![50000, 128]⟩) (fun i => denseReluWin a nd W b (i 0) (i 1)) := fun i =>
  finite_max_zero (finiteArr_denseWin ha hnd hW hb i)

/-- An accumulating scatter of finite updates into a finite operand is finite: each entry is the operand's plus a
    finite sum of updates. -/
theorem finiteArr_hostScatterAdd {s si su : Shape} (d : ScatterDims s si su) {w : Nat} {x : s.Idx → EReal}
    (idx : IVec si w) {upd : su.Idx → EReal} (hx : FiniteArr x) (hu : FiniteArr upd) :
    FiniteArr (Ideal.hostScatterAdd d x idx upd) := fun i =>
  finite_add (hx i) (finite_sum _ _ fun j _ => hu j)

/-- The statements apply as they are to arrays typed as float vectors at the extended reals. -/
example {S : Shape} (a b : FVec Ideal S .f32) (ha : FiniteArr a) (hb : FiniteArr b) :
    FiniteArr (fun i => a i * b i) := finiteArr_mul ha hb

end Cert.GcnCorr

end
-- ==== Proof.ChainDense.lean ====
/-
  The reference's dense stage read at an entry. A node vector repeated along the features reads its node's
  entry, a feature vector repeated along the nodes reads its feature's entry, the product of a 50000 × 128
  array with a 128 × 128 matrix reads the sum over the 128 contracted positions; so the dense stage
  `(a · nd) W + b` at entry `(r, j)` is `(∑ k, (a[r,k] · nd[r]) · W[k,j]) + b[j]`, and its positive part is the
  maximum with `0`.
-/
import proofs.«107726_j19937238188633_2_alg».proof.Proof.RefChain
import proofs.«107726_j19937238188633_2_alg».proof.Proof.Spec
import proofs.«107726_j19937238188633_2_alg».proof.Proof.Consts
import proofs.«107726_j19937238188633_2_alg».proof.Proof.Finite
import Idealize.ShloMosaic.PureOps.Ideal.Laws
import Idealize.ShloMosaic.Lib.ValueIdx
import Idealize.ShloMosaic.Lib.Pipeline.Value
import Idealize.ShloMosaic.Lib.ValueLayout

noncomputable section

namespace Cert.ReferenceIdeal.ChainRead

open Cert.ReferenceIdeal Cert.ReferenceIdeal.Chain Cert.GcnCorr Idealize.ShloMosaic Idealize.ShloMosaic.ValueIdx
open Cert.ReferenceIdeal.Facts₀

/-- A node vector repeated along the features reads, at `(r, k)`, the entry of node `r`. -/
theorem colBcast_apply (v : FArr (F := Ideal) S50000) (r : Fin 50000) (k : Fin 128) :
    colBcast v (ix2 r k) = v (ix1 r) := by
  unfold colBcast
  rw [broadcastInDim_apply ![0, 1] bcast_S50000x1_S50000x128_0_1 _ (ix2 r k) (ix2 r (0 : Fin 1))
      (fun a => match a with | ⟨0, _⟩ => rfl | ⟨1, _⟩ => rfl),
    broadcastInDim_apply ![0] bcast_S50000_S50000x1_0 v (ix2 r (0 : Fin 1)) (ix1 r)
      (fun a => match a with | ⟨0, _⟩ => rfl)]

/-- A feature vector repeated along the nodes reads, at `(r, j)`, the entry of feature `j`. -/
theorem rowBcast_apply (v : FArr (F := Ideal) S128) (r : Fin 50000) (j : Fin 128) :
    rowBcast v (ix2 r j) = v (ix1 j) := by
  unfold rowBcast
  rw [broadcastInDim_apply ![0, 1] bcast_S1x128_S50000x128_0_1 _ (ix2 r j) (ix2 (0 : Fin 1) j)
      (fun a => match a with | ⟨0, _⟩ => rfl | ⟨1, _⟩ => rfl),
    broadcastInDim_apply ![1] bcast_S128_S1x128_1 v (ix2 (0 : Fin 1) j) (ix1 j)
      (fun a => match a with | ⟨0, _⟩ => rfl)]

/-- The operand entries of the product of a 50000 × 128 array with a 128 × 128 matrix, axis by axis: the left
    operand's row is the output's row and its column the contracted position; the right operand's row is the
    contracted position and its column the output's column. -/
theorem dense_lhs0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide),
    dif_pos (show (0 : Fin S50000x128.rank) ∈ dot_S50000x128_S128x128_S50000x128_1_0_0_1_n_n.lhsNonContracting by decide)]
  rfl
theorem dense_lhs1 (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q
theorem dense_rhs0 (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q
theorem dense_rhs1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide),
    dif_pos (show (1 : Fin S128x128.rank) ∈ dot_S50000x128_S128x128_S50000x128_1_0_0_1_n_n.rhsNonContracting by decide)]
  rfl

/-- The product at entry `(r, j)`: the sum over the 128 contracted positions. -/
theorem dense_dot_apply (L : FVec Ideal S50000x128 .f32) (R : FVec Ideal S128x128 .f32) (r : Fin 50000)
    (j : Fin 128) :
    Host.dotGeneral (F := Ideal) dot_S50000x128_S128x128_S50000x128_1_0_0_1_n_n none L R (ix2 r j)
      = ∑ k : Fin 128, L (ix2 r k) * R (ix2 k j) := by
  show FloatOps.dotGeneral _ none .single L R (ix2 r j) = _
  rw [Ideal.dotGeneral_apply,
    ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 r j)
      ((contrEquiv1 dot_S50000x128_S128x128_S50000x128_1_0_0_1_n_n 128 rfl rfl).symm k) = ix2 r k :=
    funext fun a => Fin.ext (by
      match a with
      | ⟨0, _⟩ => exact dense_lhs0 _ _
      | ⟨1, _⟩ => exact (dense_lhs1 _ _).trans hk)
  have er : dot_S50000x128_S128x128_S50000x128_1_0_0_1_n_n.rhsIdx (ix2 r j)
      ((contrEquiv1 dot_S50000x128_S128x128_S50000x128_1_0_0_1_n_n 128 rfl rfl).symm k) = ix2 k j :=
    funext fun a => Fin.ext (by
      match a with
      | ⟨0, _⟩ => exact (dense_rhs0 _ _).trans hk
      | ⟨1, _⟩ => exact dense_rhs1 _ _)
  rw [el, er]

/-- The reference's dense stage at entry `(r, j)`. -/
theorem denseHost_apply (a : FArr (F := Ideal) S50000x128) (nd : FArr (F := Ideal) S50000)
    (W : FArr (F := Ideal) S128x128) (b : FArr (F := Ideal) S128) (r : Fin 50000) (j : Fin 128) :
    denseHost a nd W b (ix2 r j)
      = denseWin a (fun y => nd (ix1 (y 0))) W (fun y => b (ix1 (y 1))) r j := by
  unfold denseHost denseWin
  rw [addf_apply, dense_dot_apply, rowBcast_apply]
  refine congrArg (· + b (ix1 j)) (Finset.sum_congr rfl fun k _ => ?_)
  rw [mulf_apply, colBcast_apply]

/-- The reference's positive part at an entry. -/
theorem reluHost_apply (x : FArr (F := Ideal) S50000x128) (i : S50000x128.Idx) : reluHost x i = max (x i) 0 := by
  unfold reluHost
  rw [maximumf_apply]
  exact congrArg (max (x i)) Consts.ofBits_zero

end Cert.ReferenceIdeal.ChainRead

end
-- ==== Proof.Algebra.lean ====
/-
  The cross-correlation of two arrays computed from the rows themselves equals the one computed from the
  sufficient statistics (Gram matrix, column sums, column sums of squares), when no entry is infinite.

  Over the reals, with `m = (∑ z)/N` and `N` the number of rows:
    `∑ (z − m)² = ∑ z² − N·m·m ≥ 0`, so the maximum with `0` in the statistics' spread is the identity and the
    two spreads `d = √(…/(N−1)) + ε` are the same positive real (`ε > 0`);
    `(∑ ((z − m₁)/d₁)·((w − m₂)/d₂))/N = (∑ z w − N·m₁·m₂)/(N·d₁·d₂)`.
  On extended reals every quantity involved is the image of a real: the entries by hypothesis, the constants
  `N = 50000`, `N − 1 = 49999`, `ε` by their bit patterns, finite sums, products and differences of reals, and a
  quotient by a nonzero real. So both sides are images of reals and the real identity concludes.
-/
import proofs.«107726_j19937238188633_2_alg».proof.Proof.Spec
import proofs.«107726_j19937238188633_2_alg».proof.Proof.Consts

noncomputable section

namespace Cert.GcnCorr

open Idealize.ShloMosaic Idealize.ShloMosaic.ValueIdx

/-! ### The identities over the reals -/

/-- Sum of squared deviations from the mean: `∑ (z − m)² = ∑ z² − N·m·m` when `m = (∑ z)/N` and `N` counts the terms. -/
theorem real_sum_sq_dev {ι : Type*} [Fintype ι] (z : ι → ℝ) (N : ℝ) (hN : (Fintype.card ι : ℝ) = N) (hN0 : N ≠ 0) :
    ∑ k, (z k - (∑ k, z k) / N) * (z k - (∑ k, z k) / N)
      = (∑ k, z k * z k) - (N * ((∑ k, z k) / N)) * ((∑ k, z k) / N) := by
  have h1 : ∀ k, (z k - (∑ k, z k) / N) * (z k - (∑ k, z k) / N)
      = z k * z k - 2 * ((∑ k, z k) / N) * z k + ((∑ k, z k) / N) * ((∑ k, z k) / N) := fun k => by ring
  simp only [h1, Finset.sum_add_distrib, Finset.sum_sub_distrib, ← Finset.mul_sum, Finset.sum_const,
    Finset.card_univ, nsmul_eq_mul, hN]
  field_simp
  ring

/-- The sum of squared deviations is nonnegative, hence so is `∑ z² − N·m·m`. -/
theorem real_stat_nonneg {ι : Type*} [Fintype ι] (z : ι → ℝ) (N : ℝ) (hN : (Fintype.card ι : ℝ) = N) (hN0 : N ≠ 0) :
    0 ≤ (∑ k, z k * z k) - (N * ((∑ k, z k) / N)) * ((∑ k, z k) / N) := by
  rw [← real_sum_sq_dev z N hN hN0]
  exact Finset.sum_nonneg (fun k _ => mul_self_nonneg _)

/-- Cross term: `(∑ ((z − m₁)/d₁)·((w − m₂)/d₂))/N = (∑ z w − N·m₁·m₂)/(N·d₁·d₂)`. -/
theorem real_cross {ι : Type*} [Fintype ι] (z w : ι → ℝ) (N d1 d2 : ℝ) (hN : (Fintype.card ι : ℝ) = N) (hN0 : N ≠ 0)
    (h1 : d1 ≠ 0) (h2 : d2 ≠ 0) :
    (∑ k, ((z k - (∑ k, z k) / N) / d1) * ((w k - (∑ k, w k) / N) / d2)) / N
      = ((∑ k, z k * w k) - (N * ((∑ k, z k) / N)) * ((∑ k, w k) / N)) / ((N * d1) * d2) := by
  have e : ∀ k, ((z k - (∑ k, z k) / N) / d1) * ((w k - (∑ k, w k) / N) / d2)
      = (z k * w k - ((∑ k, w k) / N) * z k - ((∑ k, z k) / N) * w k + ((∑ k, z k) / N) * ((∑ k, w k) / N)) / (d1 * d2) :=
    fun k => by field_simp; ring
  simp only [e, ← Finset.sum_div, Finset.sum_add_distrib, Finset.sum_sub_distrib, ← Finset.mul_sum, Finset.sum_const,
    Finset.card_univ, nsmul_eq_mul, hN]
  field_simp
  ring

/-! ### Images of reals in the extended reals -/

/-- The image of a finite sum of reals is the sum of the images. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of a real's image with `0` is the image of the real maximum. -/
theorem coe_max_zero (a : ℝ) : max (a : EReal) 0 = ((max a 0 : ℝ) : EReal) := by
  rw [← EReal.coe_zero]; exact (EReal.coe_strictMono.monotone.map_max).symm

/-- The quotient of two reals' images, the divisor nonzero, is the image of the real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- The square root of a nonnegative real's image is the image of the real square root. -/
theorem sqrt_coe_nonneg {r : ℝ} (h : 0 ≤ r) : Ideal.sqrt (r : EReal) = ((Real.sqrt r : ℝ) : EReal) := by
  rw [Ideal.sqrt_coe, if_neg (not_lt.mpr h)]

theorem cN_eq : cN = ((50000 : ℝ) : EReal) := Consts.ofBits_50000

theorem cN1_eq : cN1 = ((49999 : ℝ) : EReal) := Consts.ofBits_49999

/-- `N − 1` with `1` exact is `49999`. -/
theorem cN_sub_one : cN - ((1 : ℝ) : EReal) = ((49999 : ℝ) : EReal) := by
  rw [cN_eq, ← EReal.coe_sub]; norm_num

/-- The additive constant `ε` is the image of a positive real. -/
theorem cEps_pos : ∃ e : ℝ, 0 < e ∧ cEps = (e : EReal) :=
  ⟨8796093 * (2 ^ 43)⁻¹, by positivity, by simp [cEps, Ideal.ofBits, Ideal.ieee, -EReal.coe_mul]⟩

theorem card_rows : (Fintype.card (Fin 50000) : ℝ) = 50000 := by simp

/-! ### The statistics of a real column -/

theorem colsum_coe (z : ArrND) (i : Fin 128) (a : Fin 50000 → ℝ) (ha : ∀ k, z (ix2 k i) = (a k : EReal)) :
    colsum z i = ((∑ k, a k : ℝ) : EReal) := by
  rw [colsum, coe_finset_sum]; exact Finset.sum_congr rfl (fun k _ => ha k)

theorem colsumsq_coe (z : ArrND) (i : Fin 128) (a : Fin 50000 → ℝ) (ha : ∀ k, z (ix2 k i) = (a k : EReal)) :
    colsumsq z i = ((∑ k, a k * a k : ℝ) : EReal) := by
  rw [colsumsq, coe_finset_sum]
  exact Finset.sum_congr rfl (fun k _ => by rw [ha k, EReal.coe_mul])

theorem gram_coe (z w : ArrND) (i j : Fin 128) (a b : Fin 50000 → ℝ) (ha : ∀ k, z (ix2 k i) = (a k : EReal))
    (hb : ∀ k, w (ix2 k j) = (b k : EReal)) :
    gram z w i j = ((∑ k, a k * b k : ℝ) : EReal) := by
  rw [gram, coe_finset_sum]
  exact Finset.sum_congr rfl (fun k _ => by rw [ha k, hb k, EReal.coe_mul])

theorem meanDirect_coe (z : ArrND) (i : Fin 128) (a : Fin 50000 → ℝ) (ha : ∀ k, z (ix2 k i) = (a k : EReal)) :
    meanDirect z i = (((∑ k, a k) / 50000 : ℝ) : EReal) := by
  rw [meanDirect, colsum_coe z i a ha, zero_add, cN_eq, div_coe_coe _ (by norm_num)]

/-- The spread from the rows of a real column. -/
theorem spreadDirect_coe (z : ArrND) (i : Fin 128) (a : Fin 50000 → ℝ) (ha : ∀ k, z (ix2 k i) = (a k : EReal))
    (e : ℝ) (he : cEps = (e : EReal)) :
    spreadDirect z i
      = ((Real.sqrt ((∑ k, (a k - (∑ k, a k) / 50000) * (a k - (∑ k, a k) / 50000)) / 49999) + e : ℝ) : EReal) := by
  have hs : (∑ k : Fin 50000, (z (ix2 k i) - meanDirect z i) * (z (ix2 k i) - meanDirect z i))
      = ((∑ k, (a k - (∑ k, a k) / 50000) * (a k - (∑ k, a k) / 50000) : ℝ) : EReal) := by
    rw [coe_finset_sum]
    refine Finset.sum_congr rfl (fun k _ => ?_)
    rw [ha k, meanDirect_coe z i a ha, EReal.coe_mul, EReal.coe_sub]
  have h0 : 0 ≤ (∑ k, (a k - (∑ k, a k) / 50000) * (a k - (∑ k, a k) / 50000)) / 49999 :=
    div_nonneg (Finset.sum_nonneg (fun k _ => mul_self_nonneg _)) (by norm_num)
  rw [spreadDirect, hs, zero_add, cN_sub_one, div_coe_coe _ (by norm_num), sqrt_coe_nonneg h0, he, ← EReal.coe_add]

/-- The spread from the sum and the sum of squares of a real column. -/
theorem spreadStat_coe (s q e : ℝ) (he : cEps = (e : EReal)) :
    spreadStat (s : EReal) (q : EReal)
      = ((Real.sqrt (max ((q - (50000 * (s / 50000)) * (s / 50000)) / 49999) 0) + e : ℝ) : EReal) := by
  rw [spreadStat, cN_eq, cN1_eq, div_coe_coe s (by norm_num), ← EReal.coe_mul, ← EReal.coe_mul, ← EReal.coe_sub,
    div_coe_coe _ (by norm_num), coe_max_zero, sqrt_coe_nonneg (le_max_right _ _), he, ← EReal.coe_add]

/-- The two spreads of a real column agree. -/
theorem spreadStat_eq_direct (a : Fin 50000 → ℝ) :
    Real.sqrt (max (((∑ k, a k * a k) - (50000 * ((∑ k, a k) / 50000)) * ((∑ k, a k) / 50000)) / 49999) 0)
      = Real.sqrt ((∑ k, (a k - (∑ k, a k) / 50000) * (a k - (∑ k, a k) / 50000)) / 49999) := by
  rw [max_eq_left (div_nonneg (real_stat_nonneg a 50000 card_rows (by norm_num)) (by norm_num)),
    ← real_sum_sq_dev a 50000 card_rows (by norm_num)]

/-- The statistics' cross-correlation on reals. -/
theorem corrStat_core (G s1 s2 d1 d2 : ℝ) (h : (50000 * d1) * d2 ≠ 0) :
    Ideal.div ((G : EReal) - (cN * Ideal.div (s1 : EReal) cN) * Ideal.div (s2 : EReal) cN)
        ((cN * (d1 : EReal)) * (d2 : EReal))
      = (((G - (50000 * (s1 / 50000)) * (s2 / 50000)) / ((50000 * d1) * d2) : ℝ) : EReal) := by
  rw [cN_eq, div_coe_coe s1 (by norm_num), div_coe_coe s2 (by norm_num), ← EReal.coe_mul, ← EReal.coe_mul,
    ← EReal.coe_sub, ← EReal.coe_mul, ← EReal.coe_mul, div_coe_coe _ h]

/-! ### The two cross-correlations agree -/

/-- The identity for two columns whose entries are images of reals. -/
theorem corr_eq_of_coe (z w : ArrND) (i j : Fin 128) (a b : Fin 50000 → ℝ)
    (ha : ∀ k, z (ix2 k i) = (a k : EReal)) (hb : ∀ k, w (ix2 k j) = (b k : EReal)) :
    corrDirect z w i j = corrStat (gram z w) (colsum z) (colsum w) (colsumsq z) (colsumsq w) i j := by
  obtain ⟨e, he0, he⟩ := cEps_pos
  -- the two spreads of each column are one positive real
  have hd1 := spreadDirect_coe z i a ha e he
  have hd2 := spreadDirect_coe w j b hb e he
  have hs1 : spreadStat (colsum z i) (colsumsq z i) = spreadDirect z i := by
    rw [colsum_coe z i a ha, colsumsq_coe z i a ha, spreadStat_coe _ _ e he, spreadStat_eq_direct a, hd1]
  have hs2 : spreadStat (colsum w j) (colsumsq w j) = spreadDirect w j := by
    rw [colsum_coe w j b hb, colsumsq_coe w j b hb, spreadStat_coe _ _ e he, spreadStat_eq_direct b, hd2]
  generalize hD1 : Real.sqrt ((∑ k, (a k - (∑ k, a k) / 50000) * (a k - (∑ k, a k) / 50000)) / 49999) + e = d1
    at hd1
  generalize hD2 : Real.sqrt ((∑ k, (b k - (∑ k, b k) / 50000) * (b k - (∑ k, b k) / 50000)) / 49999) + e = d2
    at hd2
  have hp1 : 0 < d1 := hD1 ▸ add_pos_of_nonneg_of_pos (Real.sqrt_nonneg _) he0
  have hp2 : 0 < d2 := hD2 ▸ add_pos_of_nonneg_of_pos (Real.sqrt_nonneg _) he0
  -- the sum over the rows is the image of the real sum
  have hL : (∑ k : Fin 50000, Ideal.div (z (ix2 k i) - meanDirect z i) (spreadDirect z i)
        * Ideal.div (w (ix2 k j) - meanDirect w j) (spreadDirect w j))
      = ((∑ k, ((a k - (∑ k, a k) / 50000) / d1) * ((b k - (∑ k, b k) / 50000) / d2) : ℝ) : EReal) := by
    rw [coe_finset_sum]
    refine Finset.sum_congr rfl (fun k _ => ?_)
    rw [ha k, hb k, meanDirect_coe z i a ha, meanDirect_coe w j b hb, hd1, hd2, ← EReal.coe_sub, ← EReal.coe_sub,
      div_coe_coe _ hp1.ne', div_coe_coe _ hp2.ne', ← EReal.coe_mul]
  have hden : (50000 * d1) * d2 ≠ 0 := by positivity
  rw [corrStat, hs1, hs2, hd1, hd2, gram_coe z w i j a b ha hb, colsum_coe z i a ha, colsum_coe w j b hb,
    corrStat_core _ _ _ _ _ hden, corrDirect, hL, cN_eq, div_coe_coe _ (by norm_num),
    real_cross a b 50000 d1 d2 card_rows (by norm_num) hp1.ne' hp2.ne']

/-- The cross-correlation from the rows equals the one from the sufficient statistics on arrays without an
    infinite entry. -/
theorem corr_eq (z w : ArrND) (hz : FiniteArr z) (hw : FiniteArr w) (i j : Fin 128) :
    corrDirect z w i j = corrStat (gram z w) (colsum z) (colsum w) (colsumsq z) (colsumsq w) i j :=
  corr_eq_of_coe z w i j (fun k => (z (ix2 k i)).toReal) (fun k => (w (ix2 k j)).toReal)
    (fun k => (EReal.coe_toReal (hz _).1 (hz _).2).symm) (fun k => (EReal.coe_toReal (hw _).1 (hw _).2).symm)

end Cert.GcnCorr

end
-- ==== Proof.ChainCorr.lean ====
/-
  The reference's cross-correlation read at an entry. Stage by stage: a column sum over the nodes is `0 + ∑` over
  the 50000 rows; the column mean is that over `N`; the variance with divisor `N − 1` (the guard `N − 1 > 0` holds:
  `N − 1 = 49999`) is `(0 + ∑ (z − m)²)/(N − 1)`; the standard deviation its square root; a standardised entry is
  `(z − m)/(√… + ε)`; and the product of the transposed standardised first array with the second, divided by `N`,
  is at `(i, j)` the sum over the rows of the products of the standardised entries, over `N`.
-/
import proofs.«107726_j19937238188633_2_alg».proof.Proof.RefChain
import proofs.«107726_j19937238188633_2_alg».proof.Proof.Spec
import proofs.«107726_j19937238188633_2_alg».proof.Proof.Consts
import proofs.«107726_j19937238188633_2_alg».proof.Proof.Finite
import proofs.«107726_j19937238188633_2_alg».proof.Proof.Algebra
import proofs.«107726_j19937238188633_2_alg».proof.Proof.ChainDense
import Idealize.ShloMosaic.PureOps.Ideal.Laws
import Idealize.ShloMosaic.Lib.ValueIdx
import Idealize.ShloMosaic.Lib.Pipeline.Value
import Idealize.ShloMosaic.Lib.ValueLayout

noncomputable section

namespace Cert.ReferenceIdeal.ChainRead

open Cert.ReferenceIdeal Cert.ReferenceIdeal.Chain Cert.GcnCorr Idealize.ShloMosaic Idealize.ShloMosaic.ValueIdx
open Cert.ReferenceIdeal.Facts₀

/-- A scalar repeated over any shape reads the scalar. -/
theorem bcastScalar_apply {α : Type} {T : Shape} (h : S_.BroadcastsInDim T (![] : Fin 0 → Fin T.rank))
    (x : S_.Idx → α) (i : T.Idx) : broadcastInDim T ![] h x i = x ix0 :=
  broadcastInDim_apply ![] h x i ix0 (fun a => a.elim0)

/-- The host's quotient at an entry is the quotient of the entries. -/
theorem hostDivf_apply {s : Shape} (a b : FVec Ideal s .f32) (i : s.Idx) :
    Host.divf a b i = Ideal.div (a i) (b i) := rfl

/-- Summing a 50000 × 128 array over its rows leaves the 128 columns. -/
theorem reduces_rows : S50000x128.Reduces [0] S128 := by decide

/-- A column sum over the nodes: `0` plus the sum over the 50000 rows. -/
theorem colSumHost_apply (z : FArr (F := Ideal) S50000x128) (j : Fin 128) :
    colSumHost z (ix1 j) = 0 + ∑ k : Fin 50000, z (ix2 k j) := by
  show Ideal.hostReduceAdd reducesTo_S50000x128_S128_d0 z (Ideal.ofBits .f32 0x00000000#32) (ix1 j) = _
  rw [Ideal.hostReduceAdd_single reducesTo_S50000x128_S128_d0 reduces_rows, Consts.ofBits_zero]
  refine congrArg (0 + ·) (Finset.sum_congr rfl fun k _ => congrArg z ?_)
  funext a
  match a with
  | ⟨0, _⟩ => rfl
  | ⟨1, _⟩ => rfl

/-- The column mean is the direct mean. -/
theorem colMean_apply (z : FArr (F := Ideal) S50000x128) (j : Fin 128) : colMean z (ix1 j) = meanDirect z j := by
  show Ideal.div (colSumHost z (ix1 j))
      (broadcastInDim S128 ![] bcast_S_S128 (constant (F := Ideal) S_ .f32 0x47435000#32) (ix1 j)) = _
  rw [bcastScalar_apply, colSumHost_apply]
  rfl

/-- A centred entry. -/
theorem centered_apply (z : FArr (F := Ideal) S50000x128) (k : Fin 50000) (j : Fin 128) :
    centered z (ix2 k j) = z (ix2 k j) - meanDirect z j := by
  unfold centered
  rw [subf_apply, rowBcast_apply, colMean_apply]

/-- The integer `1` converted to a float is the real `1`. -/
theorem sitofp_one : FloatOps.sitofp (F := Ideal) .f32 (1#32 : BitVec 32) = ((1 : ℝ) : EReal) := by
  show ((((1#32 : BitVec 32).toInt : ℤ) : ℝ) : EReal) = _
  have h : (1#32 : BitVec 32).toInt = 1 := by decide
  rw [h, Int.cast_one]

/-- The guard of the variance, `N − 1 > 0`, holds. -/
theorem guard_one : Ideal.cmp .ogt (cN - ((1 : ℝ) : EReal)) (Ideal.ofBits .f32 0x00000000#32) = 1#1 := by
  rw [cN_sub_one, Consts.ofBits_zero]
  have h : (0 : EReal) < ((49999 : ℝ) : EReal) := by exact_mod_cast (by norm_num : (0 : ℝ) < 49999)
  simp [Ideal.cmp, h]

/-- The row of column means repeated along the nodes reads, at `(k, j)`, the direct mean of column `j`. -/
theorem meanRow_apply (z : FArr (F := Ideal) S50000x128) (k : Fin 50000) (j : Fin 128) :
    broadcastInDim S50000x128 ![0, 1] bcast_S1x128_S50000x128_0_1
        (Host.divf (broadcastInDim S1x128 ![1] bcast_S128_S1x128_1 (colSumHost z))
          (broadcastInDim S1x128 ![] bcast_S_S1x128 (constant (F := Ideal) S_ .f32 0x47435000#32))) (ix2 k j)
      = meanDirect z j := by
  rw [broadcastInDim_apply ![0, 1] bcast_S1x128_S50000x128_0_1 _ (ix2 k j) (ix2 (0 : Fin 1) j)
      (fun a => match a with | ⟨0, _⟩ => rfl | ⟨1, _⟩ => rfl)]
  show Ideal.div (broadcastInDim S1x128 ![1] bcast_S128_S1x128_1 (colSumHost z) (ix2 (0 : Fin 1) j))
      (broadcastInDim S1x128 ![] bcast_S_S1x128 (constant (F := Ideal) S_ .f32 0x47435000#32) (ix2 (0 : Fin 1) j)) = _
  rw [broadcastInDim_apply ![1] bcast_S128_S1x128_1 _ (ix2 (0 : Fin 1) j) (ix1 j)
      (fun a => match a with | ⟨0, _⟩ => rfl), bcastScalar_apply, colSumHost_apply]
  rfl

/-- `N − 1`, the `1` converted from the integer `1`. -/
theorem nm_apply :
    subf (constant (F := Ideal) S_ .f32 0x47435000#32) (sitofp .f32 (constantI S_ 32 1#32)) ix0
      = cN - ((1 : ℝ) : EReal) := by
  show Ideal.ofBits .f32 0x47435000#32 - FloatOps.sitofp (F := Ideal) .f32 (1#32 : BitVec 32) = _
  rw [sitofp_one]

/-- The variance with divisor `N − 1` of a column. -/
theorem varHost_apply (z : FArr (F := Ideal) S50000x128) (j : Fin 128) :
    varHost z (constantI S_ 32 1#32) (ix1 j)
      = Ideal.div (0 + ∑ k : Fin 50000, (z (ix2 k j) - meanDirect z j) * (z (ix2 k j) - meanDirect z j))
          (cN - ((1 : ℝ) : EReal)) := by
  unfold varHost
  dsimp only
  rw [select_apply, bcastScalar_apply]
  have hc : cmpf .ogt (subf (constant (F := Ideal) S_ .f32 0x47435000#32) (sitofp .f32 (constantI S_ 32 1#32)))
      (constant (F := Ideal) S_ .f32 0x00000000#32) ix0 = 1#1 := by
    show Ideal.cmp .ogt
      (subf (constant (F := Ideal) S_ .f32 0x47435000#32) (sitofp .f32 (constantI S_ 32 1#32)) ix0)
      (Ideal.ofBits .f32 0x00000000#32) = 1#1
    rw [nm_apply]; exact guard_one
  rw [hc, select_one, hostDivf_apply, bcastScalar_apply, nm_apply, colSumHost_apply]
  refine congrArg (fun t => Ideal.div (0 + t) (cN - ((1 : ℝ) : EReal))) (Finset.sum_congr rfl fun k _ => ?_)
  rw [mulf_apply, subf_apply, meanRow_apply]

/-- The standard deviation of a column. -/
theorem stdHost_apply (z : FArr (F := Ideal) S50000x128) (j : Fin 128) :
    stdHost z (ix1 j)
      = Ideal.sqrt (Ideal.div (0 + ∑ k : Fin 50000, (z (ix2 k j) - meanDirect z j) * (z (ix2 k j) - meanDirect z j))
          (cN - ((1 : ℝ) : EReal))) := by
  show Ideal.sqrt (varHost z (constantI S_ 32 1#32) (ix1 j)) = _
  rw [varHost_apply]

/-- A standardised entry: the centred entry over the direct spread of its column. -/
theorem zscore_apply (z : FArr (F := Ideal) S50000x128) (k : Fin 50000) (j : Fin 128) :
    zscore z (ix2 k j) = Ideal.div (z (ix2 k j) - meanDirect z j) (spreadDirect z j) := by
  unfold zscore
  rw [hostDivf_apply, centered_apply, rowBcast_apply, addf_apply, stdHost_apply, bcastScalar_apply]
  rfl

/-- The operand entries of the product of a 128 × 50000 array with a 50000 × 128 array, axis by axis. -/
theorem corr_lhs0 (i : S128x128.Idx) (q : dot_S128x50000_S50000x128_S128x128_1_0_0_1_n_n.contr.Idx) :
    (dot_S128x50000_S50000x128_S128x128_1_0_0_1_n_n.lhsIdx i q 0).val = (i 0).val := by
  unfold DotDims.lhsIdx
  rw [dif_neg (show ¬(0 : Fin S128x50000.rank) ∈ dot_S128x50000_S50000x128_S128x128_1_0_0_1_n_n.lhsBatch by decide),
    dif_pos (show (0 : Fin S128x50000.rank) ∈ dot_S128x50000_S50000x128_S128x128_1_0_0_1_n_n.lhsNonContracting by decide)]
  rfl
theorem corr_lhs1 (i : S128x128.Idx) (q : dot_S128x50000_S50000x128_S128x128_1_0_0_1_n_n.contr.Idx) :
    (dot_S128x50000_S50000x128_S128x128_1_0_0_1_n_n.lhsIdx i q 1).val = (q ⟨0, by decide⟩).val :=
  dot_S128x50000_S50000x128_S128x128_1_0_0_1_n_n.lhsIdx_val_of_single rfl i q
theorem corr_rhs0 (i : S128x128.Idx) (q : dot_S128x50000_S50000x128_S128x128_1_0_0_1_n_n.contr.Idx) :
    (dot_S128x50000_S50000x128_S128x128_1_0_0_1_n_n.rhsIdx i q 0).val = (q ⟨0, by decide⟩).val :=
  dot_S128x50000_S50000x128_S128x128_1_0_0_1_n_n.rhsIdx_val_of_single rfl i q
theorem corr_rhs1 (i : S128x128.Idx) (q : dot_S128x50000_S50000x128_S128x128_1_0_0_1_n_n.contr.Idx) :
    (dot_S128x50000_S50000x128_S128x128_1_0_0_1_n_n.rhsIdx i q 1).val = (i 1).val := by
  unfold DotDims.rhsIdx
  rw [dif_neg (show ¬(1 : Fin S50000x128.rank) ∈ dot_S128x50000_S50000x128_S128x128_1_0_0_1_n_n.rhsBatch by decide),
    dif_pos (show (1 : Fin S50000x128.rank) ∈ dot_S128x50000_S50000x128_S128x128_1_0_0_1_n_n.rhsNonContracting by decide)]
  rfl

/-- The product at entry `(i, j)`: the sum over the 50000 contracted positions. -/
theorem corr_dot_apply (L : FVec Ideal S128x50000 .f32) (R : FVec Ideal S50000x128 .f32) (i j : Fin 128) :
    Host.dotGeneral (F := Ideal) dot_S128x50000_S50000x128_S128x128_1_0_0_1_n_n none L R (ix2 i j)
      = ∑ k : Fin 50000, L (ix2 i k) * R (ix2 k j) := by
  show FloatOps.dotGeneral _ none .single L R (ix2 i j) = _
  rw [Ideal.dotGeneral_apply,
    ← Equiv.sum_comp (contrEquiv1 dot_S128x50000_S50000x128_S128x128_1_0_0_1_n_n 50000 rfl rfl).symm]
  refine Finset.sum_congr rfl fun k _ => ?_
  have hk := contrEquiv1_symm_val dot_S128x50000_S50000x128_S128x128_1_0_0_1_n_n 50000 rfl rfl k
  have el : dot_S128x50000_S50000x128_S128x128_1_0_0_1_n_n.lhsIdx (ix2 i j)
      ((contrEquiv1 dot_S128x50000_S50000x128_S128x128_1_0_0_1_n_n 50000 rfl rfl).symm k) = ix2 i k :=
    funext fun a => Fin.ext (by
      match a with
      | ⟨0, _⟩ => exact corr_lhs0 _ _
      | ⟨1, _⟩ => exact (corr_lhs1 _ _).trans hk)
  have er : dot_S128x50000_S50000x128_S128x128_1_0_0_1_n_n.rhsIdx (ix2 i j)
      ((contrEquiv1 dot_S128x50000_S50000x128_S128x128_1_0_0_1_n_n 50000 rfl rfl).symm k) = ix2 k j :=
    funext fun a => Fin.ext (by
      match a with
      | ⟨0, _⟩ => exact (corr_rhs0 _ _).trans hk
      | ⟨1, _⟩ => exact corr_rhs1 _ _)
  rw [el, er]

/-- The reference's cross-correlation at entry `(i, j)` is the direct cross-correlation of columns `i` and `j`. -/
theorem corrChain_apply (z1 z2 : FArr (F := Ideal) S50000x128) (i j : Fin 128) :
    corrChain z1 z2 (ix2 i j) = corrDirect z1 z2 i j := by
  unfold corrChain corrDirect
  rw [hostDivf_apply, bcastScalar_apply, corr_dot_apply]
  refine congrArg (fun t => Ideal.div t cN) (Finset.sum_congr rfl fun k _ => ?_)
  rw [transpose_ix2_apply, zscore_apply, zscore_apply]

end Cert.ReferenceIdeal.ChainRead

end
-- ==== Proof.ChainFinite.lean ====
/-
  Finiteness along the reference's two graph-convolution layers. The degree normalisation is the reciprocal square
  root of `max(count, 1)`, finite whatever the count; an aggregate is an accumulating scatter, into zeros, of rows
  gathered from a finite array (each gathered entry is an entry of that array), hence finite; the dense stage and
  its positive part keep finiteness. So the two-layer network of finite features, weights and biases is finite.
-/
import proofs.«107726_j19937238188633_2_alg».proof.Proof.RefChain
import proofs.«107726_j19937238188633_2_alg».proof.Proof.Spec
import proofs.«107726_j19937238188633_2_alg».proof.Proof.Consts
import proofs.«107726_j19937238188633_2_alg».proof.Proof.Finite
import proofs.«107726_j19937238188633_2_alg».proof.Proof.ChainDense
import proofs.«107726_j19937238188633_2_alg».proof.Proof.ChainCorr
import Idealize.ShloMosaic.PureOps.Ideal.Laws
import Idealize.ShloMosaic.Lib.ValueIdx
import Idealize.ShloMosaic.Lib.Pipeline.Value
import Idealize.ShloMosaic.Lib.ValueLayout

noncomputable section

namespace Cert.ReferenceIdeal.ChainRead

open Cert.ReferenceIdeal Cert.ReferenceIdeal.Chain Cert.GcnCorr Idealize.ShloMosaic Idealize.ShloMosaic.ValueIdx
open Cert.ReferenceIdeal.Facts₀

/-- A broadcast of a finite array is finite: every entry is an entry of the operand. -/
theorem finiteArr_broadcastInDim {s t : Shape} (dims : Fin s.rank → Fin t.rank) (h : s.BroadcastsInDim t dims)
    {x : s.Idx → EReal} (hx : FiniteArr x) : FiniteArr (broadcastInDim t dims h x) := fun _ => hx _

/-- A gather from a finite array is finite: every entry is an entry of the operand. -/
theorem finiteArr_gather {s si t : Shape} {w : Nat} (d : GatherDims s si t) {x : s.Idx → EReal} (idx : IVec si w)
    (hx : FiniteArr x) : FiniteArr (Host.gather d x idx) := fun _ => hx _

/-- The host's reciprocal square root at an entry. -/
theorem hostRsqrt_apply {s : Shape} (a : FVec Ideal s .f32) (i : s.Idx) : Host.rsqrt a i = Ideal.rsqrt (a i) := rfl

section DegNorm
attribute [local irreducible] Host.scatterAdd

/-- The degree normalisation is finite whatever the edges. -/
theorem finiteArr_degNorm (idx : IArr (F := Ideal) S800000) : FiniteArr (S := S50000) (degNorm idx) := fun i => by
  unfold degNorm
  rw [hostRsqrt_apply, maximumf_apply, bcastScalar_apply]
  exact finite_rsqrt_max_ofBits_one _

end DegNorm

/-- An entrywise product of finite arrays is finite. -/
theorem finiteArr_mulf {s : Shape} {a b : FVec Ideal s .f32} (ha : FiniteArr a) (hb : FiniteArr b) :
    FiniteArr (mulf a b) := fun i => finite_mul (ha i) (hb i)

/-- A node vector repeated along the features stays finite. -/
theorem finiteArr_colBcast {v : FArr (F := Ideal) S50000} (hv : FiniteArr (S := S50000) v) :
    FiniteArr (S := S50000x128) (colBcast v) :=
  finiteArr_broadcastInDim _ _ (finiteArr_broadcastInDim _ _ hv)

/-- The zeros an aggregate accumulates into are finite. -/
theorem finiteArr_zeros {T : Shape} (h : S_.BroadcastsInDim T (![] : Fin 0 → Fin T.rank)) :
    FiniteArr (broadcastInDim T ![] h (constant (F := Ideal) S_ .f32 0x00000000#32)) :=
  finiteArr_broadcastInDim _ _ (fun _ => finite_ofBits_zero)

/-- An aggregate of finite features with a finite normalisation is finite. -/
theorem finiteArr_aggregate (src dst : IArr (F := Ideal) S800000) {ns : FArr (F := Ideal) S50000}
    {feat : FArr (F := Ideal) S50000x128} (hns : FiniteArr (S := S50000) ns) (hfeat : FiniteArr (S := S50000x128) feat) :
    FiniteArr (S := S50000x128) (aggregate src dst ns feat) := by
  unfold aggregate
  exact finiteArr_hostScatterAdd _ _ (finiteArr_zeros _)
    (finiteArr_gather _ _ (finiteArr_mulf hfeat (finiteArr_colBcast hns)))

/-- The dense stage of finite arrays is finite. -/
theorem finiteArr_denseHost {a : FArr (F := Ideal) S50000x128} {nd : FArr (F := Ideal) S50000}
    {W : FArr (F := Ideal) S128x128} {b : FArr (F := Ideal) S128} (ha : FiniteArr (S := S50000x128) a)
    (hnd : FiniteArr (S := S50000) nd) (hW : FiniteArr (S := S128x128) W) (hb : FiniteArr (S := S128) b) :
    FiniteArr (S := S50000x128) (denseHost a nd W b) := fun i => by
  obtain ⟨r, j, rfl⟩ : ∃ r j, i = ix2 r j := ⟨i 0, i 1, eq_ix2 i⟩
  rw [denseHost_apply]
  unfold denseWin
  exact finite_add (finite_sum _ _ fun k _ => finite_mul (finite_mul (ha _) (hnd _)) (hW _)) (hb _)

/-- The positive part of a finite array is finite. -/
theorem finiteArr_reluHost {x : FArr (F := Ideal) S50000x128} (hx : FiniteArr (S := S50000x128) x) :
    FiniteArr (S := S50000x128) (reluHost x) := fun i => by
  rw [reluHost_apply]; exact finite_max_zero (hx i)

/-- The two-layer network of finite features, weights and biases is finite, whatever the edges. -/
theorem finiteArr_gnn (src dst : IArr (F := Ideal) S800000) (x : FArr (F := Ideal) S50000x128)
    (W1 W2 : FArr (F := Ideal) S128x128) (b1 b2 : FArr (F := Ideal) S128) (hx : FiniteArr x) (hW1 : FiniteArr W1)
    (hb1 : FiniteArr b1) (hW2 : FiniteArr W2) (hb2 : FiniteArr b2) : FiniteArr (gnn src dst x W1 b1 W2 b2) := by
  unfold gnn
  exact finiteArr_denseHost
    (finiteArr_aggregate src dst (finiteArr_degNorm src)
      (finiteArr_reluHost (finiteArr_denseHost (finiteArr_aggregate src dst (finiteArr_degNorm src) hx)
        (finiteArr_degNorm dst) hW1 hb1)))
    (finiteArr_degNorm dst) hW2 hb2

end Cert.ReferenceIdeal.ChainRead

end
-- ==== Proof.PreFinite.lean ====
/-
  The precondition read back. The predicate on the inputs is a conjunction of eight tests, one per float array,
  each "every entry `x` has `|x| < +∞`" — a reduction by `and` over all axes of the entrywise comparison of
  `max x (−x)` with the pattern of `+∞`. If the predicate is `1`, every conjunct is `1`, so every entry of every
  array passes its test; and an extended real `x` with `max x (−x) < ⊤` is neither `⊤` nor `⊥` (at either
  infinity `max x (−x) = ⊤`).
-/
import proofs.«107726_j19937238188633_2_alg».proof.Pre_finite_inputs
import proofs.«107726_j19937238188633_2_alg».proof.Proof.Gen.Pre_finite_inputs
import proofs.«107726_j19937238188633_2_alg».proof.Proof.Spec
import Idealize.ShloMosaic.Lib.ReduceAll

noncomputable section

namespace Cert.GcnCorr

open Idealize.ShloMosaic Idealize.ShloMosaic.ValueIdx

/-- The rank-0 shape has one index. -/
instance subsingleton_scalarIdx : Subsingleton Cert.Pre_finite_inputs.S_.Idx :=
  ⟨fun a b => funext fun d => d.elim0⟩

/-- The pattern `0x7F800000` denotes `+∞`. -/
theorem ofBits_inf : Ideal.ofBits .f32 0x7F800000#32 = ⊤ := by
  simp [Ideal.ofBits, Ideal.ieee]

/-- An extended real whose absolute value `max x (−x)` is below `+∞` is finite. -/
theorem finite_of_abs_lt_inf (x : EReal)
    (h : FloatOps.cmpf (F := Ideal) (φ := .f32) .olt (FloatOps.hostAbsf x) (FloatOps.ofBits .f32 0x7F800000#32) = 1#1) :
    x ≠ ⊤ ∧ x ≠ ⊥ := by
  change Ideal.cmp .olt (max x (-x)) (Ideal.ofBits .f32 0x7F800000#32) = 1#1 at h
  rw [ofBits_inf] at h
  induction x using EReal.rec with
  | bot => simp [Ideal.cmp] at h
  | top => simp [Ideal.cmp] at h
  | coe r => exact ⟨EReal.coe_ne_top r, EReal.coe_ne_bot r⟩

/-- One conjunct: if the reduction by `and` of the entrywise test `|a i| < +∞` is `1`, the array is finite. -/
theorem finiteArr_of_all {S : Shape} {axes : List (Fin S.rank)} (a : FVec Ideal S .f32)
    (bc : Cert.Pre_finite_inputs.S_.BroadcastsInDim S (![] : Fin 0 → Fin S.rank))
    (hr : S.ReducesTo axes Cert.Pre_finite_inputs.S_) (hu : 0 < Cert.Pre_finite_inputs.S_.numel)
    (j : Cert.Pre_finite_inputs.S_.Idx)
    (e : Host.reduce IntOp.andi
          (cmpf .olt (Host.absf a)
            (broadcastInDim S ![] bc (constant (F := Ideal) Cert.Pre_finite_inputs.S_ .f32 0x7F800000#32)))
          (constantI Cert.Pre_finite_inputs.S_ 1 1#1) hr hu j = 1#1) :
    FiniteArr a := fun i =>
  finite_of_abs_lt_inf (a i) (Host.reduce_andi_all _ _ hr hu j e i)

/-- An entrywise `and` that is `1` at an index has both operands `1` there. -/
theorem andi_at {s : Shape} (x y : IVec s 1) (i : s.Idx) (h : andi x y i = 1#1) : x i = 1#1 ∧ y i = 1#1 :=
  IntOp.andi_eq_one.1 h

/-- The precondition gives: every float input has only finite entries. -/
theorem finite_of_pre (a0 a1 : FVec Ideal Cert.Pre_finite_inputs.S50000x128 .f32)
    (a2 a3 a4 a5 : IVec Cert.Pre_finite_inputs.S800000 32) (a6 : FVec Ideal Cert.Pre_finite_inputs.S128x128 .f32)
    (a7 : FVec Ideal Cert.Pre_finite_inputs.S128 .f32) (a8 : FVec Ideal Cert.Pre_finite_inputs.S128x128 .f32)
    (a9 a10 a11 : FVec Ideal Cert.Pre_finite_inputs.S128 .f32)
    (h : Cert.Pre_finite_inputs.fn (F := Ideal) a0 a1 a2 a3 a4 a5 a6 a7 a8 a9 a10 a11 = fun _ => 1#1) :
    FiniteArr a0 ∧ FiniteArr a1 ∧ FiniteArr a6 ∧ FiniteArr a7 ∧ FiniteArr a8 ∧ FiniteArr a9 ∧ FiniteArr a10
      ∧ FiniteArr a11 := by
  have e := congrFun h ValueIdx.ix0
  dsimp only [Cert.Pre_finite_inputs.fn, Cert.Pre_finite_inputs.fn_part1, Cert.Pre_finite_inputs.fn_part2] at e
  obtain ⟨e, h11⟩ := andi_at _ _ _ e
  obtain ⟨e, h10⟩ := andi_at _ _ _ e
  obtain ⟨e, h9⟩ := andi_at _ _ _ e
  obtain ⟨e, h8⟩ := andi_at _ _ _ e
  obtain ⟨e, h7⟩ := andi_at _ _ _ e
  obtain ⟨e, h6⟩ := andi_at _ _ _ e
  obtain ⟨h0, h1⟩ := andi_at _ _ _ e
  exact ⟨finiteArr_of_all a0 _ _ _ _ h0, finiteArr_of_all a1 _ _ _ _ h1, finiteArr_of_all a6 _ _ _ _ h6,
    finiteArr_of_all a7 _ _ _ _ h7, finiteArr_of_all a8 _ _ _ _ h8, finiteArr_of_all a9 _ _ _ _ h9,
    finiteArr_of_all a10 _ _ _ _ h10, finiteArr_of_all a11 _ _ _ _ h11⟩

end Cert.GcnCorr

end
-- ==== Proof.KEpilogue.lean ====
/-
  The last stretch of the program read at an entry: the cross-correlation from its sufficient statistics.

  Every operation of the stretch acts entry by entry except the broadcasts and one reshape. A scalar repeated over a
  shape reads the scalar; a 1 × 128 row repeated down the 128 rows reads, at `(i, j)`, the row's entry `j`; a
  128 × 1 column repeated along the 128 columns reads, at `(i, j)`, the column's entry `i`; and the 1 × 128 row
  laid out as a 128 × 1 column has, at `(i, 0)`, the row's entry `i` (the same row-major position). So at `(i, j)`
  the stretch computes `(G[i,j] − (N · (s₁[i]/N)) · (s₂[j]/N)) / ((N · d₁[i]) · d₂[j])` with
  `d = √(max((q − (N · (s/N)) · (s/N)) / (N − 1), 0)) + ε`: the expression `corrStat` names, term for term.
-/
import proofs.«107726_j19937238188633_2_alg».proof.Proof.KChain
import proofs.«107726_j19937238188633_2_alg».proof.Proof.Spec
import proofs.«107726_j19937238188633_2_alg».proof.Proof.Consts
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.ChainRead

open Cert.KernelIdeal Cert.KernelIdeal.Chain Cert.GcnCorr Idealize.ShloMosaic Idealize.ShloMosaic.ValueIdx
open Cert.KernelIdeal.Facts₀

namespace Epilogue

/-- A scalar repeated over any shape reads the scalar. -/
theorem scalarBcast_apply {α : Type} {T : Shape} (h : S_.BroadcastsInDim T (![] : Fin 0 → Fin T.rank))
    (x : S_.Idx → α) (i : T.Idx) : broadcastInDim T ![] h x i = x ix0 :=
  broadcastInDim_apply ![] h x i ix0 (fun a => a.elim0)

/-- The host's quotient at an entry is the quotient of the entries. -/
theorem quotient_apply {s : Shape} (a b : FVec Ideal s .f32) (i : s.Idx) :
    Host.divf a b i = Ideal.div (a i) (b i) := rfl

/-- The host's square root at an entry is the square root of the entry. -/
theorem root_apply {s : Shape} (a : FVec Ideal s .f32) (i : s.Idx) : Host.sqrt a i = Ideal.sqrt (a i) := rfl

/-- A 1 × 128 row repeated down 128 rows reads, at `(i, j)`, the row's entry `j`. -/
theorem rowDown_apply (r : FArr (F := Ideal) S1x128) (i j : Fin 128) :
    broadcastInDim S128x128 ![0, 1] bcast_S1x128_S128x128_0_1 r (ix2 i j) = r (ix2 (0 : Fin 1) j) :=
  broadcastInDim_apply ![0, 1] bcast_S1x128_S128x128_0_1 r (ix2 i j) (ix2 (0 : Fin 1) j)
    (fun a => match a with | ⟨0, _⟩ => rfl | ⟨1, _⟩ => rfl)

/-- The column means as a row: entry `a` is `s[a] / N`. -/
theorem meanRow_apply (s : FArr (F := Ideal) S1x128) (u : Fin 1) (a : Fin 128) :
    meanRow s (ix2 u a) = Ideal.div (s (ix2 u a)) cN := by
  unfold meanRow
  rw [quotient_apply, scalarBcast_apply]
  rfl

/-- The column spreads as a row: entry `a` is the spread of `s[a]`, `q[a]`. -/
theorem spreadRow_apply (s q : FArr (F := Ideal) S1x128) (u : Fin 1) (a : Fin 128) :
    spreadRow s q (ix2 u a) = spreadStat (s (ix2 u a)) (q (ix2 u a)) := by
  unfold spreadRow spreadStat
  rw [addf_apply, root_apply, maximumf_apply, quotient_apply, subf_apply, mulf_apply, mulf_apply, meanRow_apply,
    scalarBcast_apply, scalarBcast_apply, scalarBcast_apply, scalarBcast_apply]
  simp only [constant_apply]
  rw [Consts.ofBits_zero]

/-- A row laid out as a column, scaled by `N` and repeated along the columns, reads at `(i, j)` `N` times the
    row's entry `i`. -/
theorem scaledColBcast_apply (v : FArr (F := Ideal) S1x128) (i j : Fin 128) :
    scaledColBcast v (ix2 i j) = cN * v (ix2 (0 : Fin 1) i) := by
  unfold scaledColBcast
  rw [broadcastInDim_apply ![0, 1] bcast_S128x1_S128x128_0_1 _ (ix2 i j) (ix2 i (0 : Fin 1))
      (fun a => match a with | ⟨0, _⟩ => rfl | ⟨1, _⟩ => rfl),
    mulf_apply, scalarBcast_apply,
    shapeCast_apply v shapeCasts_S1x128_S128x1 (ix2 i (0 : Fin 1)) (ix2 (0 : Fin 1) i) (by
      rw [Shape.rowMajor_val_two, Shape.rowMajor_val_two]
      show 0 * 128 + i.val = i.val * 1 + 0
      omega)]
  rfl

end Epilogue

open Epilogue

/-- The program's last stretch at entry `(i, j)` is the cross-correlation from the sufficient statistics. -/
theorem corrEpilogue_apply (G : FArr (F := Ideal) S128x128) (s1 s2 q1 q2 : FArr (F := Ideal) S1x128) (i j : Fin 128) :
    corrEpilogue G s1 s2 q1 q2 (ix2 i j)
      = corrStat (fun a b => G (ix2 a b)) (fun a => s1 (ix2 (0 : Fin 1) a)) (fun a => s2 (ix2 (0 : Fin 1) a))
          (fun a => q1 (ix2 (0 : Fin 1) a)) (fun a => q2 (ix2 (0 : Fin 1) a)) i j := by
  unfold corrEpilogue corrStat
  rw [quotient_apply, subf_apply, mulf_apply, mulf_apply, scaledColBcast_apply, scaledColBcast_apply,
    rowDown_apply, rowDown_apply, meanRow_apply, meanRow_apply, spreadRow_apply, spreadRow_apply]

end Cert.KernelIdeal.ChainRead

end
-- ==== Proof.ChainBridge.lean ====
/-
  The kernel program and the reference program each spell the host functions they share — the degree normalisation,
  the gather / scatter-add aggregation, the gates of the cross-correlation — over their own copies of the shapes,
  of the scatter and gather dimension records and of the shape facts. The copies are equal (the same literal shapes,
  the same dimension numbers, any two proofs of one fact), so the functions are equal; no array is evaluated.
-/
import proofs.«107726_j19937238188633_2_alg».proof.Proof.KChain
import proofs.«107726_j19937238188633_2_alg».proof.Proof.RefChain

noncomputable section

namespace Cert.GcnCorr.Bridge

open Idealize.ShloMosaic

variable {F : FTy → Type} [FloatOps F]

/-- The two programs' dimension records of the scatter-add into a node vector are one record. -/
theorem scatter1_eq : Cert.KernelIdeal.scatter_S50000_S800000x1_S800000_n_0_0_1 = Cert.ReferenceIdeal.scatter_S50000_S800000x1_S800000_n_0_0_1 := rfl
/-- Likewise of the scatter-add of feature rows into the node array. -/
theorem scatter2_eq : Cert.KernelIdeal.scatter_S50000x128_S800000x1_S800000x128_1_0_0_1 = Cert.ReferenceIdeal.scatter_S50000x128_S800000x1_S800000x128_1_0_0_1 := rfl
/-- Likewise of the gather of feature rows along the edges. -/
theorem gather_eq : Cert.KernelIdeal.gather_S50000x128_S800000x1_S800000x128_1_0_n_n_0_1_1128 = Cert.ReferenceIdeal.gather_S50000x128_S800000x1_S800000x128_1_0_n_n_0_1_1128 := rfl

attribute [local irreducible] Host.scatterAdd Host.gather Host.reduceAdd in
set_option maxHeartbeats 100000 in
/-- The degree normalisation: the same scatter-add of ones, maximum with one, reciprocal square root. -/
theorem degNorm_eq (idx : Cert.KernelIdeal.Chain.IArr (F := F) Cert.KernelIdeal.S800000) :
    Cert.KernelIdeal.Chain.degNorm (F := F) idx = Cert.ReferenceIdeal.Chain.degNorm (F := F) idx := by
  unfold Cert.KernelIdeal.Chain.degNorm Cert.ReferenceIdeal.Chain.degNorm
  rw [scatter1_eq]

set_option maxHeartbeats 100000 in
/-- A node vector repeated along the features. -/
theorem colBcast_eq (v : Cert.KernelIdeal.Chain.FArr (F := F) Cert.KernelIdeal.S50000) : Cert.KernelIdeal.Chain.colBcast (F := F) v = Cert.ReferenceIdeal.Chain.colBcast (F := F) v := rfl

set_option maxHeartbeats 100000 in
/-- Negative endpoints wrapped by the node count. -/
theorem wrapIdx_eq (src : Cert.KernelIdeal.Chain.IArr (F := F) Cert.KernelIdeal.S800000) : Cert.KernelIdeal.Chain.wrapIdx (F := F) src = Cert.ReferenceIdeal.Chain.wrapIdx (F := F) src := rfl

attribute [local irreducible] Host.scatterAdd Host.gather Host.reduceAdd in
set_option maxHeartbeats 100000 in
/-- The aggregation: the same gather of scaled feature rows and scatter-add into the destination rows. -/
theorem aggregate_eq (src dst : Cert.KernelIdeal.Chain.IArr (F := F) Cert.KernelIdeal.S800000) (ns : Cert.KernelIdeal.Chain.FArr (F := F) Cert.KernelIdeal.S50000) (feat : Cert.KernelIdeal.Chain.FArr (F := F) Cert.KernelIdeal.S50000x128) :
    Cert.KernelIdeal.Chain.aggregate (F := F) src dst ns feat = Cert.ReferenceIdeal.Chain.aggregate (F := F) src dst ns feat := by
  unfold Cert.KernelIdeal.Chain.aggregate Cert.ReferenceIdeal.Chain.aggregate
  rw [scatter2_eq, gather_eq, colBcast_eq, wrapIdx_eq]

attribute [local irreducible] Host.scatterAdd Host.gather Host.reduceAdd in
set_option maxHeartbeats 100000 in
/-- The mean absolute value by row. -/
theorem rowScore_eq (C : Cert.KernelIdeal.Chain.FArr (F := F) Cert.KernelIdeal.S128x128) : Cert.KernelIdeal.Chain.rowScore (F := F) C = Cert.ReferenceIdeal.Chain.rowScore (F := F) C := by
  unfold Cert.KernelIdeal.Chain.rowScore Cert.ReferenceIdeal.Chain.rowScore
  rfl

attribute [local irreducible] Host.scatterAdd Host.gather Host.reduceAdd in
set_option maxHeartbeats 100000 in
/-- The mean absolute value by column. -/
theorem colScore_eq (C : Cert.KernelIdeal.Chain.FArr (F := F) Cert.KernelIdeal.S128x128) : Cert.KernelIdeal.Chain.colScore (F := F) C = Cert.ReferenceIdeal.Chain.colScore (F := F) C := by
  unfold Cert.KernelIdeal.Chain.colScore Cert.ReferenceIdeal.Chain.colScore
  rfl

set_option maxHeartbeats 100000 in
/-- The logistic gate. -/
theorem gate_eq (s off : Cert.KernelIdeal.Chain.FArr (F := F) Cert.KernelIdeal.S128) : Cert.KernelIdeal.Chain.gate (F := F) s off = Cert.ReferenceIdeal.Chain.gate (F := F) s off := rfl

set_option maxHeartbeats 100000 in
theorem rowMask_eq (C : Cert.KernelIdeal.Chain.FArr (F := F) Cert.KernelIdeal.S128x128) (ro : Cert.KernelIdeal.Chain.FArr (F := F) Cert.KernelIdeal.S128) :
    Cert.KernelIdeal.Chain.rowMask (F := F) C ro = Cert.ReferenceIdeal.Chain.rowMask (F := F) C ro := by
  unfold Cert.KernelIdeal.Chain.rowMask Cert.ReferenceIdeal.Chain.rowMask
  rw [rowScore_eq, gate_eq]

set_option maxHeartbeats 100000 in
theorem colMask_eq (C : Cert.KernelIdeal.Chain.FArr (F := F) Cert.KernelIdeal.S128x128) (co : Cert.KernelIdeal.Chain.FArr (F := F) Cert.KernelIdeal.S128) :
    Cert.KernelIdeal.Chain.colMask (F := F) C co = Cert.ReferenceIdeal.Chain.colMask (F := F) C co := by
  unfold Cert.KernelIdeal.Chain.colMask Cert.ReferenceIdeal.Chain.colMask
  rw [colScore_eq, gate_eq]

set_option maxHeartbeats 100000 in
/-- The correlation scaled by the two gates. -/
theorem maskedC_eq (C : Cert.KernelIdeal.Chain.FArr (F := F) Cert.KernelIdeal.S128x128) (rm cm : Cert.KernelIdeal.Chain.FArr (F := F) Cert.KernelIdeal.S128) :
    Cert.KernelIdeal.Chain.maskedC (F := F) C rm cm = Cert.ReferenceIdeal.Chain.maskedC (F := F) C rm cm := rfl

end Cert.GcnCorr.Bridge

end
-- ==== Proof.ZBridge.lean ====
/-
  The kernel program's values are the reference's. Written over the two programs' own vocabularies, the kernel's
  embedding arrays are two dense stages, each on an aggregate, with the positive part between them; the
  reference's network is the same composition read entry by entry, with the node normalisation and the bias
  entering as a one-column and a one-row array on the kernel's side (the same entries, laid out with a unit
  axis). The kernel's cross-correlation is the statistics' expression; the reference's is the direct one; on
  arrays with no infinite entry the two agree.
-/
import proofs.«107726_j19937238188633_2_alg».proof.Proof.KChain
import proofs.«107726_j19937238188633_2_alg».proof.Proof.KZ
import proofs.«107726_j19937238188633_2_alg».proof.Proof.RefChain
import proofs.«107726_j19937238188633_2_alg».proof.Proof.ChainDense
import proofs.«107726_j19937238188633_2_alg».proof.Proof.ChainCorr
import proofs.«107726_j19937238188633_2_alg».proof.Proof.ChainFinite
import proofs.«107726_j19937238188633_2_alg».proof.Proof.Algebra
import proofs.«107726_j19937238188633_2_alg».proof.Proof.KEpilogue
import proofs.«107726_j19937238188633_2_alg».proof.Proof.ChainBridge
import Idealize.ShloMosaic.Lib.ValueIdx
import Idealize.ShloMosaic.Lib.Pipeline.Value
import Idealize.ShloMosaic.Lib.ValueLayout

noncomputable section

namespace Cert.GcnCorr.Bridge

open Idealize.ShloMosaic Idealize.ShloMosaic.ValueIdx Cert.GcnCorr
open Cert.ReferenceIdeal.ChainRead Cert.KernelIdeal.ChainRead

/-- A node vector laid out as one column has, at `(r, 0)`, the vector's entry `r`. -/
theorem colOfVec_apply (v : Cert.KernelIdeal.Chain.FArr (F := Ideal) Cert.KernelIdeal.S50000) (r : Fin 50000) :
    Cert.KernelIdeal.Chain.colOfVec v (ix2 r (0 : Fin 1)) = v (ix1 r) := by
  unfold Cert.KernelIdeal.Chain.colOfVec
  exact shapeCast_apply v Cert.KernelIdeal.Facts₀.shapeCasts_S50000_S50000x1 (ix2 r (0 : Fin 1)) (ix1 r) (by
    rw [Shape.rowMajor_val_one, Shape.rowMajor_val_two]
    show r.val = r.val * 1 + 0
    omega)

/-- A feature vector laid out as one row has, at `(0, j)`, the vector's entry `j`. -/
theorem rowOfVec_apply (b : Cert.KernelIdeal.Chain.FArr (F := Ideal) Cert.KernelIdeal.S128) (j : Fin 128) :
    Cert.KernelIdeal.Chain.rowOfVec b (ix2 (0 : Fin 1) j) = b (ix1 j) := by
  unfold Cert.KernelIdeal.Chain.rowOfVec
  exact shapeCast_a_1a_apply b Cert.KernelIdeal.Facts₀.shapeCasts_S128_S1x128 (0 : Fin 1) j

/-- The dense stage reads the normalisation only in its one column and the bias only in its one row. -/
theorem denseWin_congr (a : ArrND) (nd nd' : ArrN1) (W : ArrDD) (b b' : Arr1D)
    (hnd : ∀ r, nd (ix2 r (0 : Fin 1)) = nd' (ix2 r (0 : Fin 1)))
    (hb : ∀ j, b (ix2 (0 : Fin 1) j) = b' (ix2 (0 : Fin 1) j)) (r : Fin 50000) (j : Fin 128) :
    denseWin a nd W b r j = denseWin a nd' W b' r j := by
  unfold denseWin
  rw [hb j]
  exact congrArg (· + b' (ix2 (0 : Fin 1) j)) (Finset.sum_congr rfl fun k _ => by rw [hnd r])

/-- The kernel's first-layer output is the reference's. -/
theorem hK_eq (src dst : Cert.KernelIdeal.Chain.IArr (F := Ideal) Cert.KernelIdeal.S800000)
    (x : Cert.KernelIdeal.Chain.FArr (F := Ideal) Cert.KernelIdeal.S50000x128)
    (W1 : Cert.KernelIdeal.Chain.FArr (F := Ideal) Cert.KernelIdeal.S128x128)
    (b1 : Cert.KernelIdeal.Chain.FArr (F := Ideal) Cert.KernelIdeal.S128) :
    Cert.KernelIdeal.Chain.hK src dst x W1 b1
      = Cert.ReferenceIdeal.Chain.reluHost (F := Ideal) (Cert.ReferenceIdeal.Chain.denseHost
          (Cert.ReferenceIdeal.Chain.aggregate src dst (Cert.ReferenceIdeal.Chain.degNorm src) x)
          (Cert.ReferenceIdeal.Chain.degNorm dst) W1 b1) := by
  funext i
  obtain ⟨r, j, rfl⟩ : ∃ r j, i = ix2 r j := ⟨i 0, i 1, eq_ix2 i⟩
  rw [reluHost_apply, denseHost_apply]
  show denseReluWin (Cert.KernelIdeal.Chain.aggregate src dst (Cert.KernelIdeal.Chain.degNorm src) x)
      (Cert.KernelIdeal.Chain.colOfVec (Cert.KernelIdeal.Chain.degNorm dst)) W1 (Cert.KernelIdeal.Chain.rowOfVec b1) r j = _
  unfold denseReluWin
  rw [aggregate_eq, degNorm_eq src, degNorm_eq dst]
  exact congrArg (max · 0) (denseWin_congr _ _ _ _ _ _ (fun r => by rw [colOfVec_apply]) (fun j => by rw [rowOfVec_apply]) r j)

/-- The kernel's embedding array is the reference's two-layer network. -/
theorem zK_eq_gnn (src dst : Cert.KernelIdeal.Chain.IArr (F := Ideal) Cert.KernelIdeal.S800000)
    (x : Cert.KernelIdeal.Chain.FArr (F := Ideal) Cert.KernelIdeal.S50000x128)
    (W1 : Cert.KernelIdeal.Chain.FArr (F := Ideal) Cert.KernelIdeal.S128x128)
    (b1 : Cert.KernelIdeal.Chain.FArr (F := Ideal) Cert.KernelIdeal.S128)
    (W2 : Cert.KernelIdeal.Chain.FArr (F := Ideal) Cert.KernelIdeal.S128x128)
    (b2 : Cert.KernelIdeal.Chain.FArr (F := Ideal) Cert.KernelIdeal.S128) :
    Cert.KernelIdeal.Chain.zK src dst x W1 b1 W2 b2 = Cert.ReferenceIdeal.Chain.gnn (F := Ideal) src dst x W1 b1 W2 b2 := by
  funext i
  obtain ⟨r, j, rfl⟩ : ∃ r j, i = ix2 r j := ⟨i 0, i 1, eq_ix2 i⟩
  unfold Cert.ReferenceIdeal.Chain.gnn
  rw [denseHost_apply, ← hK_eq]
  show denseWin (Cert.KernelIdeal.Chain.aggregate src dst (Cert.KernelIdeal.Chain.degNorm src)
        (Cert.KernelIdeal.Chain.hK src dst x W1 b1))
      (Cert.KernelIdeal.Chain.colOfVec (Cert.KernelIdeal.Chain.degNorm dst)) W2 (Cert.KernelIdeal.Chain.rowOfVec b2) r j = _
  rw [aggregate_eq, degNorm_eq src, degNorm_eq dst]
  exact denseWin_congr _ _ _ _ _ _ (fun r => by rw [colOfVec_apply]) (fun j => by rw [rowOfVec_apply]) r j

/-- The kernel's cross-correlation at an entry is the statistics' expression. -/
theorem cK_apply (Z1 Z2 : Cert.KernelIdeal.Chain.FArr (F := Ideal) Cert.KernelIdeal.S50000x128) (i j : Fin 128) :
    Cert.KernelIdeal.Chain.cK Z1 Z2 (ix2 i j)
      = corrStat (gram Z1 Z2) (colsum Z1) (colsum Z2) (colsumsq Z1) (colsumsq Z2) i j := by
  unfold Cert.KernelIdeal.Chain.cK
  rw [corrEpilogue_apply]

/-- On arrays with no infinite entry the kernel's cross-correlation is the reference's. -/
theorem cK_eq_corrChain (Z1 Z2 : Cert.KernelIdeal.Chain.FArr (F := Ideal) Cert.KernelIdeal.S50000x128)
    (h1 : FiniteArr Z1) (h2 : FiniteArr Z2) :
    Cert.KernelIdeal.Chain.cK Z1 Z2 = Cert.ReferenceIdeal.Chain.corrChain (F := Ideal) Z1 Z2 := by
  funext i
  obtain ⟨a, b, rfl⟩ : ∃ a b, i = ix2 a b := ⟨i 0, i 1, eq_ix2 i⟩
  rw [cK_apply, corrChain_apply, corr_eq Z1 Z2 h1 h2]

end Cert.GcnCorr.Bridge

end
-- ==== Proof.lean ====
/-
  The certificate of a two-graph convolutional embedding followed by a gated cross-correlation.

  Both programs compute, for each of two graphs on 50000 nodes with 800000 edges, the embedding
      z = D_in^{-1/2} A (relu(D_in^{-1/2} A (x · D_out^{-1/2}) W₁ + b₁) · D_out^{-1/2}) W₂ + b₂
  (A the edge list's gather / scatter-add, the degrees clamped below by 1), then the cross-correlation C of the
  column-standardised embeddings, the mean absolute correlation of each row and column passed through a logistic
  gate, and C scaled by the two gates.

  The kernel program runs each dense stage (a · D_in^{-1/2}) W + b in blocks of 5000 rows and accumulates, over blocks of
  10000 rows, the Gram matrix G = z₁ᵀ z₂ with the column sums s and sums of squares q, from which it forms
      C = (G − N m₁ m₂ᵀ) / (N d₁ d₂ᵀ),   m = s / N,   d = √(max((q − N m²)/(N − 1), 0)) + ε.
  The reference standardises the rows first, d = √(∑ (z − m)² / (N − 1)) + ε, and forms
      C = ((z₁ − m₁)/d₁)ᵀ ((z₂ − m₂)/d₂) / N.
  On the extended reals the dense stages agree index by index with no hypothesis (the same sums of the same
  products), so the embeddings are one function of the arguments; they are finite because the inputs are and every
  divisor is at least 1; and for finite embeddings ∑ (z − m)² = ∑ z² − N m² ≥ 0 and
  ∑ (z₁ − m₁)(z₂ − m₂) = ∑ z₁ z₂ − N m₁ m₂, which makes the two correlations equal. The gates are the same operations
  of C in both programs.

  The three frames: the two kernel programs' are the launch over their ten segments; the reference's is its run with
  the results dropped. The idealization rewrote nothing, so there is nothing to preserve beyond the text itself.
-/
import proofs.«107726_j19937238188633_2_alg».proof.Defs
import proofs.«107726_j19937238188633_2_alg».proof.Proof.Gen.Kernel
import proofs.«107726_j19937238188633_2_alg».proof.Proof.Gen.Kernel.Skeleton
import proofs.«107726_j19937238188633_2_alg».proof.Proof.Gen.Kernel.Launch
import proofs.«107726_j19937238188633_2_alg».proof.Proof.Gen.Kernel.Points
import proofs.«107726_j19937238188633_2_alg».proof.Proof.Gen.Kernel.Frame
import proofs.«107726_j19937238188633_2_alg».proof.Proof.Gen.KernelIdeal
import proofs.«107726_j19937238188633_2_alg».proof.Proof.Gen.KernelIdeal.Skeleton
import proofs.«107726_j19937238188633_2_alg».proof.Proof.Gen.KernelIdeal.Launch
import proofs.«107726_j19937238188633_2_alg».proof.Proof.Gen.KernelIdeal.Points
import proofs.«107726_j19937238188633_2_alg».proof.Proof.Gen.KernelIdeal.Frame
import proofs.«107726_j19937238188633_2_alg».proof.Proof.Gen.ReferenceIdeal
import proofs.«107726_j19937238188633_2_alg».proof.Proof.Gen.Pre_finite_inputs
import proofs.«107726_j19937238188633_2_alg».proof.Proof.KRun
import proofs.«107726_j19937238188633_2_alg».proof.Proof.KValue
import proofs.«107726_j19937238188633_2_alg».proof.Proof.RefReads
import proofs.«107726_j19937238188633_2_alg».proof.Proof.ChainFinite
import proofs.«107726_j19937238188633_2_alg».proof.Proof.PreFinite
import proofs.«107726_j19937238188633_2_alg».proof.Proof.ZBridge
import proofs.«107726_j19937238188633_2_alg».proof.Proof.ChainBridge
import Idealize.ShloMosaic.Adequacy
import Idealize.ShloMosaic.Init

noncomputable section

namespace Cert.Proof

open Idealize.ShloMosaic Idealize.ShloMosaic.TcCoe Idealize.SL.Sem

/-- The word-level kernel program's frame: the launch over its segments. -/
theorem frame_k : Cert.frame_Kernel := fun m ρ _ => Cert.Kernel.Gen.frame m ρ
/-- The idealized kernel program's frame: the same launch at the extended reals. -/
theorem frame_ki : Cert.frame_KernelIdeal := fun m ρ _ => Cert.KernelIdeal.Gen.frame m ρ

/-- The reference's argument arrays end as launched: its run leaves every buffer at the fold of its operations over
    the launch contents, and no operation writes an argument. -/
theorem frame_ri : Cert.frame_ReferenceIdeal := fun m ρ _ =>
  (θ_run Cert.ReferenceIdeal.defs _ _).mono (fun r h c =>
    ⟨(h c Cert.ReferenceIdeal.main_arg0).trans (Cert.ReferenceIdeal.RefRun.arg0_eq _),
     (h c Cert.ReferenceIdeal.main_arg1).trans (Cert.ReferenceIdeal.RefRun.arg1_eq _),
     (h c Cert.ReferenceIdeal.main_arg2).trans (Cert.ReferenceIdeal.RefRun.arg2_eq _),
     (h c Cert.ReferenceIdeal.main_arg3).trans (Cert.ReferenceIdeal.RefRun.arg3_eq _),
     (h c Cert.ReferenceIdeal.main_arg4).trans (Cert.ReferenceIdeal.RefRun.arg4_eq _),
     (h c Cert.ReferenceIdeal.main_arg5).trans (Cert.ReferenceIdeal.RefRun.arg5_eq _),
     (h c Cert.ReferenceIdeal.main_arg6).trans (Cert.ReferenceIdeal.RefRun.arg6_eq _),
     (h c Cert.ReferenceIdeal.main_arg7).trans (Cert.ReferenceIdeal.RefRun.arg7_eq _),
     (h c Cert.ReferenceIdeal.main_arg8).trans (Cert.ReferenceIdeal.RefRun.arg8_eq _),
     (h c Cert.ReferenceIdeal.main_arg9).trans (Cert.ReferenceIdeal.RefRun.arg9_eq _),
     (h c Cert.ReferenceIdeal.main_arg10).trans (Cert.ReferenceIdeal.RefRun.arg10_eq _),
     (h c Cert.ReferenceIdeal.main_arg11).trans (Cert.ReferenceIdeal.RefRun.arg11_eq _)⟩)
    (Cert.ReferenceIdeal.RefRun.run_main (F := Ideal) m ρ)

open Cert.GcnCorr in
/-- From memories that agree on the arguments both programs run, and end with the same five results: the two
    embedding arrays are one function of the arguments (the dense stages agree index by index and the aggregation is the
    same operations), the cross-correlation from the sufficient statistics is the cross-correlation from the
    standardised rows because the embeddings are finite, and the gates are the same operations of it. -/
theorem algebraic : Cert.algebraic_KernelIdeal_ReferenceIdeal := by
  intro m ρ m' ρ' hpre hagree
  refine ⟨fun c => Cert.KernelIdeal.Gen.W10 (F := Ideal) m ρ c (Proc.devRef .tc Cert.KernelIdeal.main_v0_0),
    fun c => Cert.KernelIdeal.Gen.W10 (F := Ideal) m ρ c (Proc.devRef .tc Cert.KernelIdeal.main_v0_1),
    fun c => Cert.KernelIdeal.Gen.W10 (F := Ideal) m ρ c (Proc.devRef .tc Cert.KernelIdeal.main_v0_2),
    fun c => Cert.KernelIdeal.Gen.W10 (F := Ideal) m ρ c (Proc.devRef .tc Cert.KernelIdeal.main_v0_3),
    fun c => Cert.KernelIdeal.Gen.W10 (F := Ideal) m ρ c (Proc.devRef .tc Cert.KernelIdeal.main_v0_4),
    Cert.KernelIdeal.ResultRun.run_results (F := Ideal) m ρ, ?_⟩
  refine (θ_run Cert.ReferenceIdeal.defs _ _).mono (fun r h c => ?_) (Cert.ReferenceIdeal.RefRun.run_main (F := Ideal) m' ρ')
  obtain ⟨a0, a1, a2, a3, a4, a5, a6, a7, a8, a9, a10, a11⟩ := hagree c
  obtain ⟨f0, f1, f6, f7, f8, f9, f10, f11⟩ := Cert.GcnCorr.finite_of_pre _ _ _ _ _ _ _ _ _ _ _ _ (hpre c)
  have e0 : Idealize.ShloMosaic.StableHlo.launchContents m' c (Proc.devRef .tc Cert.ReferenceIdeal.main_arg0) = m ((c.tc : Thread Cert.KernelIdeal.nD Cert.KernelIdeal.τ).loc Cert.KernelIdeal.main_arg0) := a0
  have e1 : Idealize.ShloMosaic.StableHlo.launchContents m' c (Proc.devRef .tc Cert.ReferenceIdeal.main_arg1) = m ((c.tc : Thread Cert.KernelIdeal.nD Cert.KernelIdeal.τ).loc Cert.KernelIdeal.main_arg1) := a1
  have e2 : Idealize.ShloMosaic.StableHlo.launchContents m' c (Proc.devRef .tc Cert.ReferenceIdeal.main_arg2) = m ((c.tc : Thread Cert.KernelIdeal.nD Cert.KernelIdeal.τ).loc Cert.KernelIdeal.main_arg2) := a2
  have e3 : Idealize.ShloMosaic.StableHlo.launchContents m' c (Proc.devRef .tc Cert.ReferenceIdeal.main_arg3) = m ((c.tc : Thread Cert.KernelIdeal.nD Cert.KernelIdeal.τ).loc Cert.KernelIdeal.main_arg3) := a3
  have e4 : Idealize.ShloMosaic.StableHlo.launchContents m' c (Proc.devRef .tc Cert.ReferenceIdeal.main_arg4) = m ((c.tc : Thread Cert.KernelIdeal.nD Cert.KernelIdeal.τ).loc Cert.KernelIdeal.main_arg4) := a4
  have e5 : Idealize.ShloMosaic.StableHlo.launchContents m' c (Proc.devRef .tc Cert.ReferenceIdeal.main_arg5) = m ((c.tc : Thread Cert.KernelIdeal.nD Cert.KernelIdeal.τ).loc Cert.KernelIdeal.main_arg5) := a5
  have e6 : Idealize.ShloMosaic.StableHlo.launchContents m' c (Proc.devRef .tc Cert.ReferenceIdeal.main_arg6) = m ((c.tc : Thread Cert.KernelIdeal.nD Cert.KernelIdeal.τ).loc Cert.KernelIdeal.main_arg6) := a6
  have e7 : Idealize.ShloMosaic.StableHlo.launchContents m' c (Proc.devRef .tc Cert.ReferenceIdeal.main_arg7) = m ((c.tc : Thread Cert.KernelIdeal.nD Cert.KernelIdeal.τ).loc Cert.KernelIdeal.main_arg7) := a7
  have e8 : Idealize.ShloMosaic.StableHlo.launchContents m' c (Proc.devRef .tc Cert.ReferenceIdeal.main_arg8) = m ((c.tc : Thread Cert.KernelIdeal.nD Cert.KernelIdeal.τ).loc Cert.KernelIdeal.main_arg8) := a8
  have e9 : Idealize.ShloMosaic.StableHlo.launchContents m' c (Proc.devRef .tc Cert.ReferenceIdeal.main_arg9) = m ((c.tc : Thread Cert.KernelIdeal.nD Cert.KernelIdeal.τ).loc Cert.KernelIdeal.main_arg9) := a9
  have e10 : Idealize.ShloMosaic.StableHlo.launchContents m' c (Proc.devRef .tc Cert.ReferenceIdeal.main_arg10) = m ((c.tc : Thread Cert.KernelIdeal.nD Cert.KernelIdeal.τ).loc Cert.KernelIdeal.main_arg10) := a10
  have e11 : Idealize.ShloMosaic.StableHlo.launchContents m' c (Proc.devRef .tc Cert.ReferenceIdeal.main_arg11) = m ((c.tc : Thread Cert.KernelIdeal.nD Cert.KernelIdeal.τ).loc Cert.KernelIdeal.main_arg11) := a11
  have fz1 := Cert.ReferenceIdeal.ChainRead.finiteArr_gnn (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg0)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg7)) (m ((c.tc : Thread Cert.KernelIdeal.nD Cert.KernelIdeal.τ).loc Cert.KernelIdeal.main_arg9)) f0 f6 f7 f8 f9
  have fz2 := Cert.ReferenceIdeal.ChainRead.finiteArr_gnn (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg1)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg7)) (m ((c.tc : Thread Cert.KernelIdeal.nD Cert.KernelIdeal.τ).loc Cert.KernelIdeal.main_arg9)) f1 f6 f7 f8 f9
  have hz1 := Cert.GcnCorr.Bridge.zK_eq_gnn (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg0)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
  have hz2 := Cert.GcnCorr.Bridge.zK_eq_gnn (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg1)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
  have hC : Cert.KernelIdeal.Chain.cK (Cert.KernelIdeal.Chain.zK (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg0)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) (Cert.KernelIdeal.Chain.zK (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg1)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)))
      = Cert.ReferenceIdeal.Chain.corrChain (F := Ideal) (Cert.ReferenceIdeal.Chain.gnn (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg0)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) (Cert.ReferenceIdeal.Chain.gnn (F := Ideal) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg1)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) := by
    rw [hz1, hz2]; exact Cert.GcnCorr.Bridge.cK_eq_corrChain _ _ fz1 fz2
  have hCof : Cert.ReferenceIdeal.RefRun.Cof (Idealize.ShloMosaic.StableHlo.launchContents m' c)
      = Cert.ReferenceIdeal.Chain.corrChain (F := Ideal) (Cert.ReferenceIdeal.Chain.gnn (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg0)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) (Cert.ReferenceIdeal.Chain.gnn (F := Ideal) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg1)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) := by
    unfold Cert.ReferenceIdeal.RefRun.Cof; rw [e0, e1, e2, e3, e4, e5, e6, e7, e8, e9]
  refine ⟨?_, ?_, ?_, ?_, ?_, (h c Cert.ReferenceIdeal.main_arg0).trans (Cert.ReferenceIdeal.RefRun.arg0_eq _),
    (h c Cert.ReferenceIdeal.main_arg1).trans (Cert.ReferenceIdeal.RefRun.arg1_eq _),
    (h c Cert.ReferenceIdeal.main_arg2).trans (Cert.ReferenceIdeal.RefRun.arg2_eq _),
    (h c Cert.ReferenceIdeal.main_arg3).trans (Cert.ReferenceIdeal.RefRun.arg3_eq _),
    (h c Cert.ReferenceIdeal.main_arg4).trans (Cert.ReferenceIdeal.RefRun.arg4_eq _),
    (h c Cert.ReferenceIdeal.main_arg5).trans (Cert.ReferenceIdeal.RefRun.arg5_eq _),
    (h c Cert.ReferenceIdeal.main_arg6).trans (Cert.ReferenceIdeal.RefRun.arg6_eq _),
    (h c Cert.ReferenceIdeal.main_arg7).trans (Cert.ReferenceIdeal.RefRun.arg7_eq _),
    (h c Cert.ReferenceIdeal.main_arg8).trans (Cert.ReferenceIdeal.RefRun.arg8_eq _),
    (h c Cert.ReferenceIdeal.main_arg9).trans (Cert.ReferenceIdeal.RefRun.arg9_eq _),
    (h c Cert.ReferenceIdeal.main_arg10).trans (Cert.ReferenceIdeal.RefRun.arg10_eq _),
    (h c Cert.ReferenceIdeal.main_arg11).trans (Cert.ReferenceIdeal.RefRun.arg11_eq _)⟩
  · beta_reduce
    rw [h c Cert.ReferenceIdeal.main_v197, Cert.ReferenceIdeal.RefRun.out0_args, hCof, e10, e11,
      Cert.KernelIdeal.KValue.kout0 m ρ c, hC, Cert.GcnCorr.Bridge.maskedC_eq, Cert.GcnCorr.Bridge.rowMask_eq, Cert.GcnCorr.Bridge.colMask_eq]
  · beta_reduce
    rw [h c Cert.ReferenceIdeal.main_v180, Cert.ReferenceIdeal.RefRun.out1_args, hCof, e10,
      Cert.KernelIdeal.KValue.kout1 m ρ c, hC, Cert.GcnCorr.Bridge.rowMask_eq]
  · beta_reduce
    rw [h c Cert.ReferenceIdeal.main_v191, Cert.ReferenceIdeal.RefRun.out2_args, hCof, e11,
      Cert.KernelIdeal.KValue.kout2 m ρ c, hC, Cert.GcnCorr.Bridge.colMask_eq]
  · beta_reduce
    rw [h c Cert.ReferenceIdeal.main_v66, Cert.ReferenceIdeal.RefRun.z1_eq, e0, e2, e3, e6, e7, e8, e9,
      Cert.KernelIdeal.KValue.kz1 m ρ c, hz1]
  · beta_reduce
    rw [h c Cert.ReferenceIdeal.main_v133, Cert.ReferenceIdeal.RefRun.z2_eq, e1, e4, e5, e6, e7, e8, e9,
      Cert.KernelIdeal.KValue.kz2 m ρ c, hz2]

/-- The five claims together, over the programs' proved side conditions. -/
theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
